-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S400000 : Shape := ⟨1, ![400000]⟩
abbrev S64x64 : Shape := ⟨2, ![64, 64]⟩
abbrev S128x67 : Shape := ⟨2, ![128, 67]⟩
abbrev S128x192 : Shape := ⟨2, ![128, 192]⟩
abbrev S128 : Shape := ⟨1, ![128]⟩
abbrev S128x131 : Shape := ⟨2, ![128, 131]⟩
abbrev S128x256 : Shape := ⟨2, ![128, 256]⟩
abbrev S64x256 : Shape := ⟨2, ![64, 256]⟩
abbrev S64 : Shape := ⟨1, ![64]⟩
abbrev S_ : Shape := ⟨0, ![]⟩

class Facts : Prop where
  bcast_S_S400000 : S_.BroadcastsInDim S400000 (![] : Fin 0 → Fin S400000.rank)
  reducesTo_S400000_S_d0 : S400000.ReducesTo [0] S_
  h_S_ : 0 < S_.numel
  bcast_S_S64x64 : S_.BroadcastsInDim S64x64 (![] : Fin 0 → Fin S64x64.rank)
  reducesTo_S64x64_S_d0_1 : S64x64.ReducesTo [0, 1] S_
  bcast_S_S128x67 : S_.BroadcastsInDim S128x67 (![] : Fin 0 → Fin S128x67.rank)
  reducesTo_S128x67_S_d0_1 : S128x67.ReducesTo [0, 1] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_
  bcast_S_S128x131 : S_.BroadcastsInDim S128x131 (![] : Fin 0 → Fin S128x131.rank)
  reducesTo_S128x131_S_d0_1 : S128x131.ReducesTo [0, 1] S_
  bcast_S_S128x256 : S_.BroadcastsInDim S128x256 (![] : Fin 0 → Fin S128x256.rank)
  reducesTo_S128x256_S_d0_1 : S128x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg21 : FVec F S64 .f32) (main_v83 : IVec S_ 1) (main_v84 : FVec F S64x256 .f32) (main_cst_32 : FVec F S_ .f32) : IVec S_ 1 :=
  let main_v85 : FVec F S64x256 .f32 := broadcastInDim S64x256 ![] bcast_S_S64x256 main_cst_32
  let main_v86 : IVec S64x256 1 := cmpf .olt main_v84 main_v85
  let main_c_33 : IVec S_ 1 := constantI S_ 1 1#1
  let main_v87 : IVec S_ 1 := (fun x v => Host.reduce IntOp.andi x v reducesTo_S64x256_S_d0_1 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg17 : FVec F S128x256 .f32) (main_arg18 : FVec F S128 .f32) (main_arg19 : FVec F S128x131 .f32) (main_arg20 : FVec F S64x256 .f32) (main_arg21 : FVec F S64 .f32) (main_v63 : IVec S_ 1) (main_v67 : IVec S_ 1) : IVec S_ 1 :=
  let main_v68 : IVec S_ 1 := andi main_v63 main_v67
  let main_v69 : FVec F S128x256 .f32 := Host.absf main_arg17
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x131 .f32 := Host.absf main_arg19
  let main_cst_30 : FVec F S_ .f32 := constant S_ .f32 0x7F800000#32
  let main_v80 : FVec F S128x131 .f32 := broadcastInDim S128x131 ![] bcast_S_S128x131 main_cst_30
  let main_v81 : IVec S128x131 1 := cmpf .olt main_v79 main_v80
  let main_c_31 : IVec S_ 1 := constantI S_ 1 1#1
  let main_v82 : IVec S_ 1 := (fun x v => Host.reduce IntOp.andi x v reducesTo_S128x131_S_d0_1 h_S_) main_v81 main_c_31
  let main_v83 : IVec S_ 1 := andi main_v78 main_v82
  let main_v84 : FVec F S64x256 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S128x256 .f32) (main_arg15 : FVec F S128 .f32) (main_arg16 : FVec F S128x131 .f32) (main_arg17 : FVec F S128x256 .f32) (main_arg18 : FVec F S128 .f32) (main_arg19 : FVec F S128x131 .f32) (main_arg20 : FVec F S64x256 .f32) (main_arg21 : FVec F S64 .f32) (main_v48 : IVec S_ 1) (main_v49 : FVec F S128x131 .f32) (main_v50 : FVec F S128x131 .f32) : IVec S_ 1 :=
  let main_v51 : IVec S128x131 1 := cmpf .olt main_v49 main_v50
  let main_c_19 : IVec S_ 1 := constantI S_ 1 1#1
  let main_v52 : IVec S_ 1 := (fun x v => Host.reduce IntOp.andi x v reducesTo_S128x131_S_d0_1 h_S_) main_v51 main_c_19
  let main_v53 : IVec S_ 1 := andi main_v48 main_v52
  let main_v54 : FVec F S128x256 .f32 := Host.absf main_arg14
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x131 .f32 := Host.absf main_arg16
  let main_cst_24 : FVec F S_ .f32 := constant S_ .f32 0x7F800000#32
  let main_v65 : FVec F S128x131 .f32 := broadcastInDim S128x131 ![] bcast_S_S128x131 main_cst_24
  let main_v66 : IVec S128x131 1 := cmpf .olt main_v64 main_v65
  let main_c_25 : IVec S_ 1 := constantI S_ 1 1#1
  let main_v67 : IVec S_ 1 := (fun x v => Host.reduce IntOp.andi x v reducesTo_S128x131_S_d0_1 h_S_) main_v66 main_c_25
  fn_part4 (F := F) main_arg17 main_arg18 main_arg19 main_arg20 main_arg21 main_v63 main_v67

def fn_part2 {F : FTy → Type} [FloatOps F] (main_arg10 : FVec F S128x131 .f32) (main_arg11 : FVec F S128x256 .f32) (main_arg12 : FVec F S128 .f32) (main_arg13 : FVec F S128x131 .f32) (main_arg14 : FVec F S128x256 .f32) (main_arg15 : FVec F S128 .f32) (main_arg16 : FVec F S128x131 .f32) (main_arg17 : FVec F S128x256 .f32) (main_arg18 : FVec F S128 .f32) (main_arg19 : FVec F S128x131 .f32) (main_arg20 : FVec F S64x256 .f32) (main_arg21 : FVec F S64 .f32) (main_v33 : IVec S_ 1) : IVec S_ 1 :=
  let main_v34 : FVec F S128x131 .f32 := Host.absf main_arg10
  let main_cst_12 : FVec F S_ .f32 := constant S_ .f32 0x7F800000#32
  let main_v35 : FVec F S128x131 .f32 := broadcastInDim S128x131 ![] bcast_S_S128x131 main_cst_12
  let main_v36 : IVec S128x131 1 := cmpf .olt main_v34 main_v35
  let main_c_13 : IVec S_ 1 := constantI S_ 1 1#1
  let main_v37 : IVec S_ 1 := (fun x v => Host.reduce IntOp.andi x v reducesTo_S128x131_S_d0_1 h_S_) main_v36 main_c_13
  let main_v38 : IVec S_ 1 := andi main_v33 main_v37
  let main_v39 : FVec F S128x256 .f32 := Host.absf main_arg11
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x131 .f32 := Host.absf main_arg13
  let main_cst_18 : FVec F S_ .f32 := constant S_ .f32 0x7F800000#32
  let main_v50 : FVec F S128x131 .f32 := broadcastInDim S128x131 ![] bcast_S_S128x131 main_cst_18
  fn_part3 (F := F) main_arg14 main_arg15 main_arg16 main_arg17 main_arg18 main_arg19 main_arg20 main_arg21 main_v48 main_v49 main_v50

def fn_part1 {F : FTy → Type} [FloatOps F] (main_arg7 : FVec F S128x67 .f32) (main_arg8 : FVec F S128x192 .f32) (main_arg9 : FVec F S128 .f32) (main_arg10 : FVec F S128x131 .f32) (main_arg11 : FVec F S128x256 .f32) (main_arg12 : FVec F S128 .f32) (main_arg13 : FVec F S128x131 .f32) (main_arg14 : FVec F S128x256 .f32) (main_arg15 : FVec F S128 .f32) (main_arg16 : FVec F S128x131 .f32) (main_arg17 : FVec F S128x256 .f32) (main_arg18 : FVec F S128 .f32) (main_arg19 : FVec F S128x131 .f32) (main_arg20 : FVec F S64x256 .f32) (main_arg21 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S128x67 .f32 := Host.absf main_arg7
  let main_cst_6 : FVec F S_ .f32 := constant S_ .f32 0x7F800000#32
  let main_v20 : FVec F S128x67 .f32 := broadcastInDim S128x67 ![] bcast_S_S128x67 main_cst_6
  let main_v21 : IVec S128x67 1 := cmpf .olt main_v19 main_v20
  let main_c_7 : IVec S_ 1 := constantI S_ 1 1#1
  let main_v22 : IVec S_ 1 := (fun x v => Host.reduce IntOp.andi x v reducesTo_S128x67_S_d0_1 h_S_) main_v21 main_c_7
  let main_v23 : IVec S_ 1 := andi main_v18 main_v22
  let main_v24 : FVec F S128x192 .f32 := Host.absf main_arg8
  let main_cst_8 : FVec F S_ .f32 := constant S_ .f32 0x7F800000#32
  let main_v25 : FVec F S128x192 .f32 := broadcastInDim S128x192 ![] bcast_S_S128x192 main_cst_8
  let main_v26 : IVec S128x192 1 := cmpf .olt main_v24 main_v25
  let main_c_9 : IVec S_ 1 := constantI S_ 1 1#1
  let main_v27 : IVec S_ 1 := (fun x v => Host.reduce IntOp.andi x v reducesTo_S128x192_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : IVec S100000 32) (main_arg1 : IVec S400000 32) (main_arg2 : IVec S400000 32) (main_arg3 : FVec F S400000 .f32) (main_arg4 : FVec F S400000 .f32) (main_arg5 : FVec F S400000 .f32) (main_arg6 : FVec F S64x64 .f32) (main_arg7 : FVec F S128x67 .f32) (main_arg8 : FVec F S128x192 .f32) (main_arg9 : FVec F S128 .f32) (main_arg10 : FVec F S128x131 .f32) (main_arg11 : FVec F S128x256 .f32) (main_arg12 : FVec F S128 .f32) (main_arg13 : FVec F S128x131 .f32) (main_arg14 : FVec F S128x256 .f32) (main_arg15 : FVec F S128 .f32) (main_arg16 : FVec F S128x131 .f32) (main_arg17 : FVec F S128x256 .f32) (main_arg18 : FVec F S128 .f32) (main_arg19 : FVec F S128x131 .f32) (main_arg20 : FVec F S64x256 .f32) (main_arg21 : FVec F S64 .f32) : IVec S_ 1 :=
  let main_v0 : FVec F S400000 .f32 := Host.absf main_arg3
  let main_cst : FVec F S_ .f32 := constant S_ .f32 0x7F800000#32
  let main_v1 : FVec F S400000 .f32 := broadcastInDim S400000 ![] bcast_S_S400000 main_cst
  let main_v2 : IVec S400000 1 := cmpf .olt main_v0 main_v1
  let main_c : IVec S_ 1 := constantI S_ 1 1#1
  let main_v3 : IVec S_ 1 := (fun x v => Host.reduce IntOp.andi x v reducesTo_S400000_S_d0 h_S_) main_v2 main_c
  let main_v4 : FVec F S400000 .f32 := Host.absf main_arg4
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S400000 .f32 := Host.absf main_arg5
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S100000 : Shape := ⟨1, ![100000]⟩
abbrev S400000 : Shape := ⟨1, ![400000]⟩
abbrev S64x64 : Shape := ⟨2, ![64, 64]⟩
abbrev S128x67 : Shape := ⟨2, ![128, 67]⟩
abbrev S128x192 : Shape := ⟨2, ![128, 192]⟩
abbrev S128 : Shape := ⟨1, ![128]⟩
abbrev S128x131 : Shape := ⟨2, ![128, 131]⟩
abbrev S128x256 : Shape := ⟨2, ![128, 256]⟩
abbrev S64x256 : Shape := ⟨2, ![64, 256]⟩
abbrev S64 : Shape := ⟨1, ![64]⟩
abbrev S_ : Shape := ⟨0, ![]⟩
abbrev S100000x1 : Shape := ⟨2, ![100000, 1]⟩
abbrev S100000x64 : Shape := ⟨2, ![100000, 64]⟩
abbrev S400000x1 : Shape := ⟨2, ![400000, 1]⟩
abbrev S400000x3 : Shape := ⟨2, ![400000, 3]⟩
abbrev S400000x64 : Shape := ⟨2, ![400000, 64]⟩
abbrev S400000x67 : Shape := ⟨2, ![400000, 67]⟩
abbrev S67x128 : Shape := ⟨2, ![67, 128]⟩
abbrev S1x128 : Shape := ⟨2, ![1, 128]⟩
abbrev S400000x128 : Shape := ⟨2, ![400000, 128]⟩
abbrev S10000x67 : Shape := ⟨2, ![10000, 67]⟩
abbrev S10000x128 : Shape := ⟨2, ![10000, 128]⟩
abbrev S100000x128 : Shape := ⟨2, ![100000, 128]⟩
abbrev S100000x192 : Shape := ⟨2, ![100000, 192]⟩
abbrev S192x128 : Shape := ⟨2, ![192, 128]⟩
abbrev S10000x192 : Shape := ⟨2, ![10000, 192]⟩
abbrev S400000x131 : Shape := ⟨2, ![400000, 131]⟩
abbrev S131x128 : Shape := ⟨2, ![131, 128]⟩
abbrev S10000x131 : Shape := ⟨2, ![10000, 131]⟩
abbrev S100000x256 : Shape := ⟨2, ![100000, 256]⟩
abbrev S256x128 : Shape := ⟨2, ![256, 128]⟩
abbrev S10000x256 : Shape := ⟨2, ![10000, 256]⟩
abbrev S256x64 : Shape := ⟨2, ![256, 64]⟩
abbrev S1x64 : Shape := ⟨2, ![1, 64]⟩
abbrev S10000x64 : Shape := ⟨2, ![10000, 64]⟩

abbrev nBuf : Space → Nat
  | .hbm => 210
  | .vmem => 60
  | .smem => 0
  | _ => 0

abbrev hbmTy0_0 (i : Nat) : BufTy := match i % 128 with
  | 0 => ⟨S100000, .i32⟩
  | 1 => ⟨S400000, .i32⟩
  | 2 => ⟨S400000, .i32⟩
  | 3 => ⟨S400000, .f32⟩
  | 4 => ⟨S400000, .f32⟩
  | 5 => ⟨S400000, .f32⟩
  | 6 => ⟨S64x64, .f32⟩
  | 7 => ⟨S128x67, .f32⟩
  | 8 => ⟨S128x192, .f32⟩
  | 9 => ⟨S128, .f32⟩
  | 10 => ⟨S128x131, .f32⟩
  | 11 => ⟨S128x256, .f32⟩
  | 12 => ⟨S128, .f32⟩
  | 13 => ⟨S128x131, .f32⟩
  | 14 => ⟨S128x256, .f32⟩
  | 15 => ⟨S128, .f32⟩
  | 16 => ⟨S128x131, .f32⟩
  | 17 => ⟨S128x256, .f32⟩
  | 18 => ⟨S128, .f32⟩
  | 19 => ⟨S128x131, .f32⟩
  | 20 => ⟨S64x256, .f32⟩
  | 21 => ⟨S64, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x64, .f32⟩
  | 31 => ⟨S400000x1, .f32⟩
  | 32 => ⟨S400000x1, .f32⟩
  | 33 => ⟨S400000x1, .f32⟩
  | 34 => ⟨S400000x3, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x64, .f32⟩
  | 44 => ⟨S400000x67, .f32⟩
  | 45 => ⟨S67x128, .f32⟩
  | 46 => ⟨S_, .f32⟩
  | 47 => ⟨S128, .f32⟩
  | 48 => ⟨S1x128, .f32⟩
  | 49 => ⟨S400000x128, .f32⟩
  | 50 => ⟨S_, .f32⟩
  | 51 => ⟨S100000x128, .f32⟩
  | 52 => ⟨S400000x1, .i32⟩
  | 53 => ⟨S100000x128, .f32⟩
  | 54 => ⟨S_, .f32⟩
  | 55 => ⟨S400000, .f32⟩
  | 56 => ⟨S_, .f32⟩
  | 57 => ⟨S100000, .f32⟩
  | 58 => ⟨S400000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x192, .f32⟩
  | 67 => ⟨S192x128, .f32⟩
  | 68 => ⟨S1x128, .f32⟩
  | 69 => ⟨S100000x128, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x128, .f32⟩
  | 79 => ⟨S400000x131, .f32⟩
  | 80 => ⟨S131x128, .f32⟩
  | 81 => ⟨S_, .f32⟩
  | 82 => ⟨S128, .f32⟩
  | 83 => ⟨S1x128, .f32⟩
  | 84 => ⟨S400000x128, .f32⟩
  | 85 => ⟨S_, .f32⟩
  | 86 => ⟨S100000x128, .f32⟩
  | 87 => ⟨S400000x1, .i32⟩
  | 88 => ⟨S100000x128, .f32⟩
  | 89 => ⟨S_, .f32⟩
  | 90 => ⟨S400000, .f32⟩
  | 91 => ⟨S_, .f32⟩
  | 92 => ⟨S100000, .f32⟩
  | 93 => ⟨S400000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S100000x256, .f32⟩
  | 102 => ⟨S256x128, .f32⟩
  | 103 => ⟨S1x128, .f32⟩
  | 104 => ⟨S100000x128, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x128, .f32⟩
  | 114 => ⟨S400000x131, .f32⟩
  | 115 => ⟨S131x128, .f32⟩
  | 116 => ⟨S_, .f32⟩
  | 117 => ⟨S128, .f32⟩
  | 118 => ⟨S1x128, .f32⟩
  | 119 => ⟨S400000x128, .f32⟩
  | 120 => ⟨S_, .f32⟩
  | 121 => ⟨S100000x128, .f32⟩
  | 122 => ⟨S400000x1, .i32⟩
  | 123 => ⟨S100000x128, .f32⟩
  | 124 => ⟨S_, .f32⟩
  | 125 => ⟨S400000, .f32⟩
  | 126 => ⟨S_, .f32⟩
  | 127 => ⟨S100000, .f32⟩
  | _ => ⟨S100000, .i32⟩

abbrev hbmTy0_1 (i : Nat) : BufTy := match i % 128 with
  | 0 => ⟨S400000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S100000x256, .f32⟩
  | 9 => ⟨S256x128, .f32⟩
  | 10 => ⟨S1x128, .f32⟩
  | 11 => ⟨S100000x128, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x128, .f32⟩
  | 21 => ⟨S400000x131, .f32⟩
  | 22 => ⟨S131x128, .f32⟩
  | 23 => ⟨S_, .f32⟩
  | 24 => ⟨S128, .f32⟩
  | 25 => ⟨S1x128, .f32⟩
  | 26 => ⟨S400000x128, .f32⟩
  | 27 => ⟨S_, .f32⟩
  | 28 => ⟨S100000x128, .f32⟩
  | 29 => ⟨S400000x1, .i32⟩
  | 30 => ⟨S100000x128, .f32⟩
  | 31 => ⟨S_, .f32⟩
  | 32 => ⟨S400000, .f32⟩
  | 33 => ⟨S_, .f32⟩
  | 34 => ⟨S100000, .f32⟩
  | 35 => ⟨S400000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S100000x256, .f32⟩
  | 44 => ⟨S256x128, .f32⟩
  | 45 => ⟨S1x128, .f32⟩
  | 46 => ⟨S100000x128, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x128, .f32⟩
  | 56 => ⟨S400000x131, .f32⟩
  | 57 => ⟨S131x128, .f32⟩
  | 58 => ⟨S_, .f32⟩
  | 59 => ⟨S128, .f32⟩
  | 60 => ⟨S1x128, .f32⟩
  | 61 => ⟨S400000x128, .f32⟩
  | 62 => ⟨S_, .f32⟩
  | 63 => ⟨S100000x128, .f32⟩
  | 64 => ⟨S400000x1, .i32⟩
  | 65 => ⟨S100000x128, .f32⟩
  | 66 => ⟨S_, .f32⟩
  | 67 => ⟨S400000, .f32⟩
  | 68 => ⟨S_, .f32⟩
  | 69 => ⟨S100000, .f32⟩
  | 70 => ⟨S400000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S100000x256, .f32⟩
  | 79 => ⟨S256x64, .f32⟩
  | 80 => ⟨S1x64, .f32⟩
  | 81 => ⟨S100000x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S10000x67, .f32⟩
  | .local _ .vmem, ⟨1, _⟩ => ⟨S10000x67, .f32⟩
  | .local _ .vmem, ⟨2, _⟩ => ⟨S67x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x192, .f32⟩
  | .local _ .vmem, ⟨7, _⟩ => ⟨S10000x192, .f32⟩
  | .local _ .vmem, ⟨8, _⟩ => ⟨S192x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x131, .f32⟩
  | .local _ .vmem, ⟨13, _⟩ => ⟨S10000x131, .f32⟩
  | .local _ .vmem, ⟨14, _⟩ => ⟨S131x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x256, .f32⟩
  | .local _ .vmem, ⟨19, _⟩ => ⟨S10000x256, .f32⟩
  | .local _ .vmem, ⟨20, _⟩ => ⟨S256x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x131, .f32⟩
  | .local _ .vmem, ⟨25, _⟩ => ⟨S10000x131, .f32⟩
  | .local _ .vmem, ⟨26, _⟩ => ⟨S131x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x256, .f32⟩
  | .local _ .vmem, ⟨31, _⟩ => ⟨S10000x256, .f32⟩
  | .local _ .vmem, ⟨32, _⟩ => ⟨S256x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x131, .f32⟩
  | .local _ .vmem, ⟨37, _⟩ => ⟨S10000x131, .f32⟩
  | .local _ .vmem, ⟨38, _⟩ => ⟨S131x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x256, .f32⟩
  | .local _ .vmem, ⟨43, _⟩ => ⟨S10000x256, .f32⟩
  | .local _ .vmem, ⟨44, _⟩ => ⟨S256x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | .local _ .vmem, ⟨48, _⟩ => ⟨S10000x131, .f32⟩
  | .local _ .vmem, ⟨49, _⟩ => ⟨S10000x131, .f32⟩
  | .local _ .vmem, ⟨50, _⟩ => ⟨S131x128, .f32⟩
  | .local _ .vmem, ⟨51, _⟩ => ⟨S1x128, .f32⟩
  | .local _ .vmem, ⟨52, _⟩ => ⟨S10000x128, .f32⟩
  | .local _ .vmem, ⟨53, _⟩ => ⟨S10000x128, .f32⟩
  | .local _ .vmem, ⟨54, _⟩ => ⟨S10000x256, .f32⟩
  | .local _ .vmem, ⟨55, _⟩ => ⟨S10000x256, .f32⟩
  | .local _ .vmem, ⟨56, _⟩ => ⟨S256x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_7 : Ref sig .tc := ⟨.hbm, 70, rfl⟩
abbrev main_v39 : Ref sig .tc := ⟨.hbm, 71, rfl⟩
abbrev main_v40 : Ref sig .tc := ⟨.hbm, 72, rfl⟩
abbrev main_c_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_cst_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_c_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_16 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_18 : Ref sig .tc := ⟨.hbm, 124, rfl⟩
abbrev main_v82 : Ref sig .tc := ⟨.hbm, 125, rfl⟩
abbrev main_cst_19 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_20 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_21 : Ref sig .tc := ⟨.hbm, 140, rfl⟩
abbrev main_v95 : Ref sig .tc := ⟨.hbm, 141, rfl⟩
abbrev main_v96 : Ref sig .tc := ⟨.hbm, 142, rfl⟩
abbrev main_c_22 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_23 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_24 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_25 : Ref sig .tc := ⟨.hbm, 159, rfl⟩
abbrev main_v110 : Ref sig .tc := ⟨.hbm, 160, rfl⟩
abbrev main_cst_26 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_27 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_c_28 : Ref sig .tc := ⟨.hbm, 175, rfl⟩
abbrev main_v123 : Ref sig .tc := ⟨.hbm, 176, rfl⟩
abbrev main_v124 : Ref sig .tc := ⟨.hbm, 177, rfl⟩
abbrev main_c_29 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_30 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_31 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_32 : Ref sig .tc := ⟨.hbm, 194, rfl⟩
abbrev main_v138 : Ref sig .tc := ⟨.hbm, 195, rfl⟩
abbrev main_cst_33 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_34 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x131 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S131x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x131 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S131x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x131 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S131x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x131 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S131x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S400000_S400000x1_0 : S400000.BroadcastsInDim S400000x1 (![0] : Fin 1 → Fin S400000x1.rank)
  concatenates_S400000x1_S400000x1_S400000x1_S400000x3_d1 : Shape.Concatenates [S400000x1, S400000x1, S400000x1] S400000x3 1
  bcast_S_S400000 : S_.BroadcastsInDim S400000 (![] : Fin 0 → Fin S400000.rank)
  concatenates_S400000x64_S400000x3_S400000x67_d1 : Shape.Concatenates [S400000x64, S400000x3] S400000x67 1
  transposes_S128x67_S67x128_1_0 : S128x67.Transposes [1, 0] S67x128
  bcast_S_S128 : S_.BroadcastsInDim S128 (![] : Fin 0 → Fin S128.rank)
  shapeCasts_S128_S1x128 : S128.ShapeCasts S1x128
  inb_S10000x67_S10000x67_0_0 : ∀ a, (![0, 0] : Fin 2 → Nat) a + S10000x67.size a ≤ S10000x67.size a
  h_S10000x67 : 0 < S10000x67.numel
  shapeCasts_S10000x67_S10000x67 : S10000x67.ShapeCasts S10000x67
  bitsLt_bf16_f32 : FTy.bits .bf16 < FTy.bits .f32
  inb_S67x128_S67x128_0_0 : ∀ a, (![0, 0] : Fin 2 → Nat) a + S67x128.size a ≤ S67x128.size a
  h_S67x128 : 0 < S67x128.numel
  shapeCasts_S67x128_S67x128 : S67x128.ShapeCasts S67x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x64_S100000x128_S100000x192_d1 : Shape.Concatenates [S100000x64, S100000x128] S100000x192 1
  transposes_S128x192_S192x128_1_0 : S128x192.Transposes [1, 0] S192x128
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  concatenates_S400000x128_S400000x3_S400000x131_d1 : Shape.Concatenates [S400000x128, S400000x3] S400000x131 1
  transposes_S128x131_S131x128_1_0 : S128x131.Transposes [1, 0] S131x128
  inb_S10000x131_S10000x131_0_0 : ∀ a, (![0, 0] : Fin 2 → Nat) a + S10000x131.size a ≤ S10000x131.size a
  h_S10000x131 : 0 < S10000x131.numel
  shapeCasts_S10000x131_S10000x131 : S10000x131.ShapeCasts S10000x131
  inb_S131x128_S131x128_0_0 : ∀ a, (![0, 0] : Fin 2 → Nat) a + S131x128.size a ≤ S131x128.size a
  h_S131x128 : 0 < S131x128.numel
  shapeCasts_S131x128_S131x128 : S131x128.ShapeCasts S131x128
  concatenates_S100000x128_S100000x128_S100000x256_d1 : Shape.Concatenates [S100000x128, S100000x128] S100000x256 1
  transposes_S128x256_S256x128_1_0 : S128x256.Transposes [1, 0] S256x128
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S64x256_S256x64_1_0 : S64x256.Transposes [1, 0] S256x64
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S64x64_S100000x1_S100000x64_1_0_n_n_0_1_164_wf : GatherDims.WF S64x64 S100000x1 S100000x64 [1] [0] [] [0] [] 1 ![1, 64]
  gather_S100000x64_S400000x1_S400000x64_1_0_n_n_0_1_164_wf : GatherDims.WF S100000x64 S400000x1 S400000x64 [1] [0] [] [0] [] 1 ![1, 64]
  dot_S10000x67_S67x128_S10000x128_1_0_0_1_n_n_wf : DotDims.WF S10000x67 S67x128 S10000x128 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S10000x192_S192x128_S10000x128_1_0_0_1_n_n_wf : DotDims.WF S10000x192 S192x128 S10000x128 [1] [0] [0] [1] [] []
  gather_S100000x128_S400000x1_S400000x128_1_0_n_n_0_1_1128_wf : GatherDims.WF S100000x128 S400000x1 S400000x128 [1] [0] [] [0] [] 1 ![1, 128]
  dot_S10000x131_S131x128_S10000x128_1_0_0_1_n_n_wf : DotDims.WF S10000x131 S131x128 S10000x128 [1] [0] [0] [1] [] []
  dot_S10000x256_S256x128_S10000x128_1_0_0_1_n_n_wf : DotDims.WF S10000x256 S256x128 S10000x128 [1] [0] [0] [1] [] []
  dot_S10000x256_S256x64_S10000x64_1_0_0_1_n_n_wf : DotDims.WF S10000x256 S256x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x67.size a ≤ S400000x67.size a
  hwx0_0 : ∀ i : grid0.Coords, EltTy.bits .f32 = 32 ∨ (Rect.block (s := S400000x67) S10000x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S67x128.size a ≤ S67x128.size a
  hwx0_1 : ∀ i : grid0.Coords, EltTy.bits .f32 = 32 ∨ (Rect.block (s := S67x128) S67x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S400000x128.size a
  hwx0_3 : ∀ i : grid0.Coords, EltTy.bits .f32 = 32 ∨ (Rect.block (s := S400000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x192.size a ≤ S100000x192.size a
  hwx1_0 : ∀ i : grid1.Coords, EltTy.bits .f32 = 32 ∨ (Rect.block (s := S100000x192) S10000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x128.size a ≤ S192x128.size a
  hwx1_1 : ∀ i : grid1.Coords, EltTy.bits .f32 = 32 ∨ (Rect.block (s := S192x128) S192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x131.size a ≤ S400000x131.size a
  hwx2_0 : ∀ i : grid2.Coords, EltTy.bits .f32 = 32 ∨ (Rect.block (s := S400000x131) S10000x131.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S131x128.size a ≤ S131x128.size a
  hwx2_1 : ∀ i : grid2.Coords, EltTy.bits .f32 = 32 ∨ (Rect.block (s := S131x128) S131x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S400000x128.size a
  hwx2_3 : ∀ i : grid2.Coords, EltTy.bits .f32 = 32 ∨ (Rect.block (s := S400000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S100000x256.size a
  hwx3_0 : ∀ i : grid3.Coords, EltTy.bits .f32 = 32 ∨ (Rect.block (s := S100000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x131.size a ≤ S400000x131.size a
  hwx4_0 : ∀ i : grid4.Coords, EltTy.bits .f32 = 32 ∨ (Rect.block (s := S400000x131) S10000x131.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S131x128.size a ≤ S131x128.size a
  hwx4_1 : ∀ i : grid4.Coords, EltTy.bits .f32 = 32 ∨ (Rect.block (s := S131x128) S131x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S400000x128.size a
  hwx4_3 : ∀ i : grid4.Coords, EltTy.bits .f32 = 32 ∨ (Rect.block (s := S400000x128) S10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x256.size a ≤ S100000x256.size a
  hwx5_0 : ∀ i : grid5.Coords, EltTy.bits .f32 = 32 ∨ (Rect.block (s := S100000x256) S10000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x131.size a ≤ S400000x131.size a
  hwx6_0 : ∀ i : grid6.Coords, EltTy.bits .f32 = 32 ∨ (Rect.block (s := S400000x131) S10000x131.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S131x128.size a ≤ S131x128.size a
  hwx6_1 : ∀ i : grid6.Coords, EltTy.bits .f32 = 32 ∨ (Rect.block (s := S131x128) S131x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S400000x128.size a
  hwx6_3 : ∀ i : grid6.Coords, EltTy.bits .f32 = 32 ∨ (Rect.block (s := S400000x128) S10000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x256.size a ≤ S100000x256.size a
  hwx7_0 : ∀ i : grid7.Coords, EltTy.bits .f32 = 32 ∨ (Rect.block (s := S100000x256) S10000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x128.size a ≤ S100000x128.size a
  hwx7_3 : ∀ i : grid7.Coords, EltTy.bits .f32 = 32 ∨ (Rect.block (s := S100000x128) S10000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x131.size a ≤ S400000x131.size a
  hwx8_0 : ∀ i : grid8.Coords, EltTy.bits .f32 = 32 ∨ (Rect.block (s := S400000x131) S10000x131.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S131x128.size a ≤ S131x128.size a
  hwx8_1 : ∀ i : grid8.Coords, EltTy.bits .f32 = 32 ∨ (Rect.block (s := S131x128) S131x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x128.size a ≤ S400000x128.size a
  hwx8_3 : ∀ i : grid8.Coords, EltTy.bits .f32 = 32 ∨ (Rect.block (s := S400000x128) S10000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x256.size a ≤ S100000x256.size a
  hwx9_0 : ∀ i : grid9.Coords, EltTy.bits .f32 = 32 ∨ (Rect.block (s := S100000x256) S10000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x64.size a ≤ S256x64.size a
  hwx9_1 : ∀ i : grid9.Coords, EltTy.bits .f32 = 32 ∨ (Rect.block (s := S256x64) S256x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)

variable [Facts₀]

def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S10000x67_S67x128_S10000x128_1_0_0_1_n_n : DotDims S10000x67 S67x128 S10000x128 where
  lhsContracting := [1]
  rhsContracting := [0]
  lhsNonContracting := [0]
  rhsNonContracting := [1]
  lhsBatch := []
  rhsBatch := []
  wf := dot_S10000x67_S67x128_S10000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S10000x192_S192x128_S10000x128_1_0_0_1_n_n : DotDims S10000x192 S192x128 S10000x128 where
  lhsContracting := [1]
  rhsContracting := [0]
  lhsNonContracting := [0]
  rhsNonContracting := [1]
  lhsBatch := []
  rhsBatch := []
  wf := dot_S10000x192_S192x128_S10000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S10000x131_S131x128_S10000x128_1_0_0_1_n_n : DotDims S10000x131 S131x128 S10000x128 where
  lhsContracting := [1]
  rhsContracting := [0]
  lhsNonContracting := [0]
  rhsNonContracting := [1]
  lhsBatch := []
  rhsBatch := []
  wf := dot_S10000x131_S131x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

abbrev win0_0 : Pipeline.Window sig grid0 :=
  Pipeline.Window.ofSpec (Memref.whole main_v18) S10000x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S67x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S10000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S10000x131.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S131x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S10000x131.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S131x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v91) S10000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v102) S10000x131.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v103) S131x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v119) S10000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v121) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v122) S10000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v130) S10000x131.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v131) S131x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v133) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v134) S10000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v147) S10000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v148) S256x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v149) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v150) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000 : Shape := ⟨1, ![100000]⟩
abbrev S400000 : Shape := ⟨1, ![400000]⟩
abbrev S64x64 : Shape := ⟨2, ![64, 64]⟩
abbrev S128x67 : Shape := ⟨2, ![128, 67]⟩
abbrev S128x192 : Shape := ⟨2, ![128, 192]⟩
abbrev S128 : Shape := ⟨1, ![128]⟩
abbrev S128x131 : Shape := ⟨2, ![128, 131]⟩
abbrev S128x256 : Shape := ⟨2, ![128, 256]⟩
abbrev S64x256 : Shape := ⟨2, ![64, 256]⟩
abbrev S64 : Shape := ⟨1, ![64]⟩
abbrev S_ : Shape := ⟨0, ![]⟩
abbrev S100000x1 : Shape := ⟨2, ![100000, 1]⟩
abbrev S100000x64 : Shape := ⟨2, ![100000, 64]⟩
abbrev S400000x1 : Shape := ⟨2, ![400000, 1]⟩
abbrev S400000x3 : Shape := ⟨2, ![400000, 3]⟩
abbrev S400000x64 : Shape := ⟨2, ![400000, 64]⟩
abbrev S400000x67 : Shape := ⟨2, ![400000, 67]⟩
abbrev S67x128 : Shape := ⟨2, ![67, 128]⟩
abbrev S400000x128 : Shape := ⟨2, ![400000, 128]⟩
abbrev S100000x128 : Shape := ⟨2, ![100000, 128]⟩
abbrev S100000x192 : Shape := ⟨2, ![100000, 192]⟩
abbrev S192x128 : Shape := ⟨2, ![192, 128]⟩
abbrev S1x128 : Shape := ⟨2, ![1, 128]⟩
abbrev S400000x131 : Shape := ⟨2, ![400000, 131]⟩
abbrev S131x128 : Shape := ⟨2, ![131, 128]⟩
abbrev S100000x256 : Shape := ⟨2, ![100000, 256]⟩
abbrev S256x128 : Shape := ⟨2, ![256, 128]⟩
abbrev S256x64 : Shape := ⟨2, ![256, 64]⟩
abbrev S1x64 : Shape := ⟨2, ![1, 64]⟩

abbrev nBuf : Space → Nat
  | .hbm => 257
  | .vmem => 0
  | .smem => 0
  | _ => 0

abbrev hbmTy0_0 (i : Nat) : BufTy := match i % 128 with
  | 0 => ⟨S100000, .i32⟩
  | 1 => ⟨S400000, .i32⟩
  | 2 => ⟨S400000, .i32⟩
  | 3 => ⟨S400000, .f32⟩
  | 4 => ⟨S400000, .f32⟩
  | 5 => ⟨S400000, .f32⟩
  | 6 => ⟨S64x64, .f32⟩
  | 7 => ⟨S128x67, .f32⟩
  | 8 => ⟨S128x192, .f32⟩
  | 9 => ⟨S128, .f32⟩
  | 10 => ⟨S128x131, .f32⟩
  | 11 => ⟨S128x256, .f32⟩
  | 12 => ⟨S128, .f32⟩
  | 13 => ⟨S128x131, .f32⟩
  | 14 => ⟨S128x256, .f32⟩
  | 15 => ⟨S128, .f32⟩
  | 16 => ⟨S128x131, .f32⟩
  | 17 => ⟨S128x256, .f32⟩
  | 18 => ⟨S128, .f32⟩
  | 19 => ⟨S128x131, .f32⟩
  | 20 => ⟨S64x256, .f32⟩
  | 21 => ⟨S64, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x64, .f32⟩
  | 31 => ⟨S400000x1, .f32⟩
  | 32 => ⟨S400000x1, .f32⟩
  | 33 => ⟨S400000x1, .f32⟩
  | 34 => ⟨S400000x3, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x64, .f32⟩
  | 44 => ⟨S400000x67, .f32⟩
  | 45 => ⟨S67x128, .f32⟩
  | 46 => ⟨S400000x128, .f32⟩
  | 47 => ⟨S_, .f32⟩
  | 48 => ⟨S_, .f32⟩
  | 49 => ⟨S400000x128, .f32⟩
  | 50 => ⟨S400000x128, .i1⟩
  | 51 => ⟨S_, .f32⟩
  | 52 => ⟨S400000x128, .f32⟩
  | 53 => ⟨S400000x128, .f32⟩
  | 54 => ⟨S400000x128, .f32⟩
  | 55 => ⟨S_, .f32⟩
  | 56 => ⟨S100000x128, .f32⟩
  | 57 => ⟨S400000x1, .i32⟩
  | 58 => ⟨S100000x128, .f32⟩
  | 59 => ⟨S_, .f32⟩
  | 60 => ⟨S400000, .f32⟩
  | 61 => ⟨S_, .f32⟩
  | 62 => ⟨S100000, .f32⟩
  | 63 => ⟨S400000x1, .i32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S100000x192, .f32⟩
  | 72 => ⟨S192x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x128, .f32⟩
  | 89 => ⟨S400000x131, .f32⟩
  | 90 => ⟨S131x128, .f32⟩
  | 91 => ⟨S400000x128, .f32⟩
  | 92 => ⟨S_, .f32⟩
  | 93 => ⟨S_, .f32⟩
  | 94 => ⟨S400000x128, .f32⟩
  | 95 => ⟨S400000x128, .i1⟩
  | 96 => ⟨S_, .f32⟩
  | 97 => ⟨S400000x128, .f32⟩
  | 98 => ⟨S400000x128, .f32⟩
  | 99 => ⟨S400000x128, .f32⟩
  | 100 => ⟨S_, .f32⟩
  | 101 => ⟨S100000x128, .f32⟩
  | 102 => ⟨S400000x1, .i32⟩
  | 103 => ⟨S100000x128, .f32⟩
  | 104 => ⟨S_, .f32⟩
  | 105 => ⟨S400000, .f32⟩
  | 106 => ⟨S_, .f32⟩
  | 107 => ⟨S100000, .f32⟩
  | 108 => ⟨S400000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S100000x256, .f32⟩
  | 117 => ⟨S256x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .i32⟩
  | 126 => ⟨S400000, .i32⟩
  | 127 => ⟨S400000, .i1⟩
  | _ => ⟨S100000, .i32⟩

abbrev hbmTy0_1 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000x128, .f32⟩
  | 6 => ⟨S400000x131, .f32⟩
  | 7 => ⟨S131x128, .f32⟩
  | 8 => ⟨S400000x128, .f32⟩
  | 9 => ⟨S_, .f32⟩
  | 10 => ⟨S_, .f32⟩
  | 11 => ⟨S400000x128, .f32⟩
  | 12 => ⟨S400000x128, .i1⟩
  | 13 => ⟨S_, .f32⟩
  | 14 => ⟨S400000x128, .f32⟩
  | 15 => ⟨S400000x128, .f32⟩
  | 16 => ⟨S400000x128, .f32⟩
  | 17 => ⟨S_, .f32⟩
  | 18 => ⟨S100000x128, .f32⟩
  | 19 => ⟨S400000x1, .i32⟩
  | 20 => ⟨S100000x128, .f32⟩
  | 21 => ⟨S_, .f32⟩
  | 22 => ⟨S400000, .f32⟩
  | 23 => ⟨S_, .f32⟩
  | 24 => ⟨S100000, .f32⟩
  | 25 => ⟨S400000x1, .i32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x128, .f32⟩
  | 32 => ⟨S100000x128, .f32⟩
  | 33 => ⟨S100000x256, .f32⟩
  | 34 => ⟨S256x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x128, .f32⟩
  | 51 => ⟨S400000x131, .f32⟩
  | 52 => ⟨S131x128, .f32⟩
  | 53 => ⟨S400000x128, .f32⟩
  | 54 => ⟨S_, .f32⟩
  | 55 => ⟨S_, .f32⟩
  | 56 => ⟨S400000x128, .f32⟩
  | 57 => ⟨S400000x128, .i1⟩
  | 58 => ⟨S_, .f32⟩
  | 59 => ⟨S400000x128, .f32⟩
  | 60 => ⟨S400000x128, .f32⟩
  | 61 => ⟨S400000x128, .f32⟩
  | 62 => ⟨S_, .f32⟩
  | 63 => ⟨S100000x128, .f32⟩
  | 64 => ⟨S400000x1, .i32⟩
  | 65 => ⟨S100000x128, .f32⟩
  | 66 => ⟨S_, .f32⟩
  | 67 => ⟨S400000, .f32⟩
  | 68 => ⟨S_, .f32⟩
  | 69 => ⟨S100000, .f32⟩
  | 70 => ⟨S400000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S100000x256, .f32⟩
  | 79 => ⟨S256x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x128, .f32⟩
  | 96 => ⟨S400000x131, .f32⟩
  | 97 => ⟨S131x128, .f32⟩
  | 98 => ⟨S400000x128, .f32⟩
  | 99 => ⟨S_, .f32⟩
  | 100 => ⟨S_, .f32⟩
  | 101 => ⟨S400000x128, .f32⟩
  | 102 => ⟨S400000x128, .i1⟩
  | 103 => ⟨S_, .f32⟩
  | 104 => ⟨S400000x128, .f32⟩
  | 105 => ⟨S400000x128, .f32⟩
  | 106 => ⟨S400000x128, .f32⟩
  | 107 => ⟨S_, .f32⟩
  | 108 => ⟨S100000x128, .f32⟩
  | 109 => ⟨S400000x1, .i32⟩
  | 110 => ⟨S100000x128, .f32⟩
  | 111 => ⟨S_, .f32⟩
  | 112 => ⟨S400000, .f32⟩
  | 113 => ⟨S_, .f32⟩
  | 114 => ⟨S100000, .f32⟩
  | 115 => ⟨S400000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S100000x256, .f32⟩
  | 124 => ⟨S256x64, .f32⟩
  | 125 => ⟨S100000x64, .f32⟩
  | 126 => ⟨S1x64, .f32⟩
  | 127 => ⟨S100000x64, .f32⟩
  | _ => ⟨S100000, .i32⟩

abbrev hbmTy0_2 (i : Nat) : BufTy := match i % 128 with
  | 0 => ⟨S100000x64, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v21 : Ref sig .tc := ⟨.hbm, 54, rfl⟩
abbrev main_cst_3 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call1_cst : Ref sig .tc := ⟨.hbm, 77, rfl⟩
abbrev main_call1_v0 : Ref sig .tc := ⟨.hbm, 78, rfl⟩
abbrev main_v40 : Ref sig .tc := ⟨.hbm, 79, rfl⟩
abbrev main_c_7 : Ref sig .tc := ⟨.hbm, 80, rfl⟩
abbrev main_v41 : Ref sig .tc := ⟨.hbm, 81, rfl⟩
abbrev main_v42 : Ref sig .tc := ⟨.hbm, 82, rfl⟩
abbrev main_c_8 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_9 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v51 : Ref sig .tc := ⟨.hbm, 99, rfl⟩
abbrev main_cst_10 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_11 : Ref sig .tc := ⟨.hbm, 104, rfl⟩
abbrev main_v55 : Ref sig .tc := ⟨.hbm, 105, rfl⟩
abbrev main_cst_12 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_13 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_call3_cst : Ref sig .tc := ⟨.hbm, 122, rfl⟩
abbrev main_call3_v0 : Ref sig .tc := ⟨.hbm, 123, rfl⟩
abbrev main_v70 : Ref sig .tc := ⟨.hbm, 124, rfl⟩
abbrev main_c_14 : Ref sig .tc := ⟨.hbm, 125, rfl⟩
abbrev main_v71 : Ref sig .tc := ⟨.hbm, 126, rfl⟩
abbrev main_v72 : Ref sig .tc := ⟨.hbm, 127, rfl⟩
abbrev main_c_15 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_16 : Ref sig .tc := ⟨.hbm, 137, rfl⟩
abbrev main_call4_cst : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_v81 : Ref sig .tc := ⟨.hbm, 144, rfl⟩
abbrev main_cst_17 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_cst_18 : Ref sig .tc := ⟨.hbm, 149, rfl⟩
abbrev main_v85 : Ref sig .tc := ⟨.hbm, 150, rfl⟩
abbrev main_cst_19 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_cst_20 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_call5_cst : Ref sig .tc := ⟨.hbm, 167, rfl⟩
abbrev main_call5_v0 : Ref sig .tc := ⟨.hbm, 168, rfl⟩
abbrev main_v100 : Ref sig .tc := ⟨.hbm, 169, rfl⟩
abbrev main_c_21 : Ref sig .tc := ⟨.hbm, 170, rfl⟩
abbrev main_v101 : Ref sig .tc := ⟨.hbm, 171, rfl⟩
abbrev main_v102 : Ref sig .tc := ⟨.hbm, 172, rfl⟩
abbrev main_c_22 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_23 : Ref sig .tc := ⟨.hbm, 182, rfl⟩
abbrev main_call6_cst : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_v111 : Ref sig .tc := ⟨.hbm, 189, rfl⟩
abbrev main_cst_24 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_25 : Ref sig .tc := ⟨.hbm, 194, rfl⟩
abbrev main_v115 : Ref sig .tc := ⟨.hbm, 195, rfl⟩
abbrev main_cst_26 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_cst_27 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_call7_cst : Ref sig .tc := ⟨.hbm, 212, rfl⟩
abbrev main_call7_v0 : Ref sig .tc := ⟨.hbm, 213, rfl⟩
abbrev main_v130 : Ref sig .tc := ⟨.hbm, 214, rfl⟩
abbrev main_c_28 : Ref sig .tc := ⟨.hbm, 215, rfl⟩
abbrev main_v131 : Ref sig .tc := ⟨.hbm, 216, rfl⟩
abbrev main_v132 : Ref sig .tc := ⟨.hbm, 217, rfl⟩
abbrev main_c_29 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_cst_30 : Ref sig .tc := ⟨.hbm, 227, rfl⟩
abbrev main_call8_cst : Ref sig .tc := ⟨.hbm, 228, rfl⟩
abbrev main_call8_v0 : Ref sig .tc := ⟨.hbm, 229, rfl⟩
abbrev main_call8_v1 : Ref sig .tc := ⟨.hbm, 230, rfl⟩
abbrev main_call8_v2 : Ref sig .tc := ⟨.hbm, 231, rfl⟩
abbrev main_call8_v3 : Ref sig .tc := ⟨.hbm, 232, rfl⟩
abbrev main_call8_v4 : Ref sig .tc := ⟨.hbm, 233, rfl⟩
abbrev main_v141 : Ref sig .tc := ⟨.hbm, 234, rfl⟩
abbrev main_cst_31 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_cst_32 : Ref sig .tc := ⟨.hbm, 239, rfl⟩
abbrev main_v145 : Ref sig .tc := ⟨.hbm, 240, rfl⟩
abbrev main_cst_33 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_34 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S400000_S400000x1_0 : S400000.BroadcastsInDim S400000x1 (![0] : Fin 1 → Fin S400000x1.rank)
  concatenates_S400000x1_S400000x1_S400000x1_S400000x3_d1 : Shape.Concatenates [S400000x1, S400000x1, S400000x1] S400000x3 1
  bcast_S_S400000 : S_.BroadcastsInDim S400000 (![] : Fin 0 → Fin S400000.rank)
  concatenates_S400000x64_S400000x3_S400000x67_d1 : Shape.Concatenates [S400000x64, S400000x3] S400000x67 1
  transposes_S128x67_S67x128_1_0 : S128x67.Transposes [1, 0] S67x128
  bcast_S_S400000x128 : S_.BroadcastsInDim S400000x128 (![] : Fin 0 → Fin S400000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x64_S100000x128_S100000x192_d1 : Shape.Concatenates [S100000x64, S100000x128] S100000x192 1
  transposes_S128x192_S192x128_1_0 : S128x192.Transposes [1, 0] S192x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S400000x128_S400000x3_S400000x131_d1 : Shape.Concatenates [S400000x128, S400000x3] S400000x131 1
  transposes_S128x131_S131x128_1_0 : S128x131.Transposes [1, 0] S131x128
  concatenates_S100000x128_S100000x128_S100000x256_d1 : Shape.Concatenates [S100000x128, S100000x128] S100000x256 1
  transposes_S128x256_S256x128_1_0 : S128x256.Transposes [1, 0] S256x128
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S64x64_S100000x1_S100000x64_1_0_n_n_0_1_164_wf : GatherDims.WF S64x64 S100000x1 S100000x64 [1] [0] [] [0] [] 1 ![1, 64]
  gather_S100000x64_S400000x1_S400000x64_1_0_n_n_0_1_164_wf : GatherDims.WF S100000x64 S400000x1 S400000x64 [1] [0] [] [0] [] 1 ![1, 64]
  dot_S400000x67_S67x128_S400000x128_1_0_0_1_n_n_wf : DotDims.WF S400000x67 S67x128 S400000x128 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x192_S192x128_S100000x128_1_0_0_1_n_n_wf : DotDims.WF S100000x192 S192x128 S100000x128 [1] [0] [0] [1] [] []
  gather_S100000x128_S400000x1_S400000x128_1_0_n_n_0_1_1128_wf : GatherDims.WF S100000x128 S400000x1 S400000x128 [1] [0] [] [0] [] 1 ![1, 128]
  dot_S400000x131_S131x128_S400000x128_1_0_0_1_n_n_wf : DotDims.WF S400000x131 S131x128 S400000x128 [1] [0] [0] [1] [] []
  dot_S100000x256_S256x128_S100000x128_1_0_0_1_n_n_wf : DotDims.WF S100000x256 S256x128 S100000x128 [1] [0] [0] [1] [] []
  dot_S100000x256_S256x64_S100000x64_1_0_0_1_n_n_wf : DotDims.WF S100000x256 S256x64 S100000x64 [1] [0] [0] [1] [] []

variable [Facts₀]

def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S400000x67_S67x128_S400000x128_1_0_0_1_n_n : DotDims S400000x67 S67x128 S400000x128 where
  lhsContracting := [1]
  rhsContracting := [0]
  lhsNonContracting := [0]
  rhsNonContracting := [1]
  lhsBatch := []
  rhsBatch := []
  wf := dot_S400000x67_S67x128_S400000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x131_S131x128_S400000x128_1_0_0_1_n_n : DotDims S400000x131 S131x128 S400000x128 where
  lhsContracting := [1]
  rhsContracting := [0]
  lhsNonContracting := [0]
  rhsNonContracting := [1]
  lhsBatch := []
  rhsBatch := []
  wf := dot_S400000x131_S131x128_S400000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.K.Layer0.lean ====
/-
  Linear layer number 0 of the network, one row tile at a time. The layer's four windows are: 0, a tile of 10000 rows of
  the [rows, 67] input matrix (the tile's number is the grid point); 1, the whole [67, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's tile at every grid point, whether the tile was copied in at
    that point or is still there from an earlier one (the tile's number did not change in between). -/
theorem held0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- An input window's staging buffer holds the window's tile at every grid point, whether the tile was copied in at
    that point or is still there from an earlier one (the tile's number did not change in between). -/
theorem held0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- An input window's staging buffer holds the window's tile at every grid point, whether the tile was copied in at
    that point or is still there from an earlier one (the tile's number did not change in between). -/
theorem held0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-- The whole of each staging buffer, as the rectangle the body reads or writes. -/
abbrev whole0_x : Rect S10000x67 := Rect.unit (s := S10000x67) ![0, 0] S10000x67.size inb_S10000x67_S10000x67_0_0
abbrev whole0_w : Rect S67x128 := Rect.unit (s := S67x128) ![0, 0] S67x128.size inb_S67x128_S67x128_0_0
abbrev whole0_b : Rect S1x128 := Rect.unit (s := S1x128) ![0, 0] S1x128.size inb_S1x128_S1x128_0_0
abbrev whole0_o : Rect S10000x128 := Rect.unit (s := S10000x128) ![0, 0] S10000x128.size inb_S10000x128_S10000x128_0_0

/-- The result tile after the body: the one stored value, the layer's arithmetic on the three input tiles, laid over the
    whole tile. -/
def stored0 (x0 : Vec F S10000x67 .f32) (x1 : Vec F S67x128 .f32) (x2 : Vec F S1x128 .f32) : Vec F S10000x128 .f32 :=
  View.canon [⟨whole0_o, k0_pay1 (View.ld x0 whole0_x) (View.ld x1 whole0_w) (View.ld x2 whole0_b)⟩]

/-- The one store covers the result tile. -/
theorem covers0 (p0 : Vec F S10000x128 .f32) (y : S10000x128.Idx) :
    ∃ pc ∈ ([⟨whole0_o, p0⟩] : List (View.Piece (Elt F) S10000x128 .f32)), y ∈ pc.1.set :=
  View.cover_of_tiled [⟨whole0_o, p0⟩] S10000x128.size (by rfl) y

set_option maxHeartbeats 1000000 in
/-- The body on whole staging buffers: the three inputs at contents `x0 x1 x2`, the result buffer at anything. It runs to
    its end, leaves the inputs as they were and the result buffer at `stored0 x0 x1 x2`. -/
theorem body_runs0 (c : Dev nD) (E : Set ℕ) (i : grid0.Coords) (arg1 : Memref sig .tc .vmem S10000x67 .f32) (harg1 : arg1.IsWhole) (arg2 : Memref sig .tc .vmem S67x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x67 .f32) (x1 : Vec F S67x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-- The layer's bookkeeping on core `c`: the arrays as the layer finds them; after the body at point `t` every input
    buffer still at its tile and the result buffer at `stored0` of the three tiles; nothing else of the core's state
    is touched, nothing is owed to another core, every buffer is held whole. -/
def data0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => stored0 (tile0 V c 0 t) (tile0 V c 1 t) (tile0 V c 2 t)
  Φ _ := Pipeline.ΦA spec0 c
  q _ := fullShare
  owed _ := 0

theorem arrays0 (c : Dev nD) (w : Fin cfg0.W) : (data0 V c).A w = V c (Pipeline.arrRef spec0 w) := by
  dsimp only [data0]

theorem after0_0 (c : Dev nD) (t : Fin cfg0.N) : (data0 V c).after 0 t = tile0 V c 0 t := by dsimp only [data0]
theorem after0_1 (c : Dev nD) (t : Fin cfg0.N) : (data0 V c).after 1 t = tile0 V c 1 t := by dsimp only [data0]
theorem after0_2 (c : Dev nD) (t : Fin cfg0.N) : (data0 V c).after 2 t = tile0 V c 2 t := by dsimp only [data0]
theorem after0_3 (c : Dev nD) (t : Fin cfg0.N) : (data0 V c).after 3 t = stored0 (tile0 V c 0 t) (tile0 V c 1 t) (tile0 V c 2 t) := by dsimp only [data0]

theorem held0_0 (c : Dev nD) (t : Fin cfg0.N) (d) : (data0 V c).before 0 t d = tile0 V c 0 t :=
  held0_0_of V (data0 V c) (arrays0 V c 0) (after0_0 V c) t d
theorem held0_1 (c : Dev nD) (t : Fin cfg0.N) (d) : (data0 V c).before 1 t d = tile0 V c 1 t :=
  held0_1_of V (data0 V c) (arrays0 V c 1) (after0_1 V c) t d
theorem held0_2 (c : Dev nD) (t : Fin cfg0.N) (d) : (data0 V c).before 2 t d = tile0 V c 2 t :=
  held0_2_of V (data0 V c) (arrays0 V c 2) (after0_2 V c) t d

/-- What the body is handed at point `t`, window by window, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- and what it hands back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any grid point: its input buffers hold their tiles, so `body_runs0` applies; the rest of the core's
    state passes through unread. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (data0 V c).Φ t.succ = (data0 V c).Φ t.castSucc from rfl,
    show (data0 V c).owesAt () t.succ = (data0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body_runs0 c Set.univ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation0 (c : Dev nD) : BodyObligation (data0 (F := F) V c) (defs₀ (F := F)) Variants.none () Set.univ := fun t => by
  rw [bigSep_W0, bigSep_W0]
  exact body_at0 V c t

end Cert.Kernel.Hand

end
-- ==== Proof.K.Layer1.lean ====
/-
  Linear layer number 1 of the network, one row tile at a time. The layer's four windows are: 0, a tile of 10000 rows of
  the [rows, 192] input matrix (the tile's number is the grid point); 1, the whole [192, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's tile at every grid point, whether the tile was copied in at
    that point or is still there from an earlier one (the tile's number did not change in between). -/
theorem held1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- An input window's staging buffer holds the window's tile at every grid point, whether the tile was copied in at
    that point or is still there from an earlier one (the tile's number did not change in between). -/
theorem held1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-- An input window's staging buffer holds the window's tile at every grid point, whether the tile was copied in at
    that point or is still there from an earlier one (the tile's number did not change in between). -/
theorem held1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)

/-- The whole of each staging buffer, as the rectangle the body reads or writes. -/
abbrev whole1_x : Rect S10000x192 := Rect.unit (s := S10000x192) ![0, 0] S10000x192.size inb_S10000x192_S10000x192_0_0
abbrev whole1_w : Rect S192x128 := Rect.unit (s := S192x128) ![0, 0] S192x128.size inb_S192x128_S192x128_0_0
abbrev whole1_b : Rect S1x128 := Rect.unit (s := S1x128) ![0, 0] S1x128.size inb_S1x128_S1x128_0_0
abbrev whole1_o : Rect S10000x128 := Rect.unit (s := S10000x128) ![0, 0] S10000x128.size inb_S10000x128_S10000x128_0_0

/-- The result tile after the body: the one stored value, the layer's arithmetic on the three input tiles, laid over the
    whole tile. -/
def stored1 (x0 : Vec F S10000x192 .f32) (x1 : Vec F S192x128 .f32) (x2 : Vec F S1x128 .f32) : Vec F S10000x128 .f32 :=
  View.canon [⟨whole1_o, k1_pay1 (View.ld x0 whole1_x) (View.ld x1 whole1_w) (View.ld x2 whole1_b)⟩]

/-- The one store covers the result tile. -/
theorem covers1 (p0 : Vec F S10000x128 .f32) (y : S10000x128.Idx) :
    ∃ pc ∈ ([⟨whole1_o, p0⟩] : List (View.Piece (Elt F) S10000x128 .f32)), y ∈ pc.1.set :=
  View.cover_of_tiled [⟨whole1_o, p0⟩] S10000x128.size (by rfl) y

set_option maxHeartbeats 1000000 in
/-- The body on whole staging buffers: the three inputs at contents `x0 x1 x2`, the result buffer at anything. It runs to
    its end, leaves the inputs as they were and the result buffer at `stored1 x0 x1 x2`. -/
theorem body_runs1 (c : Dev nD) (E : Set ℕ) (i : grid1.Coords) (arg1 : Memref sig .tc .vmem S10000x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x192 .f32) (x1 : Vec F S192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-- The layer's bookkeeping on core `c`: the arrays as the layer finds them; after the body at point `t` every input
    buffer still at its tile and the result buffer at `stored1` of the three tiles; nothing else of the core's state
    is touched, nothing is owed to another core, every buffer is held whole. -/
def data1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => stored1 (tile1 V c 0 t) (tile1 V c 1 t) (tile1 V c 2 t)
  Φ _ := Pipeline.ΦA spec1 c
  q _ := fullShare
  owed _ := 0

theorem arrays1 (c : Dev nD) (w : Fin cfg1.W) : (data1 V c).A w = V c (Pipeline.arrRef spec1 w) := by
  dsimp only [data1]

theorem after1_0 (c : Dev nD) (t : Fin cfg1.N) : (data1 V c).after 0 t = tile1 V c 0 t := by dsimp only [data1]
theorem after1_1 (c : Dev nD) (t : Fin cfg1.N) : (data1 V c).after 1 t = tile1 V c 1 t := by dsimp only [data1]
theorem after1_2 (c : Dev nD) (t : Fin cfg1.N) : (data1 V c).after 2 t = tile1 V c 2 t := by dsimp only [data1]
theorem after1_3 (c : Dev nD) (t : Fin cfg1.N) : (data1 V c).after 3 t = stored1 (tile1 V c 0 t) (tile1 V c 1 t) (tile1 V c 2 t) := by dsimp only [data1]

theorem held1_0 (c : Dev nD) (t : Fin cfg1.N) (d) : (data1 V c).before 0 t d = tile1 V c 0 t :=
  held1_0_of V (data1 V c) (arrays1 V c 0) (after1_0 V c) t d
theorem held1_1 (c : Dev nD) (t : Fin cfg1.N) (d) : (data1 V c).before 1 t d = tile1 V c 1 t :=
  held1_1_of V (data1 V c) (arrays1 V c 1) (after1_1 V c) t d
theorem held1_2 (c : Dev nD) (t : Fin cfg1.N) (d) : (data1 V c).before 2 t d = tile1 V c 2 t :=
  held1_2_of V (data1 V c) (arrays1 V c 2) (after1_2 V c) t d

/-- What the body is handed at point `t`, window by window, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it hands back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

/-- The body at any grid point: its input buffers hold their tiles, so `body_runs1` applies; the rest of the core's
    state passes through unread. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2]
  rw [show (data1 V c).Φ t.succ = (data1 V c).Φ t.castSucc from rfl,
    show (data1 V c).owesAt () t.succ = (data1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body_runs1 c Set.univ _ _ _ _ _ _ _ _ _ (tile1 V c 0 t) (tile1 V c 1 t) (tile1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation1 (c : Dev nD) : BodyObligation (data1 (F := F) V c) (defs₀ (F := F)) Variants.none () Set.univ := fun t => by
  rw [bigSep_W1, bigSep_W1]
  exact body_at1 V c t

end Cert.Kernel.Hand

end
-- ==== Proof.K.Layer2.lean ====
/-
  Linear layer number 2 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's tile at every grid point, whether the tile was copied in at
    that point or is still there from an earlier one (the tile's number did not change in between). -/
theorem held2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- An input window's staging buffer holds the window's tile at every grid point, whether the tile was copied in at
    that point or is still there from an earlier one (the tile's number did not change in between). -/
theorem held2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- An input window's staging buffer holds the window's tile at every grid point, whether the tile was copied in at
    that point or is still there from an earlier one (the tile's number did not change in between). -/
theorem held2_2_of {c : Dev nD} (dat : Dat τ (Elt F) Unit ℕ (UR sig nD τ) ℕ cfg2 c) (hA : dat.A 2 = V c (Pipeline.arrRef spec2 2))
    (hafter : ∀ t, dat.after 2 t = tile2 V c 2 t) (t : Fin cfg2.N) (d) : dat.before 2 t d = tile2 V c 2 t :=
  (dat.before_in_eq_fetched 2 rfl (fun _ => rfl) (fun _ _ _ => rfl) (fun t => by rw [hafter]; unfold Dat.blockOf tile2; rw [hA]; try rfl) t d).trans
    (by unfold Dat.fetched Dat.blockOf tile2; rw [hA]; try rfl)

/-- The whole of each staging buffer, as the rectangle the body reads or writes. -/
abbrev whole2_x : Rect S10000x131 := Rect.unit (s := S10000x131) ![0, 0] S10000x131.size inb_S10000x131_S10000x131_0_0
abbrev whole2_w : Rect S131x128 := Rect.unit (s := S131x128) ![0, 0] S131x128.size inb_S131x128_S131x128_0_0
abbrev whole2_b : Rect S1x128 := Rect.unit (s := S1x128) ![0, 0] S1x128.size inb_S1x128_S1x128_0_0
abbrev whole2_o : Rect S10000x128 := Rect.unit (s := S10000x128) ![0, 0] S10000x128.size inb_S10000x128_S10000x128_0_0

/-- The result tile after the body: the one stored value, the layer's arithmetic on the three input tiles, laid over the
    whole tile. -/
def stored2 (x0 : Vec F S10000x131 .f32) (x1 : Vec F S131x128 .f32) (x2 : Vec F S1x128 .f32) : Vec F S10000x128 .f32 :=
  View.canon [⟨whole2_o, k2_pay1 (View.ld x0 whole2_x) (View.ld x1 whole2_w) (View.ld x2 whole2_b)⟩]

/-- The one store covers the result tile. -/
theorem covers2 (p0 : Vec F S10000x128 .f32) (y : S10000x128.Idx) :
    ∃ pc ∈ ([⟨whole2_o, p0⟩] : List (View.Piece (Elt F) S10000x128 .f32)), y ∈ pc.1.set :=
  View.cover_of_tiled [⟨whole2_o, p0⟩] S10000x128.size (by rfl) y

set_option maxHeartbeats 1000000 in
/-- The body on whole staging buffers: the three inputs at contents `x0 x1 x2`, the result buffer at anything. It runs to
    its end, leaves the inputs as they were and the result buffer at `stored2 x0 x1 x2`. -/
theorem body_runs2 (c : Dev nD) (E : Set ℕ) (i : grid2.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-- The layer's bookkeeping on core `c`: the arrays as the layer finds them; after the body at point `t` every input
    buffer still at its tile and the result buffer at `stored2` of the three tiles; nothing else of the core's state
    is touched, nothing is owed to another core, every buffer is held whole. -/
def data2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => stored2 (tile2 V c 0 t) (tile2 V c 1 t) (tile2 V c 2 t)
  Φ _ := Pipeline.ΦA spec2 c
  q _ := fullShare
  owed _ := 0

theorem arrays2 (c : Dev nD) (w : Fin cfg2.W) : (data2 V c).A w = V c (Pipeline.arrRef spec2 w) := by
  dsimp only [data2]

theorem after2_0 (c : Dev nD) (t : Fin cfg2.N) : (data2 V c).after 0 t = tile2 V c 0 t := by dsimp only [data2]
theorem after2_1 (c : Dev nD) (t : Fin cfg2.N) : (data2 V c).after 1 t = tile2 V c 1 t := by dsimp only [data2]
theorem after2_2 (c : Dev nD) (t : Fin cfg2.N) : (data2 V c).after 2 t = tile2 V c 2 t := by dsimp only [data2]
theorem after2_3 (c : Dev nD) (t : Fin cfg2.N) : (data2 V c).after 3 t = stored2 (tile2 V c 0 t) (tile2 V c 1 t) (tile2 V c 2 t) := by dsimp only [data2]

theorem held2_0 (c : Dev nD) (t : Fin cfg2.N) (d) : (data2 V c).before 0 t d = tile2 V c 0 t :=
  held2_0_of V (data2 V c) (arrays2 V c 0) (after2_0 V c) t d
theorem held2_1 (c : Dev nD) (t : Fin cfg2.N) (d) : (data2 V c).before 1 t d = tile2 V c 1 t :=
  held2_1_of V (data2 V c) (arrays2 V c 1) (after2_1 V c) t d
theorem held2_2 (c : Dev nD) (t : Fin cfg2.N) (d) : (data2 V c).before 2 t d = tile2 V c 2 t :=
  held2_2_of V (data2 V c) (arrays2 V c 2) (after2_2 V c) t d

/-- What the body is handed at point `t`, window by window, -/
def handed2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

/-- and what it hands back. -/
def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

/-- The body at any grid point: its input buffers hold their tiles, so `body_runs2` applies; the rest of the core's
    state passes through unread. -/
theorem body_at2 (c : Dev nD) (t : Fin cfg2.N) :
    handed2 V c t ⊢ wp frame (wpE (defs₀ (F := F)) Variants.none c none) Set.univ (bodyAt2 t) (fun _ => returned2 V c t) := by
  unfold handed2 returned2 bodyAt2
  simp only [held2_0, held2_1, held2_2]
  rw [show (data2 V c).Φ t.succ = (data2 V c).Φ t.castSucc from rfl,
    show (data2 V c).owesAt () t.succ = (data2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body_runs2 c Set.univ _ _ _ _ _ _ _ _ _ (tile2 V c 0 t) (tile2 V c 1 t) (tile2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation2 (c : Dev nD) : BodyObligation (data2 (F := F) V c) (defs₀ (F := F)) Variants.none () Set.univ := fun t => by
  rw [bigSep_W2, bigSep_W2]
  exact body_at2 V c t

end Cert.Kernel.Hand

end
-- ==== Proof.K.Layer3.lean ====
/-
  Linear layer number 3 of the network, one row tile at a time. The layer's four windows are: 0, a tile of 10000 rows of
  the [rows, 256] input matrix (the tile's number is the grid point); 1, the whole [256, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's tile at every grid point, whether the tile was copied in at
    that point or is still there from an earlier one (the tile's number did not change in between). -/
theorem held3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- An input window's staging buffer holds the window's tile at every grid point, whether the tile was copied in at
    that point or is still there from an earlier one (the tile's number did not change in between). -/
theorem held3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-- An input window's staging buffer holds the window's tile at every grid point, whether the tile was copied in at
    that point or is still there from an earlier one (the tile's number did not change in between). -/
theorem held3_2_of {c : Dev nD} (dat : Dat τ (Elt F) Unit ℕ (UR sig nD τ) ℕ cfg3 c) (hA : dat.A 2 = V c (Pipeline.arrRef spec3 2))
    (hafter : ∀ t, dat.after 2 t = tile3 V c 2 t) (t : Fin cfg3.N) (d) : dat.before 2 t d = tile3 V c 2 t :=
  (dat.before_in_eq_fetched 2 rfl (fun _ => rfl) (fun _ _ _ => rfl) (fun t => by rw [hafter]; unfold Dat.blockOf tile3; rw [hA]; try rfl) t d).trans
    (by unfold Dat.fetched Dat.blockOf tile3; rw [hA]; try rfl)

/-- The whole of each staging buffer, as the rectangle the body reads or writes. -/
abbrev whole3_x : Rect S10000x256 := Rect.unit (s := S10000x256) ![0, 0] S10000x256.size inb_S10000x256_S10000x256_0_0
abbrev whole3_w : Rect S256x128 := Rect.unit (s := S256x128) ![0, 0] S256x128.size inb_S256x128_S256x128_0_0
abbrev whole3_b : Rect S1x128 := Rect.unit (s := S1x128) ![0, 0] S1x128.size inb_S1x128_S1x128_0_0
abbrev whole3_o : Rect S10000x128 := Rect.unit (s := S10000x128) ![0, 0] S10000x128.size inb_S10000x128_S10000x128_0_0

/-- The result tile after the body: the one stored value, the layer's arithmetic on the three input tiles, laid over the
    whole tile. -/
def stored3 (x0 : Vec F S10000x256 .f32) (x1 : Vec F S256x128 .f32) (x2 : Vec F S1x128 .f32) : Vec F S10000x128 .f32 :=
  View.canon [⟨whole3_o, k3_pay1 (View.ld x0 whole3_x) (View.ld x1 whole3_w) (View.ld x2 whole3_b)⟩]

/-- The one store covers the result tile. -/
theorem covers3 (p0 : Vec F S10000x128 .f32) (y : S10000x128.Idx) :
    ∃ pc ∈ ([⟨whole3_o, p0⟩] : List (View.Piece (Elt F) S10000x128 .f32)), y ∈ pc.1.set :=
  View.cover_of_tiled [⟨whole3_o, p0⟩] S10000x128.size (by rfl) y

set_option maxHeartbeats 1000000 in
/-- The body on whole staging buffers: the three inputs at contents `x0 x1 x2`, the result buffer at anything. It runs to
    its end, leaves the inputs as they were and the result buffer at `stored3 x0 x1 x2`. -/
theorem body_runs3 (c : Dev nD) (E : Set ℕ) (i : grid3.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers3 _)

/-- The layer's bookkeeping on core `c`: the arrays as the layer finds them; after the body at point `t` every input
    buffer still at its tile and the result buffer at `stored3` of the three tiles; nothing else of the core's state
    is touched, nothing is owed to another core, every buffer is held whole. -/
def data3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => stored3 (tile3 V c 0 t) (tile3 V c 1 t) (tile3 V c 2 t)
  Φ _ := Pipeline.ΦA spec3 c
  q _ := fullShare
  owed _ := 0

theorem arrays3 (c : Dev nD) (w : Fin cfg3.W) : (data3 V c).A w = V c (Pipeline.arrRef spec3 w) := by
  dsimp only [data3]

theorem after3_0 (c : Dev nD) (t : Fin cfg3.N) : (data3 V c).after 0 t = tile3 V c 0 t := by dsimp only [data3]
theorem after3_1 (c : Dev nD) (t : Fin cfg3.N) : (data3 V c).after 1 t = tile3 V c 1 t := by dsimp only [data3]
theorem after3_2 (c : Dev nD) (t : Fin cfg3.N) : (data3 V c).after 2 t = tile3 V c 2 t := by dsimp only [data3]
theorem after3_3 (c : Dev nD) (t : Fin cfg3.N) : (data3 V c).after 3 t = stored3 (tile3 V c 0 t) (tile3 V c 1 t) (tile3 V c 2 t) := by dsimp only [data3]

theorem held3_0 (c : Dev nD) (t : Fin cfg3.N) (d) : (data3 V c).before 0 t d = tile3 V c 0 t :=
  held3_0_of V (data3 V c) (arrays3 V c 0) (after3_0 V c) t d
theorem held3_1 (c : Dev nD) (t : Fin cfg3.N) (d) : (data3 V c).before 1 t d = tile3 V c 1 t :=
  held3_1_of V (data3 V c) (arrays3 V c 1) (after3_1 V c) t d
theorem held3_2 (c : Dev nD) (t : Fin cfg3.N) (d) : (data3 V c).before 2 t d = tile3 V c 2 t :=
  held3_2_of V (data3 V c) (arrays3 V c 2) (after3_2 V c) t d

/-- What the body is handed at point `t`, window by window, -/
def handed3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d)))

/-- and what it hands back. -/
def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t))

/-- The body at any grid point: its input buffers hold their tiles, so `body_runs3` applies; the rest of the core's
    state passes through unread. -/
theorem body_at3 (c : Dev nD) (t : Fin cfg3.N) :
    handed3 V c t ⊢ wp frame (wpE (defs₀ (F := F)) Variants.none c none) Set.univ (bodyAt3 t) (fun _ => returned3 V c t) := by
  unfold handed3 returned3 bodyAt3
  simp only [held3_0, held3_1, held3_2]
  rw [show (data3 V c).Φ t.succ = (data3 V c).Φ t.castSucc from rfl,
    show (data3 V c).owesAt () t.succ = (data3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (body_runs3 c Set.univ _ _ _ _ _ _ _ _ _ (tile3 V c 0 t) (tile3 V c 1 t) (tile3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation3 (c : Dev nD) : BodyObligation (data3 (F := F) V c) (defs₀ (F := F)) Variants.none () Set.univ := fun t => by
  rw [bigSep_W3, bigSep_W3]
  exact body_at3 V c t

end Cert.Kernel.Hand

end
-- ==== Proof.K.Layer4.lean ====
/-
  Linear layer number 4 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's tile at every grid point, whether the tile was copied in at
    that point or is still there from an earlier one (the tile's number did not change in between). -/
theorem held4_0_of {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

/-- An input window's staging buffer holds the window's tile at every grid point, whether the tile was copied in at
    that point or is still there from an earlier one (the tile's number did not change in between). -/
theorem held4_1_of {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)

/-- An input window's staging buffer holds the window's tile at every grid point, whether the tile was copied in at
    that point or is still there from an earlier one (the tile's number did not change in between). -/
theorem held4_2_of {c : Dev nD} (dat : Dat τ (Elt F) Unit ℕ (UR sig nD τ) ℕ cfg4 c) (hA : dat.A 2 = V c (Pipeline.arrRef spec4 2))
    (hafter : ∀ t, dat.after 2 t = tile4 V c 2 t) (t : Fin cfg4.N) (d) : dat.before 2 t d = tile4 V c 2 t :=
  (dat.before_in_eq_fetched 2 rfl (fun _ => rfl) (fun _ _ _ => rfl) (fun t => by rw [hafter]; unfold Dat.blockOf tile4; rw [hA]; try rfl) t d).trans
    (by unfold Dat.fetched Dat.blockOf tile4; rw [hA]; try rfl)

/-- The whole of each staging buffer, as the rectangle the body reads or writes. -/
abbrev whole4_x : Rect S10000x131 := Rect.unit (s := S10000x131) ![0, 0] S10000x131.size inb_S10000x131_S10000x131_0_0
abbrev whole4_w : Rect S131x128 := Rect.unit (s := S131x128) ![0, 0] S131x128.size inb_S131x128_S131x128_0_0
abbrev whole4_b : Rect S1x128 := Rect.unit (s := S1x128) ![0, 0] S1x128.size inb_S1x128_S1x128_0_0
abbrev whole4_o : Rect S10000x128 := Rect.unit (s := S10000x128) ![0, 0] S10000x128.size inb_S10000x128_S10000x128_0_0

/-- The result tile after the body: the one stored value, the layer's arithmetic on the three input tiles, laid over the
    whole tile. -/
def stored4 (x0 : Vec F S10000x131 .f32) (x1 : Vec F S131x128 .f32) (x2 : Vec F S1x128 .f32) : Vec F S10000x128 .f32 :=
  View.canon [⟨whole4_o, k4_pay1 (View.ld x0 whole4_x) (View.ld x1 whole4_w) (View.ld x2 whole4_b)⟩]

/-- The one store covers the result tile. -/
theorem covers4 (p0 : Vec F S10000x128 .f32) (y : S10000x128.Idx) :
    ∃ pc ∈ ([⟨whole4_o, p0⟩] : List (View.Piece (Elt F) S10000x128 .f32)), y ∈ pc.1.set :=
  View.cover_of_tiled [⟨whole4_o, p0⟩] S10000x128.size (by rfl) y

set_option maxHeartbeats 1000000 in
/-- The body on whole staging buffers: the three inputs at contents `x0 x1 x2`, the result buffer at anything. It runs to
    its end, leaves the inputs as they were and the result buffer at `stored4 x0 x1 x2`. -/
theorem body_runs4 (c : Dev nD) (E : Set ℕ) (i : grid4.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored4 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers4 _)

/-- The layer's bookkeeping on core `c`: the arrays as the layer finds them; after the body at point `t` every input
    buffer still at its tile and the result buffer at `stored4` of the three tiles; nothing else of the core's state
    is touched, nothing is owed to another core, every buffer is held whole. -/
def data4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => stored4 (tile4 V c 0 t) (tile4 V c 1 t) (tile4 V c 2 t)
  Φ _ := Pipeline.ΦA spec4 c
  q _ := fullShare
  owed _ := 0

theorem arrays4 (c : Dev nD) (w : Fin cfg4.W) : (data4 V c).A w = V c (Pipeline.arrRef spec4 w) := by
  dsimp only [data4]

theorem after4_0 (c : Dev nD) (t : Fin cfg4.N) : (data4 V c).after 0 t = tile4 V c 0 t := by dsimp only [data4]
theorem after4_1 (c : Dev nD) (t : Fin cfg4.N) : (data4 V c).after 1 t = tile4 V c 1 t := by dsimp only [data4]
theorem after4_2 (c : Dev nD) (t : Fin cfg4.N) : (data4 V c).after 2 t = tile4 V c 2 t := by dsimp only [data4]
theorem after4_3 (c : Dev nD) (t : Fin cfg4.N) : (data4 V c).after 3 t = stored4 (tile4 V c 0 t) (tile4 V c 1 t) (tile4 V c 2 t) := by dsimp only [data4]

theorem held4_0 (c : Dev nD) (t : Fin cfg4.N) (d) : (data4 V c).before 0 t d = tile4 V c 0 t :=
  held4_0_of V (data4 V c) (arrays4 V c 0) (after4_0 V c) t d
theorem held4_1 (c : Dev nD) (t : Fin cfg4.N) (d) : (data4 V c).before 1 t d = tile4 V c 1 t :=
  held4_1_of V (data4 V c) (arrays4 V c 1) (after4_1 V c) t d
theorem held4_2 (c : Dev nD) (t : Fin cfg4.N) (d) : (data4 V c).before 2 t d = tile4 V c 2 t :=
  held4_2_of V (data4 V c) (arrays4 V c 2) (after4_2 V c) t d

/-- What the body is handed at point `t`, window by window, -/
def handed4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d))
    ∗ (∃ d, owns (c : Thread nD τ) (st4_3 t) fullShare ((data4 V c).before 3 t d)))

/-- and what it hands back. -/
def returned4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t)
    ∗ owns (c : Thread nD τ) (st4_3 t) fullShare ((data4 V c).after 3 t))

/-- The body at any grid point: its input buffers hold their tiles, so `body_runs4` applies; the rest of the core's
    state passes through unread. -/
theorem body_at4 (c : Dev nD) (t : Fin cfg4.N) :
    handed4 V c t ⊢ wp frame (wpE (defs₀ (F := F)) Variants.none c none) Set.univ (bodyAt4 t) (fun _ => returned4 V c t) := by
  unfold handed4 returned4 bodyAt4
  simp only [held4_0, held4_1, held4_2]
  rw [show (data4 V c).Φ t.succ = (data4 V c).Φ t.castSucc from rfl,
    show (data4 V c).owesAt () t.succ = (data4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body_runs4 c Set.univ _ _ _ _ _ _ _ _ _ (tile4 V c 0 t) (tile4 V c 1 t) (tile4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation4 (c : Dev nD) : BodyObligation (data4 (F := F) V c) (defs₀ (F := F)) Variants.none () Set.univ := fun t => by
  rw [bigSep_W4, bigSep_W4]
  exact body_at4 V c t

end Cert.Kernel.Hand

end
-- ==== Proof.K.Layer5.lean ====
/-
  Linear layer number 5 of the network, one row tile at a time. The layer's four windows are: 0, a tile of 10000 rows of
  the [rows, 256] input matrix (the tile's number is the grid point); 1, the whole [256, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's tile at every grid point, whether the tile was copied in at
    that point or is still there from an earlier one (the tile's number did not change in between). -/
theorem held5_0_of {c : Dev nD} (dat : Dat τ (Elt F) Unit ℕ (UR sig nD τ) ℕ cfg5 c) (hA : dat.A 0 = V c (Pipeline.arrRef spec5 0))
    (hafter : ∀ t, dat.after 0 t = tile5 V c 0 t) (t : Fin cfg5.N) (d) : dat.before 0 t d = tile5 V c 0 t :=
  (dat.before_in_eq_fetched 0 rfl (fun _ => rfl) (fun _ _ _ => rfl) (fun t => by rw [hafter]; unfold Dat.blockOf tile5; rw [hA]; try rfl) t d).trans
    (by unfold Dat.fetched Dat.blockOf tile5; rw [hA]; try rfl)

/-- An input window's staging buffer holds the window's tile at every grid point, whether the tile was copied in at
    that point or is still there from an earlier one (the tile's number did not change in between). -/
theorem held5_1_of {c : Dev nD} (dat : Dat τ (Elt F) Unit ℕ (UR sig nD τ) ℕ cfg5 c) (hA : dat.A 1 = V c (Pipeline.arrRef spec5 1))
    (hafter : ∀ t, dat.after 1 t = tile5 V c 1 t) (t : Fin cfg5.N) (d) : dat.before 1 t d = tile5 V c 1 t :=
  (dat.before_in_eq_fetched 1 rfl (fun _ => rfl) (fun _ _ _ => rfl) (fun t => by rw [hafter]; unfold Dat.blockOf tile5; rw [hA]; try rfl) t d).trans
    (by unfold Dat.fetched Dat.blockOf tile5; rw [hA]; try rfl)

/-- An input window's staging buffer holds the window's tile at every grid point, whether the tile was copied in at
    that point or is still there from an earlier one (the tile's number did not change in between). -/
theorem held5_2_of {c : Dev nD} (dat : Dat τ (Elt F) Unit ℕ (UR sig nD τ) ℕ cfg5 c) (hA : dat.A 2 = V c (Pipeline.arrRef spec5 2))
    (hafter : ∀ t, dat.after 2 t = tile5 V c 2 t) (t : Fin cfg5.N) (d) : dat.before 2 t d = tile5 V c 2 t :=
  (dat.before_in_eq_fetched 2 rfl (fun _ => rfl) (fun _ _ _ => rfl) (fun t => by rw [hafter]; unfold Dat.blockOf tile5; rw [hA]; try rfl) t d).trans
    (by unfold Dat.fetched Dat.blockOf tile5; rw [hA]; try rfl)

/-- The whole of each staging buffer, as the rectangle the body reads or writes. -/
abbrev whole5_x : Rect S10000x256 := Rect.unit (s := S10000x256) ![0, 0] S10000x256.size inb_S10000x256_S10000x256_0_0
abbrev whole5_w : Rect S256x128 := Rect.unit (s := S256x128) ![0, 0] S256x128.size inb_S256x128_S256x128_0_0
abbrev whole5_b : Rect S1x128 := Rect.unit (s := S1x128) ![0, 0] S1x128.size inb_S1x128_S1x128_0_0
abbrev whole5_o : Rect S10000x128 := Rect.unit (s := S10000x128) ![0, 0] S10000x128.size inb_S10000x128_S10000x128_0_0

/-- The result tile after the body: the one stored value, the layer's arithmetic on the three input tiles, laid over the
    whole tile. -/
def stored5 (x0 : Vec F S10000x256 .f32) (x1 : Vec F S256x128 .f32) (x2 : Vec F S1x128 .f32) : Vec F S10000x128 .f32 :=
  View.canon [⟨whole5_o, k5_pay1 (View.ld x0 whole5_x) (View.ld x1 whole5_w) (View.ld x2 whole5_b)⟩]

/-- The one store covers the result tile. -/
theorem covers5 (p0 : Vec F S10000x128 .f32) (y : S10000x128.Idx) :
    ∃ pc ∈ ([⟨whole5_o, p0⟩] : List (View.Piece (Elt F) S10000x128 .f32)), y ∈ pc.1.set :=
  View.cover_of_tiled [⟨whole5_o, p0⟩] S10000x128.size (by rfl) y

set_option maxHeartbeats 1000000 in
/-- The body on whole staging buffers: the three inputs at contents `x0 x1 x2`, the result buffer at anything. It runs to
    its end, leaves the inputs as they were and the result buffer at `stored5 x0 x1 x2`. -/
theorem body_runs5 (c : Dev nD) (E : Set ℕ) (i : grid5.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored5 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers5 _)

/-- The layer's bookkeeping on core `c`: the arrays as the layer finds them; after the body at point `t` every input
    buffer still at its tile and the result buffer at `stored5` of the three tiles; nothing else of the core's state
    is touched, nothing is owed to another core, every buffer is held whole. -/
def data5 (c : Dev nD) : Dat τ (Elt F) Unit ℕ (UR sig nD τ) ℕ cfg5 c where
  A w := V c (Pipeline.arrRef spec5 w)
  after w t := match w with
    | ⟨0, _⟩ => tile5 V c 0 t
    | ⟨1, _⟩ => tile5 V c 1 t
    | ⟨2, _⟩ => tile5 V c 2 t
    | ⟨3, _⟩ => stored5 (tile5 V c 0 t) (tile5 V c 1 t) (tile5 V c 2 t)
  Φ _ := Pipeline.ΦA spec5 c
  q _ := fullShare
  owed _ := 0

theorem arrays5 (c : Dev nD) (w : Fin cfg5.W) : (data5 V c).A w = V c (Pipeline.arrRef spec5 w) := by
  dsimp only [data5]

theorem after5_0 (c : Dev nD) (t : Fin cfg5.N) : (data5 V c).after 0 t = tile5 V c 0 t := by dsimp only [data5]
theorem after5_1 (c : Dev nD) (t : Fin cfg5.N) : (data5 V c).after 1 t = tile5 V c 1 t := by dsimp only [data5]
theorem after5_2 (c : Dev nD) (t : Fin cfg5.N) : (data5 V c).after 2 t = tile5 V c 2 t := by dsimp only [data5]
theorem after5_3 (c : Dev nD) (t : Fin cfg5.N) : (data5 V c).after 3 t = stored5 (tile5 V c 0 t) (tile5 V c 1 t) (tile5 V c 2 t) := by dsimp only [data5]

theorem held5_0 (c : Dev nD) (t : Fin cfg5.N) (d) : (data5 V c).before 0 t d = tile5 V c 0 t :=
  held5_0_of V (data5 V c) (arrays5 V c 0) (after5_0 V c) t d
theorem held5_1 (c : Dev nD) (t : Fin cfg5.N) (d) : (data5 V c).before 1 t d = tile5 V c 1 t :=
  held5_1_of V (data5 V c) (arrays5 V c 1) (after5_1 V c) t d
theorem held5_2 (c : Dev nD) (t : Fin cfg5.N) (d) : (data5 V c).before 2 t d = tile5 V c 2 t :=
  held5_2_of V (data5 V c) (arrays5 V c 2) (after5_2 V c) t d

/-- What the body is handed at point `t`, window by window, -/
def handed5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d))
    ∗ (∃ d, owns (c : Thread nD τ) (st5_3 t) fullShare ((data5 V c).before 3 t d)))

/-- and what it hands back. -/
def returned5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t)
    ∗ owns (c : Thread nD τ) (st5_3 t) fullShare ((data5 V c).after 3 t))

/-- The body at any grid point: its input buffers hold their tiles, so `body_runs5` applies; the rest of the core's
    state passes through unread. -/
theorem body_at5 (c : Dev nD) (t : Fin cfg5.N) :
    handed5 V c t ⊢ wp frame (wpE (defs₀ (F := F)) Variants.none c none) Set.univ (bodyAt5 t) (fun _ => returned5 V c t) := by
  unfold handed5 returned5 bodyAt5
  simp only [held5_0, held5_1, held5_2]
  rw [show (data5 V c).Φ t.succ = (data5 V c).Φ t.castSucc from rfl,
    show (data5 V c).owesAt () t.succ = (data5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (body_runs5 c Set.univ _ _ _ _ _ _ _ _ _ (tile5 V c 0 t) (tile5 V c 1 t) (tile5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation5 (c : Dev nD) : BodyObligation (data5 (F := F) V c) (defs₀ (F := F)) Variants.none () Set.univ := fun t => by
  rw [bigSep_W5, bigSep_W5]
  exact body_at5 V c t

end Cert.Kernel.Hand

end
-- ==== Proof.K.Layer6.lean ====
/-
  Linear layer number 6 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's tile at every grid point, whether the tile was copied in at
    that point or is still there from an earlier one (the tile's number did not change in between). -/
theorem held6_0_of {c : Dev nD} (dat : Dat τ (Elt F) Unit ℕ (UR sig nD τ) ℕ cfg6 c) (hA : dat.A 0 = V c (Pipeline.arrRef spec6 0))
    (hafter : ∀ t, dat.after 0 t = tile6 V c 0 t) (t : Fin cfg6.N) (d) : dat.before 0 t d = tile6 V c 0 t :=
  (dat.before_in_eq_fetched 0 rfl (fun _ => rfl) (fun _ _ _ => rfl) (fun t => by rw [hafter]; unfold Dat.blockOf tile6; rw [hA]; try rfl) t d).trans
    (by unfold Dat.fetched Dat.blockOf tile6; rw [hA]; try rfl)

/-- An input window's staging buffer holds the window's tile at every grid point, whether the tile was copied in at
    that point or is still there from an earlier one (the tile's number did not change in between). -/
theorem held6_1_of {c : Dev nD} (dat : Dat τ (Elt F) Unit ℕ (UR sig nD τ) ℕ cfg6 c) (hA : dat.A 1 = V c (Pipeline.arrRef spec6 1))
    (hafter : ∀ t, dat.after 1 t = tile6 V c 1 t) (t : Fin cfg6.N) (d) : dat.before 1 t d = tile6 V c 1 t :=
  (dat.before_in_eq_fetched 1 rfl (fun _ => rfl) (fun _ _ _ => rfl) (fun t => by rw [hafter]; unfold Dat.blockOf tile6; rw [hA]; try rfl) t d).trans
    (by unfold Dat.fetched Dat.blockOf tile6; rw [hA]; try rfl)

/-- An input window's staging buffer holds the window's tile at every grid point, whether the tile was copied in at
    that point or is still there from an earlier one (the tile's number did not change in between). -/
theorem held6_2_of {c : Dev nD} (dat : Dat τ (Elt F) Unit ℕ (UR sig nD τ) ℕ cfg6 c) (hA : dat.A 2 = V c (Pipeline.arrRef spec6 2))
    (hafter : ∀ t, dat.after 2 t = tile6 V c 2 t) (t : Fin cfg6.N) (d) : dat.before 2 t d = tile6 V c 2 t :=
  (dat.before_in_eq_fetched 2 rfl (fun _ => rfl) (fun _ _ _ => rfl) (fun t => by rw [hafter]; unfold Dat.blockOf tile6; rw [hA]; try rfl) t d).trans
    (by unfold Dat.fetched Dat.blockOf tile6; rw [hA]; try rfl)

/-- The whole of each staging buffer, as the rectangle the body reads or writes. -/
abbrev whole6_x : Rect S10000x131 := Rect.unit (s := S10000x131) ![0, 0] S10000x131.size inb_S10000x131_S10000x131_0_0
abbrev whole6_w : Rect S131x128 := Rect.unit (s := S131x128) ![0, 0] S131x128.size inb_S131x128_S131x128_0_0
abbrev whole6_b : Rect S1x128 := Rect.unit (s := S1x128) ![0, 0] S1x128.size inb_S1x128_S1x128_0_0
abbrev whole6_o : Rect S10000x128 := Rect.unit (s := S10000x128) ![0, 0] S10000x128.size inb_S10000x128_S10000x128_0_0

/-- The result tile after the body: the one stored value, the layer's arithmetic on the three input tiles, laid over the
    whole tile. -/
def stored6 (x0 : Vec F S10000x131 .f32) (x1 : Vec F S131x128 .f32) (x2 : Vec F S1x128 .f32) : Vec F S10000x128 .f32 :=
  View.canon [⟨whole6_o, k6_pay1 (View.ld x0 whole6_x) (View.ld x1 whole6_w) (View.ld x2 whole6_b)⟩]

/-- The one store covers the result tile. -/
theorem covers6 (p0 : Vec F S10000x128 .f32) (y : S10000x128.Idx) :
    ∃ pc ∈ ([⟨whole6_o, p0⟩] : List (View.Piece (Elt F) S10000x128 .f32)), y ∈ pc.1.set :=
  View.cover_of_tiled [⟨whole6_o, p0⟩] S10000x128.size (by rfl) y

set_option maxHeartbeats 1000000 in
/-- The body on whole staging buffers: the three inputs at contents `x0 x1 x2`, the result buffer at anything. It runs to
    its end, leaves the inputs as they were and the result buffer at `stored6 x0 x1 x2`. -/
theorem body_runs6 (c : Dev nD) (E : Set ℕ) (i : grid6.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored6 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers6 _)

/-- The layer's bookkeeping on core `c`: the arrays as the layer finds them; after the body at point `t` every input
    buffer still at its tile and the result buffer at `stored6` of the three tiles; nothing else of the core's state
    is touched, nothing is owed to another core, every buffer is held whole. -/
def data6 (c : Dev nD) : Dat τ (Elt F) Unit ℕ (UR sig nD τ) ℕ cfg6 c where
  A w := V c (Pipeline.arrRef spec6 w)
  after w t := match w with
    | ⟨0, _⟩ => tile6 V c 0 t
    | ⟨1, _⟩ => tile6 V c 1 t
    | ⟨2, _⟩ => tile6 V c 2 t
    | ⟨3, _⟩ => stored6 (tile6 V c 0 t) (tile6 V c 1 t) (tile6 V c 2 t)
  Φ _ := Pipeline.ΦA spec6 c
  q _ := fullShare
  owed _ := 0

theorem arrays6 (c : Dev nD) (w : Fin cfg6.W) : (data6 V c).A w = V c (Pipeline.arrRef spec6 w) := by
  dsimp only [data6]

theorem after6_0 (c : Dev nD) (t : Fin cfg6.N) : (data6 V c).after 0 t = tile6 V c 0 t := by dsimp only [data6]
theorem after6_1 (c : Dev nD) (t : Fin cfg6.N) : (data6 V c).after 1 t = tile6 V c 1 t := by dsimp only [data6]
theorem after6_2 (c : Dev nD) (t : Fin cfg6.N) : (data6 V c).after 2 t = tile6 V c 2 t := by dsimp only [data6]
theorem after6_3 (c : Dev nD) (t : Fin cfg6.N) : (data6 V c).after 3 t = stored6 (tile6 V c 0 t) (tile6 V c 1 t) (tile6 V c 2 t) := by dsimp only [data6]

theorem held6_0 (c : Dev nD) (t : Fin cfg6.N) (d) : (data6 V c).before 0 t d = tile6 V c 0 t :=
  held6_0_of V (data6 V c) (arrays6 V c 0) (after6_0 V c) t d
theorem held6_1 (c : Dev nD) (t : Fin cfg6.N) (d) : (data6 V c).before 1 t d = tile6 V c 1 t :=
  held6_1_of V (data6 V c) (arrays6 V c 1) (after6_1 V c) t d
theorem held6_2 (c : Dev nD) (t : Fin cfg6.N) (d) : (data6 V c).before 2 t d = tile6 V c 2 t :=
  held6_2_of V (data6 V c) (arrays6 V c 2) (after6_2 V c) t d

/-- What the body is handed at point `t`, window by window, -/
def handed6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d))
    ∗ (∃ d, owns (c : Thread nD τ) (st6_3 t) fullShare ((data6 V c).before 3 t d)))

/-- and what it hands back. -/
def returned6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t)
    ∗ owns (c : Thread nD τ) (st6_3 t) fullShare ((data6 V c).after 3 t))

/-- The body at any grid point: its input buffers hold their tiles, so `body_runs6` applies; the rest of the core's
    state passes through unread. -/
theorem body_at6 (c : Dev nD) (t : Fin cfg6.N) :
    handed6 V c t ⊢ wp frame (wpE (defs₀ (F := F)) Variants.none c none) Set.univ (bodyAt6 t) (fun _ => returned6 V c t) := by
  unfold handed6 returned6 bodyAt6
  simp only [held6_0, held6_1, held6_2]
  rw [show (data6 V c).Φ t.succ = (data6 V c).Φ t.castSucc from rfl,
    show (data6 V c).owesAt () t.succ = (data6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (body_runs6 c Set.univ _ _ _ _ _ _ _ _ _ (tile6 V c 0 t) (tile6 V c 1 t) (tile6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation6 (c : Dev nD) : BodyObligation (data6 (F := F) V c) (defs₀ (F := F)) Variants.none () Set.univ := fun t => by
  rw [bigSep_W6, bigSep_W6]
  exact body_at6 V c t

end Cert.Kernel.Hand

end
-- ==== Proof.K.Layer7.lean ====
/-
  Linear layer number 7 of the network, one row tile at a time. The layer's four windows are: 0, a tile of 10000 rows of
  the [rows, 256] input matrix (the tile's number is the grid point); 1, the whole [256, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's tile at every grid point, whether the tile was copied in at
    that point or is still there from an earlier one (the tile's number did not change in between). -/
theorem held7_0_of {c : Dev nD} (dat : Dat τ (Elt F) Unit ℕ (UR sig nD τ) ℕ cfg7 c) (hA : dat.A 0 = V c (Pipeline.arrRef spec7 0))
    (hafter : ∀ t, dat.after 0 t = tile7 V c 0 t) (t : Fin cfg7.N) (d) : dat.before 0 t d = tile7 V c 0 t :=
  (dat.before_in_eq_fetched 0 rfl (fun _ => rfl) (fun _ _ _ => rfl) (fun t => by rw [hafter]; unfold Dat.blockOf tile7; rw [hA]; try rfl) t d).trans
    (by unfold Dat.fetched Dat.blockOf tile7; rw [hA]; try rfl)

/-- An input window's staging buffer holds the window's tile at every grid point, whether the tile was copied in at
    that point or is still there from an earlier one (the tile's number did not change in between). -/
theorem held7_1_of {c : Dev nD} (dat : Dat τ (Elt F) Unit ℕ (UR sig nD τ) ℕ cfg7 c) (hA : dat.A 1 = V c (Pipeline.arrRef spec7 1))
    (hafter : ∀ t, dat.after 1 t = tile7 V c 1 t) (t : Fin cfg7.N) (d) : dat.before 1 t d = tile7 V c 1 t :=
  (dat.before_in_eq_fetched 1 rfl (fun _ => rfl) (fun _ _ _ => rfl) (fun t => by rw [hafter]; unfold Dat.blockOf tile7; rw [hA]; try rfl) t d).trans
    (by unfold Dat.fetched Dat.blockOf tile7; rw [hA]; try rfl)

/-- An input window's staging buffer holds the window's tile at every grid point, whether the tile was copied in at
    that point or is still there from an earlier one (the tile's number did not change in between). -/
theorem held7_2_of {c : Dev nD} (dat : Dat τ (Elt F) Unit ℕ (UR sig nD τ) ℕ cfg7 c) (hA : dat.A 2 = V c (Pipeline.arrRef spec7 2))
    (hafter : ∀ t, dat.after 2 t = tile7 V c 2 t) (t : Fin cfg7.N) (d) : dat.before 2 t d = tile7 V c 2 t :=
  (dat.before_in_eq_fetched 2 rfl (fun _ => rfl) (fun _ _ _ => rfl) (fun t => by rw [hafter]; unfold Dat.blockOf tile7; rw [hA]; try rfl) t d).trans
    (by unfold Dat.fetched Dat.blockOf tile7; rw [hA]; try rfl)

/-- The whole of each staging buffer, as the rectangle the body reads or writes. -/
abbrev whole7_x : Rect S10000x256 := Rect.unit (s := S10000x256) ![0, 0] S10000x256.size inb_S10000x256_S10000x256_0_0
abbrev whole7_w : Rect S256x128 := Rect.unit (s := S256x128) ![0, 0] S256x128.size inb_S256x128_S256x128_0_0
abbrev whole7_b : Rect S1x128 := Rect.unit (s := S1x128) ![0, 0] S1x128.size inb_S1x128_S1x128_0_0
abbrev whole7_o : Rect S10000x128 := Rect.unit (s := S10000x128) ![0, 0] S10000x128.size inb_S10000x128_S10000x128_0_0

/-- The result tile after the body: the one stored value, the layer's arithmetic on the three input tiles, laid over the
    whole tile. -/
def stored7 (x0 : Vec F S10000x256 .f32) (x1 : Vec F S256x128 .f32) (x2 : Vec F S1x128 .f32) : Vec F S10000x128 .f32 :=
  View.canon [⟨whole7_o, k7_pay1 (View.ld x0 whole7_x) (View.ld x1 whole7_w) (View.ld x2 whole7_b)⟩]

/-- The one store covers the result tile. -/
theorem covers7 (p0 : Vec F S10000x128 .f32) (y : S10000x128.Idx) :
    ∃ pc ∈ ([⟨whole7_o, p0⟩] : List (View.Piece (Elt F) S10000x128 .f32)), y ∈ pc.1.set :=
  View.cover_of_tiled [⟨whole7_o, p0⟩] S10000x128.size (by rfl) y

set_option maxHeartbeats 1000000 in
/-- The body on whole staging buffers: the three inputs at contents `x0 x1 x2`, the result buffer at anything. It runs to
    its end, leaves the inputs as they were and the result buffer at `stored7 x0 x1 x2`. -/
theorem body_runs7 (c : Dev nD) (E : Set ℕ) (i : grid7.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored7 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers7 _)

/-- The layer's bookkeeping on core `c`: the arrays as the layer finds them; after the body at point `t` every input
    buffer still at its tile and the result buffer at `stored7` of the three tiles; nothing else of the core's state
    is touched, nothing is owed to another core, every buffer is held whole. -/
def data7 (c : Dev nD) : Dat τ (Elt F) Unit ℕ (UR sig nD τ) ℕ cfg7 c where
  A w := V c (Pipeline.arrRef spec7 w)
  after w t := match w with
    | ⟨0, _⟩ => tile7 V c 0 t
    | ⟨1, _⟩ => tile7 V c 1 t
    | ⟨2, _⟩ => tile7 V c 2 t
    | ⟨3, _⟩ => stored7 (tile7 V c 0 t) (tile7 V c 1 t) (tile7 V c 2 t)
  Φ _ := Pipeline.ΦA spec7 c
  q _ := fullShare
  owed _ := 0

theorem arrays7 (c : Dev nD) (w : Fin cfg7.W) : (data7 V c).A w = V c (Pipeline.arrRef spec7 w) := by
  dsimp only [data7]

theorem after7_0 (c : Dev nD) (t : Fin cfg7.N) : (data7 V c).after 0 t = tile7 V c 0 t := by dsimp only [data7]
theorem after7_1 (c : Dev nD) (t : Fin cfg7.N) : (data7 V c).after 1 t = tile7 V c 1 t := by dsimp only [data7]
theorem after7_2 (c : Dev nD) (t : Fin cfg7.N) : (data7 V c).after 2 t = tile7 V c 2 t := by dsimp only [data7]
theorem after7_3 (c : Dev nD) (t : Fin cfg7.N) : (data7 V c).after 3 t = stored7 (tile7 V c 0 t) (tile7 V c 1 t) (tile7 V c 2 t) := by dsimp only [data7]

theorem held7_0 (c : Dev nD) (t : Fin cfg7.N) (d) : (data7 V c).before 0 t d = tile7 V c 0 t :=
  held7_0_of V (data7 V c) (arrays7 V c 0) (after7_0 V c) t d
theorem held7_1 (c : Dev nD) (t : Fin cfg7.N) (d) : (data7 V c).before 1 t d = tile7 V c 1 t :=
  held7_1_of V (data7 V c) (arrays7 V c 1) (after7_1 V c) t d
theorem held7_2 (c : Dev nD) (t : Fin cfg7.N) (d) : (data7 V c).before 2 t d = tile7 V c 2 t :=
  held7_2_of V (data7 V c) (arrays7 V c 2) (after7_2 V c) t d

/-- What the body is handed at point `t`, window by window, -/
def handed7 (c : Dev nD) (t : Fin cfg7.N) : sProp 𝕄 :=
  iprop((data7 V c).Φ t.castSucc ∗ (data7 V c).owesAt () t.castSucc
    ∗ (∃ d, owns (c : Thread nD τ) (st7_0 t) fullShare ((data7 V c).before 0 t d))
    ∗ (∃ d, owns (c : Thread nD τ) (st7_1 t) fullShare ((data7 V c).before 1 t d))
    ∗ (∃ d, owns (c : Thread nD τ) (st7_2 t) fullShare ((data7 V c).before 2 t d))
    ∗ (∃ d, owns (c : Thread nD τ) (st7_3 t) fullShare ((data7 V c).before 3 t d)))

/-- and what it hands back. -/
def returned7 (c : Dev nD) (t : Fin cfg7.N) : sProp 𝕄 :=
  iprop((data7 V c).Φ t.succ ∗ (data7 V c).owesAt () t.succ
    ∗ owns (c : Thread nD τ) (st7_0 t) fullShare ((data7 V c).after 0 t)
    ∗ owns (c : Thread nD τ) (st7_1 t) fullShare ((data7 V c).after 1 t)
    ∗ owns (c : Thread nD τ) (st7_2 t) fullShare ((data7 V c).after 2 t)
    ∗ owns (c : Thread nD τ) (st7_3 t) fullShare ((data7 V c).after 3 t))

/-- The body at any grid point: its input buffers hold their tiles, so `body_runs7` applies; the rest of the core's
    state passes through unread. -/
theorem body_at7 (c : Dev nD) (t : Fin cfg7.N) :
    handed7 V c t ⊢ wp frame (wpE (defs₀ (F := F)) Variants.none c none) Set.univ (bodyAt7 t) (fun _ => returned7 V c t) := by
  unfold handed7 returned7 bodyAt7
  simp only [held7_0, held7_1, held7_2]
  rw [show (data7 V c).Φ t.succ = (data7 V c).Φ t.castSucc from rfl,
    show (data7 V c).owesAt () t.succ = (data7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (body_runs7 c Set.univ _ _ _ _ _ _ _ _ _ (tile7 V c 0 t) (tile7 V c 1 t) (tile7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation7 (c : Dev nD) : BodyObligation (data7 (F := F) V c) (defs₀ (F := F)) Variants.none () Set.univ := fun t => by
  rw [bigSep_W7, bigSep_W7]
  exact body_at7 V c t

end Cert.Kernel.Hand

end
-- ==== Proof.K.Layer8.lean ====
/-
  Linear layer number 8 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds the window's tile at every grid point, whether the tile was copied in at
    that point or is still there from an earlier one (the tile's number did not change in between). -/
theorem held8_0_of {c : Dev nD} (dat : Dat τ (Elt F) Unit ℕ (UR sig nD τ) ℕ cfg8 c) (hA : dat.A 0 = V c (Pipeline.arrRef spec8 0))
    (hafter : ∀ t, dat.after 0 t = tile8 V c 0 t) (t : Fin cfg8.N) (d) : dat.before 0 t d = tile8 V c 0 t :=
  (dat.before_in_eq_fetched 0 rfl (fun _ => rfl) (fun _ _ _ => rfl) (fun t => by rw [hafter]; unfold Dat.blockOf tile8; rw [hA]; try rfl) t d).trans
    (by unfold Dat.fetched Dat.blockOf tile8; rw [hA]; try rfl)

/-- An input window's staging buffer holds the window's tile at every grid point, whether the tile was copied in at
    that point or is still there from an earlier one (the tile's number did not change in between). -/
theorem held8_1_of {c : Dev nD} (dat : Dat τ (Elt F) Unit ℕ (UR sig nD τ) ℕ cfg8 c) (hA : dat.A 1 = V c (Pipeline.arrRef spec8 1))
    (hafter : ∀ t, dat.after 1 t = tile8 V c 1 t) (t : Fin cfg8.N) (d) : dat.before 1 t d = tile8 V c 1 t :=
  (dat.before_in_eq_fetched 1 rfl (fun _ => rfl) (fun _ _ _ => rfl) (fun t => by rw [hafter]; unfold Dat.blockOf tile8; rw [hA]; try rfl) t d).trans
    (by unfold Dat.fetched Dat.blockOf tile8; rw [hA]; try rfl)

/-- An input window's staging buffer holds the window's tile at every grid point, whether the tile was copied in at
    that point or is still there from an earlier one (the tile's number did not change in between). -/
theorem held8_2_of {c : Dev nD} (dat : Dat τ (Elt F) Unit ℕ (UR sig nD τ) ℕ cfg8 c) (hA : dat.A 2 = V c (Pipeline.arrRef spec8 2))
    (hafter : ∀ t, dat.after 2 t = tile8 V c 2 t) (t : Fin cfg8.N) (d) : dat.before 2 t d = tile8 V c 2 t :=
  (dat.before_in_eq_fetched 2 rfl (fun _ => rfl) (fun _ _ _ => rfl) (fun t => by rw [hafter]; unfold Dat.blockOf tile8; rw [hA]; try rfl) t d).trans
    (by unfold Dat.fetched Dat.blockOf tile8; rw [hA]; try rfl)

/-- The whole of each staging buffer, as the rectangle the body reads or writes. -/
abbrev whole8_x : Rect S10000x131 := Rect.unit (s := S10000x131) ![0, 0] S10000x131.size inb_S10000x131_S10000x131_0_0
abbrev whole8_w : Rect S131x128 := Rect.unit (s := S131x128) ![0, 0] S131x128.size inb_S131x128_S131x128_0_0
abbrev whole8_b : Rect S1x128 := Rect.unit (s := S1x128) ![0, 0] S1x128.size inb_S1x128_S1x128_0_0
abbrev whole8_o : Rect S10000x128 := Rect.unit (s := S10000x128) ![0, 0] S10000x128.size inb_S10000x128_S10000x128_0_0

/-- The result tile after the body: the one stored value, the layer's arithmetic on the three input tiles, laid over the
    whole tile. -/
def stored8 (x0 : Vec F S10000x131 .f32) (x1 : Vec F S131x128 .f32) (x2 : Vec F S1x128 .f32) : Vec F S10000x128 .f32 :=
  View.canon [⟨whole8_o, k8_pay1 (View.ld x0 whole8_x) (View.ld x1 whole8_w) (View.ld x2 whole8_b)⟩]

/-- The one store covers the result tile. -/
theorem covers8 (p0 : Vec F S10000x128 .f32) (y : S10000x128.Idx) :
    ∃ pc ∈ ([⟨whole8_o, p0⟩] : List (View.Piece (Elt F) S10000x128 .f32)), y ∈ pc.1.set :=
  View.cover_of_tiled [⟨whole8_o, p0⟩] S10000x128.size (by rfl) y

set_option maxHeartbeats 1000000 in
/-- The body on whole staging buffers: the three inputs at contents `x0 x1 x2`, the result buffer at anything. It runs to
    its end, leaves the inputs as they were and the result buffer at `stored8 x0 x1 x2`. -/
theorem body_runs8 (c : Dev nD) (E : Set ℕ) (i : grid8.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored8 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers8 _)

/-- The layer's bookkeeping on core `c`: the arrays as the layer finds them; after the body at point `t` every input
    buffer still at its tile and the result buffer at `stored8` of the three tiles; nothing else of the core's state
    is touched, nothing is owed to another core, every buffer is held whole. -/
def data8 (c : Dev nD) : Dat τ (Elt F) Unit ℕ (UR sig nD τ) ℕ cfg8 c where
  A w := V c (Pipeline.arrRef spec8 w)
  after w t := match w with
    | ⟨0, _⟩ => tile8 V c 0 t
    | ⟨1, _⟩ => tile8 V c 1 t
    | ⟨2, _⟩ => tile8 V c 2 t
    | ⟨3, _⟩ => stored8 (tile8 V c 0 t) (tile8 V c 1 t) (tile8 V c 2 t)
  Φ _ := Pipeline.ΦA spec8 c
  q _ := fullShare
  owed _ := 0

theorem arrays8 (c : Dev nD) (w : Fin cfg8.W) : (data8 V c).A w = V c (Pipeline.arrRef spec8 w) := by
  dsimp only [data8]

theorem after8_0 (c : Dev nD) (t : Fin cfg8.N) : (data8 V c).after 0 t = tile8 V c 0 t := by dsimp only [data8]
theorem after8_1 (c : Dev nD) (t : Fin cfg8.N) : (data8 V c).after 1 t = tile8 V c 1 t := by dsimp only [data8]
theorem after8_2 (c : Dev nD) (t : Fin cfg8.N) : (data8 V c).after 2 t = tile8 V c 2 t := by dsimp only [data8]
theorem after8_3 (c : Dev nD) (t : Fin cfg8.N) : (data8 V c).after 3 t = stored8 (tile8 V c 0 t) (tile8 V c 1 t) (tile8 V c 2 t) := by dsimp only [data8]

theorem held8_0 (c : Dev nD) (t : Fin cfg8.N) (d) : (data8 V c).before 0 t d = tile8 V c 0 t :=
  held8_0_of V (data8 V c) (arrays8 V c 0) (after8_0 V c) t d
theorem held8_1 (c : Dev nD) (t : Fin cfg8.N) (d) : (data8 V c).before 1 t d = tile8 V c 1 t :=
  held8_1_of V (data8 V c) (arrays8 V c 1) (after8_1 V c) t d
theorem held8_2 (c : Dev nD) (t : Fin cfg8.N) (d) : (data8 V c).before 2 t d = tile8 V c 2 t :=
  held8_2_of V (data8 V c) (arrays8 V c 2) (after8_2 V c) t d

/-- What the body is handed at point `t`, window by window, -/
def handed8 (c : Dev nD) (t : Fin cfg8.N) : sProp 𝕄 :=
  iprop((data8 V c).Φ t.castSucc ∗ (data8 V c).owesAt () t.castSucc
    ∗ (∃ d, owns (c : Thread nD τ) (st8_0 t) fullShare ((data8 V c).before 0 t d))
    ∗ (∃ d, owns (c : Thread nD τ) (st8_1 t) fullShare ((data8 V c).before 1 t d))
    ∗ (∃ d, owns (c : Thread nD τ) (st8_2 t) fullShare ((data8 V c).before 2 t d))
    ∗ (∃ d, owns (c : Thread nD τ) (st8_3 t) fullShare ((data8 V c).before 3 t d)))

/-- and what it hands back. -/
def returned8 (c : Dev nD) (t : Fin cfg8.N) : sProp 𝕄 :=
  iprop((data8 V c).Φ t.succ ∗ (data8 V c).owesAt () t.succ
    ∗ owns (c : Thread nD τ) (st8_0 t) fullShare ((data8 V c).after 0 t)
    ∗ owns (c : Thread nD τ) (st8_1 t) fullShare ((data8 V c).after 1 t)
    ∗ owns (c : Thread nD τ) (st8_2 t) fullShare ((data8 V c).after 2 t)
    ∗ owns (c : Thread nD τ) (st8_3 t) fullShare ((data8 V c).after 3 t))

/-- The body at any grid point: its input buffers hold their tiles, so `body_runs8` applies; the rest of the core's
    state passes through unread. -/
theorem body_at8 (c : Dev nD) (t : Fin cfg8.N) :
    handed8 V c t ⊢ wp frame (wpE (defs₀ (F := F)) Variants.none c none) Set.univ (bodyAt8 t) (fun _ => returned8 V c t) := by
  unfold handed8 returned8 bodyAt8
  simp only [held8_0, held8_1, held8_2]
  rw [show (data8 V c).Φ t.succ = (data8 V c).Φ t.castSucc from rfl,
    show (data8 V c).owesAt () t.succ = (data8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (body_runs8 c Set.univ _ _ _ _ _ _ _ _ _ (tile8 V c 0 t) (tile8 V c 1 t) (tile8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation8 (c : Dev nD) : BodyObligation (data8 (F := F) V c) (defs₀ (F := F)) Variants.none () Set.univ := fun t => by
  rw [bigSep_W8, bigSep_W8]
  exact body_at8 V c t

end Cert.Kernel.Hand

end
-- ==== Proof.K.Layer9.lean ====
/-
  Linear layer number 9 of the network, one row tile at a time. The layer's four windows are: 0, a tile of 10000 rows of
  the [rows, 256] input matrix (the tile's number is the grid point); 1, the whole [256, 64] weight matrix; 2, the
  [1, 64] bias row; 3, the matching tile of 10000 rows of the [rows, 64] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.Kernel.Launch
import proofs.«101052_j75445395522274_1_alg».proof.Proof.Gen.Kernel.Skeleton
import proofs.«101052_j75445395522274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's tile at every grid point, whether the tile was copied in at
    that point or is still there from an earlier one (the tile's number did not change in between). -/
theorem held9_0_of {c : Dev nD} (dat : Dat τ (Elt F) Unit ℕ (UR sig nD τ) ℕ cfg9 c) (hA : dat.A 0 = V c (Pipeline.arrRef spec9 0))
    (hafter : ∀ t, dat.after 0 t = tile9 V c 0 t) (t : Fin cfg9.N) (d) : dat.before 0 t d = tile9 V c 0 t :=
  (dat.before_in_eq_fetched 0 rfl (fun _ => rfl) (fun _ _ _ => rfl) (fun t => by rw [hafter]; unfold Dat.blockOf tile9; rw [hA]; try rfl) t d).trans
    (by unfold Dat.fetched Dat.blockOf tile9; rw [hA]; try rfl)

/-- An input window's staging buffer holds the window's tile at every grid point, whether the tile was copied in at
    that point or is still there from an earlier one (the tile's number did not change in between). -/
theorem held9_1_of {c : Dev nD} (dat : Dat τ (Elt F) Unit ℕ (UR sig nD τ) ℕ cfg9 c) (hA : dat.A 1 = V c (Pipeline.arrRef spec9 1))
    (hafter : ∀ t, dat.after 1 t = tile9 V c 1 t) (t : Fin cfg9.N) (d) : dat.before 1 t d = tile9 V c 1 t :=
  (dat.before_in_eq_fetched 1 rfl (fun _ => rfl) (fun _ _ _ => rfl) (fun t => by rw [hafter]; unfold Dat.blockOf tile9; rw [hA]; try rfl) t d).trans
    (by unfold Dat.fetched Dat.blockOf tile9; rw [hA]; try rfl)

/-- An input window's staging buffer holds the window's tile at every grid point, whether the tile was copied in at
    that point or is still there from an earlier one (the tile's number did not change in between). -/
theorem held9_2_of {c : Dev nD} (dat : Dat τ (Elt F) Unit ℕ (UR sig nD τ) ℕ cfg9 c) (hA : dat.A 2 = V c (Pipeline.arrRef spec9 2))
    (hafter : ∀ t, dat.after 2 t = tile9 V c 2 t) (t : Fin cfg9.N) (d) : dat.before 2 t d = tile9 V c 2 t :=
  (dat.before_in_eq_fetched 2 rfl (fun _ => rfl) (fun _ _ _ => rfl) (fun t => by rw [hafter]; unfold Dat.blockOf tile9; rw [hA]; try rfl) t d).trans
    (by unfold Dat.fetched Dat.blockOf tile9; rw [hA]; try rfl)

/-- The whole of each staging buffer, as the rectangle the body reads or writes. -/
abbrev whole9_x : Rect S10000x256 := Rect.unit (s := S10000x256) ![0, 0] S10000x256.size inb_S10000x256_S10000x256_0_0
abbrev whole9_w : Rect S256x64 := Rect.unit (s := S256x64) ![0, 0] S256x64.size inb_S256x64_S256x64_0_0
abbrev whole9_b : Rect S1x64 := Rect.unit (s := S1x64) ![0, 0] S1x64.size inb_S1x64_S1x64_0_0
abbrev whole9_o : Rect S10000x64 := Rect.unit (s := S10000x64) ![0, 0] S10000x64.size inb_S10000x64_S10000x64_0_0

/-- The result tile after the body: the one stored value, the layer's arithmetic on the three input tiles, laid over the
    whole tile. -/
def stored9 (x0 : Vec F S10000x256 .f32) (x1 : Vec F S256x64 .f32) (x2 : Vec F S1x64 .f32) : Vec F S10000x64 .f32 :=
  View.canon [⟨whole9_o, k9_pay1 (View.ld x0 whole9_x) (View.ld x1 whole9_w) (View.ld x2 whole9_b)⟩]

/-- The one store covers the result tile. -/
theorem covers9 (p0 : Vec F S10000x64 .f32) (y : S10000x64.Idx) :
    ∃ pc ∈ ([⟨whole9_o, p0⟩] : List (View.Piece (Elt F) S10000x64 .f32)), y ∈ pc.1.set :=
  View.cover_of_tiled [⟨whole9_o, p0⟩] S10000x64.size (by rfl) y

set_option maxHeartbeats 1000000 in
/-- The body on whole staging buffers: the three inputs at contents `x0 x1 x2`, the result buffer at anything. It runs to
    its end, leaves the inputs as they were and the result buffer at `stored9 x0 x1 x2`. -/
theorem body_runs9 (c : Dev nD) (E : Set ℕ) (i : grid9.Coords) (arg1 : Memref sig .tc .vmem S10000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored9 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers9 _)

/-- The layer's bookkeeping on core `c`: the arrays as the layer finds them; after the body at point `t` every input
    buffer still at its tile and the result buffer at `stored9` of the three tiles; nothing else of the core's state
    is touched, nothing is owed to another core, every buffer is held whole. -/
def data9 (c : Dev nD) : Dat τ (Elt F) Unit ℕ (UR sig nD τ) ℕ cfg9 c where
  A w := V c (Pipeline.arrRef spec9 w)
  after w t := match w with
    | ⟨0, _⟩ => tile9 V c 0 t
    | ⟨1, _⟩ => tile9 V c 1 t
    | ⟨2, _⟩ => tile9 V c 2 t
    | ⟨3, _⟩ => stored9 (tile9 V c 0 t) (tile9 V c 1 t) (tile9 V c 2 t)
  Φ _ := Pipeline.ΦA spec9 c
  q _ := fullShare
  owed _ := 0

theorem arrays9 (c : Dev nD) (w : Fin cfg9.W) : (data9 V c).A w = V c (Pipeline.arrRef spec9 w) := by
  dsimp only [data9]

theorem after9_0 (c : Dev nD) (t : Fin cfg9.N) : (data9 V c).after 0 t = tile9 V c 0 t := by dsimp only [data9]
theorem after9_1 (c : Dev nD) (t : Fin cfg9.N) : (data9 V c).after 1 t = tile9 V c 1 t := by dsimp only [data9]
theorem after9_2 (c : Dev nD) (t : Fin cfg9.N) : (data9 V c).after 2 t = tile9 V c 2 t := by dsimp only [data9]
theorem after9_3 (c : Dev nD) (t : Fin cfg9.N) : (data9 V c).after 3 t = stored9 (tile9 V c 0 t) (tile9 V c 1 t) (tile9 V c 2 t) := by dsimp only [data9]

theorem held9_0 (c : Dev nD) (t : Fin cfg9.N) (d) : (data9 V c).before 0 t d = tile9 V c 0 t :=
  held9_0_of V (data9 V c) (arrays9 V c 0) (after9_0 V c) t d
theorem held9_1 (c : Dev nD) (t : Fin cfg9.N) (d) : (data9 V c).before 1 t d = tile9 V c 1 t :=
  held9_1_of V (data9 V c) (arrays9 V c 1) (after9_1 V c) t d
theorem held9_2 (c : Dev nD) (t : Fin cfg9.N) (d) : (data9 V c).before 2 t d = tile9 V c 2 t :=
  held9_2_of V (data9 V c) (arrays9 V c 2) (after9_2 V c) t d

/-- What the body is handed at point `t`, window by window, -/
def handed9 (c : Dev nD) (t : Fin cfg9.N) : sProp 𝕄 :=
  iprop((data9 V c).Φ t.castSucc ∗ (data9 V c).owesAt () t.castSucc
    ∗ (∃ d, owns (c : Thread nD τ) (st9_0 t) fullShare ((data9 V c).before 0 t d))
    ∗ (∃ d, owns (c : Thread nD τ) (st9_1 t) fullShare ((data9 V c).before 1 t d))
    ∗ (∃ d, owns (c : Thread nD τ) (st9_2 t) fullShare ((data9 V c).before 2 t d))
    ∗ (∃ d, owns (c : Thread nD τ) (st9_3 t) fullShare ((data9 V c).before 3 t d)))

/-- and what it hands back. -/
def returned9 (c : Dev nD) (t : Fin cfg9.N) : sProp 𝕄 :=
  iprop((data9 V c).Φ t.succ ∗ (data9 V c).owesAt () t.succ
    ∗ owns (c : Thread nD τ) (st9_0 t) fullShare ((data9 V c).after 0 t)
    ∗ owns (c : Thread nD τ) (st9_1 t) fullShare ((data9 V c).after 1 t)
    ∗ owns (c : Thread nD τ) (st9_2 t) fullShare ((data9 V c).after 2 t)
    ∗ owns (c : Thread nD τ) (st9_3 t) fullShare ((data9 V c).after 3 t))

/-- The body at any grid point: its input buffers hold their tiles, so `body_runs9` applies; the rest of the core's
    state passes through unread. -/
theorem body_at9 (c : Dev nD) (t : Fin cfg9.N) :
    handed9 V c t ⊢ wp frame (wpE (defs₀ (F := F)) Variants.none c none) Set.univ (bodyAt9 t) (fun _ => returned9 V c t) := by
  unfold handed9 returned9 bodyAt9
  simp only [held9_0, held9_1, held9_2]
  rw [show (data9 V c).Φ t.succ = (data9 V c).Φ t.castSucc from rfl,
    show (data9 V c).owesAt () t.succ = (data9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (body_runs9 c Set.univ _ _ _ _ _ _ _ _ _ (tile9 V c 0 t) (tile9 V c 1 t) (tile9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation9 (c : Dev nD) : BodyObligation (data9 (F := F) V c) (defs₀ (F := F)) Variants.none () Set.univ := fun t => by
  rw [bigSep_W9, bigSep_W9]
  exact body_at9 V c t

end Cert.Kernel.Hand

end
-- ==== Proof.K.Run.lean ====
/-
  The whole program as a line of steps: host operations, a linear layer, host operations, a layer, … (ten layers). Between
  two steps every buffer of the core that outlives a layer is held whole at named contents: the launch memory, then each
  stretch of host operations applied, then each layer's result array replaced by what its row tiles wrote back. Every
  weakly fair execution runs through all the steps and ends with every such buffer at the last of these contents.
-/
import proofs.«101052_j75445395522274_1_alg».proof.Proof.K.Layer0
import proofs.«101052_j75445395522274_1_alg».proof.Proof.K.Layer1
import proofs.«101052_j75445395522274_1_alg».proof.Proof.K.Layer2
import proofs.«101052_j75445395522274_1_alg».proof.Proof.K.Layer3
import proofs.«101052_j75445395522274_1_alg».proof.Proof.K.Layer4
import proofs.«101052_j75445395522274_1_alg».proof.Proof.K.Layer5
import proofs.«101052_j75445395522274_1_alg».proof.Proof.K.Layer6
import proofs.«101052_j75445395522274_1_alg».proof.Proof.K.Layer7
import proofs.«101052_j75445395522274_1_alg».proof.Proof.K.Layer8
import proofs.«101052_j75445395522274_1_alg».proof.Proof.K.Layer9
import proofs.«101052_j75445395522274_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the steps -/

/-- At launch. -/
abbrev at0 : Dev nD → Valuation τ sig (Elt F) := fun c => V0 m c
/-- Before layer 0: the host operations between the layers have run. -/
abbrev at1 : Dev nD → Valuation τ sig (Elt F) := fun c => StableHlo.after hostOps0 (at0 m c)
abbrev ent0 : (c : Dev nD) → (b : Ref sig .tc) → Buf (Elt F) ((c : Thread nD τ).loc b) := fun c b => at1 m c b
/-- After layer 0: its four arrays at what the row tiles written back leave, every other buffer as before. -/
def at2 (c : Dev nD) : Valuation τ sig (Elt F) :=
  Pipeline.withArrays spec0 c (at1 m c) fun w => (data0 (ent0 m) c).arrAt w cfg0.N
theorem at2_arr (c : Dev nD) (w : Fin cfg0.W) :
    at2 m c (Proc.devRef .tc (Pipeline.arrRef spec0 w)) = (data0 (ent0 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
abbrev lft0 : (c : Dev nD) → (b : Ref sig .tc) → Buf (Elt F) ((c : Thread nD τ).loc b) := fun c b => at2 m c b
theorem left0 (c : Dev nD) (w : Fin cfg0.W) : (data0 (ent0 m) c).arrAt w cfg0.N = lft0 m c (Pipeline.arrRef spec0 w) :=
  (at2_arr m c w).symm
theorem kept0 (c : Dev nD) : ∀ b, b ∉ Finset.univ.image (Pipeline.arrRef spec0) → lft0 m c b = ent0 m c b :=
  fun b hb => at2_of_ne m c b fun w e => hb (Finset.mem_image.mpr ⟨w, Finset.mem_univ _, e⟩)

/-- Before layer 1: the host operations between the layers have run. -/
abbrev at3 : Dev nD → Valuation τ sig (Elt F) := fun c => StableHlo.after hostOps1 (at2 m c)
abbrev ent1 : (c : Dev nD) → (b : Ref sig .tc) → Buf (Elt F) ((c : Thread nD τ).loc b) := fun c b => at3 m c b
/-- After layer 1: its four arrays at what the row tiles written back leave, every other buffer as before. -/
def at4 (c : Dev nD) : Valuation τ sig (Elt F) :=
  Pipeline.withArrays spec1 c (at3 m c) fun w => (data1 (ent1 m) c).arrAt w cfg1.N
theorem at4_arr (c : Dev nD) (w : Fin cfg1.W) :
    at4 m c (Proc.devRef .tc (Pipeline.arrRef spec1 w)) = (data1 (ent1 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
abbrev lft1 : (c : Dev nD) → (b : Ref sig .tc) → Buf (Elt F) ((c : Thread nD τ).loc b) := fun c b => at4 m c b
theorem left1 (c : Dev nD) (w : Fin cfg1.W) : (data1 (ent1 m) c).arrAt w cfg1.N = lft1 m c (Pipeline.arrRef spec1 w) :=
  (at4_arr m c w).symm
theorem kept1 (c : Dev nD) : ∀ b, b ∉ Finset.univ.image (Pipeline.arrRef spec1) → lft1 m c b = ent1 m c b :=
  fun b hb => at4_of_ne m c b fun w e => hb (Finset.mem_image.mpr ⟨w, Finset.mem_univ _, e⟩)

/-- Before layer 2: the host operations between the layers have run. -/
abbrev at5 : Dev nD → Valuation τ sig (Elt F) := fun c => StableHlo.after hostOps2 (at4 m c)
abbrev ent2 : (c : Dev nD) → (b : Ref sig .tc) → Buf (Elt F) ((c : Thread nD τ).loc b) := fun c b => at5 m c b
/-- After layer 2: its four arrays at what the row tiles written back leave, every other buffer as before. -/
def at6 (c : Dev nD) : Valuation τ sig (Elt F) :=
  Pipeline.withArrays spec2 c (at5 m c) fun w => (data2 (ent2 m) c).arrAt w cfg2.N
theorem at6_arr (c : Dev nD) (w : Fin cfg2.W) :
    at6 m c (Proc.devRef .tc (Pipeline.arrRef spec2 w)) = (data2 (ent2 m) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
abbrev lft2 : (c : Dev nD) → (b : Ref sig .tc) → Buf (Elt F) ((c : Thread nD τ).loc b) := fun c b => at6 m c b
theorem left2 (c : Dev nD) (w : Fin cfg2.W) : (data2 (ent2 m) c).arrAt w cfg2.N = lft2 m c (Pipeline.arrRef spec2 w) :=
  (at6_arr m c w).symm
theorem kept2 (c : Dev nD) : ∀ b, b ∉ Finset.univ.image (Pipeline.arrRef spec2) → lft2 m c b = ent2 m c b :=
  fun b hb => at6_of_ne m c b fun w e => hb (Finset.mem_image.mpr ⟨w, Finset.mem_univ _, e⟩)

/-- Before layer 3: the host operations between the layers have run. -/
abbrev at7 : Dev nD → Valuation τ sig (Elt F) := fun c => StableHlo.after hostOps3 (at6 m c)
abbrev ent3 : (c : Dev nD) → (b : Ref sig .tc) → Buf (Elt F) ((c : Thread nD τ).loc b) := fun c b => at7 m c b
/-- After layer 3: its four arrays at what the row tiles written back leave, every other buffer as before. -/
def at8 (c : Dev nD) : Valuation τ sig (Elt F) :=
  Pipeline.withArrays spec3 c (at7 m c) fun w => (data3 (ent3 m) c).arrAt w cfg3.N
theorem at8_arr (c : Dev nD) (w : Fin cfg3.W) :
    at8 m c (Proc.devRef .tc (Pipeline.arrRef spec3 w)) = (data3 (ent3 m) c).arrAt w cfg3.N := by
  unfold at8; exact Pipeline.withArrays_arr spec3 launch3.win.arr_inj c _ _ w
theorem at8_of_ne (c : Dev nD) (b : Ref sig .tc) (hb : ∀ w, Pipeline.arrRef spec3 w ≠ b) :
    at8 m c (Proc.devRef .tc b) = at7 m c (Proc.devRef .tc b) := by
  unfold at8; exact Pipeline.withArrays_of_ne spec3 c _ _ b hb
abbrev lft3 : (c : Dev nD) → (b : Ref sig .tc) → Buf (Elt F) ((c : Thread nD τ).loc b) := fun c b => at8 m c b
theorem left3 (c : Dev nD) (w : Fin cfg3.W) : (data3 (ent3 m) c).arrAt w cfg3.N = lft3 m c (Pipeline.arrRef spec3 w) :=
  (at8_arr m c w).symm
theorem kept3 (c : Dev nD) : ∀ b, b ∉ Finset.univ.image (Pipeline.arrRef spec3) → lft3 m c b = ent3 m c b :=
  fun b hb => at8_of_ne m c b fun w e => hb (Finset.mem_image.mpr ⟨w, Finset.mem_univ _, e⟩)

/-- Before layer 4: the host operations between the layers have run. -/
abbrev at9 : Dev nD → Valuation τ sig (Elt F) := fun c => StableHlo.after hostOps4 (at8 m c)
abbrev ent4 : (c : Dev nD) → (b : Ref sig .tc) → Buf (Elt F) ((c : Thread nD τ).loc b) := fun c b => at9 m c b
/-- After layer 4: its four arrays at what the row tiles written back leave, every other buffer as before. -/
def at10 (c : Dev nD) : Valuation τ sig (Elt F) :=
  Pipeline.withArrays spec4 c (at9 m c) fun w => (data4 (ent4 m) c).arrAt w cfg4.N
theorem at10_arr (c : Dev nD) (w : Fin cfg4.W) :
    at10 m c (Proc.devRef .tc (Pipeline.arrRef spec4 w)) = (data4 (ent4 m) c).arrAt w cfg4.N := by
  unfold at10; exact Pipeline.withArrays_arr spec4 launch4.win.arr_inj c _ _ w
theorem at10_of_ne (c : Dev nD) (b : Ref sig .tc) (hb : ∀ w, Pipeline.arrRef spec4 w ≠ b) :
    at10 m c (Proc.devRef .tc b) = at9 m c (Proc.devRef .tc b) := by
  unfold at10; exact Pipeline.withArrays_of_ne spec4 c _ _ b hb
abbrev lft4 : (c : Dev nD) → (b : Ref sig .tc) → Buf (Elt F) ((c : Thread nD τ).loc b) := fun c b => at10 m c b
theorem left4 (c : Dev nD) (w : Fin cfg4.W) : (data4 (ent4 m) c).arrAt w cfg4.N = lft4 m c (Pipeline.arrRef spec4 w) :=
  (at10_arr m c w).symm
theorem kept4 (c : Dev nD) : ∀ b, b ∉ Finset.univ.image (Pipeline.arrRef spec4) → lft4 m c b = ent4 m c b :=
  fun b hb => at10_of_ne m c b fun w e => hb (Finset.mem_image.mpr ⟨w, Finset.mem_univ _, e⟩)

/-- Before layer 5: the host operations between the layers have run. -/
abbrev at11 : Dev nD → Valuation τ sig (Elt F) := fun c => StableHlo.after hostOps5 (at10 m c)
abbrev ent5 : (c : Dev nD) → (b : Ref sig .tc) → Buf (Elt F) ((c : Thread nD τ).loc b) := fun c b => at11 m c b
/-- After layer 5: its four arrays at what the row tiles written back leave, every other buffer as before. -/
def at12 (c : Dev nD) : Valuation τ sig (Elt F) :=
  Pipeline.withArrays spec5 c (at11 m c) fun w => (data5 (ent5 m) c).arrAt w cfg5.N
theorem at12_arr (c : Dev nD) (w : Fin cfg5.W) :
    at12 m c (Proc.devRef .tc (Pipeline.arrRef spec5 w)) = (data5 (ent5 m) c).arrAt w cfg5.N := by
  unfold at12; exact Pipeline.withArrays_arr spec5 launch5.win.arr_inj c _ _ w
theorem at12_of_ne (c : Dev nD) (b : Ref sig .tc) (hb : ∀ w, Pipeline.arrRef spec5 w ≠ b) :
    at12 m c (Proc.devRef .tc b) = at11 m c (Proc.devRef .tc b) := by
  unfold at12; exact Pipeline.withArrays_of_ne spec5 c _ _ b hb
abbrev lft5 : (c : Dev nD) → (b : Ref sig .tc) → Buf (Elt F) ((c : Thread nD τ).loc b) := fun c b => at12 m c b
theorem left5 (c : Dev nD) (w : Fin cfg5.W) : (data5 (ent5 m) c).arrAt w cfg5.N = lft5 m c (Pipeline.arrRef spec5 w) :=
  (at12_arr m c w).symm
theorem kept5 (c : Dev nD) : ∀ b, b ∉ Finset.univ.image (Pipeline.arrRef spec5) → lft5 m c b = ent5 m c b :=
  fun b hb => at12_of_ne m c b fun w e => hb (Finset.mem_image.mpr ⟨w, Finset.mem_univ _, e⟩)

/-- Before layer 6: the host operations between the layers have run. -/
abbrev at13 : Dev nD → Valuation τ sig (Elt F) := fun c => StableHlo.after hostOps6 (at12 m c)
abbrev ent6 : (c : Dev nD) → (b : Ref sig .tc) → Buf (Elt F) ((c : Thread nD τ).loc b) := fun c b => at13 m c b
/-- After layer 6: its four arrays at what the row tiles written back leave, every other buffer as before. -/
def at14 (c : Dev nD) : Valuation τ sig (Elt F) :=
  Pipeline.withArrays spec6 c (at13 m c) fun w => (data6 (ent6 m) c).arrAt w cfg6.N
theorem at14_arr (c : Dev nD) (w : Fin cfg6.W) :
    at14 m c (Proc.devRef .tc (Pipeline.arrRef spec6 w)) = (data6 (ent6 m) c).arrAt w cfg6.N := by
  unfold at14; exact Pipeline.withArrays_arr spec6 launch6.win.arr_inj c _ _ w
theorem at14_of_ne (c : Dev nD) (b : Ref sig .tc) (hb : ∀ w, Pipeline.arrRef spec6 w ≠ b) :
    at14 m c (Proc.devRef .tc b) = at13 m c (Proc.devRef .tc b) := by
  unfold at14; exact Pipeline.withArrays_of_ne spec6 c _ _ b hb
abbrev lft6 : (c : Dev nD) → (b : Ref sig .tc) → Buf (Elt F) ((c : Thread nD τ).loc b) := fun c b => at14 m c b
theorem left6 (c : Dev nD) (w : Fin cfg6.W) : (data6 (ent6 m) c).arrAt w cfg6.N = lft6 m c (Pipeline.arrRef spec6 w) :=
  (at14_arr m c w).symm
theorem kept6 (c : Dev nD) : ∀ b, b ∉ Finset.univ.image (Pipeline.arrRef spec6) → lft6 m c b = ent6 m c b :=
  fun b hb => at14_of_ne m c b fun w e => hb (Finset.mem_image.mpr ⟨w, Finset.mem_univ _, e⟩)

/-- Before layer 7: the host operations between the layers have run. -/
abbrev at15 : Dev nD → Valuation τ sig (Elt F) := fun c => StableHlo.after hostOps7 (at14 m c)
abbrev ent7 : (c : Dev nD) → (b : Ref sig .tc) → Buf (Elt F) ((c : Thread nD τ).loc b) := fun c b => at15 m c b
/-- After layer 7: its four arrays at what the row tiles written back leave, every other buffer as before. -/
def at16 (c : Dev nD) : Valuation τ sig (Elt F) :=
  Pipeline.withArrays spec7 c (at15 m c) fun w => (data7 (ent7 m) c).arrAt w cfg7.N
theorem at16_arr (c : Dev nD) (w : Fin cfg7.W) :
    at16 m c (Proc.devRef .tc (Pipeline.arrRef spec7 w)) = (data7 (ent7 m) c).arrAt w cfg7.N := by
  unfold at16; exact Pipeline.withArrays_arr spec7 launch7.win.arr_inj c _ _ w
theorem at16_of_ne (c : Dev nD) (b : Ref sig .tc) (hb : ∀ w, Pipeline.arrRef spec7 w ≠ b) :
    at16 m c (Proc.devRef .tc b) = at15 m c (Proc.devRef .tc b) := by
  unfold at16; exact Pipeline.withArrays_of_ne spec7 c _ _ b hb
abbrev lft7 : (c : Dev nD) → (b : Ref sig .tc) → Buf (Elt F) ((c : Thread nD τ).loc b) := fun c b => at16 m c b
theorem left7 (c : Dev nD) (w : Fin cfg7.W) : (data7 (ent7 m) c).arrAt w cfg7.N = lft7 m c (Pipeline.arrRef spec7 w) :=
  (at16_arr m c w).symm
theorem kept7 (c : Dev nD) : ∀ b, b ∉ Finset.univ.image (Pipeline.arrRef spec7) → lft7 m c b = ent7 m c b :=
  fun b hb => at16_of_ne m c b fun w e => hb (Finset.mem_image.mpr ⟨w, Finset.mem_univ _, e⟩)

/-- Before layer 8: the host operations between the layers have run. -/
abbrev at17 : Dev nD → Valuation τ sig (Elt F) := fun c => StableHlo.after hostOps8 (at16 m c)
abbrev ent8 : (c : Dev nD) → (b : Ref sig .tc) → Buf (Elt F) ((c : Thread nD τ).loc b) := fun c b => at17 m c b
/-- After layer 8: its four arrays at what the row tiles written back leave, every other buffer as before. -/
def at18 (c : Dev nD) : Valuation τ sig (Elt F) :=
  Pipeline.withArrays spec8 c (at17 m c) fun w => (data8 (ent8 m) c).arrAt w cfg8.N
theorem at18_arr (c : Dev nD) (w : Fin cfg8.W) :
    at18 m c (Proc.devRef .tc (Pipeline.arrRef spec8 w)) = (data8 (ent8 m) c).arrAt w cfg8.N := by
  unfold at18; exact Pipeline.withArrays_arr spec8 launch8.win.arr_inj c _ _ w
theorem at18_of_ne (c : Dev nD) (b : Ref sig .tc) (hb : ∀ w, Pipeline.arrRef spec8 w ≠ b) :
    at18 m c (Proc.devRef .tc b) = at17 m c (Proc.devRef .tc b) := by
  unfold at18; exact Pipeline.withArrays_of_ne spec8 c _ _ b hb
abbrev lft8 : (c : Dev nD) → (b : Ref sig .tc) → Buf (Elt F) ((c : Thread nD τ).loc b) := fun c b => at18 m c b
theorem left8 (c : Dev nD) (w : Fin cfg8.W) : (data8 (ent8 m) c).arrAt w cfg8.N = lft8 m c (Pipeline.arrRef spec8 w) :=
  (at18_arr m c w).symm
theorem kept8 (c : Dev nD) : ∀ b, b ∉ Finset.univ.image (Pipeline.arrRef spec8) → lft8 m c b = ent8 m c b :=
  fun b hb => at18_of_ne m c b fun w e => hb (Finset.mem_image.mpr ⟨w, Finset.mem_univ _, e⟩)

/-- Before layer 9: the host operations between the layers have run. -/
abbrev at19 : Dev nD → Valuation τ sig (Elt F) := fun c => StableHlo.after hostOps9 (at18 m c)
abbrev ent9 : (c : Dev nD) → (b : Ref sig .tc) → Buf (Elt F) ((c : Thread nD τ).loc b) := fun c b => at19 m c b
/-- After layer 9: its four arrays at what the row tiles written back leave, every other buffer as before. -/
def at20 (c : Dev nD) : Valuation τ sig (Elt F) :=
  Pipeline.withArrays spec9 c (at19 m c) fun w => (data9 (ent9 m) c).arrAt w cfg9.N
theorem at20_arr (c : Dev nD) (w : Fin cfg9.W) :
    at20 m c (Proc.devRef .tc (Pipeline.arrRef spec9 w)) = (data9 (ent9 m) c).arrAt w cfg9.N := by
  unfold at20; exact Pipeline.withArrays_arr spec9 launch9.win.arr_inj c _ _ w
theorem at20_of_ne (c : Dev nD) (b : Ref sig .tc) (hb : ∀ w, Pipeline.arrRef spec9 w ≠ b) :
    at20 m c (Proc.devRef .tc b) = at19 m c (Proc.devRef .tc b) := by
  unfold at20; exact Pipeline.withArrays_of_ne spec9 c _ _ b hb
abbrev lft9 : (c : Dev nD) → (b : Ref sig .tc) → Buf (Elt F) ((c : Thread nD τ).loc b) := fun c b => at20 m c b
theorem left9 (c : Dev nD) (w : Fin cfg9.W) : (data9 (ent9 m) c).arrAt w cfg9.N = lft9 m c (Pipeline.arrRef spec9 w) :=
  (at20_arr m c w).symm
theorem kept9 (c : Dev nD) : ∀ b, b ∉ Finset.univ.image (Pipeline.arrRef spec9) → lft9 m c b = ent9 m c b :=
  fun b hb => at20_of_ne m c b fun w e => hb (Finset.mem_image.mpr ⟨w, Finset.mem_univ _, e⟩)

/-- A buffer that no host operation writes and that is no layer's array holds at the end what it held at launch. -/
theorem at20_unwritten (c : Dev nD) (r : Ref sig .tc)
    (h0 : r ∉ hostOps0_W) (g0 : ∀ w, Pipeline.arrRef spec0 w ≠ r)
    (h1 : r ∉ hostOps1_W) (g1 : ∀ w, Pipeline.arrRef spec1 w ≠ r)
    (h2 : r ∉ hostOps2_W) (g2 : ∀ w, Pipeline.arrRef spec2 w ≠ r)
    (h3 : r ∉ hostOps3_W) (g3 : ∀ w, Pipeline.arrRef spec3 w ≠ r)
    (h4 : r ∉ hostOps4_W) (g4 : ∀ w, Pipeline.arrRef spec4 w ≠ r)
    (h5 : r ∉ hostOps5_W) (g5 : ∀ w, Pipeline.arrRef spec5 w ≠ r)
    (h6 : r ∉ hostOps6_W) (g6 : ∀ w, Pipeline.arrRef spec6 w ≠ r)
    (h7 : r ∉ hostOps7_W) (g7 : ∀ w, Pipeline.arrRef spec7 w ≠ r)
    (h8 : r ∉ hostOps8_W) (g8 : ∀ w, Pipeline.arrRef spec8 w ≠ r)
    (h9 : r ∉ hostOps9_W) (g9 : ∀ w, Pipeline.arrRef spec9 w ≠ r) :
    at20 m c (Proc.devRef .tc r) = m ((c : Thread nD τ).loc r) :=
  (at20_of_ne m c r g9).trans <| (StableHlo.after_of_writes_sub hostOps9 _ hostOps9_writes h9).trans <|
  (at18_of_ne m c r g8).trans <| (StableHlo.after_of_writes_sub hostOps8 _ hostOps8_writes h8).trans <|
  (at16_of_ne m c r g7).trans <| (StableHlo.after_of_writes_sub hostOps7 _ hostOps7_writes h7).trans <|
  (at14_of_ne m c r g6).trans <| (StableHlo.after_of_writes_sub hostOps6 _ hostOps6_writes h6).trans <|
  (at12_of_ne m c r g5).trans <| (StableHlo.after_of_writes_sub hostOps5 _ hostOps5_writes h5).trans <|
  (at10_of_ne m c r g4).trans <| (StableHlo.after_of_writes_sub hostOps4 _ hostOps4_writes h4).trans <|
  (at8_of_ne m c r g3).trans <| (StableHlo.after_of_writes_sub hostOps3 _ hostOps3_writes h3).trans <|
  (at6_of_ne m c r g2).trans <| (StableHlo.after_of_writes_sub hostOps2 _ hostOps2_writes h2).trans <|
  (at4_of_ne m c r g1).trans <| (StableHlo.after_of_writes_sub hostOps1 _ hostOps1_writes h1).trans <|
  (at2_of_ne m c r g0).trans <| (StableHlo.after_of_writes_sub hostOps0 _ hostOps0_writes h0).trans <| rfl

/-! ## The steps -/

abbrev adm : (p : Fin 10) → (pcfgs (F := F) p).Adm := fun p => (cfgs p).toPCfg_adm
/-- Each layer's bookkeeping, at the contents the layer is entered with. -/
def pdats : (p : Fin 10) → (c : Dev nD) → Dat τ (Elt F) Unit ℕ (UR sig nD τ) ℕ (Pipeline.pin (pcfgs (F := F)) adm p) c
  | ⟨0, _⟩ => fun c => data0 (ent0 m) c
  | ⟨1, _⟩ => fun c => data1 (ent1 m) c
  | ⟨2, _⟩ => fun c => data2 (ent2 m) c
  | ⟨3, _⟩ => fun c => data3 (ent3 m) c
  | ⟨4, _⟩ => fun c => data4 (ent4 m) c
  | ⟨5, _⟩ => fun c => data5 (ent5 m) c
  | ⟨6, _⟩ => fun c => data6 (ent6 m) c
  | ⟨7, _⟩ => fun c => data7 (ent7 m) c
  | ⟨8, _⟩ => fun c => data8 (ent8 m) c
  | ⟨9, _⟩ => fun c => data9 (ent9 m) c
abbrev 𝒱₀ : Variants := Variants.none
abbrev L : GSem nD τ sig → Finset Unit := fun _ => ∅
abbrev lv : GSem nD τ sig → Unit → ℕ := fun _ _ => 0
/-- What a core carries through every step beside its buffers: its random generator's register at some state, and
    nothing owed to any other core. -/
abbrev R (c : Dev nD) : sProp 𝕄 := iprop((∃ r, prngReg c r) ∗ ∃ W, owes (c : Thread nD τ) (0 : CellTallies nD τ sig Unit) W)
/-- A stretch of host operations as a step: from the buffers at `W` to the buffers at the operations applied to `W`. -/
abbrev hostStep (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every buffer at the last contents, the generator register at some state. -/
abbrev last (c : Dev nD) : sProp 𝕄 := iprop(StableHlo.held (c : Thread nD τ) (Pipeline.ucRefs τ sig) (at20 m c) ∗ ∃ r, prngReg c r)

set_option backward.isDefEq.respectTransparency.types false in
/-- Layer 0 as one step of the program: entered with every buffer at `at1`, left with every buffer at `at2`. Its
    four arrays are taken out of the buffers for the row tiles to be copied through and put back at what the tiles leave;
    the rest of the core's state goes in and comes out unchanged. -/
def layer0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (lft0 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1 as one step of the program: entered with every buffer at `at3`, left with every buffer at `at4`. Its
    four arrays are taken out of the buffers for the row tiles to be copied through and put back at what the tiles leave;
    the rest of the core's state goes in and comes out unchanged. -/
def layer1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (at3 m c) ∗ R c)
  post c := iprop(StableHlo.held (c : Thread nD τ) (Pipeline.ucRefs τ sig) (at4 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (lft1 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as one step of the program: entered with every buffer at `at5`, left with every buffer at `at6`. Its
    four arrays are taken out of the buffers for the row tiles to be copied through and put back at what the tiles leave;
    the rest of the core's state goes in and comes out unchanged. -/
def layer2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (at5 m c) ∗ R c)
  post c := iprop(StableHlo.held (c : Thread nD τ) (Pipeline.ucRefs τ sig) (at6 m c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (lft2 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3 as one step of the program: entered with every buffer at `at7`, left with every buffer at `at8`. Its
    four arrays are taken out of the buffers for the row tiles to be copied through and put back at what the tiles leave;
    the rest of the core's state goes in and comes out unchanged. -/
def layer3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (at7 m c) ∗ R c)
  post c := iprop(StableHlo.held (c : Thread nD τ) (Pipeline.ucRefs τ sig) (at8 m c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (lft3 m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 4 as one step of the program: entered with every buffer at `at9`, left with every buffer at `at10`. Its
    four arrays are taken out of the buffers for the row tiles to be copied through and put back at what the tiles leave;
    the rest of the core's state goes in and comes out unchanged. -/
def layer4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L lv 4 fun _ _ => rfl
  pre c := iprop(StableHlo.held (c : Thread nD τ) (Pipeline.ucRefs τ sig) (at9 m c) ∗ R c)
  post c := iprop(StableHlo.held (c : Thread nD τ) (Pipeline.ucRefs τ sig) (at10 m c) ∗ R c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (lft4 m c) ((pdats m 4 c).arrAt · cfg4.N) (left4 m c) (kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 5 as one step of the program: entered with every buffer at `at11`, left with every buffer at `at12`. Its
    four arrays are taken out of the buffers for the row tiles to be copied through and put back at what the tiles leave;
    the rest of the core's state goes in and comes out unchanged. -/
def layer5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L lv 5 fun _ _ => rfl
  pre c := iprop(StableHlo.held (c : Thread nD τ) (Pipeline.ucRefs τ sig) (at11 m c) ∗ R c)
  post c := iprop(StableHlo.held (c : Thread nD τ) (Pipeline.ucRefs τ sig) (at12 m c) ∗ R c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (lft5 m c) ((pdats m 5 c).arrAt · cfg5.N) (left5 m c) (kept5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 6 as one step of the program: entered with every buffer at `at13`, left with every buffer at `at14`. Its
    four arrays are taken out of the buffers for the row tiles to be copied through and put back at what the tiles leave;
    the rest of the core's state goes in and comes out unchanged. -/
def layer6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L lv 6 fun _ _ => rfl
  pre c := iprop(StableHlo.held (c : Thread nD τ) (Pipeline.ucRefs τ sig) (at13 m c) ∗ R c)
  post c := iprop(StableHlo.held (c : Thread nD τ) (Pipeline.ucRefs τ sig) (at14 m c) ∗ R c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (lft6 m c) ((pdats m 6 c).arrAt · cfg6.N) (left6 m c) (kept6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 7 as one step of the program: entered with every buffer at `at15`, left with every buffer at `at16`. Its
    four arrays are taken out of the buffers for the row tiles to be copied through and put back at what the tiles leave;
    the rest of the core's state goes in and comes out unchanged. -/
def layer7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L lv 7 fun _ _ => rfl
  pre c := iprop(StableHlo.held (c : Thread nD τ) (Pipeline.ucRefs τ sig) (at15 m c) ∗ R c)
  post c := iprop(StableHlo.held (c : Thread nD τ) (Pipeline.ucRefs τ sig) (at16 m c) ∗ R c)
  X c := iprop(∃ r, prngReg c r)
  Y c := iprop(∃ r, prngReg c r)
  Z c := Pipeline.unscopedRest (Ix := Unit) (Name := ℕ) (U := UR sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (ent7 m c) (lft7 m c) ((pdats m 7 c).arrAt · cfg7.N) (left7 m c) (kept7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 8 as one step of the program: entered with every buffer at `at17`, left with every buffer at `at18`. Its
    four arrays are taken out of the buffers for the row tiles to be copied through and put back at what the tiles leave;
    the rest of the core's state goes in and comes out unchanged. -/
def layer8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ L lv 8 fun _ _ => rfl
  pre c := iprop(StableHlo.held (c : Thread nD τ) (Pipeline.ucRefs τ sig) (at17 m c) ∗ R c)
  post c := iprop(StableHlo.held (c : Thread nD τ) (Pipeline.ucRefs τ sig) (at18 m c) ∗ R c)
  X c := iprop(∃ r, prngReg c r)
  Y c := iprop(∃ r, prngReg c r)
  Z c := Pipeline.unscopedRest (Ix := Unit) (Name := ℕ) (U := UR sig nD τ) (Lvl := ℕ) spec8 c (ent8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (ent8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (ent8 m c) (lft8 m c) ((pdats m 8 c).arrAt · cfg8.N) (left8 m c) (kept8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 9 as one step of the program: entered with every buffer at `at19`, left with every buffer at `at20`. Its
    four arrays are taken out of the buffers for the row tiles to be copied through and put back at what the tiles leave;
    the rest of the core's state goes in and comes out unchanged. -/
def layer9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (ent9 m) c).loose
  hwaits := Pipeline.hwaits_of_owed_zero _ _ _ _ L lv 9 fun _ _ => rfl
  pre c := iprop(StableHlo.held (c : Thread nD τ) (Pipeline.ucRefs τ sig) (at19 m c) ∗ R c)
  post c := iprop(StableHlo.held (c : Thread nD τ) (Pipeline.ucRefs τ sig) (at20 m c) ∗ R c)
  X c := iprop(∃ r, prngReg c r)
  Y c := iprop(∃ r, prngReg c r)
  Z c := Pipeline.unscopedRest (Ix := Unit) (Name := ℕ) (U := UR sig nD τ) (Lvl := ℕ) spec9 c (ent9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (ent9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (ent9 m c) (lft9 m c) ((pdats m 9 c).arrAt · cfg9.N) (left9 m c) (kept9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its steps, and the run -/

abbrev steps : List (Pipeline.Seg (pcfgs (F := F)) adm (pdats m) () defs₀ 𝒱₀ L lv) :=
  [ .host (hostStep hostOps0 hostOps0_sub hostOps0_fresh (at0 m)),
    .region (layer0 m),
    .host (hostStep hostOps1 hostOps1_sub hostOps1_fresh (at2 m)),
    .region (layer1 m),
    .host (hostStep hostOps2 hostOps2_sub hostOps2_fresh (at4 m)),
    .region (layer2 m),
    .host (hostStep hostOps3 hostOps3_sub hostOps3_fresh (at6 m)),
    .region (layer3 m),
    .host (hostStep hostOps4 hostOps4_sub hostOps4_fresh (at8 m)),
    .region (layer4 m),
    .host (hostStep hostOps5 hostOps5_sub hostOps5_fresh (at10 m)),
    .region (layer5 m),
    .host (hostStep hostOps6 hostOps6_sub hostOps6_fresh (at12 m)),
    .region (layer6 m),
    .host (hostStep hostOps7 hostOps7_sub hostOps7_fresh (at14 m)),
    .region (layer7 m),
    .host (hostStep hostOps8 hostOps8_sub hostOps8_fresh (at16 m)),
    .region (layer8 m),
    .host (hostStep hostOps9 hostOps9_sub hostOps9_fresh (at18 m)),
    .region (layer9 m) ]

set_option backward.isDefEq.respectTransparency.types false in
/-- Every weakly fair execution of the program from memory `m` with all counters at zero terminates without a fault, and
    in its final memory every buffer that outlives a layer holds the last contents `at20`. -/
theorem run : θ_run defs (onTc (τ := τ) (main (F := F))) ⟨m, fun _ => 0, ρ⟩ (fun r => ∀ c : Dev nD,
      ∀ b ∈ Pipeline.ucRefs τ sig, r.2.mem (((c : Thread nD τ)).1, b) = at20 m c b) :=
  Pipeline.θ_run_regions_kit (pcfgs (F := F)) adm (pdats m) () cellOf_inj emb₁ defs₀ 𝒱₀ L lv m ρ main (steps m)
    (fun c Q => by
      rewrite [main_chain c, Seg.run_eq_chain,
        show (steps m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := last m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (at20 m c) ∗ R c)
        ⊢ iprop(last m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at20 m c b)
    (hfin := fun c s' => by
      iintro ⟨⟨Hh, -⟩, HSI⟩
      unfold StableHlo.held
      imodintro
      iapply (pointsTo_read_all (Pipeline.ucRefs τ sig) (fun b => (((c : Thread nD τ)).1, b)) (at20 m c) s')
      isplitl [Hh] <;> iassumption)
    (hQ := fun s h => h)

end Cert.Kernel.Hand

end
-- ==== Proof.K.Frame.lean ====
/-
  The frame: every weakly fair execution terminates without a fault and every argument array ends as launched. Read off
  the run: an argument's buffer outlives every layer, no host operation writes it and it is no layer's array, so the last
  contents at it are the launch memory's.
-/
import proofs.«101052_j75445395522274_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that outlives the layers, that no host operation writes and that is no layer's array ends as launched. -/
theorem ends_as_launched (s : MemSt nD τ sig (Elt F))
    (h : ∀ c : Dev nD, ∀ b ∈ Pipeline.ucRefs τ sig, s.mem (((c : Thread nD τ)).1, b) = at20 m c b) (c : Dev nD) (r : Ref sig .tc)
    (hu : ¬ (Proc.devRef .tc r : DevRef τ sig).isScoped)
    (h0 : r ∉ hostOps0_W) (g0 : ∀ w, Pipeline.arrRef spec0 w ≠ r)
    (h1 : r ∉ hostOps1_W) (g1 : ∀ w, Pipeline.arrRef spec1 w ≠ r)
    (h2 : r ∉ hostOps2_W) (g2 : ∀ w, Pipeline.arrRef spec2 w ≠ r)
    (h3 : r ∉ hostOps3_W) (g3 : ∀ w, Pipeline.arrRef spec3 w ≠ r)
    (h4 : r ∉ hostOps4_W) (g4 : ∀ w, Pipeline.arrRef spec4 w ≠ r)
    (h5 : r ∉ hostOps5_W) (g5 : ∀ w, Pipeline.arrRef spec5 w ≠ r)
    (h6 : r ∉ hostOps6_W) (g6 : ∀ w, Pipeline.arrRef spec6 w ≠ r)
    (h7 : r ∉ hostOps7_W) (g7 : ∀ w, Pipeline.arrRef spec7 w ≠ r)
    (h8 : r ∉ hostOps8_W) (g8 : ∀ w, Pipeline.arrRef spec8 w ≠ r)
    (h9 : r ∉ hostOps9_W) (g9 : ∀ w, Pipeline.arrRef spec9 w ≠ r) :
    s.mem ((c.tc : Thread nD τ).loc r) = m ((c.tc : Thread nD τ).loc r) :=
  (h c _ (mem_uc r hu)).trans (at20_unwritten m c r h0 g0 h1 g1 h2 g2 h3 g3 h4 g4 h5 g5 h6 g6 h7 g7 h8 g8 h9 g9)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨ends_as_launched m r.2 h c main_arg0 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg1 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg2 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg3 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg4 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg5 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg6 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg7 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg8 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg9 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg10 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg11 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg12 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg13 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg14 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg15 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg16 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg17 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg18 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg19 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg20 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg21 (by decide) (by decide) (by decide) (by decide) (by decide) (by decide) (by decide) (by decide) (by decide) (by decide) (by decide) (by decide) (by decide) (by decide) (by decide) (by decide) (by decide) (by decide) (by decide) (by decide) (by decide)⟩) (run m ρ)

end Cert.Kernel.Hand

end
-- ==== Proof.KI.Layer0.lean ====
/-
  Linear layer number 0 of the network, one row tile at a time. The layer's four windows are: 0, a tile of 10000 rows of
  the [rows, 67] input matrix (the tile's number is the grid point); 1, the whole [67, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's tile at every grid point, whether the tile was copied in at
    that point or is still there from an earlier one (the tile's number did not change in between). -/
theorem held0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- An input window's staging buffer holds the window's tile at every grid point, whether the tile was copied in at
    that point or is still there from an earlier one (the tile's number did not change in between). -/
theorem held0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- An input window's staging buffer holds the window's tile at every grid point, whether the tile was copied in at
    that point or is still there from an earlier one (the tile's number did not change in between). -/
theorem held0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-- The whole of each staging buffer, as the rectangle the body reads or writes. -/
abbrev whole0_x : Rect S10000x67 := Rect.unit (s := S10000x67) ![0, 0] S10000x67.size inb_S10000x67_S10000x67_0_0
abbrev whole0_w : Rect S67x128 := Rect.unit (s := S67x128) ![0, 0] S67x128.size inb_S67x128_S67x128_0_0
abbrev whole0_b : Rect S1x128 := Rect.unit (s := S1x128) ![0, 0] S1x128.size inb_S1x128_S1x128_0_0
abbrev whole0_o : Rect S10000x128 := Rect.unit (s := S10000x128) ![0, 0] S10000x128.size inb_S10000x128_S10000x128_0_0

/-- The result tile after the body: the one stored value, the layer's arithmetic on the three input tiles, laid over the
    whole tile. -/
def stored0 (x0 : Vec F S10000x67 .f32) (x1 : Vec F S67x128 .f32) (x2 : Vec F S1x128 .f32) : Vec F S10000x128 .f32 :=
  View.canon [⟨whole0_o, k0_pay1 (View.ld x0 whole0_x) (View.ld x1 whole0_w) (View.ld x2 whole0_b)⟩]

/-- The one store covers the result tile. -/
theorem covers0 (p0 : Vec F S10000x128 .f32) (y : S10000x128.Idx) :
    ∃ pc ∈ ([⟨whole0_o, p0⟩] : List (View.Piece (Elt F) S10000x128 .f32)), y ∈ pc.1.set :=
  View.cover_of_tiled [⟨whole0_o, p0⟩] S10000x128.size (by rfl) y

set_option maxHeartbeats 1000000 in
/-- The body on whole staging buffers: the three inputs at contents `x0 x1 x2`, the result buffer at anything. It runs to
    its end, leaves the inputs as they were and the result buffer at `stored0 x0 x1 x2`. -/
theorem body_runs0 (c : Dev nD) (E : Set ℕ) (i : grid0.Coords) (arg1 : Memref sig .tc .vmem S10000x67 .f32) (harg1 : arg1.IsWhole) (arg2 : Memref sig .tc .vmem S67x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x67 .f32) (x1 : Vec F S67x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-- The layer's bookkeeping on core `c`: the arrays as the layer finds them; after the body at point `t` every input
    buffer still at its tile and the result buffer at `stored0` of the three tiles; nothing else of the core's state
    is touched, nothing is owed to another core, every buffer is held whole. -/
def data0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => stored0 (tile0 V c 0 t) (tile0 V c 1 t) (tile0 V c 2 t)
  Φ _ := Pipeline.ΦA spec0 c
  q _ := fullShare
  owed _ := 0

theorem arrays0 (c : Dev nD) (w : Fin cfg0.W) : (data0 V c).A w = V c (Pipeline.arrRef spec0 w) := by
  dsimp only [data0]

theorem after0_0 (c : Dev nD) (t : Fin cfg0.N) : (data0 V c).after 0 t = tile0 V c 0 t := by dsimp only [data0]
theorem after0_1 (c : Dev nD) (t : Fin cfg0.N) : (data0 V c).after 1 t = tile0 V c 1 t := by dsimp only [data0]
theorem after0_2 (c : Dev nD) (t : Fin cfg0.N) : (data0 V c).after 2 t = tile0 V c 2 t := by dsimp only [data0]
theorem after0_3 (c : Dev nD) (t : Fin cfg0.N) : (data0 V c).after 3 t = stored0 (tile0 V c 0 t) (tile0 V c 1 t) (tile0 V c 2 t) := by dsimp only [data0]

theorem held0_0 (c : Dev nD) (t : Fin cfg0.N) (d) : (data0 V c).before 0 t d = tile0 V c 0 t :=
  held0_0_of V (data0 V c) (arrays0 V c 0) (after0_0 V c) t d
theorem held0_1 (c : Dev nD) (t : Fin cfg0.N) (d) : (data0 V c).before 1 t d = tile0 V c 1 t :=
  held0_1_of V (data0 V c) (arrays0 V c 1) (after0_1 V c) t d
theorem held0_2 (c : Dev nD) (t : Fin cfg0.N) (d) : (data0 V c).before 2 t d = tile0 V c 2 t :=
  held0_2_of V (data0 V c) (arrays0 V c 2) (after0_2 V c) t d

/-- What the body is handed at point `t`, window by window, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- and what it hands back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any grid point: its input buffers hold their tiles, so `body_runs0` applies; the rest of the core's
    state passes through unread. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (data0 V c).Φ t.succ = (data0 V c).Φ t.castSucc from rfl,
    show (data0 V c).owesAt () t.succ = (data0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body_runs0 c Set.univ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation0 (c : Dev nD) : BodyObligation (data0 (F := F) V c) (defs₀ (F := F)) Variants.none () Set.univ := fun t => by
  rw [bigSep_W0, bigSep_W0]
  exact body_at0 V c t

end Cert.KernelIdeal.Hand

end
-- ==== Proof.KI.Layer1.lean ====
/-
  Linear layer number 1 of the network, one row tile at a time. The layer's four windows are: 0, a tile of 10000 rows of
  the [rows, 192] input matrix (the tile's number is the grid point); 1, the whole [192, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's tile at every grid point, whether the tile was copied in at
    that point or is still there from an earlier one (the tile's number did not change in between). -/
theorem held1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- An input window's staging buffer holds the window's tile at every grid point, whether the tile was copied in at
    that point or is still there from an earlier one (the tile's number did not change in between). -/
theorem held1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-- An input window's staging buffer holds the window's tile at every grid point, whether the tile was copied in at
    that point or is still there from an earlier one (the tile's number did not change in between). -/
theorem held1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)

/-- The whole of each staging buffer, as the rectangle the body reads or writes. -/
abbrev whole1_x : Rect S10000x192 := Rect.unit (s := S10000x192) ![0, 0] S10000x192.size inb_S10000x192_S10000x192_0_0
abbrev whole1_w : Rect S192x128 := Rect.unit (s := S192x128) ![0, 0] S192x128.size inb_S192x128_S192x128_0_0
abbrev whole1_b : Rect S1x128 := Rect.unit (s := S1x128) ![0, 0] S1x128.size inb_S1x128_S1x128_0_0
abbrev whole1_o : Rect S10000x128 := Rect.unit (s := S10000x128) ![0, 0] S10000x128.size inb_S10000x128_S10000x128_0_0

/-- The result tile after the body: the one stored value, the layer's arithmetic on the three input tiles, laid over the
    whole tile. -/
def stored1 (x0 : Vec F S10000x192 .f32) (x1 : Vec F S192x128 .f32) (x2 : Vec F S1x128 .f32) : Vec F S10000x128 .f32 :=
  View.canon [⟨whole1_o, k1_pay1 (View.ld x0 whole1_x) (View.ld x1 whole1_w) (View.ld x2 whole1_b)⟩]

/-- The one store covers the result tile. -/
theorem covers1 (p0 : Vec F S10000x128 .f32) (y : S10000x128.Idx) :
    ∃ pc ∈ ([⟨whole1_o, p0⟩] : List (View.Piece (Elt F) S10000x128 .f32)), y ∈ pc.1.set :=
  View.cover_of_tiled [⟨whole1_o, p0⟩] S10000x128.size (by rfl) y

set_option maxHeartbeats 1000000 in
/-- The body on whole staging buffers: the three inputs at contents `x0 x1 x2`, the result buffer at anything. It runs to
    its end, leaves the inputs as they were and the result buffer at `stored1 x0 x1 x2`. -/
theorem body_runs1 (c : Dev nD) (E : Set ℕ) (i : grid1.Coords) (arg1 : Memref sig .tc .vmem S10000x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x192 .f32) (x1 : Vec F S192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-- The layer's bookkeeping on core `c`: the arrays as the layer finds them; after the body at point `t` every input
    buffer still at its tile and the result buffer at `stored1` of the three tiles; nothing else of the core's state
    is touched, nothing is owed to another core, every buffer is held whole. -/
def data1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => stored1 (tile1 V c 0 t) (tile1 V c 1 t) (tile1 V c 2 t)
  Φ _ := Pipeline.ΦA spec1 c
  q _ := fullShare
  owed _ := 0

theorem arrays1 (c : Dev nD) (w : Fin cfg1.W) : (data1 V c).A w = V c (Pipeline.arrRef spec1 w) := by
  dsimp only [data1]

theorem after1_0 (c : Dev nD) (t : Fin cfg1.N) : (data1 V c).after 0 t = tile1 V c 0 t := by dsimp only [data1]
theorem after1_1 (c : Dev nD) (t : Fin cfg1.N) : (data1 V c).after 1 t = tile1 V c 1 t := by dsimp only [data1]
theorem after1_2 (c : Dev nD) (t : Fin cfg1.N) : (data1 V c).after 2 t = tile1 V c 2 t := by dsimp only [data1]
theorem after1_3 (c : Dev nD) (t : Fin cfg1.N) : (data1 V c).after 3 t = stored1 (tile1 V c 0 t) (tile1 V c 1 t) (tile1 V c 2 t) := by dsimp only [data1]

theorem held1_0 (c : Dev nD) (t : Fin cfg1.N) (d) : (data1 V c).before 0 t d = tile1 V c 0 t :=
  held1_0_of V (data1 V c) (arrays1 V c 0) (after1_0 V c) t d
theorem held1_1 (c : Dev nD) (t : Fin cfg1.N) (d) : (data1 V c).before 1 t d = tile1 V c 1 t :=
  held1_1_of V (data1 V c) (arrays1 V c 1) (after1_1 V c) t d
theorem held1_2 (c : Dev nD) (t : Fin cfg1.N) (d) : (data1 V c).before 2 t d = tile1 V c 2 t :=
  held1_2_of V (data1 V c) (arrays1 V c 2) (after1_2 V c) t d

/-- What the body is handed at point `t`, window by window, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it hands back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

/-- The body at any grid point: its input buffers hold their tiles, so `body_runs1` applies; the rest of the core's
    state passes through unread. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2]
  rw [show (data1 V c).Φ t.succ = (data1 V c).Φ t.castSucc from rfl,
    show (data1 V c).owesAt () t.succ = (data1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body_runs1 c Set.univ _ _ _ _ _ _ _ _ _ (tile1 V c 0 t) (tile1 V c 1 t) (tile1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation1 (c : Dev nD) : BodyObligation (data1 (F := F) V c) (defs₀ (F := F)) Variants.none () Set.univ := fun t => by
  rw [bigSep_W1, bigSep_W1]
  exact body_at1 V c t

end Cert.KernelIdeal.Hand

end
-- ==== Proof.KI.Layer2.lean ====
/-
  Linear layer number 2 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's tile at every grid point, whether the tile was copied in at
    that point or is still there from an earlier one (the tile's number did not change in between). -/
theorem held2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- An input window's staging buffer holds the window's tile at every grid point, whether the tile was copied in at
    that point or is still there from an earlier one (the tile's number did not change in between). -/
theorem held2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- An input window's staging buffer holds the window's tile at every grid point, whether the tile was copied in at
    that point or is still there from an earlier one (the tile's number did not change in between). -/
theorem held2_2_of {c : Dev nD} (dat : Dat τ (Elt F) Unit ℕ (UR sig nD τ) ℕ cfg2 c) (hA : dat.A 2 = V c (Pipeline.arrRef spec2 2))
    (hafter : ∀ t, dat.after 2 t = tile2 V c 2 t) (t : Fin cfg2.N) (d) : dat.before 2 t d = tile2 V c 2 t :=
  (dat.before_in_eq_fetched 2 rfl (fun _ => rfl) (fun _ _ _ => rfl) (fun t => by rw [hafter]; unfold Dat.blockOf tile2; rw [hA]; try rfl) t d).trans
    (by unfold Dat.fetched Dat.blockOf tile2; rw [hA]; try rfl)

/-- The whole of each staging buffer, as the rectangle the body reads or writes. -/
abbrev whole2_x : Rect S10000x131 := Rect.unit (s := S10000x131) ![0, 0] S10000x131.size inb_S10000x131_S10000x131_0_0
abbrev whole2_w : Rect S131x128 := Rect.unit (s := S131x128) ![0, 0] S131x128.size inb_S131x128_S131x128_0_0
abbrev whole2_b : Rect S1x128 := Rect.unit (s := S1x128) ![0, 0] S1x128.size inb_S1x128_S1x128_0_0
abbrev whole2_o : Rect S10000x128 := Rect.unit (s := S10000x128) ![0, 0] S10000x128.size inb_S10000x128_S10000x128_0_0

/-- The result tile after the body: the one stored value, the layer's arithmetic on the three input tiles, laid over the
    whole tile. -/
def stored2 (x0 : Vec F S10000x131 .f32) (x1 : Vec F S131x128 .f32) (x2 : Vec F S1x128 .f32) : Vec F S10000x128 .f32 :=
  View.canon [⟨whole2_o, k2_pay1 (View.ld x0 whole2_x) (View.ld x1 whole2_w) (View.ld x2 whole2_b)⟩]

/-- The one store covers the result tile. -/
theorem covers2 (p0 : Vec F S10000x128 .f32) (y : S10000x128.Idx) :
    ∃ pc ∈ ([⟨whole2_o, p0⟩] : List (View.Piece (Elt F) S10000x128 .f32)), y ∈ pc.1.set :=
  View.cover_of_tiled [⟨whole2_o, p0⟩] S10000x128.size (by rfl) y

set_option maxHeartbeats 1000000 in
/-- The body on whole staging buffers: the three inputs at contents `x0 x1 x2`, the result buffer at anything. It runs to
    its end, leaves the inputs as they were and the result buffer at `stored2 x0 x1 x2`. -/
theorem body_runs2 (c : Dev nD) (E : Set ℕ) (i : grid2.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-- The layer's bookkeeping on core `c`: the arrays as the layer finds them; after the body at point `t` every input
    buffer still at its tile and the result buffer at `stored2` of the three tiles; nothing else of the core's state
    is touched, nothing is owed to another core, every buffer is held whole. -/
def data2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => stored2 (tile2 V c 0 t) (tile2 V c 1 t) (tile2 V c 2 t)
  Φ _ := Pipeline.ΦA spec2 c
  q _ := fullShare
  owed _ := 0

theorem arrays2 (c : Dev nD) (w : Fin cfg2.W) : (data2 V c).A w = V c (Pipeline.arrRef spec2 w) := by
  dsimp only [data2]

theorem after2_0 (c : Dev nD) (t : Fin cfg2.N) : (data2 V c).after 0 t = tile2 V c 0 t := by dsimp only [data2]
theorem after2_1 (c : Dev nD) (t : Fin cfg2.N) : (data2 V c).after 1 t = tile2 V c 1 t := by dsimp only [data2]
theorem after2_2 (c : Dev nD) (t : Fin cfg2.N) : (data2 V c).after 2 t = tile2 V c 2 t := by dsimp only [data2]
theorem after2_3 (c : Dev nD) (t : Fin cfg2.N) : (data2 V c).after 3 t = stored2 (tile2 V c 0 t) (tile2 V c 1 t) (tile2 V c 2 t) := by dsimp only [data2]

theorem held2_0 (c : Dev nD) (t : Fin cfg2.N) (d) : (data2 V c).before 0 t d = tile2 V c 0 t :=
  held2_0_of V (data2 V c) (arrays2 V c 0) (after2_0 V c) t d
theorem held2_1 (c : Dev nD) (t : Fin cfg2.N) (d) : (data2 V c).before 1 t d = tile2 V c 1 t :=
  held2_1_of V (data2 V c) (arrays2 V c 1) (after2_1 V c) t d
theorem held2_2 (c : Dev nD) (t : Fin cfg2.N) (d) : (data2 V c).before 2 t d = tile2 V c 2 t :=
  held2_2_of V (data2 V c) (arrays2 V c 2) (after2_2 V c) t d

/-- What the body is handed at point `t`, window by window, -/
def handed2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

/-- and what it hands back. -/
def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

/-- The body at any grid point: its input buffers hold their tiles, so `body_runs2` applies; the rest of the core's
    state passes through unread. -/
theorem body_at2 (c : Dev nD) (t : Fin cfg2.N) :
    handed2 V c t ⊢ wp frame (wpE (defs₀ (F := F)) Variants.none c none) Set.univ (bodyAt2 t) (fun _ => returned2 V c t) := by
  unfold handed2 returned2 bodyAt2
  simp only [held2_0, held2_1, held2_2]
  rw [show (data2 V c).Φ t.succ = (data2 V c).Φ t.castSucc from rfl,
    show (data2 V c).owesAt () t.succ = (data2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body_runs2 c Set.univ _ _ _ _ _ _ _ _ _ (tile2 V c 0 t) (tile2 V c 1 t) (tile2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation2 (c : Dev nD) : BodyObligation (data2 (F := F) V c) (defs₀ (F := F)) Variants.none () Set.univ := fun t => by
  rw [bigSep_W2, bigSep_W2]
  exact body_at2 V c t

end Cert.KernelIdeal.Hand

end
-- ==== Proof.KI.Layer3.lean ====
/-
  Linear layer number 3 of the network, one row tile at a time. The layer's four windows are: 0, a tile of 10000 rows of
  the [rows, 256] input matrix (the tile's number is the grid point); 1, the whole [256, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's tile at every grid point, whether the tile was copied in at
    that point or is still there from an earlier one (the tile's number did not change in between). -/
theorem held3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- An input window's staging buffer holds the window's tile at every grid point, whether the tile was copied in at
    that point or is still there from an earlier one (the tile's number did not change in between). -/
theorem held3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-- An input window's staging buffer holds the window's tile at every grid point, whether the tile was copied in at
    that point or is still there from an earlier one (the tile's number did not change in between). -/
theorem held3_2_of {c : Dev nD} (dat : Dat τ (Elt F) Unit ℕ (UR sig nD τ) ℕ cfg3 c) (hA : dat.A 2 = V c (Pipeline.arrRef spec3 2))
    (hafter : ∀ t, dat.after 2 t = tile3 V c 2 t) (t : Fin cfg3.N) (d) : dat.before 2 t d = tile3 V c 2 t :=
  (dat.before_in_eq_fetched 2 rfl (fun _ => rfl) (fun _ _ _ => rfl) (fun t => by rw [hafter]; unfold Dat.blockOf tile3; rw [hA]; try rfl) t d).trans
    (by unfold Dat.fetched Dat.blockOf tile3; rw [hA]; try rfl)

/-- The whole of each staging buffer, as the rectangle the body reads or writes. -/
abbrev whole3_x : Rect S10000x256 := Rect.unit (s := S10000x256) ![0, 0] S10000x256.size inb_S10000x256_S10000x256_0_0
abbrev whole3_w : Rect S256x128 := Rect.unit (s := S256x128) ![0, 0] S256x128.size inb_S256x128_S256x128_0_0
abbrev whole3_b : Rect S1x128 := Rect.unit (s := S1x128) ![0, 0] S1x128.size inb_S1x128_S1x128_0_0
abbrev whole3_o : Rect S10000x128 := Rect.unit (s := S10000x128) ![0, 0] S10000x128.size inb_S10000x128_S10000x128_0_0

/-- The result tile after the body: the one stored value, the layer's arithmetic on the three input tiles, laid over the
    whole tile. -/
def stored3 (x0 : Vec F S10000x256 .f32) (x1 : Vec F S256x128 .f32) (x2 : Vec F S1x128 .f32) : Vec F S10000x128 .f32 :=
  View.canon [⟨whole3_o, k3_pay1 (View.ld x0 whole3_x) (View.ld x1 whole3_w) (View.ld x2 whole3_b)⟩]

/-- The one store covers the result tile. -/
theorem covers3 (p0 : Vec F S10000x128 .f32) (y : S10000x128.Idx) :
    ∃ pc ∈ ([⟨whole3_o, p0⟩] : List (View.Piece (Elt F) S10000x128 .f32)), y ∈ pc.1.set :=
  View.cover_of_tiled [⟨whole3_o, p0⟩] S10000x128.size (by rfl) y

set_option maxHeartbeats 1000000 in
/-- The body on whole staging buffers: the three inputs at contents `x0 x1 x2`, the result buffer at anything. It runs to
    its end, leaves the inputs as they were and the result buffer at `stored3 x0 x1 x2`. -/
theorem body_runs3 (c : Dev nD) (E : Set ℕ) (i : grid3.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers3 _)

/-- The layer's bookkeeping on core `c`: the arrays as the layer finds them; after the body at point `t` every input
    buffer still at its tile and the result buffer at `stored3` of the three tiles; nothing else of the core's state
    is touched, nothing is owed to another core, every buffer is held whole. -/
def data3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => stored3 (tile3 V c 0 t) (tile3 V c 1 t) (tile3 V c 2 t)
  Φ _ := Pipeline.ΦA spec3 c
  q _ := fullShare
  owed _ := 0

theorem arrays3 (c : Dev nD) (w : Fin cfg3.W) : (data3 V c).A w = V c (Pipeline.arrRef spec3 w) := by
  dsimp only [data3]

theorem after3_0 (c : Dev nD) (t : Fin cfg3.N) : (data3 V c).after 0 t = tile3 V c 0 t := by dsimp only [data3]
theorem after3_1 (c : Dev nD) (t : Fin cfg3.N) : (data3 V c).after 1 t = tile3 V c 1 t := by dsimp only [data3]
theorem after3_2 (c : Dev nD) (t : Fin cfg3.N) : (data3 V c).after 2 t = tile3 V c 2 t := by dsimp only [data3]
theorem after3_3 (c : Dev nD) (t : Fin cfg3.N) : (data3 V c).after 3 t = stored3 (tile3 V c 0 t) (tile3 V c 1 t) (tile3 V c 2 t) := by dsimp only [data3]

theorem held3_0 (c : Dev nD) (t : Fin cfg3.N) (d) : (data3 V c).before 0 t d = tile3 V c 0 t :=
  held3_0_of V (data3 V c) (arrays3 V c 0) (after3_0 V c) t d
theorem held3_1 (c : Dev nD) (t : Fin cfg3.N) (d) : (data3 V c).before 1 t d = tile3 V c 1 t :=
  held3_1_of V (data3 V c) (arrays3 V c 1) (after3_1 V c) t d
theorem held3_2 (c : Dev nD) (t : Fin cfg3.N) (d) : (data3 V c).before 2 t d = tile3 V c 2 t :=
  held3_2_of V (data3 V c) (arrays3 V c 2) (after3_2 V c) t d

/-- What the body is handed at point `t`, window by window, -/
def handed3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d)))

/-- and what it hands back. -/
def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t))

/-- The body at any grid point: its input buffers hold their tiles, so `body_runs3` applies; the rest of the core's
    state passes through unread. -/
theorem body_at3 (c : Dev nD) (t : Fin cfg3.N) :
    handed3 V c t ⊢ wp frame (wpE (defs₀ (F := F)) Variants.none c none) Set.univ (bodyAt3 t) (fun _ => returned3 V c t) := by
  unfold handed3 returned3 bodyAt3
  simp only [held3_0, held3_1, held3_2]
  rw [show (data3 V c).Φ t.succ = (data3 V c).Φ t.castSucc from rfl,
    show (data3 V c).owesAt () t.succ = (data3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (body_runs3 c Set.univ _ _ _ _ _ _ _ _ _ (tile3 V c 0 t) (tile3 V c 1 t) (tile3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation3 (c : Dev nD) : BodyObligation (data3 (F := F) V c) (defs₀ (F := F)) Variants.none () Set.univ := fun t => by
  rw [bigSep_W3, bigSep_W3]
  exact body_at3 V c t

end Cert.KernelIdeal.Hand

end
-- ==== Proof.KI.Layer4.lean ====
/-
  Linear layer number 4 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's tile at every grid point, whether the tile was copied in at
    that point or is still there from an earlier one (the tile's number did not change in between). -/
theorem held4_0_of {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

/-- An input window's staging buffer holds the window's tile at every grid point, whether the tile was copied in at
    that point or is still there from an earlier one (the tile's number did not change in between). -/
theorem held4_1_of {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)

/-- An input window's staging buffer holds the window's tile at every grid point, whether the tile was copied in at
    that point or is still there from an earlier one (the tile's number did not change in between). -/
theorem held4_2_of {c : Dev nD} (dat : Dat τ (Elt F) Unit ℕ (UR sig nD τ) ℕ cfg4 c) (hA : dat.A 2 = V c (Pipeline.arrRef spec4 2))
    (hafter : ∀ t, dat.after 2 t = tile4 V c 2 t) (t : Fin cfg4.N) (d) : dat.before 2 t d = tile4 V c 2 t :=
  (dat.before_in_eq_fetched 2 rfl (fun _ => rfl) (fun _ _ _ => rfl) (fun t => by rw [hafter]; unfold Dat.blockOf tile4; rw [hA]; try rfl) t d).trans
    (by unfold Dat.fetched Dat.blockOf tile4; rw [hA]; try rfl)

/-- The whole of each staging buffer, as the rectangle the body reads or writes. -/
abbrev whole4_x : Rect S10000x131 := Rect.unit (s := S10000x131) ![0, 0] S10000x131.size inb_S10000x131_S10000x131_0_0
abbrev whole4_w : Rect S131x128 := Rect.unit (s := S131x128) ![0, 0] S131x128.size inb_S131x128_S131x128_0_0
abbrev whole4_b : Rect S1x128 := Rect.unit (s := S1x128) ![0, 0] S1x128.size inb_S1x128_S1x128_0_0
abbrev whole4_o : Rect S10000x128 := Rect.unit (s := S10000x128) ![0, 0] S10000x128.size inb_S10000x128_S10000x128_0_0

/-- The result tile after the body: the one stored value, the layer's arithmetic on the three input tiles, laid over the
    whole tile. -/
def stored4 (x0 : Vec F S10000x131 .f32) (x1 : Vec F S131x128 .f32) (x2 : Vec F S1x128 .f32) : Vec F S10000x128 .f32 :=
  View.canon [⟨whole4_o, k4_pay1 (View.ld x0 whole4_x) (View.ld x1 whole4_w) (View.ld x2 whole4_b)⟩]

/-- The one store covers the result tile. -/
theorem covers4 (p0 : Vec F S10000x128 .f32) (y : S10000x128.Idx) :
    ∃ pc ∈ ([⟨whole4_o, p0⟩] : List (View.Piece (Elt F) S10000x128 .f32)), y ∈ pc.1.set :=
  View.cover_of_tiled [⟨whole4_o, p0⟩] S10000x128.size (by rfl) y

set_option maxHeartbeats 1000000 in
/-- The body on whole staging buffers: the three inputs at contents `x0 x1 x2`, the result buffer at anything. It runs to
    its end, leaves the inputs as they were and the result buffer at `stored4 x0 x1 x2`. -/
theorem body_runs4 (c : Dev nD) (E : Set ℕ) (i : grid4.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored4 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers4 _)

/-- The layer's bookkeeping on core `c`: the arrays as the layer finds them; after the body at point `t` every input
    buffer still at its tile and the result buffer at `stored4` of the three tiles; nothing else of the core's state
    is touched, nothing is owed to another core, every buffer is held whole. -/
def data4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => stored4 (tile4 V c 0 t) (tile4 V c 1 t) (tile4 V c 2 t)
  Φ _ := Pipeline.ΦA spec4 c
  q _ := fullShare
  owed _ := 0

theorem arrays4 (c : Dev nD) (w : Fin cfg4.W) : (data4 V c).A w = V c (Pipeline.arrRef spec4 w) := by
  dsimp only [data4]

theorem after4_0 (c : Dev nD) (t : Fin cfg4.N) : (data4 V c).after 0 t = tile4 V c 0 t := by dsimp only [data4]
theorem after4_1 (c : Dev nD) (t : Fin cfg4.N) : (data4 V c).after 1 t = tile4 V c 1 t := by dsimp only [data4]
theorem after4_2 (c : Dev nD) (t : Fin cfg4.N) : (data4 V c).after 2 t = tile4 V c 2 t := by dsimp only [data4]
theorem after4_3 (c : Dev nD) (t : Fin cfg4.N) : (data4 V c).after 3 t = stored4 (tile4 V c 0 t) (tile4 V c 1 t) (tile4 V c 2 t) := by dsimp only [data4]

theorem held4_0 (c : Dev nD) (t : Fin cfg4.N) (d) : (data4 V c).before 0 t d = tile4 V c 0 t :=
  held4_0_of V (data4 V c) (arrays4 V c 0) (after4_0 V c) t d
theorem held4_1 (c : Dev nD) (t : Fin cfg4.N) (d) : (data4 V c).before 1 t d = tile4 V c 1 t :=
  held4_1_of V (data4 V c) (arrays4 V c 1) (after4_1 V c) t d
theorem held4_2 (c : Dev nD) (t : Fin cfg4.N) (d) : (data4 V c).before 2 t d = tile4 V c 2 t :=
  held4_2_of V (data4 V c) (arrays4 V c 2) (after4_2 V c) t d

/-- What the body is handed at point `t`, window by window, -/
def handed4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d))
    ∗ (∃ d, owns (c : Thread nD τ) (st4_3 t) fullShare ((data4 V c).before 3 t d)))

/-- and what it hands back. -/
def returned4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t)
    ∗ owns (c : Thread nD τ) (st4_3 t) fullShare ((data4 V c).after 3 t))

/-- The body at any grid point: its input buffers hold their tiles, so `body_runs4` applies; the rest of the core's
    state passes through unread. -/
theorem body_at4 (c : Dev nD) (t : Fin cfg4.N) :
    handed4 V c t ⊢ wp frame (wpE (defs₀ (F := F)) Variants.none c none) Set.univ (bodyAt4 t) (fun _ => returned4 V c t) := by
  unfold handed4 returned4 bodyAt4
  simp only [held4_0, held4_1, held4_2]
  rw [show (data4 V c).Φ t.succ = (data4 V c).Φ t.castSucc from rfl,
    show (data4 V c).owesAt () t.succ = (data4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body_runs4 c Set.univ _ _ _ _ _ _ _ _ _ (tile4 V c 0 t) (tile4 V c 1 t) (tile4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation4 (c : Dev nD) : BodyObligation (data4 (F := F) V c) (defs₀ (F := F)) Variants.none () Set.univ := fun t => by
  rw [bigSep_W4, bigSep_W4]
  exact body_at4 V c t

end Cert.KernelIdeal.Hand

end
-- ==== Proof.KI.Layer5.lean ====
/-
  Linear layer number 5 of the network, one row tile at a time. The layer's four windows are: 0, a tile of 10000 rows of
  the [rows, 256] input matrix (the tile's number is the grid point); 1, the whole [256, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's tile at every grid point, whether the tile was copied in at
    that point or is still there from an earlier one (the tile's number did not change in between). -/
theorem held5_0_of {c : Dev nD} (dat : Dat τ (Elt F) Unit ℕ (UR sig nD τ) ℕ cfg5 c) (hA : dat.A 0 = V c (Pipeline.arrRef spec5 0))
    (hafter : ∀ t, dat.after 0 t = tile5 V c 0 t) (t : Fin cfg5.N) (d) : dat.before 0 t d = tile5 V c 0 t :=
  (dat.before_in_eq_fetched 0 rfl (fun _ => rfl) (fun _ _ _ => rfl) (fun t => by rw [hafter]; unfold Dat.blockOf tile5; rw [hA]; try rfl) t d).trans
    (by unfold Dat.fetched Dat.blockOf tile5; rw [hA]; try rfl)

/-- An input window's staging buffer holds the window's tile at every grid point, whether the tile was copied in at
    that point or is still there from an earlier one (the tile's number did not change in between). -/
theorem held5_1_of {c : Dev nD} (dat : Dat τ (Elt F) Unit ℕ (UR sig nD τ) ℕ cfg5 c) (hA : dat.A 1 = V c (Pipeline.arrRef spec5 1))
    (hafter : ∀ t, dat.after 1 t = tile5 V c 1 t) (t : Fin cfg5.N) (d) : dat.before 1 t d = tile5 V c 1 t :=
  (dat.before_in_eq_fetched 1 rfl (fun _ => rfl) (fun _ _ _ => rfl) (fun t => by rw [hafter]; unfold Dat.blockOf tile5; rw [hA]; try rfl) t d).trans
    (by unfold Dat.fetched Dat.blockOf tile5; rw [hA]; try rfl)

/-- An input window's staging buffer holds the window's tile at every grid point, whether the tile was copied in at
    that point or is still there from an earlier one (the tile's number did not change in between). -/
theorem held5_2_of {c : Dev nD} (dat : Dat τ (Elt F) Unit ℕ (UR sig nD τ) ℕ cfg5 c) (hA : dat.A 2 = V c (Pipeline.arrRef spec5 2))
    (hafter : ∀ t, dat.after 2 t = tile5 V c 2 t) (t : Fin cfg5.N) (d) : dat.before 2 t d = tile5 V c 2 t :=
  (dat.before_in_eq_fetched 2 rfl (fun _ => rfl) (fun _ _ _ => rfl) (fun t => by rw [hafter]; unfold Dat.blockOf tile5; rw [hA]; try rfl) t d).trans
    (by unfold Dat.fetched Dat.blockOf tile5; rw [hA]; try rfl)

/-- The whole of each staging buffer, as the rectangle the body reads or writes. -/
abbrev whole5_x : Rect S10000x256 := Rect.unit (s := S10000x256) ![0, 0] S10000x256.size inb_S10000x256_S10000x256_0_0
abbrev whole5_w : Rect S256x128 := Rect.unit (s := S256x128) ![0, 0] S256x128.size inb_S256x128_S256x128_0_0
abbrev whole5_b : Rect S1x128 := Rect.unit (s := S1x128) ![0, 0] S1x128.size inb_S1x128_S1x128_0_0
abbrev whole5_o : Rect S10000x128 := Rect.unit (s := S10000x128) ![0, 0] S10000x128.size inb_S10000x128_S10000x128_0_0

/-- The result tile after the body: the one stored value, the layer's arithmetic on the three input tiles, laid over the
    whole tile. -/
def stored5 (x0 : Vec F S10000x256 .f32) (x1 : Vec F S256x128 .f32) (x2 : Vec F S1x128 .f32) : Vec F S10000x128 .f32 :=
  View.canon [⟨whole5_o, k5_pay1 (View.ld x0 whole5_x) (View.ld x1 whole5_w) (View.ld x2 whole5_b)⟩]

/-- The one store covers the result tile. -/
theorem covers5 (p0 : Vec F S10000x128 .f32) (y : S10000x128.Idx) :
    ∃ pc ∈ ([⟨whole5_o, p0⟩] : List (View.Piece (Elt F) S10000x128 .f32)), y ∈ pc.1.set :=
  View.cover_of_tiled [⟨whole5_o, p0⟩] S10000x128.size (by rfl) y

set_option maxHeartbeats 1000000 in
/-- The body on whole staging buffers: the three inputs at contents `x0 x1 x2`, the result buffer at anything. It runs to
    its end, leaves the inputs as they were and the result buffer at `stored5 x0 x1 x2`. -/
theorem body_runs5 (c : Dev nD) (E : Set ℕ) (i : grid5.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored5 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers5 _)

/-- The layer's bookkeeping on core `c`: the arrays as the layer finds them; after the body at point `t` every input
    buffer still at its tile and the result buffer at `stored5` of the three tiles; nothing else of the core's state
    is touched, nothing is owed to another core, every buffer is held whole. -/
def data5 (c : Dev nD) : Dat τ (Elt F) Unit ℕ (UR sig nD τ) ℕ cfg5 c where
  A w := V c (Pipeline.arrRef spec5 w)
  after w t := match w with
    | ⟨0, _⟩ => tile5 V c 0 t
    | ⟨1, _⟩ => tile5 V c 1 t
    | ⟨2, _⟩ => tile5 V c 2 t
    | ⟨3, _⟩ => stored5 (tile5 V c 0 t) (tile5 V c 1 t) (tile5 V c 2 t)
  Φ _ := Pipeline.ΦA spec5 c
  q _ := fullShare
  owed _ := 0

theorem arrays5 (c : Dev nD) (w : Fin cfg5.W) : (data5 V c).A w = V c (Pipeline.arrRef spec5 w) := by
  dsimp only [data5]

theorem after5_0 (c : Dev nD) (t : Fin cfg5.N) : (data5 V c).after 0 t = tile5 V c 0 t := by dsimp only [data5]
theorem after5_1 (c : Dev nD) (t : Fin cfg5.N) : (data5 V c).after 1 t = tile5 V c 1 t := by dsimp only [data5]
theorem after5_2 (c : Dev nD) (t : Fin cfg5.N) : (data5 V c).after 2 t = tile5 V c 2 t := by dsimp only [data5]
theorem after5_3 (c : Dev nD) (t : Fin cfg5.N) : (data5 V c).after 3 t = stored5 (tile5 V c 0 t) (tile5 V c 1 t) (tile5 V c 2 t) := by dsimp only [data5]

theorem held5_0 (c : Dev nD) (t : Fin cfg5.N) (d) : (data5 V c).before 0 t d = tile5 V c 0 t :=
  held5_0_of V (data5 V c) (arrays5 V c 0) (after5_0 V c) t d
theorem held5_1 (c : Dev nD) (t : Fin cfg5.N) (d) : (data5 V c).before 1 t d = tile5 V c 1 t :=
  held5_1_of V (data5 V c) (arrays5 V c 1) (after5_1 V c) t d
theorem held5_2 (c : Dev nD) (t : Fin cfg5.N) (d) : (data5 V c).before 2 t d = tile5 V c 2 t :=
  held5_2_of V (data5 V c) (arrays5 V c 2) (after5_2 V c) t d

/-- What the body is handed at point `t`, window by window, -/
def handed5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d))
    ∗ (∃ d, owns (c : Thread nD τ) (st5_3 t) fullShare ((data5 V c).before 3 t d)))

/-- and what it hands back. -/
def returned5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t)
    ∗ owns (c : Thread nD τ) (st5_3 t) fullShare ((data5 V c).after 3 t))

/-- The body at any grid point: its input buffers hold their tiles, so `body_runs5` applies; the rest of the core's
    state passes through unread. -/
theorem body_at5 (c : Dev nD) (t : Fin cfg5.N) :
    handed5 V c t ⊢ wp frame (wpE (defs₀ (F := F)) Variants.none c none) Set.univ (bodyAt5 t) (fun _ => returned5 V c t) := by
  unfold handed5 returned5 bodyAt5
  simp only [held5_0, held5_1, held5_2]
  rw [show (data5 V c).Φ t.succ = (data5 V c).Φ t.castSucc from rfl,
    show (data5 V c).owesAt () t.succ = (data5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (body_runs5 c Set.univ _ _ _ _ _ _ _ _ _ (tile5 V c 0 t) (tile5 V c 1 t) (tile5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation5 (c : Dev nD) : BodyObligation (data5 (F := F) V c) (defs₀ (F := F)) Variants.none () Set.univ := fun t => by
  rw [bigSep_W5, bigSep_W5]
  exact body_at5 V c t

end Cert.KernelIdeal.Hand

end
-- ==== Proof.KI.Layer6.lean ====
/-
  Linear layer number 6 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's tile at every grid point, whether the tile was copied in at
    that point or is still there from an earlier one (the tile's number did not change in between). -/
theorem held6_0_of {c : Dev nD} (dat : Dat τ (Elt F) Unit ℕ (UR sig nD τ) ℕ cfg6 c) (hA : dat.A 0 = V c (Pipeline.arrRef spec6 0))
    (hafter : ∀ t, dat.after 0 t = tile6 V c 0 t) (t : Fin cfg6.N) (d) : dat.before 0 t d = tile6 V c 0 t :=
  (dat.before_in_eq_fetched 0 rfl (fun _ => rfl) (fun _ _ _ => rfl) (fun t => by rw [hafter]; unfold Dat.blockOf tile6; rw [hA]; try rfl) t d).trans
    (by unfold Dat.fetched Dat.blockOf tile6; rw [hA]; try rfl)

/-- An input window's staging buffer holds the window's tile at every grid point, whether the tile was copied in at
    that point or is still there from an earlier one (the tile's number did not change in between). -/
theorem held6_1_of {c : Dev nD} (dat : Dat τ (Elt F) Unit ℕ (UR sig nD τ) ℕ cfg6 c) (hA : dat.A 1 = V c (Pipeline.arrRef spec6 1))
    (hafter : ∀ t, dat.after 1 t = tile6 V c 1 t) (t : Fin cfg6.N) (d) : dat.before 1 t d = tile6 V c 1 t :=
  (dat.before_in_eq_fetched 1 rfl (fun _ => rfl) (fun _ _ _ => rfl) (fun t => by rw [hafter]; unfold Dat.blockOf tile6; rw [hA]; try rfl) t d).trans
    (by unfold Dat.fetched Dat.blockOf tile6; rw [hA]; try rfl)

/-- An input window's staging buffer holds the window's tile at every grid point, whether the tile was copied in at
    that point or is still there from an earlier one (the tile's number did not change in between). -/
theorem held6_2_of {c : Dev nD} (dat : Dat τ (Elt F) Unit ℕ (UR sig nD τ) ℕ cfg6 c) (hA : dat.A 2 = V c (Pipeline.arrRef spec6 2))
    (hafter : ∀ t, dat.after 2 t = tile6 V c 2 t) (t : Fin cfg6.N) (d) : dat.before 2 t d = tile6 V c 2 t :=
  (dat.before_in_eq_fetched 2 rfl (fun _ => rfl) (fun _ _ _ => rfl) (fun t => by rw [hafter]; unfold Dat.blockOf tile6; rw [hA]; try rfl) t d).trans
    (by unfold Dat.fetched Dat.blockOf tile6; rw [hA]; try rfl)

/-- The whole of each staging buffer, as the rectangle the body reads or writes. -/
abbrev whole6_x : Rect S10000x131 := Rect.unit (s := S10000x131) ![0, 0] S10000x131.size inb_S10000x131_S10000x131_0_0
abbrev whole6_w : Rect S131x128 := Rect.unit (s := S131x128) ![0, 0] S131x128.size inb_S131x128_S131x128_0_0
abbrev whole6_b : Rect S1x128 := Rect.unit (s := S1x128) ![0, 0] S1x128.size inb_S1x128_S1x128_0_0
abbrev whole6_o : Rect S10000x128 := Rect.unit (s := S10000x128) ![0, 0] S10000x128.size inb_S10000x128_S10000x128_0_0

/-- The result tile after the body: the one stored value, the layer's arithmetic on the three input tiles, laid over the
    whole tile. -/
def stored6 (x0 : Vec F S10000x131 .f32) (x1 : Vec F S131x128 .f32) (x2 : Vec F S1x128 .f32) : Vec F S10000x128 .f32 :=
  View.canon [⟨whole6_o, k6_pay1 (View.ld x0 whole6_x) (View.ld x1 whole6_w) (View.ld x2 whole6_b)⟩]

/-- The one store covers the result tile. -/
theorem covers6 (p0 : Vec F S10000x128 .f32) (y : S10000x128.Idx) :
    ∃ pc ∈ ([⟨whole6_o, p0⟩] : List (View.Piece (Elt F) S10000x128 .f32)), y ∈ pc.1.set :=
  View.cover_of_tiled [⟨whole6_o, p0⟩] S10000x128.size (by rfl) y

set_option maxHeartbeats 1000000 in
/-- The body on whole staging buffers: the three inputs at contents `x0 x1 x2`, the result buffer at anything. It runs to
    its end, leaves the inputs as they were and the result buffer at `stored6 x0 x1 x2`. -/
theorem body_runs6 (c : Dev nD) (E : Set ℕ) (i : grid6.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored6 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers6 _)

/-- The layer's bookkeeping on core `c`: the arrays as the layer finds them; after the body at point `t` every input
    buffer still at its tile and the result buffer at `stored6` of the three tiles; nothing else of the core's state
    is touched, nothing is owed to another core, every buffer is held whole. -/
def data6 (c : Dev nD) : Dat τ (Elt F) Unit ℕ (UR sig nD τ) ℕ cfg6 c where
  A w := V c (Pipeline.arrRef spec6 w)
  after w t := match w with
    | ⟨0, _⟩ => tile6 V c 0 t
    | ⟨1, _⟩ => tile6 V c 1 t
    | ⟨2, _⟩ => tile6 V c 2 t
    | ⟨3, _⟩ => stored6 (tile6 V c 0 t) (tile6 V c 1 t) (tile6 V c 2 t)
  Φ _ := Pipeline.ΦA spec6 c
  q _ := fullShare
  owed _ := 0

theorem arrays6 (c : Dev nD) (w : Fin cfg6.W) : (data6 V c).A w = V c (Pipeline.arrRef spec6 w) := by
  dsimp only [data6]

theorem after6_0 (c : Dev nD) (t : Fin cfg6.N) : (data6 V c).after 0 t = tile6 V c 0 t := by dsimp only [data6]
theorem after6_1 (c : Dev nD) (t : Fin cfg6.N) : (data6 V c).after 1 t = tile6 V c 1 t := by dsimp only [data6]
theorem after6_2 (c : Dev nD) (t : Fin cfg6.N) : (data6 V c).after 2 t = tile6 V c 2 t := by dsimp only [data6]
theorem after6_3 (c : Dev nD) (t : Fin cfg6.N) : (data6 V c).after 3 t = stored6 (tile6 V c 0 t) (tile6 V c 1 t) (tile6 V c 2 t) := by dsimp only [data6]

theorem held6_0 (c : Dev nD) (t : Fin cfg6.N) (d) : (data6 V c).before 0 t d = tile6 V c 0 t :=
  held6_0_of V (data6 V c) (arrays6 V c 0) (after6_0 V c) t d
theorem held6_1 (c : Dev nD) (t : Fin cfg6.N) (d) : (data6 V c).before 1 t d = tile6 V c 1 t :=
  held6_1_of V (data6 V c) (arrays6 V c 1) (after6_1 V c) t d
theorem held6_2 (c : Dev nD) (t : Fin cfg6.N) (d) : (data6 V c).before 2 t d = tile6 V c 2 t :=
  held6_2_of V (data6 V c) (arrays6 V c 2) (after6_2 V c) t d

/-- What the body is handed at point `t`, window by window, -/
def handed6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d))
    ∗ (∃ d, owns (c : Thread nD τ) (st6_3 t) fullShare ((data6 V c).before 3 t d)))

/-- and what it hands back. -/
def returned6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t)
    ∗ owns (c : Thread nD τ) (st6_3 t) fullShare ((data6 V c).after 3 t))

/-- The body at any grid point: its input buffers hold their tiles, so `body_runs6` applies; the rest of the core's
    state passes through unread. -/
theorem body_at6 (c : Dev nD) (t : Fin cfg6.N) :
    handed6 V c t ⊢ wp frame (wpE (defs₀ (F := F)) Variants.none c none) Set.univ (bodyAt6 t) (fun _ => returned6 V c t) := by
  unfold handed6 returned6 bodyAt6
  simp only [held6_0, held6_1, held6_2]
  rw [show (data6 V c).Φ t.succ = (data6 V c).Φ t.castSucc from rfl,
    show (data6 V c).owesAt () t.succ = (data6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (body_runs6 c Set.univ _ _ _ _ _ _ _ _ _ (tile6 V c 0 t) (tile6 V c 1 t) (tile6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation6 (c : Dev nD) : BodyObligation (data6 (F := F) V c) (defs₀ (F := F)) Variants.none () Set.univ := fun t => by
  rw [bigSep_W6, bigSep_W6]
  exact body_at6 V c t

end Cert.KernelIdeal.Hand

end
-- ==== Proof.KI.Layer7.lean ====
/-
  Linear layer number 7 of the network, one row tile at a time. The layer's four windows are: 0, a tile of 10000 rows of
  the [rows, 256] input matrix (the tile's number is the grid point); 1, the whole [256, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's tile at every grid point, whether the tile was copied in at
    that point or is still there from an earlier one (the tile's number did not change in between). -/
theorem held7_0_of {c : Dev nD} (dat : Dat τ (Elt F) Unit ℕ (UR sig nD τ) ℕ cfg7 c) (hA : dat.A 0 = V c (Pipeline.arrRef spec7 0))
    (hafter : ∀ t, dat.after 0 t = tile7 V c 0 t) (t : Fin cfg7.N) (d) : dat.before 0 t d = tile7 V c 0 t :=
  (dat.before_in_eq_fetched 0 rfl (fun _ => rfl) (fun _ _ _ => rfl) (fun t => by rw [hafter]; unfold Dat.blockOf tile7; rw [hA]; try rfl) t d).trans
    (by unfold Dat.fetched Dat.blockOf tile7; rw [hA]; try rfl)

/-- An input window's staging buffer holds the window's tile at every grid point, whether the tile was copied in at
    that point or is still there from an earlier one (the tile's number did not change in between). -/
theorem held7_1_of {c : Dev nD} (dat : Dat τ (Elt F) Unit ℕ (UR sig nD τ) ℕ cfg7 c) (hA : dat.A 1 = V c (Pipeline.arrRef spec7 1))
    (hafter : ∀ t, dat.after 1 t = tile7 V c 1 t) (t : Fin cfg7.N) (d) : dat.before 1 t d = tile7 V c 1 t :=
  (dat.before_in_eq_fetched 1 rfl (fun _ => rfl) (fun _ _ _ => rfl) (fun t => by rw [hafter]; unfold Dat.blockOf tile7; rw [hA]; try rfl) t d).trans
    (by unfold Dat.fetched Dat.blockOf tile7; rw [hA]; try rfl)

/-- An input window's staging buffer holds the window's tile at every grid point, whether the tile was copied in at
    that point or is still there from an earlier one (the tile's number did not change in between). -/
theorem held7_2_of {c : Dev nD} (dat : Dat τ (Elt F) Unit ℕ (UR sig nD τ) ℕ cfg7 c) (hA : dat.A 2 = V c (Pipeline.arrRef spec7 2))
    (hafter : ∀ t, dat.after 2 t = tile7 V c 2 t) (t : Fin cfg7.N) (d) : dat.before 2 t d = tile7 V c 2 t :=
  (dat.before_in_eq_fetched 2 rfl (fun _ => rfl) (fun _ _ _ => rfl) (fun t => by rw [hafter]; unfold Dat.blockOf tile7; rw [hA]; try rfl) t d).trans
    (by unfold Dat.fetched Dat.blockOf tile7; rw [hA]; try rfl)

/-- The whole of each staging buffer, as the rectangle the body reads or writes. -/
abbrev whole7_x : Rect S10000x256 := Rect.unit (s := S10000x256) ![0, 0] S10000x256.size inb_S10000x256_S10000x256_0_0
abbrev whole7_w : Rect S256x128 := Rect.unit (s := S256x128) ![0, 0] S256x128.size inb_S256x128_S256x128_0_0
abbrev whole7_b : Rect S1x128 := Rect.unit (s := S1x128) ![0, 0] S1x128.size inb_S1x128_S1x128_0_0
abbrev whole7_o : Rect S10000x128 := Rect.unit (s := S10000x128) ![0, 0] S10000x128.size inb_S10000x128_S10000x128_0_0

/-- The result tile after the body: the one stored value, the layer's arithmetic on the three input tiles, laid over the
    whole tile. -/
def stored7 (x0 : Vec F S10000x256 .f32) (x1 : Vec F S256x128 .f32) (x2 : Vec F S1x128 .f32) : Vec F S10000x128 .f32 :=
  View.canon [⟨whole7_o, k7_pay1 (View.ld x0 whole7_x) (View.ld x1 whole7_w) (View.ld x2 whole7_b)⟩]

/-- The one store covers the result tile. -/
theorem covers7 (p0 : Vec F S10000x128 .f32) (y : S10000x128.Idx) :
    ∃ pc ∈ ([⟨whole7_o, p0⟩] : List (View.Piece (Elt F) S10000x128 .f32)), y ∈ pc.1.set :=
  View.cover_of_tiled [⟨whole7_o, p0⟩] S10000x128.size (by rfl) y

set_option maxHeartbeats 1000000 in
/-- The body on whole staging buffers: the three inputs at contents `x0 x1 x2`, the result buffer at anything. It runs to
    its end, leaves the inputs as they were and the result buffer at `stored7 x0 x1 x2`. -/
theorem body_runs7 (c : Dev nD) (E : Set ℕ) (i : grid7.Coords) (arg1 : Memref sig .tc .vmem S10000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored7 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers7 _)

/-- The layer's bookkeeping on core `c`: the arrays as the layer finds them; after the body at point `t` every input
    buffer still at its tile and the result buffer at `stored7` of the three tiles; nothing else of the core's state
    is touched, nothing is owed to another core, every buffer is held whole. -/
def data7 (c : Dev nD) : Dat τ (Elt F) Unit ℕ (UR sig nD τ) ℕ cfg7 c where
  A w := V c (Pipeline.arrRef spec7 w)
  after w t := match w with
    | ⟨0, _⟩ => tile7 V c 0 t
    | ⟨1, _⟩ => tile7 V c 1 t
    | ⟨2, _⟩ => tile7 V c 2 t
    | ⟨3, _⟩ => stored7 (tile7 V c 0 t) (tile7 V c 1 t) (tile7 V c 2 t)
  Φ _ := Pipeline.ΦA spec7 c
  q _ := fullShare
  owed _ := 0

theorem arrays7 (c : Dev nD) (w : Fin cfg7.W) : (data7 V c).A w = V c (Pipeline.arrRef spec7 w) := by
  dsimp only [data7]

theorem after7_0 (c : Dev nD) (t : Fin cfg7.N) : (data7 V c).after 0 t = tile7 V c 0 t := by dsimp only [data7]
theorem after7_1 (c : Dev nD) (t : Fin cfg7.N) : (data7 V c).after 1 t = tile7 V c 1 t := by dsimp only [data7]
theorem after7_2 (c : Dev nD) (t : Fin cfg7.N) : (data7 V c).after 2 t = tile7 V c 2 t := by dsimp only [data7]
theorem after7_3 (c : Dev nD) (t : Fin cfg7.N) : (data7 V c).after 3 t = stored7 (tile7 V c 0 t) (tile7 V c 1 t) (tile7 V c 2 t) := by dsimp only [data7]

theorem held7_0 (c : Dev nD) (t : Fin cfg7.N) (d) : (data7 V c).before 0 t d = tile7 V c 0 t :=
  held7_0_of V (data7 V c) (arrays7 V c 0) (after7_0 V c) t d
theorem held7_1 (c : Dev nD) (t : Fin cfg7.N) (d) : (data7 V c).before 1 t d = tile7 V c 1 t :=
  held7_1_of V (data7 V c) (arrays7 V c 1) (after7_1 V c) t d
theorem held7_2 (c : Dev nD) (t : Fin cfg7.N) (d) : (data7 V c).before 2 t d = tile7 V c 2 t :=
  held7_2_of V (data7 V c) (arrays7 V c 2) (after7_2 V c) t d

/-- What the body is handed at point `t`, window by window, -/
def handed7 (c : Dev nD) (t : Fin cfg7.N) : sProp 𝕄 :=
  iprop((data7 V c).Φ t.castSucc ∗ (data7 V c).owesAt () t.castSucc
    ∗ (∃ d, owns (c : Thread nD τ) (st7_0 t) fullShare ((data7 V c).before 0 t d))
    ∗ (∃ d, owns (c : Thread nD τ) (st7_1 t) fullShare ((data7 V c).before 1 t d))
    ∗ (∃ d, owns (c : Thread nD τ) (st7_2 t) fullShare ((data7 V c).before 2 t d))
    ∗ (∃ d, owns (c : Thread nD τ) (st7_3 t) fullShare ((data7 V c).before 3 t d)))

/-- and what it hands back. -/
def returned7 (c : Dev nD) (t : Fin cfg7.N) : sProp 𝕄 :=
  iprop((data7 V c).Φ t.succ ∗ (data7 V c).owesAt () t.succ
    ∗ owns (c : Thread nD τ) (st7_0 t) fullShare ((data7 V c).after 0 t)
    ∗ owns (c : Thread nD τ) (st7_1 t) fullShare ((data7 V c).after 1 t)
    ∗ owns (c : Thread nD τ) (st7_2 t) fullShare ((data7 V c).after 2 t)
    ∗ owns (c : Thread nD τ) (st7_3 t) fullShare ((data7 V c).after 3 t))

/-- The body at any grid point: its input buffers hold their tiles, so `body_runs7` applies; the rest of the core's
    state passes through unread. -/
theorem body_at7 (c : Dev nD) (t : Fin cfg7.N) :
    handed7 V c t ⊢ wp frame (wpE (defs₀ (F := F)) Variants.none c none) Set.univ (bodyAt7 t) (fun _ => returned7 V c t) := by
  unfold handed7 returned7 bodyAt7
  simp only [held7_0, held7_1, held7_2]
  rw [show (data7 V c).Φ t.succ = (data7 V c).Φ t.castSucc from rfl,
    show (data7 V c).owesAt () t.succ = (data7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (body_runs7 c Set.univ _ _ _ _ _ _ _ _ _ (tile7 V c 0 t) (tile7 V c 1 t) (tile7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation7 (c : Dev nD) : BodyObligation (data7 (F := F) V c) (defs₀ (F := F)) Variants.none () Set.univ := fun t => by
  rw [bigSep_W7, bigSep_W7]
  exact body_at7 V c t

end Cert.KernelIdeal.Hand

end
-- ==== Proof.KI.Layer8.lean ====
/-
  Linear layer number 8 of the network, one row tile at a time. The layer's four windows are: 0, a tile of 10000 rows of
  the [rows, 131] input matrix (the tile's number is the grid point); 1, the whole [131, 128] weight matrix; 2, the
  [1, 128] bias row; 3, the matching tile of 10000 rows of the [rows, 128] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds the window's tile at every grid point, whether the tile was copied in at
    that point or is still there from an earlier one (the tile's number did not change in between). -/
theorem held8_0_of {c : Dev nD} (dat : Dat τ (Elt F) Unit ℕ (UR sig nD τ) ℕ cfg8 c) (hA : dat.A 0 = V c (Pipeline.arrRef spec8 0))
    (hafter : ∀ t, dat.after 0 t = tile8 V c 0 t) (t : Fin cfg8.N) (d) : dat.before 0 t d = tile8 V c 0 t :=
  (dat.before_in_eq_fetched 0 rfl (fun _ => rfl) (fun _ _ _ => rfl) (fun t => by rw [hafter]; unfold Dat.blockOf tile8; rw [hA]; try rfl) t d).trans
    (by unfold Dat.fetched Dat.blockOf tile8; rw [hA]; try rfl)

/-- An input window's staging buffer holds the window's tile at every grid point, whether the tile was copied in at
    that point or is still there from an earlier one (the tile's number did not change in between). -/
theorem held8_1_of {c : Dev nD} (dat : Dat τ (Elt F) Unit ℕ (UR sig nD τ) ℕ cfg8 c) (hA : dat.A 1 = V c (Pipeline.arrRef spec8 1))
    (hafter : ∀ t, dat.after 1 t = tile8 V c 1 t) (t : Fin cfg8.N) (d) : dat.before 1 t d = tile8 V c 1 t :=
  (dat.before_in_eq_fetched 1 rfl (fun _ => rfl) (fun _ _ _ => rfl) (fun t => by rw [hafter]; unfold Dat.blockOf tile8; rw [hA]; try rfl) t d).trans
    (by unfold Dat.fetched Dat.blockOf tile8; rw [hA]; try rfl)

/-- An input window's staging buffer holds the window's tile at every grid point, whether the tile was copied in at
    that point or is still there from an earlier one (the tile's number did not change in between). -/
theorem held8_2_of {c : Dev nD} (dat : Dat τ (Elt F) Unit ℕ (UR sig nD τ) ℕ cfg8 c) (hA : dat.A 2 = V c (Pipeline.arrRef spec8 2))
    (hafter : ∀ t, dat.after 2 t = tile8 V c 2 t) (t : Fin cfg8.N) (d) : dat.before 2 t d = tile8 V c 2 t :=
  (dat.before_in_eq_fetched 2 rfl (fun _ => rfl) (fun _ _ _ => rfl) (fun t => by rw [hafter]; unfold Dat.blockOf tile8; rw [hA]; try rfl) t d).trans
    (by unfold Dat.fetched Dat.blockOf tile8; rw [hA]; try rfl)

/-- The whole of each staging buffer, as the rectangle the body reads or writes. -/
abbrev whole8_x : Rect S10000x131 := Rect.unit (s := S10000x131) ![0, 0] S10000x131.size inb_S10000x131_S10000x131_0_0
abbrev whole8_w : Rect S131x128 := Rect.unit (s := S131x128) ![0, 0] S131x128.size inb_S131x128_S131x128_0_0
abbrev whole8_b : Rect S1x128 := Rect.unit (s := S1x128) ![0, 0] S1x128.size inb_S1x128_S1x128_0_0
abbrev whole8_o : Rect S10000x128 := Rect.unit (s := S10000x128) ![0, 0] S10000x128.size inb_S10000x128_S10000x128_0_0

/-- The result tile after the body: the one stored value, the layer's arithmetic on the three input tiles, laid over the
    whole tile. -/
def stored8 (x0 : Vec F S10000x131 .f32) (x1 : Vec F S131x128 .f32) (x2 : Vec F S1x128 .f32) : Vec F S10000x128 .f32 :=
  View.canon [⟨whole8_o, k8_pay1 (View.ld x0 whole8_x) (View.ld x1 whole8_w) (View.ld x2 whole8_b)⟩]

/-- The one store covers the result tile. -/
theorem covers8 (p0 : Vec F S10000x128 .f32) (y : S10000x128.Idx) :
    ∃ pc ∈ ([⟨whole8_o, p0⟩] : List (View.Piece (Elt F) S10000x128 .f32)), y ∈ pc.1.set :=
  View.cover_of_tiled [⟨whole8_o, p0⟩] S10000x128.size (by rfl) y

set_option maxHeartbeats 1000000 in
/-- The body on whole staging buffers: the three inputs at contents `x0 x1 x2`, the result buffer at anything. It runs to
    its end, leaves the inputs as they were and the result buffer at `stored8 x0 x1 x2`. -/
theorem body_runs8 (c : Dev nD) (E : Set ℕ) (i : grid8.Coords) (arg1 : Memref sig .tc .vmem S10000x131 .f32) (harg1 : arg1.IsWhole) (arg2 : Memref sig .tc .vmem S131x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x131 .f32) (x1 : Vec F S131x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored8 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers8 _)

/-- The layer's bookkeeping on core `c`: the arrays as the layer finds them; after the body at point `t` every input
    buffer still at its tile and the result buffer at `stored8` of the three tiles; nothing else of the core's state
    is touched, nothing is owed to another core, every buffer is held whole. -/
def data8 (c : Dev nD) : Dat τ (Elt F) Unit ℕ (UR sig nD τ) ℕ cfg8 c where
  A w := V c (Pipeline.arrRef spec8 w)
  after w t := match w with
    | ⟨0, _⟩ => tile8 V c 0 t
    | ⟨1, _⟩ => tile8 V c 1 t
    | ⟨2, _⟩ => tile8 V c 2 t
    | ⟨3, _⟩ => stored8 (tile8 V c 0 t) (tile8 V c 1 t) (tile8 V c 2 t)
  Φ _ := Pipeline.ΦA spec8 c
  q _ := fullShare
  owed _ := 0

theorem arrays8 (c : Dev nD) (w : Fin cfg8.W) : (data8 V c).A w = V c (Pipeline.arrRef spec8 w) := by
  dsimp only [data8]

theorem after8_0 (c : Dev nD) (t : Fin cfg8.N) : (data8 V c).after 0 t = tile8 V c 0 t := by dsimp only [data8]
theorem after8_1 (c : Dev nD) (t : Fin cfg8.N) : (data8 V c).after 1 t = tile8 V c 1 t := by dsimp only [data8]
theorem after8_2 (c : Dev nD) (t : Fin cfg8.N) : (data8 V c).after 2 t = tile8 V c 2 t := by dsimp only [data8]
theorem after8_3 (c : Dev nD) (t : Fin cfg8.N) : (data8 V c).after 3 t = stored8 (tile8 V c 0 t) (tile8 V c 1 t) (tile8 V c 2 t) := by dsimp only [data8]

theorem held8_0 (c : Dev nD) (t : Fin cfg8.N) (d) : (data8 V c).before 0 t d = tile8 V c 0 t :=
  held8_0_of V (data8 V c) (arrays8 V c 0) (after8_0 V c) t d
theorem held8_1 (c : Dev nD) (t : Fin cfg8.N) (d) : (data8 V c).before 1 t d = tile8 V c 1 t :=
  held8_1_of V (data8 V c) (arrays8 V c 1) (after8_1 V c) t d
theorem held8_2 (c : Dev nD) (t : Fin cfg8.N) (d) : (data8 V c).before 2 t d = tile8 V c 2 t :=
  held8_2_of V (data8 V c) (arrays8 V c 2) (after8_2 V c) t d

/-- What the body is handed at point `t`, window by window, -/
def handed8 (c : Dev nD) (t : Fin cfg8.N) : sProp 𝕄 :=
  iprop((data8 V c).Φ t.castSucc ∗ (data8 V c).owesAt () t.castSucc
    ∗ (∃ d, owns (c : Thread nD τ) (st8_0 t) fullShare ((data8 V c).before 0 t d))
    ∗ (∃ d, owns (c : Thread nD τ) (st8_1 t) fullShare ((data8 V c).before 1 t d))
    ∗ (∃ d, owns (c : Thread nD τ) (st8_2 t) fullShare ((data8 V c).before 2 t d))
    ∗ (∃ d, owns (c : Thread nD τ) (st8_3 t) fullShare ((data8 V c).before 3 t d)))

/-- and what it hands back. -/
def returned8 (c : Dev nD) (t : Fin cfg8.N) : sProp 𝕄 :=
  iprop((data8 V c).Φ t.succ ∗ (data8 V c).owesAt () t.succ
    ∗ owns (c : Thread nD τ) (st8_0 t) fullShare ((data8 V c).after 0 t)
    ∗ owns (c : Thread nD τ) (st8_1 t) fullShare ((data8 V c).after 1 t)
    ∗ owns (c : Thread nD τ) (st8_2 t) fullShare ((data8 V c).after 2 t)
    ∗ owns (c : Thread nD τ) (st8_3 t) fullShare ((data8 V c).after 3 t))

/-- The body at any grid point: its input buffers hold their tiles, so `body_runs8` applies; the rest of the core's
    state passes through unread. -/
theorem body_at8 (c : Dev nD) (t : Fin cfg8.N) :
    handed8 V c t ⊢ wp frame (wpE (defs₀ (F := F)) Variants.none c none) Set.univ (bodyAt8 t) (fun _ => returned8 V c t) := by
  unfold handed8 returned8 bodyAt8
  simp only [held8_0, held8_1, held8_2]
  rw [show (data8 V c).Φ t.succ = (data8 V c).Φ t.castSucc from rfl,
    show (data8 V c).owesAt () t.succ = (data8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (body_runs8 c Set.univ _ _ _ _ _ _ _ _ _ (tile8 V c 0 t) (tile8 V c 1 t) (tile8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation8 (c : Dev nD) : BodyObligation (data8 (F := F) V c) (defs₀ (F := F)) Variants.none () Set.univ := fun t => by
  rw [bigSep_W8, bigSep_W8]
  exact body_at8 V c t

end Cert.KernelIdeal.Hand

end
-- ==== Proof.KI.Layer9.lean ====
/-
  Linear layer number 9 of the network, one row tile at a time. The layer's four windows are: 0, a tile of 10000 rows of
  the [rows, 256] input matrix (the tile's number is the grid point); 1, the whole [256, 64] weight matrix; 2, the
  [1, 64] bias row; 3, the matching tile of 10000 rows of the [rows, 64] result. At a grid point the body reads the
  three input tiles and overwrites the whole result tile with one value computed from them (it also reads the result
  tile before overwriting it, a read whose value it never uses). Stated here, for any contents `V` of the buffers when
  the layer starts: what each tile holds after the body, and that the body, run on its staging buffers, leaves exactly that.
-/
import proofs.«101052_j75445395522274_1_alg».proof.Proof.Gen.KernelIdeal.Launch
import proofs.«101052_j75445395522274_1_alg».proof.Proof.Gen.KernelIdeal.Skeleton
import proofs.«101052_j75445395522274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, cut out of the window's array as the layer finds it. -/
def tile9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's tile at every grid point, whether the tile was copied in at
    that point or is still there from an earlier one (the tile's number did not change in between). -/
theorem held9_0_of {c : Dev nD} (dat : Dat τ (Elt F) Unit ℕ (UR sig nD τ) ℕ cfg9 c) (hA : dat.A 0 = V c (Pipeline.arrRef spec9 0))
    (hafter : ∀ t, dat.after 0 t = tile9 V c 0 t) (t : Fin cfg9.N) (d) : dat.before 0 t d = tile9 V c 0 t :=
  (dat.before_in_eq_fetched 0 rfl (fun _ => rfl) (fun _ _ _ => rfl) (fun t => by rw [hafter]; unfold Dat.blockOf tile9; rw [hA]; try rfl) t d).trans
    (by unfold Dat.fetched Dat.blockOf tile9; rw [hA]; try rfl)

/-- An input window's staging buffer holds the window's tile at every grid point, whether the tile was copied in at
    that point or is still there from an earlier one (the tile's number did not change in between). -/
theorem held9_1_of {c : Dev nD} (dat : Dat τ (Elt F) Unit ℕ (UR sig nD τ) ℕ cfg9 c) (hA : dat.A 1 = V c (Pipeline.arrRef spec9 1))
    (hafter : ∀ t, dat.after 1 t = tile9 V c 1 t) (t : Fin cfg9.N) (d) : dat.before 1 t d = tile9 V c 1 t :=
  (dat.before_in_eq_fetched 1 rfl (fun _ => rfl) (fun _ _ _ => rfl) (fun t => by rw [hafter]; unfold Dat.blockOf tile9; rw [hA]; try rfl) t d).trans
    (by unfold Dat.fetched Dat.blockOf tile9; rw [hA]; try rfl)

/-- An input window's staging buffer holds the window's tile at every grid point, whether the tile was copied in at
    that point or is still there from an earlier one (the tile's number did not change in between). -/
theorem held9_2_of {c : Dev nD} (dat : Dat τ (Elt F) Unit ℕ (UR sig nD τ) ℕ cfg9 c) (hA : dat.A 2 = V c (Pipeline.arrRef spec9 2))
    (hafter : ∀ t, dat.after 2 t = tile9 V c 2 t) (t : Fin cfg9.N) (d) : dat.before 2 t d = tile9 V c 2 t :=
  (dat.before_in_eq_fetched 2 rfl (fun _ => rfl) (fun _ _ _ => rfl) (fun t => by rw [hafter]; unfold Dat.blockOf tile9; rw [hA]; try rfl) t d).trans
    (by unfold Dat.fetched Dat.blockOf tile9; rw [hA]; try rfl)

/-- The whole of each staging buffer, as the rectangle the body reads or writes. -/
abbrev whole9_x : Rect S10000x256 := Rect.unit (s := S10000x256) ![0, 0] S10000x256.size inb_S10000x256_S10000x256_0_0
abbrev whole9_w : Rect S256x64 := Rect.unit (s := S256x64) ![0, 0] S256x64.size inb_S256x64_S256x64_0_0
abbrev whole9_b : Rect S1x64 := Rect.unit (s := S1x64) ![0, 0] S1x64.size inb_S1x64_S1x64_0_0
abbrev whole9_o : Rect S10000x64 := Rect.unit (s := S10000x64) ![0, 0] S10000x64.size inb_S10000x64_S10000x64_0_0

/-- The result tile after the body: the one stored value, the layer's arithmetic on the three input tiles, laid over the
    whole tile. -/
def stored9 (x0 : Vec F S10000x256 .f32) (x1 : Vec F S256x64 .f32) (x2 : Vec F S1x64 .f32) : Vec F S10000x64 .f32 :=
  View.canon [⟨whole9_o, k9_pay1 (View.ld x0 whole9_x) (View.ld x1 whole9_w) (View.ld x2 whole9_b)⟩]

/-- The one store covers the result tile. -/
theorem covers9 (p0 : Vec F S10000x64 .f32) (y : S10000x64.Idx) :
    ∃ pc ∈ ([⟨whole9_o, p0⟩] : List (View.Piece (Elt F) S10000x64 .f32)), y ∈ pc.1.set :=
  View.cover_of_tiled [⟨whole9_o, p0⟩] S10000x64.size (by rfl) y

set_option maxHeartbeats 1000000 in
/-- The body on whole staging buffers: the three inputs at contents `x0 x1 x2`, the result buffer at anything. It runs to
    its end, leaves the inputs as they were and the result buffer at `stored9 x0 x1 x2`. -/
theorem body_runs9 (c : Dev nD) (E : Set ℕ) (i : grid9.Coords) (arg1 : Memref sig .tc .vmem S10000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored9 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers9 _)

/-- The layer's bookkeeping on core `c`: the arrays as the layer finds them; after the body at point `t` every input
    buffer still at its tile and the result buffer at `stored9` of the three tiles; nothing else of the core's state
    is touched, nothing is owed to another core, every buffer is held whole. -/
def data9 (c : Dev nD) : Dat τ (Elt F) Unit ℕ (UR sig nD τ) ℕ cfg9 c where
  A w := V c (Pipeline.arrRef spec9 w)
  after w t := match w with
    | ⟨0, _⟩ => tile9 V c 0 t
    | ⟨1, _⟩ => tile9 V c 1 t
    | ⟨2, _⟩ => tile9 V c 2 t
    | ⟨3, _⟩ => stored9 (tile9 V c 0 t) (tile9 V c 1 t) (tile9 V c 2 t)
  Φ _ := Pipeline.ΦA spec9 c
  q _ := fullShare
  owed _ := 0

theorem arrays9 (c : Dev nD) (w : Fin cfg9.W) : (data9 V c).A w = V c (Pipeline.arrRef spec9 w) := by
  dsimp only [data9]

theorem after9_0 (c : Dev nD) (t : Fin cfg9.N) : (data9 V c).after 0 t = tile9 V c 0 t := by dsimp only [data9]
theorem after9_1 (c : Dev nD) (t : Fin cfg9.N) : (data9 V c).after 1 t = tile9 V c 1 t := by dsimp only [data9]
theorem after9_2 (c : Dev nD) (t : Fin cfg9.N) : (data9 V c).after 2 t = tile9 V c 2 t := by dsimp only [data9]
theorem after9_3 (c : Dev nD) (t : Fin cfg9.N) : (data9 V c).after 3 t = stored9 (tile9 V c 0 t) (tile9 V c 1 t) (tile9 V c 2 t) := by dsimp only [data9]

theorem held9_0 (c : Dev nD) (t : Fin cfg9.N) (d) : (data9 V c).before 0 t d = tile9 V c 0 t :=
  held9_0_of V (data9 V c) (arrays9 V c 0) (after9_0 V c) t d
theorem held9_1 (c : Dev nD) (t : Fin cfg9.N) (d) : (data9 V c).before 1 t d = tile9 V c 1 t :=
  held9_1_of V (data9 V c) (arrays9 V c 1) (after9_1 V c) t d
theorem held9_2 (c : Dev nD) (t : Fin cfg9.N) (d) : (data9 V c).before 2 t d = tile9 V c 2 t :=
  held9_2_of V (data9 V c) (arrays9 V c 2) (after9_2 V c) t d

/-- What the body is handed at point `t`, window by window, -/
def handed9 (c : Dev nD) (t : Fin cfg9.N) : sProp 𝕄 :=
  iprop((data9 V c).Φ t.castSucc ∗ (data9 V c).owesAt () t.castSucc
    ∗ (∃ d, owns (c : Thread nD τ) (st9_0 t) fullShare ((data9 V c).before 0 t d))
    ∗ (∃ d, owns (c : Thread nD τ) (st9_1 t) fullShare ((data9 V c).before 1 t d))
    ∗ (∃ d, owns (c : Thread nD τ) (st9_2 t) fullShare ((data9 V c).before 2 t d))
    ∗ (∃ d, owns (c : Thread nD τ) (st9_3 t) fullShare ((data9 V c).before 3 t d)))

/-- and what it hands back. -/
def returned9 (c : Dev nD) (t : Fin cfg9.N) : sProp 𝕄 :=
  iprop((data9 V c).Φ t.succ ∗ (data9 V c).owesAt () t.succ
    ∗ owns (c : Thread nD τ) (st9_0 t) fullShare ((data9 V c).after 0 t)
    ∗ owns (c : Thread nD τ) (st9_1 t) fullShare ((data9 V c).after 1 t)
    ∗ owns (c : Thread nD τ) (st9_2 t) fullShare ((data9 V c).after 2 t)
    ∗ owns (c : Thread nD τ) (st9_3 t) fullShare ((data9 V c).after 3 t))

/-- The body at any grid point: its input buffers hold their tiles, so `body_runs9` applies; the rest of the core's
    state passes through unread. -/
theorem body_at9 (c : Dev nD) (t : Fin cfg9.N) :
    handed9 V c t ⊢ wp frame (wpE (defs₀ (F := F)) Variants.none c none) Set.univ (bodyAt9 t) (fun _ => returned9 V c t) := by
  unfold handed9 returned9 bodyAt9
  simp only [held9_0, held9_1, held9_2]
  rw [show (data9 V c).Φ t.succ = (data9 V c).Φ t.castSucc from rfl,
    show (data9 V c).owesAt () t.succ = (data9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (body_runs9 c Set.univ _ _ _ _ _ _ _ _ _ (tile9 V c 0 t) (tile9 V c 1 t) (tile9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation9 (c : Dev nD) : BodyObligation (data9 (F := F) V c) (defs₀ (F := F)) Variants.none () Set.univ := fun t => by
  rw [bigSep_W9, bigSep_W9]
  exact body_at9 V c t

end Cert.KernelIdeal.Hand

end
-- ==== Proof.KI.Run.lean ====
/-
  The whole program as a line of steps: host operations, a linear layer, host operations, a layer, … (ten layers). Between
  two steps every buffer of the core that outlives a layer is held whole at named contents: the launch memory, then each
  stretch of host operations applied, then each layer's result array replaced by what its row tiles wrote back. Every
  weakly fair execution runs through all the steps and ends with every such buffer at the last of these contents.
-/
import proofs.«101052_j75445395522274_1_alg».proof.Proof.KI.Layer0
import proofs.«101052_j75445395522274_1_alg».proof.Proof.KI.Layer1
import proofs.«101052_j75445395522274_1_alg».proof.Proof.KI.Layer2
import proofs.«101052_j75445395522274_1_alg».proof.Proof.KI.Layer3
import proofs.«101052_j75445395522274_1_alg».proof.Proof.KI.Layer4
import proofs.«101052_j75445395522274_1_alg».proof.Proof.KI.Layer5
import proofs.«101052_j75445395522274_1_alg».proof.Proof.KI.Layer6
import proofs.«101052_j75445395522274_1_alg».proof.Proof.KI.Layer7
import proofs.«101052_j75445395522274_1_alg».proof.Proof.KI.Layer8
import proofs.«101052_j75445395522274_1_alg».proof.Proof.KI.Layer9
import proofs.«101052_j75445395522274_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the steps -/

/-- At launch. -/
abbrev at0 : Dev nD → Valuation τ sig (Elt F) := fun c => V0 m c
/-- Before layer 0: the host operations between the layers have run. -/
abbrev at1 : Dev nD → Valuation τ sig (Elt F) := fun c => StableHlo.after hostOps0 (at0 m c)
abbrev ent0 : (c : Dev nD) → (b : Ref sig .tc) → Buf (Elt F) ((c : Thread nD τ).loc b) := fun c b => at1 m c b
/-- After layer 0: its four arrays at what the row tiles written back leave, every other buffer as before. -/
def at2 (c : Dev nD) : Valuation τ sig (Elt F) :=
  Pipeline.withArrays spec0 c (at1 m c) fun w => (data0 (ent0 m) c).arrAt w cfg0.N
theorem at2_arr (c : Dev nD) (w : Fin cfg0.W) :
    at2 m c (Proc.devRef .tc (Pipeline.arrRef spec0 w)) = (data0 (ent0 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
abbrev lft0 : (c : Dev nD) → (b : Ref sig .tc) → Buf (Elt F) ((c : Thread nD τ).loc b) := fun c b => at2 m c b
theorem left0 (c : Dev nD) (w : Fin cfg0.W) : (data0 (ent0 m) c).arrAt w cfg0.N = lft0 m c (Pipeline.arrRef spec0 w) :=
  (at2_arr m c w).symm
theorem kept0 (c : Dev nD) : ∀ b, b ∉ Finset.univ.image (Pipeline.arrRef spec0) → lft0 m c b = ent0 m c b :=
  fun b hb => at2_of_ne m c b fun w e => hb (Finset.mem_image.mpr ⟨w, Finset.mem_univ _, e⟩)

/-- Before layer 1: the host operations between the layers have run. -/
abbrev at3 : Dev nD → Valuation τ sig (Elt F) := fun c => StableHlo.after hostOps1 (at2 m c)
abbrev ent1 : (c : Dev nD) → (b : Ref sig .tc) → Buf (Elt F) ((c : Thread nD τ).loc b) := fun c b => at3 m c b
/-- After layer 1: its four arrays at what the row tiles written back leave, every other buffer as before. -/
def at4 (c : Dev nD) : Valuation τ sig (Elt F) :=
  Pipeline.withArrays spec1 c (at3 m c) fun w => (data1 (ent1 m) c).arrAt w cfg1.N
theorem at4_arr (c : Dev nD) (w : Fin cfg1.W) :
    at4 m c (Proc.devRef .tc (Pipeline.arrRef spec1 w)) = (data1 (ent1 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
abbrev lft1 : (c : Dev nD) → (b : Ref sig .tc) → Buf (Elt F) ((c : Thread nD τ).loc b) := fun c b => at4 m c b
theorem left1 (c : Dev nD) (w : Fin cfg1.W) : (data1 (ent1 m) c).arrAt w cfg1.N = lft1 m c (Pipeline.arrRef spec1 w) :=
  (at4_arr m c w).symm
theorem kept1 (c : Dev nD) : ∀ b, b ∉ Finset.univ.image (Pipeline.arrRef spec1) → lft1 m c b = ent1 m c b :=
  fun b hb => at4_of_ne m c b fun w e => hb (Finset.mem_image.mpr ⟨w, Finset.mem_univ _, e⟩)

/-- Before layer 2: the host operations between the layers have run. -/
abbrev at5 : Dev nD → Valuation τ sig (Elt F) := fun c => StableHlo.after hostOps2 (at4 m c)
abbrev ent2 : (c : Dev nD) → (b : Ref sig .tc) → Buf (Elt F) ((c : Thread nD τ).loc b) := fun c b => at5 m c b
/-- After layer 2: its four arrays at what the row tiles written back leave, every other buffer as before. -/
def at6 (c : Dev nD) : Valuation τ sig (Elt F) :=
  Pipeline.withArrays spec2 c (at5 m c) fun w => (data2 (ent2 m) c).arrAt w cfg2.N
theorem at6_arr (c : Dev nD) (w : Fin cfg2.W) :
    at6 m c (Proc.devRef .tc (Pipeline.arrRef spec2 w)) = (data2 (ent2 m) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
abbrev lft2 : (c : Dev nD) → (b : Ref sig .tc) → Buf (Elt F) ((c : Thread nD τ).loc b) := fun c b => at6 m c b
theorem left2 (c : Dev nD) (w : Fin cfg2.W) : (data2 (ent2 m) c).arrAt w cfg2.N = lft2 m c (Pipeline.arrRef spec2 w) :=
  (at6_arr m c w).symm
theorem kept2 (c : Dev nD) : ∀ b, b ∉ Finset.univ.image (Pipeline.arrRef spec2) → lft2 m c b = ent2 m c b :=
  fun b hb => at6_of_ne m c b fun w e => hb (Finset.mem_image.mpr ⟨w, Finset.mem_univ _, e⟩)

/-- Before layer 3: the host operations between the layers have run. -/
abbrev at7 : Dev nD → Valuation τ sig (Elt F) := fun c => StableHlo.after hostOps3 (at6 m c)
abbrev ent3 : (c : Dev nD) → (b : Ref sig .tc) → Buf (Elt F) ((c : Thread nD τ).loc b) := fun c b => at7 m c b
/-- After layer 3: its four arrays at what the row tiles written back leave, every other buffer as before. -/
def at8 (c : Dev nD) : Valuation τ sig (Elt F) :=
  Pipeline.withArrays spec3 c (at7 m c) fun w => (data3 (ent3 m) c).arrAt w cfg3.N
theorem at8_arr (c : Dev nD) (w : Fin cfg3.W) :
    at8 m c (Proc.devRef .tc (Pipeline.arrRef spec3 w)) = (data3 (ent3 m) c).arrAt w cfg3.N := by
  unfold at8; exact Pipeline.withArrays_arr spec3 launch3.win.arr_inj c _ _ w
theorem at8_of_ne (c : Dev nD) (b : Ref sig .tc) (hb : ∀ w, Pipeline.arrRef spec3 w ≠ b) :
    at8 m c (Proc.devRef .tc b) = at7 m c (Proc.devRef .tc b) := by
  unfold at8; exact Pipeline.withArrays_of_ne spec3 c _ _ b hb
abbrev lft3 : (c : Dev nD) → (b : Ref sig .tc) → Buf (Elt F) ((c : Thread nD τ).loc b) := fun c b => at8 m c b
theorem left3 (c : Dev nD) (w : Fin cfg3.W) : (data3 (ent3 m) c).arrAt w cfg3.N = lft3 m c (Pipeline.arrRef spec3 w) :=
  (at8_arr m c w).symm
theorem kept3 (c : Dev nD) : ∀ b, b ∉ Finset.univ.image (Pipeline.arrRef spec3) → lft3 m c b = ent3 m c b :=
  fun b hb => at8_of_ne m c b fun w e => hb (Finset.mem_image.mpr ⟨w, Finset.mem_univ _, e⟩)

/-- Before layer 4: the host operations between the layers have run. -/
abbrev at9 : Dev nD → Valuation τ sig (Elt F) := fun c => StableHlo.after hostOps4 (at8 m c)
abbrev ent4 : (c : Dev nD) → (b : Ref sig .tc) → Buf (Elt F) ((c : Thread nD τ).loc b) := fun c b => at9 m c b
/-- After layer 4: its four arrays at what the row tiles written back leave, every other buffer as before. -/
def at10 (c : Dev nD) : Valuation τ sig (Elt F) :=
  Pipeline.withArrays spec4 c (at9 m c) fun w => (data4 (ent4 m) c).arrAt w cfg4.N
theorem at10_arr (c : Dev nD) (w : Fin cfg4.W) :
    at10 m c (Proc.devRef .tc (Pipeline.arrRef spec4 w)) = (data4 (ent4 m) c).arrAt w cfg4.N := by
  unfold at10; exact Pipeline.withArrays_arr spec4 launch4.win.arr_inj c _ _ w
theorem at10_of_ne (c : Dev nD) (b : Ref sig .tc) (hb : ∀ w, Pipeline.arrRef spec4 w ≠ b) :
    at10 m c (Proc.devRef .tc b) = at9 m c (Proc.devRef .tc b) := by
  unfold at10; exact Pipeline.withArrays_of_ne spec4 c _ _ b hb
abbrev lft4 : (c : Dev nD) → (b : Ref sig .tc) → Buf (Elt F) ((c : Thread nD τ).loc b) := fun c b => at10 m c b
theorem left4 (c : Dev nD) (w : Fin cfg4.W) : (data4 (ent4 m) c).arrAt w cfg4.N = lft4 m c (Pipeline.arrRef spec4 w) :=
  (at10_arr m c w).symm
theorem kept4 (c : Dev nD) : ∀ b, b ∉ Finset.univ.image (Pipeline.arrRef spec4) → lft4 m c b = ent4 m c b :=
  fun b hb => at10_of_ne m c b fun w e => hb (Finset.mem_image.mpr ⟨w, Finset.mem_univ _, e⟩)

/-- Before layer 5: the host operations between the layers have run. -/
abbrev at11 : Dev nD → Valuation τ sig (Elt F) := fun c => StableHlo.after hostOps5 (at10 m c)
abbrev ent5 : (c : Dev nD) → (b : Ref sig .tc) → Buf (Elt F) ((c : Thread nD τ).loc b) := fun c b => at11 m c b
/-- After layer 5: its four arrays at what the row tiles written back leave, every other buffer as before. -/
def at12 (c : Dev nD) : Valuation τ sig (Elt F) :=
  Pipeline.withArrays spec5 c (at11 m c) fun w => (data5 (ent5 m) c).arrAt w cfg5.N
theorem at12_arr (c : Dev nD) (w : Fin cfg5.W) :
    at12 m c (Proc.devRef .tc (Pipeline.arrRef spec5 w)) = (data5 (ent5 m) c).arrAt w cfg5.N := by
  unfold at12; exact Pipeline.withArrays_arr spec5 launch5.win.arr_inj c _ _ w
theorem at12_of_ne (c : Dev nD) (b : Ref sig .tc) (hb : ∀ w, Pipeline.arrRef spec5 w ≠ b) :
    at12 m c (Proc.devRef .tc b) = at11 m c (Proc.devRef .tc b) := by
  unfold at12; exact Pipeline.withArrays_of_ne spec5 c _ _ b hb
abbrev lft5 : (c : Dev nD) → (b : Ref sig .tc) → Buf (Elt F) ((c : Thread nD τ).loc b) := fun c b => at12 m c b
theorem left5 (c : Dev nD) (w : Fin cfg5.W) : (data5 (ent5 m) c).arrAt w cfg5.N = lft5 m c (Pipeline.arrRef spec5 w) :=
  (at12_arr m c w).symm
theorem kept5 (c : Dev nD) : ∀ b, b ∉ Finset.univ.image (Pipeline.arrRef spec5) → lft5 m c b = ent5 m c b :=
  fun b hb => at12_of_ne m c b fun w e => hb (Finset.mem_image.mpr ⟨w, Finset.mem_univ _, e⟩)

/-- Before layer 6: the host operations between the layers have run. -/
abbrev at13 : Dev nD → Valuation τ sig (Elt F) := fun c => StableHlo.after hostOps6 (at12 m c)
abbrev ent6 : (c : Dev nD) → (b : Ref sig .tc) → Buf (Elt F) ((c : Thread nD τ).loc b) := fun c b => at13 m c b
/-- After layer 6: its four arrays at what the row tiles written back leave, every other buffer as before. -/
def at14 (c : Dev nD) : Valuation τ sig (Elt F) :=
  Pipeline.withArrays spec6 c (at13 m c) fun w => (data6 (ent6 m) c).arrAt w cfg6.N
theorem at14_arr (c : Dev nD) (w : Fin cfg6.W) :
    at14 m c (Proc.devRef .tc (Pipeline.arrRef spec6 w)) = (data6 (ent6 m) c).arrAt w cfg6.N := by
  unfold at14; exact Pipeline.withArrays_arr spec6 launch6.win.arr_inj c _ _ w
theorem at14_of_ne (c : Dev nD) (b : Ref sig .tc) (hb : ∀ w, Pipeline.arrRef spec6 w ≠ b) :
    at14 m c (Proc.devRef .tc b) = at13 m c (Proc.devRef .tc b) := by
  unfold at14; exact Pipeline.withArrays_of_ne spec6 c _ _ b hb
abbrev lft6 : (c : Dev nD) → (b : Ref sig .tc) → Buf (Elt F) ((c : Thread nD τ).loc b) := fun c b => at14 m c b
theorem left6 (c : Dev nD) (w : Fin cfg6.W) : (data6 (ent6 m) c).arrAt w cfg6.N = lft6 m c (Pipeline.arrRef spec6 w) :=
  (at14_arr m c w).symm
theorem kept6 (c : Dev nD) : ∀ b, b ∉ Finset.univ.image (Pipeline.arrRef spec6) → lft6 m c b = ent6 m c b :=
  fun b hb => at14_of_ne m c b fun w e => hb (Finset.mem_image.mpr ⟨w, Finset.mem_univ _, e⟩)

/-- Before layer 7: the host operations between the layers have run. -/
abbrev at15 : Dev nD → Valuation τ sig (Elt F) := fun c => StableHlo.after hostOps7 (at14 m c)
abbrev ent7 : (c : Dev nD) → (b : Ref sig .tc) → Buf (Elt F) ((c : Thread nD τ).loc b) := fun c b => at15 m c b
/-- After layer 7: its four arrays at what the row tiles written back leave, every other buffer as before. -/
def at16 (c : Dev nD) : Valuation τ sig (Elt F) :=
  Pipeline.withArrays spec7 c (at15 m c) fun w => (data7 (ent7 m) c).arrAt w cfg7.N
theorem at16_arr (c : Dev nD) (w : Fin cfg7.W) :
    at16 m c (Proc.devRef .tc (Pipeline.arrRef spec7 w)) = (data7 (ent7 m) c).arrAt w cfg7.N := by
  unfold at16; exact Pipeline.withArrays_arr spec7 launch7.win.arr_inj c _ _ w
theorem at16_of_ne (c : Dev nD) (b : Ref sig .tc) (hb : ∀ w, Pipeline.arrRef spec7 w ≠ b) :
    at16 m c (Proc.devRef .tc b) = at15 m c (Proc.devRef .tc b) := by
  unfold at16; exact Pipeline.withArrays_of_ne spec7 c _ _ b hb
abbrev lft7 : (c : Dev nD) → (b : Ref sig .tc) → Buf (Elt F) ((c : Thread nD τ).loc b) := fun c b => at16 m c b
theorem left7 (c : Dev nD) (w : Fin cfg7.W) : (data7 (ent7 m) c).arrAt w cfg7.N = lft7 m c (Pipeline.arrRef spec7 w) :=
  (at16_arr m c w).symm
theorem kept7 (c : Dev nD) : ∀ b, b ∉ Finset.univ.image (Pipeline.arrRef spec7) → lft7 m c b = ent7 m c b :=
  fun b hb => at16_of_ne m c b fun w e => hb (Finset.mem_image.mpr ⟨w, Finset.mem_univ _, e⟩)

/-- Before layer 8: the host operations between the layers have run. -/
abbrev at17 : Dev nD → Valuation τ sig (Elt F) := fun c => StableHlo.after hostOps8 (at16 m c)
abbrev ent8 : (c : Dev nD) → (b : Ref sig .tc) → Buf (Elt F) ((c : Thread nD τ).loc b) := fun c b => at17 m c b
/-- After layer 8: its four arrays at what the row tiles written back leave, every other buffer as before. -/
def at18 (c : Dev nD) : Valuation τ sig (Elt F) :=
  Pipeline.withArrays spec8 c (at17 m c) fun w => (data8 (ent8 m) c).arrAt w cfg8.N
theorem at18_arr (c : Dev nD) (w : Fin cfg8.W) :
    at18 m c (Proc.devRef .tc (Pipeline.arrRef spec8 w)) = (data8 (ent8 m) c).arrAt w cfg8.N := by
  unfold at18; exact Pipeline.withArrays_arr spec8 launch8.win.arr_inj c _ _ w
theorem at18_of_ne (c : Dev nD) (b : Ref sig .tc) (hb : ∀ w, Pipeline.arrRef spec8 w ≠ b) :
    at18 m c (Proc.devRef .tc b) = at17 m c (Proc.devRef .tc b) := by
  unfold at18; exact Pipeline.withArrays_of_ne spec8 c _ _ b hb
abbrev lft8 : (c : Dev nD) → (b : Ref sig .tc) → Buf (Elt F) ((c : Thread nD τ).loc b) := fun c b => at18 m c b
theorem left8 (c : Dev nD) (w : Fin cfg8.W) : (data8 (ent8 m) c).arrAt w cfg8.N = lft8 m c (Pipeline.arrRef spec8 w) :=
  (at18_arr m c w).symm
theorem kept8 (c : Dev nD) : ∀ b, b ∉ Finset.univ.image (Pipeline.arrRef spec8) → lft8 m c b = ent8 m c b :=
  fun b hb => at18_of_ne m c b fun w e => hb (Finset.mem_image.mpr ⟨w, Finset.mem_univ _, e⟩)

/-- Before layer 9: the host operations between the layers have run. -/
abbrev at19 : Dev nD → Valuation τ sig (Elt F) := fun c => StableHlo.after hostOps9 (at18 m c)
abbrev ent9 : (c : Dev nD) → (b : Ref sig .tc) → Buf (Elt F) ((c : Thread nD τ).loc b) := fun c b => at19 m c b
/-- After layer 9: its four arrays at what the row tiles written back leave, every other buffer as before. -/
def at20 (c : Dev nD) : Valuation τ sig (Elt F) :=
  Pipeline.withArrays spec9 c (at19 m c) fun w => (data9 (ent9 m) c).arrAt w cfg9.N
theorem at20_arr (c : Dev nD) (w : Fin cfg9.W) :
    at20 m c (Proc.devRef .tc (Pipeline.arrRef spec9 w)) = (data9 (ent9 m) c).arrAt w cfg9.N := by
  unfold at20; exact Pipeline.withArrays_arr spec9 launch9.win.arr_inj c _ _ w
theorem at20_of_ne (c : Dev nD) (b : Ref sig .tc) (hb : ∀ w, Pipeline.arrRef spec9 w ≠ b) :
    at20 m c (Proc.devRef .tc b) = at19 m c (Proc.devRef .tc b) := by
  unfold at20; exact Pipeline.withArrays_of_ne spec9 c _ _ b hb
abbrev lft9 : (c : Dev nD) → (b : Ref sig .tc) → Buf (Elt F) ((c : Thread nD τ).loc b) := fun c b => at20 m c b
theorem left9 (c : Dev nD) (w : Fin cfg9.W) : (data9 (ent9 m) c).arrAt w cfg9.N = lft9 m c (Pipeline.arrRef spec9 w) :=
  (at20_arr m c w).symm
theorem kept9 (c : Dev nD) : ∀ b, b ∉ Finset.univ.image (Pipeline.arrRef spec9) → lft9 m c b = ent9 m c b :=
  fun b hb => at20_of_ne m c b fun w e => hb (Finset.mem_image.mpr ⟨w, Finset.mem_univ _, e⟩)

/-- A buffer that no host operation writes and that is no layer's array holds at the end what it held at launch. -/
theorem at20_unwritten (c : Dev nD) (r : Ref sig .tc)
    (h0 : r ∉ hostOps0_W) (g0 : ∀ w, Pipeline.arrRef spec0 w ≠ r)
    (h1 : r ∉ hostOps1_W) (g1 : ∀ w, Pipeline.arrRef spec1 w ≠ r)
    (h2 : r ∉ hostOps2_W) (g2 : ∀ w, Pipeline.arrRef spec2 w ≠ r)
    (h3 : r ∉ hostOps3_W) (g3 : ∀ w, Pipeline.arrRef spec3 w ≠ r)
    (h4 : r ∉ hostOps4_W) (g4 : ∀ w, Pipeline.arrRef spec4 w ≠ r)
    (h5 : r ∉ hostOps5_W) (g5 : ∀ w, Pipeline.arrRef spec5 w ≠ r)
    (h6 : r ∉ hostOps6_W) (g6 : ∀ w, Pipeline.arrRef spec6 w ≠ r)
    (h7 : r ∉ hostOps7_W) (g7 : ∀ w, Pipeline.arrRef spec7 w ≠ r)
    (h8 : r ∉ hostOps8_W) (g8 : ∀ w, Pipeline.arrRef spec8 w ≠ r)
    (h9 : r ∉ hostOps9_W) (g9 : ∀ w, Pipeline.arrRef spec9 w ≠ r) :
    at20 m c (Proc.devRef .tc r) = m ((c : Thread nD τ).loc r) :=
  (at20_of_ne m c r g9).trans <| (StableHlo.after_of_writes_sub hostOps9 _ hostOps9_writes h9).trans <|
  (at18_of_ne m c r g8).trans <| (StableHlo.after_of_writes_sub hostOps8 _ hostOps8_writes h8).trans <|
  (at16_of_ne m c r g7).trans <| (StableHlo.after_of_writes_sub hostOps7 _ hostOps7_writes h7).trans <|
  (at14_of_ne m c r g6).trans <| (StableHlo.after_of_writes_sub hostOps6 _ hostOps6_writes h6).trans <|
  (at12_of_ne m c r g5).trans <| (StableHlo.after_of_writes_sub hostOps5 _ hostOps5_writes h5).trans <|
  (at10_of_ne m c r g4).trans <| (StableHlo.after_of_writes_sub hostOps4 _ hostOps4_writes h4).trans <|
  (at8_of_ne m c r g3).trans <| (StableHlo.after_of_writes_sub hostOps3 _ hostOps3_writes h3).trans <|
  (at6_of_ne m c r g2).trans <| (StableHlo.after_of_writes_sub hostOps2 _ hostOps2_writes h2).trans <|
  (at4_of_ne m c r g1).trans <| (StableHlo.after_of_writes_sub hostOps1 _ hostOps1_writes h1).trans <|
  (at2_of_ne m c r g0).trans <| (StableHlo.after_of_writes_sub hostOps0 _ hostOps0_writes h0).trans <| rfl

/-! ## The steps -/

abbrev adm : (p : Fin 10) → (pcfgs (F := F) p).Adm := fun p => (cfgs p).toPCfg_adm
/-- Each layer's bookkeeping, at the contents the layer is entered with. -/
def pdats : (p : Fin 10) → (c : Dev nD) → Dat τ (Elt F) Unit ℕ (UR sig nD τ) ℕ (Pipeline.pin (pcfgs (F := F)) adm p) c
  | ⟨0, _⟩ => fun c => data0 (ent0 m) c
  | ⟨1, _⟩ => fun c => data1 (ent1 m) c
  | ⟨2, _⟩ => fun c => data2 (ent2 m) c
  | ⟨3, _⟩ => fun c => data3 (ent3 m) c
  | ⟨4, _⟩ => fun c => data4 (ent4 m) c
  | ⟨5, _⟩ => fun c => data5 (ent5 m) c
  | ⟨6, _⟩ => fun c => data6 (ent6 m) c
  | ⟨7, _⟩ => fun c => data7 (ent7 m) c
  | ⟨8, _⟩ => fun c => data8 (ent8 m) c
  | ⟨9, _⟩ => fun c => data9 (ent9 m) c
abbrev 𝒱₀ : Variants := Variants.none
abbrev L : GSem nD τ sig → Finset Unit := fun _ => ∅
abbrev lv : GSem nD τ sig → Unit → ℕ := fun _ _ => 0
/-- What a core carries through every step beside its buffers: its random generator's register at some state, and
    nothing owed to any other core. -/
abbrev R (c : Dev nD) : sProp 𝕄 := iprop((∃ r, prngReg c r) ∗ ∃ W, owes (c : Thread nD τ) (0 : CellTallies nD τ sig Unit) W)
/-- A stretch of host operations as a step: from the buffers at `W` to the buffers at the operations applied to `W`. -/
abbrev hostStep (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every buffer at the last contents, the generator register at some state. -/
abbrev last (c : Dev nD) : sProp 𝕄 := iprop(StableHlo.held (c : Thread nD τ) (Pipeline.ucRefs τ sig) (at20 m c) ∗ ∃ r, prngReg c r)

set_option backward.isDefEq.respectTransparency.types false in
/-- Layer 0 as one step of the program: entered with every buffer at `at1`, left with every buffer at `at2`. Its
    four arrays are taken out of the buffers for the row tiles to be copied through and put back at what the tiles leave;
    the rest of the core's state goes in and comes out unchanged. -/
def layer0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (lft0 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1 as one step of the program: entered with every buffer at `at3`, left with every buffer at `at4`. Its
    four arrays are taken out of the buffers for the row tiles to be copied through and put back at what the tiles leave;
    the rest of the core's state goes in and comes out unchanged. -/
def layer1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (at3 m c) ∗ R c)
  post c := iprop(StableHlo.held (c : Thread nD τ) (Pipeline.ucRefs τ sig) (at4 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (lft1 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as one step of the program: entered with every buffer at `at5`, left with every buffer at `at6`. Its
    four arrays are taken out of the buffers for the row tiles to be copied through and put back at what the tiles leave;
    the rest of the core's state goes in and comes out unchanged. -/
def layer2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (at5 m c) ∗ R c)
  post c := iprop(StableHlo.held (c : Thread nD τ) (Pipeline.ucRefs τ sig) (at6 m c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (lft2 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3 as one step of the program: entered with every buffer at `at7`, left with every buffer at `at8`. Its
    four arrays are taken out of the buffers for the row tiles to be copied through and put back at what the tiles leave;
    the rest of the core's state goes in and comes out unchanged. -/
def layer3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (at7 m c) ∗ R c)
  post c := iprop(StableHlo.held (c : Thread nD τ) (Pipeline.ucRefs τ sig) (at8 m c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (lft3 m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 4 as one step of the program: entered with every buffer at `at9`, left with every buffer at `at10`. Its
    four arrays are taken out of the buffers for the row tiles to be copied through and put back at what the tiles leave;
    the rest of the core's state goes in and comes out unchanged. -/
def layer4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L lv 4 fun _ _ => rfl
  pre c := iprop(StableHlo.held (c : Thread nD τ) (Pipeline.ucRefs τ sig) (at9 m c) ∗ R c)
  post c := iprop(StableHlo.held (c : Thread nD τ) (Pipeline.ucRefs τ sig) (at10 m c) ∗ R c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (lft4 m c) ((pdats m 4 c).arrAt · cfg4.N) (left4 m c) (kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 5 as one step of the program: entered with every buffer at `at11`, left with every buffer at `at12`. Its
    four arrays are taken out of the buffers for the row tiles to be copied through and put back at what the tiles leave;
    the rest of the core's state goes in and comes out unchanged. -/
def layer5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L lv 5 fun _ _ => rfl
  pre c := iprop(StableHlo.held (c : Thread nD τ) (Pipeline.ucRefs τ sig) (at11 m c) ∗ R c)
  post c := iprop(StableHlo.held (c : Thread nD τ) (Pipeline.ucRefs τ sig) (at12 m c) ∗ R c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (lft5 m c) ((pdats m 5 c).arrAt · cfg5.N) (left5 m c) (kept5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 6 as one step of the program: entered with every buffer at `at13`, left with every buffer at `at14`. Its
    four arrays are taken out of the buffers for the row tiles to be copied through and put back at what the tiles leave;
    the rest of the core's state goes in and comes out unchanged. -/
def layer6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L lv 6 fun _ _ => rfl
  pre c := iprop(StableHlo.held (c : Thread nD τ) (Pipeline.ucRefs τ sig) (at13 m c) ∗ R c)
  post c := iprop(StableHlo.held (c : Thread nD τ) (Pipeline.ucRefs τ sig) (at14 m c) ∗ R c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (lft6 m c) ((pdats m 6 c).arrAt · cfg6.N) (left6 m c) (kept6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 7 as one step of the program: entered with every buffer at `at15`, left with every buffer at `at16`. Its
    four arrays are taken out of the buffers for the row tiles to be copied through and put back at what the tiles leave;
    the rest of the core's state goes in and comes out unchanged. -/
def layer7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L lv 7 fun _ _ => rfl
  pre c := iprop(StableHlo.held (c : Thread nD τ) (Pipeline.ucRefs τ sig) (at15 m c) ∗ R c)
  post c := iprop(StableHlo.held (c : Thread nD τ) (Pipeline.ucRefs τ sig) (at16 m c) ∗ R c)
  X c := iprop(∃ r, prngReg c r)
  Y c := iprop(∃ r, prngReg c r)
  Z c := Pipeline.unscopedRest (Ix := Unit) (Name := ℕ) (U := UR sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (ent7 m c) (lft7 m c) ((pdats m 7 c).arrAt · cfg7.N) (left7 m c) (kept7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 8 as one step of the program: entered with every buffer at `at17`, left with every buffer at `at18`. Its
    four arrays are taken out of the buffers for the row tiles to be copied through and put back at what the tiles leave;
    the rest of the core's state goes in and comes out unchanged. -/
def layer8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ L lv 8 fun _ _ => rfl
  pre c := iprop(StableHlo.held (c : Thread nD τ) (Pipeline.ucRefs τ sig) (at17 m c) ∗ R c)
  post c := iprop(StableHlo.held (c : Thread nD τ) (Pipeline.ucRefs τ sig) (at18 m c) ∗ R c)
  X c := iprop(∃ r, prngReg c r)
  Y c := iprop(∃ r, prngReg c r)
  Z c := Pipeline.unscopedRest (Ix := Unit) (Name := ℕ) (U := UR sig nD τ) (Lvl := ℕ) spec8 c (ent8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (ent8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (ent8 m c) (lft8 m c) ((pdats m 8 c).arrAt · cfg8.N) (left8 m c) (kept8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 9 as one step of the program: entered with every buffer at `at19`, left with every buffer at `at20`. Its
    four arrays are taken out of the buffers for the row tiles to be copied through and put back at what the tiles leave;
    the rest of the core's state goes in and comes out unchanged. -/
def layer9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (ent9 m) c).loose
  hwaits := Pipeline.hwaits_of_owed_zero _ _ _ _ L lv 9 fun _ _ => rfl
  pre c := iprop(StableHlo.held (c : Thread nD τ) (Pipeline.ucRefs τ sig) (at19 m c) ∗ R c)
  post c := iprop(StableHlo.held (c : Thread nD τ) (Pipeline.ucRefs τ sig) (at20 m c) ∗ R c)
  X c := iprop(∃ r, prngReg c r)
  Y c := iprop(∃ r, prngReg c r)
  Z c := Pipeline.unscopedRest (Ix := Unit) (Name := ℕ) (U := UR sig nD τ) (Lvl := ℕ) spec9 c (ent9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (ent9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (ent9 m c) (lft9 m c) ((pdats m 9 c).arrAt · cfg9.N) (left9 m c) (kept9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its steps, and the run -/

abbrev steps : List (Pipeline.Seg (pcfgs (F := F)) adm (pdats m) () defs₀ 𝒱₀ L lv) :=
  [ .host (hostStep hostOps0 hostOps0_sub hostOps0_fresh (at0 m)),
    .region (layer0 m),
    .host (hostStep hostOps1 hostOps1_sub hostOps1_fresh (at2 m)),
    .region (layer1 m),
    .host (hostStep hostOps2 hostOps2_sub hostOps2_fresh (at4 m)),
    .region (layer2 m),
    .host (hostStep hostOps3 hostOps3_sub hostOps3_fresh (at6 m)),
    .region (layer3 m),
    .host (hostStep hostOps4 hostOps4_sub hostOps4_fresh (at8 m)),
    .region (layer4 m),
    .host (hostStep hostOps5 hostOps5_sub hostOps5_fresh (at10 m)),
    .region (layer5 m),
    .host (hostStep hostOps6 hostOps6_sub hostOps6_fresh (at12 m)),
    .region (layer6 m),
    .host (hostStep hostOps7 hostOps7_sub hostOps7_fresh (at14 m)),
    .region (layer7 m),
    .host (hostStep hostOps8 hostOps8_sub hostOps8_fresh (at16 m)),
    .region (layer8 m),
    .host (hostStep hostOps9 hostOps9_sub hostOps9_fresh (at18 m)),
    .region (layer9 m) ]

set_option backward.isDefEq.respectTransparency.types false in
/-- Every weakly fair execution of the program from memory `m` with all counters at zero terminates without a fault, and
    in its final memory every buffer that outlives a layer holds the last contents `at20`. -/
theorem run : θ_run defs (onTc (τ := τ) (main (F := F))) ⟨m, fun _ => 0, ρ⟩ (fun r => ∀ c : Dev nD,
      ∀ b ∈ Pipeline.ucRefs τ sig, r.2.mem (((c : Thread nD τ)).1, b) = at20 m c b) :=
  Pipeline.θ_run_regions_kit (pcfgs (F := F)) adm (pdats m) () cellOf_inj emb₁ defs₀ 𝒱₀ L lv m ρ main (steps m)
    (fun c Q => by
      rewrite [main_chain c, Seg.run_eq_chain,
        show (steps m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := last m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (at20 m c) ∗ R c)
        ⊢ iprop(last m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at20 m c b)
    (hfin := fun c s' => by
      iintro ⟨⟨Hh, -⟩, HSI⟩
      unfold StableHlo.held
      imodintro
      iapply (pointsTo_read_all (Pipeline.ucRefs τ sig) (fun b => (((c : Thread nD τ)).1, b)) (at20 m c) s')
      isplitl [Hh] <;> iassumption)
    (hQ := fun s h => h)

end Cert.KernelIdeal.Hand

end
-- ==== Proof.KI.Frame.lean ====
/-
  The frame: every weakly fair execution terminates without a fault and every argument array ends as launched. Read off
  the run: an argument's buffer outlives every layer, no host operation writes it and it is no layer's array, so the last
  contents at it are the launch memory's.
-/
import proofs.«101052_j75445395522274_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that outlives the layers, that no host operation writes and that is no layer's array ends as launched. -/
theorem ends_as_launched (s : MemSt nD τ sig (Elt F))
    (h : ∀ c : Dev nD, ∀ b ∈ Pipeline.ucRefs τ sig, s.mem (((c : Thread nD τ)).1, b) = at20 m c b) (c : Dev nD) (r : Ref sig .tc)
    (hu : ¬ (Proc.devRef .tc r : DevRef τ sig).isScoped)
    (h0 : r ∉ hostOps0_W) (g0 : ∀ w, Pipeline.arrRef spec0 w ≠ r)
    (h1 : r ∉ hostOps1_W) (g1 : ∀ w, Pipeline.arrRef spec1 w ≠ r)
    (h2 : r ∉ hostOps2_W) (g2 : ∀ w, Pipeline.arrRef spec2 w ≠ r)
    (h3 : r ∉ hostOps3_W) (g3 : ∀ w, Pipeline.arrRef spec3 w ≠ r)
    (h4 : r ∉ hostOps4_W) (g4 : ∀ w, Pipeline.arrRef spec4 w ≠ r)
    (h5 : r ∉ hostOps5_W) (g5 : ∀ w, Pipeline.arrRef spec5 w ≠ r)
    (h6 : r ∉ hostOps6_W) (g6 : ∀ w, Pipeline.arrRef spec6 w ≠ r)
    (h7 : r ∉ hostOps7_W) (g7 : ∀ w, Pipeline.arrRef spec7 w ≠ r)
    (h8 : r ∉ hostOps8_W) (g8 : ∀ w, Pipeline.arrRef spec8 w ≠ r)
    (h9 : r ∉ hostOps9_W) (g9 : ∀ w, Pipeline.arrRef spec9 w ≠ r) :
    s.mem ((c.tc : Thread nD τ).loc r) = m ((c.tc : Thread nD τ).loc r) :=
  (h c _ (mem_uc r hu)).trans (at20_unwritten m c r h0 g0 h1 g1 h2 g2 h3 g3 h4 g4 h5 g5 h6 g6 h7 g7 h8 g8 h9 g9)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨ends_as_launched m r.2 h c main_arg0 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg1 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg2 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg3 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg4 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg5 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg6 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg7 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg8 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg9 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg10 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg11 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg12 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg13 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg14 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg15 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg16 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg17 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg18 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg19 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg20 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg21 (by decide) (by decide) (by decide) (by decide) (by decide) (by decide) (by decide) (by decide) (by decide) (by decide) (by decide) (by decide) (by decide) (by decide) (by decide) (by decide) (by decide) (by decide) (by decide) (by decide) (by decide)⟩) (run m ρ)

end Cert.KernelIdeal.Hand

end
-- ==== Proof.RefOps.lean ====
/- The reference program's host operations in order, window by window: opsK is what window K of @main runs, a
   called function's operations written out in its call's place over the call's buffers. Beside each list: the
   references the window writes (WK), and per operation that it touches TensorCore references only (opsK_sub), that it
   writes one reference of its window's list (opsK_writes), and that it determines what it writes (opsK_fresh). -/
import proofs.«101052_j75445395522274_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- An operation whose one written buffer is a reference of the list W writes inside W. -/
theorem writes_sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

/-- The 68 operations window main_part0 runs, in order (operations 1 … 68 of @main's). -/
abbrev ops0 : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg0 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 64#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg0 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg6 main_v5 main_v6 ((fun x i => Host.gather gather_S64x64_S100000x1_S100000x64_1_0_n_n_0_1_164 x i) : (⟨S64x64, .f32⟩ : BufTy).Contents (Elt F) → (⟨S100000x1, .i32⟩ : BufTy).Contents (Elt F) → (⟨S100000x64, .f32⟩ : BufTy).Contents (Elt F)),
    StableHlo.unary main_arg3 main_v7 (broadcastInDim S400000x1 ![0] bcast_S400000_S400000x1_0 : (⟨S400000, .f32⟩ : BufTy).Contents (Elt F) → (⟨S400000x1, .f32⟩ : BufTy).Contents (Elt F)),
    StableHlo.unary main_arg4 main_v8 (broadcastInDim S400000x1 ![0] bcast_S400000_S400000x1_0 : (⟨S400000, .f32⟩ : BufTy).Contents (Elt F) → (⟨S400000x1, .f32⟩ : BufTy).Contents (Elt F)),
    StableHlo.unary main_arg5 main_v9 (broadcastInDim S400000x1 ![0] bcast_S400000_S400000x1_0 : (⟨S400000, .f32⟩ : BufTy).Contents (Elt F) → (⟨S400000x1, .f32⟩ : BufTy).Contents (Elt F)),
    StableHlo.nary ![main_v7, main_v8, main_v9] main_v10 (fun u => concatenate S400000x3 1 [⟨S400000x1, u 0⟩, ⟨S400000x1, u 1⟩, ⟨S400000x1, u 2⟩] concatenates_S400000x1_S400000x1_S400000x1_S400000x3_d1),
    StableHlo.nullary main_c_1 (constantI S_ 32 0#32),
    StableHlo.unary main_c_1 main_v11 (broadcastInDim S400000 ![] bcast_S_S400000 : (⟨S_, .i32⟩ : BufTy).Contents (Elt F) → (⟨S400000, .i32⟩ : BufTy).Contents (Elt F)),
    StableHlo.binary main_arg1 main_v11 main_v12 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 100000#32),
    StableHlo.unary main_c_2 main_v13 (broadcastInDim S400000 ![] bcast_S_S400000 : (⟨S_, .i32⟩ : BufTy).Contents (Elt F) → (⟨S400000, .i32⟩ : BufTy).Contents (Elt F)),
    StableHlo.binary main_arg1 main_v13 main_v14 (addi : (⟨S400000, .i32⟩ : BufTy).Contents (Elt F) → (⟨S400000, .i32⟩ : BufTy).Contents (Elt F) → (⟨S400000, .i32⟩ : BufTy).Contents (Elt F)),
    StableHlo.ternary main_v12 main_v14 main_arg1 main_v15 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v15 main_v16 (broadcastInDim S400000x1 ![0] bcast_S400000_S400000x1_0 : (⟨S400000, .i32⟩ : BufTy).Contents (Elt F) → (⟨S400000x1, .i32⟩ : BufTy).Contents (Elt F)),
    StableHlo.binary main_v6 main_v16 main_v17 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    StableHlo.binary main_v17 main_v10 main_v18 ((fun a b => concatenate S400000x67 1 [⟨S400000x64, a⟩, ⟨S400000x3, b⟩] concatenates_S400000x64_S400000x3_S400000x67_d1) : (⟨S400000x64, .f32⟩ : BufTy).Contents (Elt F) → (⟨S400000x3, .f32⟩ : BufTy).Contents (Elt F) → (⟨S400000x67, .f32⟩ : BufTy).Contents (Elt F)),
    StableHlo.unary main_arg7 main_v19 ((transpose S67x128 [1, 0] · transposes_S128x67_S67x128_1_0) : (⟨S128x67, .f32⟩ : BufTy).Contents (Elt F) → (⟨S67x128, .f32⟩ : BufTy).Contents (Elt F)),
    StableHlo.binary main_v18 main_v19 main_v20 ((fun l r => Host.dotGeneral dot_S400000x67_S67x128_S400000x128_1_0_0_1_n_n none l r) : (⟨S400000x67, .f32⟩ : BufTy).Contents (Elt F) → (⟨S67x128, .f32⟩ : BufTy).Contents (Elt F) → (⟨S400000x128, .f32⟩ : BufTy).Contents (Elt F)),
    StableHlo.nullary main_cst (constant S_ .f32 0x3C23D70A#32),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S400000x128, .f32⟩) main_call0_v0) (broadcastInDim S400000x128 ![] bcast_S_S400000x128),
    StableHlo.TRef.binary (StableHlo.TRef.of (T := ⟨S400000x128, .f32⟩) main_v20) (StableHlo.TRef.of (T := ⟨S400000x128, .f32⟩) main_call0_v0) (StableHlo.TRef.of (T := ⟨S400000x128, .i1⟩) main_call0_v1) (cmpf .oge),
    StableHlo.TRef.unary (StableHlo.TRef.of (T := ⟨S_, .f32⟩) main_cst) (StableHlo.TRef.of (T := ⟨S_, .f32⟩) main_call0_v2) id,
    StableHlo.TRef.unary (StableHlo.TRef.of (T := ⟨S_, .f32⟩) main_call0_v2) (StableHlo.TRef.of (T := ⟨S400000x128, .f32⟩) main_call0_v3) (broadcastInDim S400000x128 ![] bcast_S_S400000x128),
    StableHlo.TRef.binary (StableHlo.TRef.of (T := ⟨S400000x128, .f32⟩) main_call0_v3) (StableHlo.TRef.of (T := ⟨S400000x128, .f32⟩) main_v20) (StableHlo.TRef.of (T := ⟨S400000x128, .f32⟩) main_call0_v4) mulf,
    StableHlo.TRef.ternary (StableHlo.TRef.of (T := ⟨S400000x128, .i1⟩) main_call0_v1) (StableHlo.TRef.of (T := ⟨S400000x128, .f32⟩) main_v20) (StableHlo.TRef.of (T := ⟨S400000x128, .f32⟩) main_call0_v4) (StableHlo.TRef.of (T := ⟨S400000x128, .f32⟩) main_v21) select,
    StableHlo.nullary main_cst_3 (constant S_ .f32 0x00000000#32),
    StableHlo.unary main_cst_3 main_v22 (broadcastInDim S100000x128 ![] bcast_S_S100000x128 : (⟨S_, .f32⟩ : BufTy).Contents (Elt F) → (⟨S100000x128, .f32⟩ : BufTy).Contents (Elt F)),
    StableHlo.unary main_arg2 main_v23 (broadcastInDim S400000x1 ![0] bcast_S400000_S400000x1_0 : (⟨S400000, .i32⟩ : BufTy).Contents (Elt F) → (⟨S400000x1, .i32⟩ : BufTy).Contents (Elt F)),
    StableHlo.ternary main_v22 main_v23 main_v21 main_v24 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_4 (constant S_ .f32 0x3F800000#32),
    StableHlo.unary main_cst_4 main_v25 (broadcastInDim S400000 ![] bcast_S_S400000 : (⟨S_, .f32⟩ : BufTy).Contents (Elt F) → (⟨S400000, .f32⟩ : BufTy).Contents (Elt F)),
    StableHlo.nullary main_cst_5 (constant S_ .f32 0x00000000#32),
    StableHlo.unary main_cst_5 main_v26 (broadcastInDim S100000 ![] bcast_S_S100000 : (⟨S_, .f32⟩ : BufTy).Contents (Elt F) → (⟨S100000, .f32⟩ : BufTy).Contents (Elt F)),
    StableHlo.unary main_arg2 main_v27 (broadcastInDim S400000x1 ![0] bcast_S400000_S400000x1_0 : (⟨S400000, .i32⟩ : BufTy).Contents (Elt F) → (⟨S400000x1, .i32⟩ : BufTy).Contents (Elt F)),
    StableHlo.ternary main_v26 main_v27 main_v25 main_v28 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_6 (constant S_ .f32 0x3F800000#32),
    StableHlo.unary main_cst_6 main_v29 (broadcastInDim S100000 ![] bcast_S_S100000 : (⟨S_, .f32⟩ : BufTy).Contents (Elt F) → (⟨S100000, .f32⟩ : BufTy).Contents (Elt F)),
    StableHlo.binary main_v28 main_v29 main_v30 (maximumf : (⟨S100000, .f32⟩ : BufTy).Contents (Elt F) → (⟨S100000, .f32⟩ : BufTy).Contents (Elt F) → (⟨S100000, .f32⟩ : BufTy).Contents (Elt F)),
    StableHlo.unary main_v30 main_v31 (broadcastInDim S100000x1 ![0] bcast_S100000_S100000x1_0 : (⟨S100000, .f32⟩ : BufTy).Contents (Elt F) → (⟨S100000x1, .f32⟩ : BufTy).Contents (Elt F)),
    StableHlo.unary main_v31 main_v32 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v32 main_v33 (Host.divf : (⟨S100000x128, .f32⟩ : BufTy).Contents (Elt F) → (⟨S100000x128, .f32⟩ : BufTy).Contents (Elt F) → (⟨S100000x128, .f32⟩ : BufTy).Contents (Elt F)),
    StableHlo.binary main_v6 main_v33 main_v34 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    StableHlo.unary main_arg8 main_v35 ((transpose S192x128 [1, 0] · transposes_S128x192_S192x128_1_0) : (⟨S128x192, .f32⟩ : BufTy).Contents (Elt F) → (⟨S192x128, .f32⟩ : BufTy).Contents (Elt F)),
    StableHlo.binary main_v34 main_v35 main_v36 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)),
    StableHlo.unary main_arg9 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S100000x128, .f32⟩) main_call1_v0) (broadcastInDim S100000x128 ![] bcast_S_S100000x128),
    StableHlo.TRef.binary (StableHlo.TRef.of (T := ⟨S100000x128, .f32⟩) main_v39) (StableHlo.TRef.of (T := ⟨S100000x128, .f32⟩) main_call1_v0) (StableHlo.TRef.of (T := ⟨S100000x128, .f32⟩) main_v40) maximumf,
    StableHlo.nullary main_c_7 (constantI S_ 32 0#32),
    StableHlo.unary main_c_7 main_v41 (broadcastInDim S400000 ![] bcast_S_S400000 : (⟨S_, .i32⟩ : BufTy).Contents (Elt F) → (⟨S400000, .i32⟩ : BufTy).Contents (Elt F)),
    StableHlo.binary main_arg1 main_v41 main_v42 (cmpi .slt : (⟨S400000, .i32⟩ : BufTy).Contents (Elt F) → (⟨S400000, .i32⟩ : BufTy).Contents (Elt F) → (⟨S400000, .i1⟩ : BufTy).Contents (Elt F)),
    StableHlo.nullary main_c_8 (constantI S_ 32 100000#32),
    StableHlo.unary main_c_8 main_v43 (broadcastInDim S400000 ![] bcast_S_S400000 : (⟨S_, .i32⟩ : BufTy).Contents (Elt F) → (⟨S400000, .i32⟩ : BufTy).Contents (Elt F)),
    StableHlo.binary main_arg1 main_v43 main_v44 (addi : (⟨S400000, .i32⟩ : BufTy).Contents (Elt F) → (⟨S400000, .i32⟩ : BufTy).Contents (Elt F) → (⟨S400000, .i32⟩ : BufTy).Contents (Elt F)),
    StableHlo.ternary main_v42 main_v44 main_arg1 main_v45 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v45 main_v46 (broadcastInDim S400000x1 ![0] bcast_S400000_S400000x1_0 : (⟨S400000, .i32⟩ : BufTy).Contents (Elt F) → (⟨S400000x1, .i32⟩ : BufTy).Contents (Elt F)),
    StableHlo.binary main_v40 main_v46 main_v47 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v47 main_v10 main_v48 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) ]

/-- The references window main_part0 writes, in order. -/
abbrev W0 : List (Ref sig .tc) := [main_c, main_v0, main_v1, main_c_0, main_v2, main_v3, main_v4, main_v5, main_v6, main_v7, main_v8, main_v9, main_v10, main_c_1, main_v11, main_v12, main_c_2, main_v13, main_v14, main_v15, main_v16, main_v17, main_v18, main_v19, main_v20, main_cst, main_call0_cst, main_call0_v0, main_call0_v1, main_call0_v2, main_call0_v3, main_call0_v4, main_v21, main_cst_3, main_v22, main_v23, main_v24, main_cst_4, main_v25, main_cst_5, main_v26, main_v27, main_v28, main_cst_6, main_v29, main_v30, main_v31, main_v32, main_v33, main_v34, main_v35, main_v36, main_v37, main_v38, main_v39, main_call1_cst, main_call1_v0, main_v40, main_c_7, main_v41, main_v42, main_c_8, main_v43, main_v44, main_v45, main_v46, main_v47, main_v48]

theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub .., StableHlo.nary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

theorem ops0_writes : (ops0 : List (HloOp τ sig (Elt F))).Forall fun op => op.writes ⊆ (W0.map (Proc.devRef (τ := τ) .tc)).toFinset :=
  ⟨writes_sub_of_mem (y := main_c) rfl (by decide), writes_sub_of_mem (y := main_v0) rfl (by decide), writes_sub_of_mem (y := main_v1) rfl (by decide), writes_sub_of_mem (y := main_c_0) rfl (by decide), writes_sub_of_mem (y := main_v2) rfl (by decide), writes_sub_of_mem (y := main_v3) rfl (by decide), writes_sub_of_mem (y := main_v4) rfl (by decide), writes_sub_of_mem (y := main_v5) rfl (by decide), writes_sub_of_mem (y := main_v6) rfl (by decide), writes_sub_of_mem (y := main_v7) rfl (by decide), writes_sub_of_mem (y := main_v8) rfl (by decide), writes_sub_of_mem (y := main_v9) rfl (by decide), writes_sub_of_mem (y := main_v10) rfl (by decide), writes_sub_of_mem (y := main_c_1) rfl (by decide), writes_sub_of_mem (y := main_v11) rfl (by decide), writes_sub_of_mem (y := main_v12) rfl (by decide), writes_sub_of_mem (y := main_c_2) rfl (by decide), writes_sub_of_mem (y := main_v13) rfl (by decide), writes_sub_of_mem (y := main_v14) rfl (by decide), writes_sub_of_mem (y := main_v15) rfl (by decide), writes_sub_of_mem (y := main_v16) rfl (by decide), writes_sub_of_mem (y := main_v17) rfl (by decide), writes_sub_of_mem (y := main_v18) rfl (by decide), writes_sub_of_mem (y := main_v19) rfl (by decide), writes_sub_of_mem (y := main_v20) rfl (by decide), writes_sub_of_mem (y := main_cst) rfl (by decide), writes_sub_of_mem (y := main_call0_cst) rfl (by decide), writes_sub_of_mem (y := main_call0_v0) rfl (by decide), writes_sub_of_mem (y := main_call0_v1) rfl (by decide), writes_sub_of_mem (y := main_call0_v2) rfl (by decide), writes_sub_of_mem (y := main_call0_v3) rfl (by decide), writes_sub_of_mem (y := main_call0_v4) rfl (by decide), writes_sub_of_mem (y := main_v21) rfl (by decide), writes_sub_of_mem (y := main_cst_3) rfl (by decide), writes_sub_of_mem (y := main_v22) rfl (by decide), writes_sub_of_mem (y := main_v23) rfl (by decide), writes_sub_of_mem (y := main_v24) rfl (by decide), writes_sub_of_mem (y := main_cst_4) rfl (by decide), writes_sub_of_mem (y := main_v25) rfl (by decide), writes_sub_of_mem (y := main_cst_5) rfl (by decide), writes_sub_of_mem (y := main_v26) rfl (by decide), writes_sub_of_mem (y := main_v27) rfl (by decide), writes_sub_of_mem (y := main_v28) rfl (by decide), writes_sub_of_mem (y := main_cst_6) rfl (by decide), writes_sub_of_mem (y := main_v29) rfl (by decide), writes_sub_of_mem (y := main_v30) rfl (by decide), writes_sub_of_mem (y := main_v31) rfl (by decide), writes_sub_of_mem (y := main_v32) rfl (by decide), writes_sub_of_mem (y := main_v33) rfl (by decide), writes_sub_of_mem (y := main_v34) rfl (by decide), writes_sub_of_mem (y := main_v35) rfl (by decide), writes_sub_of_mem (y := main_v36) rfl (by decide), writes_sub_of_mem (y := main_v37) rfl (by decide), writes_sub_of_mem (y := main_v38) rfl (by decide), writes_sub_of_mem (y := main_v39) rfl (by decide), writes_sub_of_mem (y := main_call1_cst) rfl (by decide), writes_sub_of_mem (y := main_call1_v0) rfl (by decide), writes_sub_of_mem (y := main_v40) rfl (by decide), writes_sub_of_mem (y := main_c_7) rfl (by decide), writes_sub_of_mem (y := main_v41) rfl (by decide), writes_sub_of_mem (y := main_v42) rfl (by decide), writes_sub_of_mem (y := main_c_8) rfl (by decide), writes_sub_of_mem (y := main_v43) rfl (by decide), writes_sub_of_mem (y := main_v44) rfl (by decide), writes_sub_of_mem (y := main_v45) rfl (by decide), writes_sub_of_mem (y := main_v46) rfl (by decide), writes_sub_of_mem (y := main_v47) rfl (by decide), writes_sub_of_mem (y := main_v48) rfl (by decide)⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 74 operations window main_part1 runs, in order (operations 69 … 142 of @main's). -/
abbrev ops1 : List (HloOp τ sig (Elt F)) :=
  [ StableHlo.unary main_arg10 main_v49 ((transpose S131x128 [1, 0] · transposes_S128x131_S131x128_1_0) : (⟨S128x131, .f32⟩ : BufTy).Contents (Elt F) → (⟨S131x128, .f32⟩ : BufTy).Contents (Elt F)),
    StableHlo.binary main_v48 main_v49 main_v50 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_9 (constant S_ .f32 0x3C23D70A#32),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S400000x128, .f32⟩) main_call2_v0) (broadcastInDim S400000x128 ![] bcast_S_S400000x128),
    StableHlo.TRef.binary (StableHlo.TRef.of (T := ⟨S400000x128, .f32⟩) main_v50) (StableHlo.TRef.of (T := ⟨S400000x128, .f32⟩) main_call2_v0) (StableHlo.TRef.of (T := ⟨S400000x128, .i1⟩) main_call2_v1) (cmpf .oge),
    StableHlo.TRef.unary (StableHlo.TRef.of (T := ⟨S_, .f32⟩) main_cst_9) (StableHlo.TRef.of (T := ⟨S_, .f32⟩) main_call2_v2) id,
    StableHlo.TRef.unary (StableHlo.TRef.of (T := ⟨S_, .f32⟩) main_call2_v2) (StableHlo.TRef.of (T := ⟨S400000x128, .f32⟩) main_call2_v3) (broadcastInDim S400000x128 ![] bcast_S_S400000x128),
    StableHlo.TRef.binary (StableHlo.TRef.of (T := ⟨S400000x128, .f32⟩) main_call2_v3) (StableHlo.TRef.of (T := ⟨S400000x128, .f32⟩) main_v50) (StableHlo.TRef.of (T := ⟨S400000x128, .f32⟩) main_call2_v4) mulf,
    StableHlo.TRef.ternary (StableHlo.TRef.of (T := ⟨S400000x128, .i1⟩) main_call2_v1) (StableHlo.TRef.of (T := ⟨S400000x128, .f32⟩) main_v50) (StableHlo.TRef.of (T := ⟨S400000x128, .f32⟩) main_call2_v4) (StableHlo.TRef.of (T := ⟨S400000x128, .f32⟩) main_v51) select,
    StableHlo.nullary main_cst_10 (constant S_ .f32 0x00000000#32),
    StableHlo.unary main_cst_10 main_v52 (broadcastInDim S100000x128 ![] bcast_S_S100000x128 : (⟨S_, .f32⟩ : BufTy).Contents (Elt F) → (⟨S100000x128, .f32⟩ : BufTy).Contents (Elt F)),
    StableHlo.unary main_arg2 main_v53 (broadcastInDim S400000x1 ![0] bcast_S400000_S400000x1_0 : (⟨S400000, .i32⟩ : BufTy).Contents (Elt F) → (⟨S400000x1, .i32⟩ : BufTy).Contents (Elt F)),
    StableHlo.ternary main_v52 main_v53 main_v51 main_v54 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_11 (constant S_ .f32 0x3F800000#32),
    StableHlo.unary main_cst_11 main_v55 (broadcastInDim S400000 ![] bcast_S_S400000 : (⟨S_, .f32⟩ : BufTy).Contents (Elt F) → (⟨S400000, .f32⟩ : BufTy).Contents (Elt F)),
    StableHlo.nullary main_cst_12 (constant S_ .f32 0x00000000#32),
    StableHlo.unary main_cst_12 main_v56 (broadcastInDim S100000 ![] bcast_S_S100000 : (⟨S_, .f32⟩ : BufTy).Contents (Elt F) → (⟨S100000, .f32⟩ : BufTy).Contents (Elt F)),
    StableHlo.unary main_arg2 main_v57 (broadcastInDim S400000x1 ![0] bcast_S400000_S400000x1_0 : (⟨S400000, .i32⟩ : BufTy).Contents (Elt F) → (⟨S400000x1, .i32⟩ : BufTy).Contents (Elt F)),
    StableHlo.ternary main_v56 main_v57 main_v55 main_v58 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_13 (constant S_ .f32 0x3F800000#32),
    StableHlo.unary main_cst_13 main_v59 (broadcastInDim S100000 ![] bcast_S_S100000 : (⟨S_, .f32⟩ : BufTy).Contents (Elt F) → (⟨S100000, .f32⟩ : BufTy).Contents (Elt F)),
    StableHlo.binary main_v58 main_v59 main_v60 (maximumf : (⟨S100000, .f32⟩ : BufTy).Contents (Elt F) → (⟨S100000, .f32⟩ : BufTy).Contents (Elt F) → (⟨S100000, .f32⟩ : BufTy).Contents (Elt F)),
    StableHlo.unary main_v60 main_v61 (broadcastInDim S100000x1 ![0] bcast_S100000_S100000x1_0 : (⟨S100000, .f32⟩ : BufTy).Contents (Elt F) → (⟨S100000x1, .f32⟩ : BufTy).Contents (Elt F)),
    StableHlo.unary main_v61 main_v62 (broadcastInDim S100000x128 ![0, 1] bcast_S100000x1_S100000x128_0_1 : (⟨S100000x1, .f32⟩ : BufTy).Contents (Elt F) → (⟨S100000x128, .f32⟩ : BufTy).Contents (Elt F)),
    StableHlo.binary main_v54 main_v62 main_v63 (Host.divf : (⟨S100000x128, .f32⟩ : BufTy).Contents (Elt F) → (⟨S100000x128, .f32⟩ : BufTy).Contents (Elt F) → (⟨S100000x128, .f32⟩ : BufTy).Contents (Elt F)),
    StableHlo.binary main_v40 main_v63 main_v64 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.unary main_arg11 main_v65 ((transpose S256x128 [1, 0] · transposes_S128x256_S256x128_1_0) : (⟨S128x256, .f32⟩ : BufTy).Contents (Elt F) → (⟨S256x128, .f32⟩ : BufTy).Contents (Elt F)),
    StableHlo.binary main_v64 main_v65 main_v66 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg12 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v68 main_v69 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S100000x128, .f32⟩) main_call3_v0) (broadcastInDim S100000x128 ![] bcast_S_S100000x128),
    StableHlo.TRef.binary (StableHlo.TRef.of (T := ⟨S100000x128, .f32⟩) main_v69) (StableHlo.TRef.of (T := ⟨S100000x128, .f32⟩) main_call3_v0) (StableHlo.TRef.of (T := ⟨S100000x128, .f32⟩) main_v70) maximumf,
    StableHlo.nullary main_c_14 (constantI S_ 32 0#32),
    StableHlo.unary main_c_14 main_v71 (broadcastInDim S400000 ![] bcast_S_S400000 : (⟨S_, .i32⟩ : BufTy).Contents (Elt F) → (⟨S400000, .i32⟩ : BufTy).Contents (Elt F)),
    StableHlo.binary main_arg1 main_v71 main_v72 (cmpi .slt : (⟨S400000, .i32⟩ : BufTy).Contents (Elt F) → (⟨S400000, .i32⟩ : BufTy).Contents (Elt F) → (⟨S400000, .i1⟩ : BufTy).Contents (Elt F)),
    StableHlo.nullary main_c_15 (constantI S_ 32 100000#32),
    StableHlo.unary main_c_15 main_v73 (broadcastInDim S400000 ![] bcast_S_S400000 : (⟨S_, .i32⟩ : BufTy).Contents (Elt F) → (⟨S400000, .i32⟩ : BufTy).Contents (Elt F)),
    StableHlo.binary main_arg1 main_v73 main_v74 (addi : (⟨S400000, .i32⟩ : BufTy).Contents (Elt F) → (⟨S400000, .i32⟩ : BufTy).Contents (Elt F) → (⟨S400000, .i32⟩ : BufTy).Contents (Elt F)),
    StableHlo.ternary main_v72 main_v74 main_arg1 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v75 main_v76 (broadcastInDim S400000x1 ![0] bcast_S400000_S400000x1_0 : (⟨S400000, .i32⟩ : BufTy).Contents (Elt F) → (⟨S400000x1, .i32⟩ : BufTy).Contents (Elt F)),
    StableHlo.binary main_v70 main_v76 main_v77 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v77 main_v10 main_v78 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)),
    StableHlo.unary main_arg13 main_v79 ((transpose S131x128 [1, 0] · transposes_S128x131_S131x128_1_0) : (⟨S128x131, .f32⟩ : BufTy).Contents (Elt F) → (⟨S131x128, .f32⟩ : BufTy).Contents (Elt F)),
    StableHlo.binary main_v78 main_v79 main_v80 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_16 (constant S_ .f32 0x3C23D70A#32),
    StableHlo.TRef.nullary (StableHlo.TRef.of (T := ⟨S_, .f32⟩) main_call4_cst) (constant S_ .f32 0x00000000#32),
    StableHlo.TRef.unary (StableHlo.TRef.of (T := ⟨S_, .f32⟩) main_call4_cst) (StableHlo.TRef.of (T := ⟨S400000x128, .f32⟩) main_call4_v0) (broadcastInDim S400000x128 ![] bcast_S_S400000x128),
    StableHlo.TRef.binary (StableHlo.TRef.of (T := ⟨S400000x128, .f32⟩) main_v80) (StableHlo.TRef.of (T := ⟨S400000x128, .f32⟩) main_call4_v0) (StableHlo.TRef.of (T := ⟨S400000x128, .i1⟩) main_call4_v1) (cmpf .oge),
    StableHlo.TRef.unary (StableHlo.TRef.of (T := ⟨S_, .f32⟩) main_cst_16) (StableHlo.TRef.of (T := ⟨S_, .f32⟩) main_call4_v2) id,
    StableHlo.TRef.unary (StableHlo.TRef.of (T := ⟨S_, .f32⟩) main_call4_v2) (StableHlo.TRef.of (T := ⟨S400000x128, .f32⟩) main_call4_v3) (broadcastInDim S400000x128 ![] bcast_S_S400000x128),
    StableHlo.TRef.binary (StableHlo.TRef.of (T := ⟨S400000x128, .f32⟩) main_call4_v3) (StableHlo.TRef.of (T := ⟨S400000x128, .f32⟩) main_v80) (StableHlo.TRef.of (T := ⟨S400000x128, .f32⟩) main_call4_v4) mulf,
    StableHlo.TRef.ternary (StableHlo.TRef.of (T := ⟨S400000x128, .i1⟩) main_call4_v1) (StableHlo.TRef.of (T := ⟨S400000x128, .f32⟩) main_v80) (StableHlo.TRef.of (T := ⟨S400000x128, .f32⟩) main_call4_v4) (StableHlo.TRef.of (T := ⟨S400000x128, .f32⟩) main_v81) select,
    StableHlo.nullary main_cst_17 (constant S_ .f32 0x00000000#32),
    StableHlo.unary main_cst_17 main_v82 (broadcastInDim S100000x128 ![] bcast_S_S100000x128 : (⟨S_, .f32⟩ : BufTy).Contents (Elt F) → (⟨S100000x128, .f32⟩ : BufTy).Contents (Elt F)),
    StableHlo.unary main_arg2 main_v83 (broadcastInDim S400000x1 ![0] bcast_S400000_S400000x1_0 : (⟨S400000, .i32⟩ : BufTy).Contents (Elt F) → (⟨S400000x1, .i32⟩ : BufTy).Contents (Elt F)),
    StableHlo.ternary main_v82 main_v83 main_v81 main_v84 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_18 (constant S_ .f32 0x3F800000#32),
    StableHlo.unary main_cst_18 main_v85 (broadcastInDim S400000 ![] bcast_S_S400000 : (⟨S_, .f32⟩ : BufTy).Contents (Elt F) → (⟨S400000, .f32⟩ : BufTy).Contents (Elt F)),
    StableHlo.nullary main_cst_19 (constant S_ .f32 0x00000000#32),
    StableHlo.unary main_cst_19 main_v86 (broadcastInDim S100000 ![] bcast_S_S100000 : (⟨S_, .f32⟩ : BufTy).Contents (Elt F) → (⟨S100000, .f32⟩ : BufTy).Contents (Elt F)),
    StableHlo.unary main_arg2 main_v87 (broadcastInDim S400000x1 ![0] bcast_S400000_S400000x1_0 : (⟨S400000, .i32⟩ : BufTy).Contents (Elt F) → (⟨S400000x1, .i32⟩ : BufTy).Contents (Elt F)),
    StableHlo.ternary main_v86 main_v87 main_v85 main_v88 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_20 (constant S_ .f32 0x3F800000#32),
    StableHlo.unary main_cst_20 main_v89 (broadcastInDim S100000 ![] bcast_S_S100000 : (⟨S_, .f32⟩ : BufTy).Contents (Elt F) → (⟨S100000, .f32⟩ : BufTy).Contents (Elt F)),
    StableHlo.binary main_v88 main_v89 main_v90 (maximumf : (⟨S100000, .f32⟩ : BufTy).Contents (Elt F) → (⟨S100000, .f32⟩ : BufTy).Contents (Elt F) → (⟨S100000, .f32⟩ : BufTy).Contents (Elt F)),
    StableHlo.unary main_v90 main_v91 (broadcastInDim S100000x1 ![0] bcast_S100000_S100000x1_0 : (⟨S100000, .f32⟩ : BufTy).Contents (Elt F) → (⟨S100000x1, .f32⟩ : BufTy).Contents (Elt F)),
    StableHlo.unary main_v91 main_v92 (broadcastInDim S100000x128 ![0, 1] bcast_S100000x1_S100000x128_0_1 : (⟨S100000x1, .f32⟩ : BufTy).Contents (Elt F) → (⟨S100000x128, .f32⟩ : BufTy).Contents (Elt F)),
    StableHlo.binary main_v84 main_v92 main_v93 (Host.divf : (⟨S100000x128, .f32⟩ : BufTy).Contents (Elt F) → (⟨S100000x128, .f32⟩ : BufTy).Contents (Elt F) → (⟨S100000x128, .f32⟩ : BufTy).Contents (Elt F)),
    StableHlo.binary main_v70 main_v93 main_v94 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.unary main_arg14 main_v95 ((transpose S256x128 [1, 0] · transposes_S128x256_S256x128_1_0) : (⟨S128x256, .f32⟩ : BufTy).Contents (Elt F) → (⟨S256x128, .f32⟩ : BufTy).Contents (Elt F)),
    StableHlo.binary main_v94 main_v95 main_v96 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- The references window main_part1 writes, in order. -/
abbrev W1 : List (Ref sig .tc) := [main_v49, main_v50, main_cst_9, main_call2_cst, main_call2_v0, main_call2_v1, main_call2_v2, main_call2_v3, main_call2_v4, main_v51, main_cst_10, main_v52, main_v53, main_v54, main_cst_11, main_v55, main_cst_12, main_v56, main_v57, main_v58, main_cst_13, main_v59, main_v60, main_v61, main_v62, main_v63, main_v64, main_v65, main_v66, main_v67, main_v68, main_v69, main_call3_cst, main_call3_v0, main_v70, main_c_14, main_v71, main_v72, main_c_15, main_v73, main_v74, main_v75, main_v76, main_v77, main_v78, main_v79, main_v80, main_cst_16, main_call4_cst, main_call4_v0, main_call4_v1, main_call4_v2, main_call4_v3, main_call4_v4, main_v81, main_cst_17, main_v82, main_v83, main_v84, main_cst_18, main_v85, main_cst_19, main_v86, main_v87, main_v88, main_cst_20, main_v89, main_v90, main_v91, main_v92, main_v93, main_v94, main_v95, main_v96]

theorem ops1_sub : (ops1 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub ..⟩

theorem ops1_writes : (ops1 : List (HloOp τ sig (Elt F))).Forall fun op => op.writes ⊆ (W1.map (Proc.devRef (τ := τ) .tc)).toFinset :=
  ⟨writes_sub_of_mem (y := main_v49) rfl (by decide), writes_sub_of_mem (y := main_v50) rfl (by decide), writes_sub_of_mem (y := main_cst_9) rfl (by decide), writes_sub_of_mem (y := main_call2_cst) rfl (by decide), writes_sub_of_mem (y := main_call2_v0) rfl (by decide), writes_sub_of_mem (y := main_call2_v1) rfl (by decide), writes_sub_of_mem (y := main_call2_v2) rfl (by decide), writes_sub_of_mem (y := main_call2_v3) rfl (by decide), writes_sub_of_mem (y := main_call2_v4) rfl (by decide), writes_sub_of_mem (y := main_v51) rfl (by decide), writes_sub_of_mem (y := main_cst_10) rfl (by decide), writes_sub_of_mem (y := main_v52) rfl (by decide), writes_sub_of_mem (y := main_v53) rfl (by decide), writes_sub_of_mem (y := main_v54) rfl (by decide), writes_sub_of_mem (y := main_cst_11) rfl (by decide), writes_sub_of_mem (y := main_v55) rfl (by decide), writes_sub_of_mem (y := main_cst_12) rfl (by decide), writes_sub_of_mem (y := main_v56) rfl (by decide), writes_sub_of_mem (y := main_v57) rfl (by decide), writes_sub_of_mem (y := main_v58) rfl (by decide), writes_sub_of_mem (y := main_cst_13) rfl (by decide), writes_sub_of_mem (y := main_v59) rfl (by decide), writes_sub_of_mem (y := main_v60) rfl (by decide), writes_sub_of_mem (y := main_v61) rfl (by decide), writes_sub_of_mem (y := main_v62) rfl (by decide), writes_sub_of_mem (y := main_v63) rfl (by decide), writes_sub_of_mem (y := main_v64) rfl (by decide), writes_sub_of_mem (y := main_v65) rfl (by decide), writes_sub_of_mem (y := main_v66) rfl (by decide), writes_sub_of_mem (y := main_v67) rfl (by decide), writes_sub_of_mem (y := main_v68) rfl (by decide), writes_sub_of_mem (y := main_v69) rfl (by decide), writes_sub_of_mem (y := main_call3_cst) rfl (by decide), writes_sub_of_mem (y := main_call3_v0) rfl (by decide), writes_sub_of_mem (y := main_v70) rfl (by decide), writes_sub_of_mem (y := main_c_14) rfl (by decide), writes_sub_of_mem (y := main_v71) rfl (by decide), writes_sub_of_mem (y := main_v72) rfl (by decide), writes_sub_of_mem (y := main_c_15) rfl (by decide), writes_sub_of_mem (y := main_v73) rfl (by decide), writes_sub_of_mem (y := main_v74) rfl (by decide), writes_sub_of_mem (y := main_v75) rfl (by decide), writes_sub_of_mem (y := main_v76) rfl (by decide), writes_sub_of_mem (y := main_v77) rfl (by decide), writes_sub_of_mem (y := main_v78) rfl (by decide), writes_sub_of_mem (y := main_v79) rfl (by decide), writes_sub_of_mem (y := main_v80) rfl (by decide), writes_sub_of_mem (y := main_cst_16) rfl (by decide), writes_sub_of_mem (y := main_call4_cst) rfl (by decide), writes_sub_of_mem (y := main_call4_v0) rfl (by decide), writes_sub_of_mem (y := main_call4_v1) rfl (by decide), writes_sub_of_mem (y := main_call4_v2) rfl (by decide), writes_sub_of_mem (y := main_call4_v3) rfl (by decide), writes_sub_of_mem (y := main_call4_v4) rfl (by decide), writes_sub_of_mem (y := main_v81) rfl (by decide), writes_sub_of_mem (y := main_cst_17) rfl (by decide), writes_sub_of_mem (y := main_v82) rfl (by decide), writes_sub_of_mem (y := main_v83) rfl (by decide), writes_sub_of_mem (y := main_v84) rfl (by decide), writes_sub_of_mem (y := main_cst_18) rfl (by decide), writes_sub_of_mem (y := main_v85) rfl (by decide), writes_sub_of_mem (y := main_cst_19) rfl (by decide), writes_sub_of_mem (y := main_v86) rfl (by decide), writes_sub_of_mem (y := main_v87) rfl (by decide), writes_sub_of_mem (y := main_v88) rfl (by decide), writes_sub_of_mem (y := main_cst_20) rfl (by decide), writes_sub_of_mem (y := main_v89) rfl (by decide), writes_sub_of_mem (y := main_v90) rfl (by decide), writes_sub_of_mem (y := main_v91) rfl (by decide), writes_sub_of_mem (y := main_v92) rfl (by decide), writes_sub_of_mem (y := main_v93) rfl (by decide), writes_sub_of_mem (y := main_v94) rfl (by decide), writes_sub_of_mem (y := main_v95) rfl (by decide), writes_sub_of_mem (y := main_v96) rfl (by decide)⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 76 operations window main_part2 runs, in order (operations 143 … 218 of @main's). -/
abbrev ops2 : List (HloOp τ sig (Elt F)) :=
  [ StableHlo.unary main_arg15 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call5_cst) (constant S_ .f32 0x00000000#32),
    StableHlo.TRef.unary (StableHlo.TRef.of (T := ⟨S_, .f32⟩) main_call5_cst) (StableHlo.TRef.of (T := ⟨S100000x128, .f32⟩) main_call5_v0) (broadcastInDim S100000x128 ![] bcast_S_S100000x128),
    StableHlo.TRef.binary (StableHlo.TRef.of (T := ⟨S100000x128, .f32⟩) main_v99) (StableHlo.TRef.of (T := ⟨S100000x128, .f32⟩) main_call5_v0) (StableHlo.TRef.of (T := ⟨S100000x128, .f32⟩) main_v100) maximumf,
    StableHlo.nullary main_c_21 (constantI S_ 32 0#32),
    StableHlo.unary main_c_21 main_v101 (broadcastInDim S400000 ![] bcast_S_S400000 : (⟨S_, .i32⟩ : BufTy).Contents (Elt F) → (⟨S400000, .i32⟩ : BufTy).Contents (Elt F)),
    StableHlo.binary main_arg1 main_v101 main_v102 (cmpi .slt : (⟨S400000, .i32⟩ : BufTy).Contents (Elt F) → (⟨S400000, .i32⟩ : BufTy).Contents (Elt F) → (⟨S400000, .i1⟩ : BufTy).Contents (Elt F)),
    StableHlo.nullary main_c_22 (constantI S_ 32 100000#32),
    StableHlo.unary main_c_22 main_v103 (broadcastInDim S400000 ![] bcast_S_S400000 : (⟨S_, .i32⟩ : BufTy).Contents (Elt F) → (⟨S400000, .i32⟩ : BufTy).Contents (Elt F)),
    StableHlo.binary main_arg1 main_v103 main_v104 (addi : (⟨S400000, .i32⟩ : BufTy).Contents (Elt F) → (⟨S400000, .i32⟩ : BufTy).Contents (Elt F) → (⟨S400000, .i32⟩ : BufTy).Contents (Elt F)),
    StableHlo.ternary main_v102 main_v104 main_arg1 main_v105 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v105 main_v106 (broadcastInDim S400000x1 ![0] bcast_S400000_S400000x1_0 : (⟨S400000, .i32⟩ : BufTy).Contents (Elt F) → (⟨S400000x1, .i32⟩ : BufTy).Contents (Elt F)),
    StableHlo.binary main_v100 main_v106 main_v107 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v107 main_v10 main_v108 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)),
    StableHlo.unary main_arg16 main_v109 ((transpose S131x128 [1, 0] · transposes_S128x131_S131x128_1_0) : (⟨S128x131, .f32⟩ : BufTy).Contents (Elt F) → (⟨S131x128, .f32⟩ : BufTy).Contents (Elt F)),
    StableHlo.binary main_v108 main_v109 main_v110 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_23 (constant S_ .f32 0x3C23D70A#32),
    StableHlo.TRef.nullary (StableHlo.TRef.of (T := ⟨S_, .f32⟩) main_call6_cst) (constant S_ .f32 0x00000000#32),
    StableHlo.TRef.unary (StableHlo.TRef.of (T := ⟨S_, .f32⟩) main_call6_cst) (StableHlo.TRef.of (T := ⟨S400000x128, .f32⟩) main_call6_v0) (broadcastInDim S400000x128 ![] bcast_S_S400000x128),
    StableHlo.TRef.binary (StableHlo.TRef.of (T := ⟨S400000x128, .f32⟩) main_v110) (StableHlo.TRef.of (T := ⟨S400000x128, .f32⟩) main_call6_v0) (StableHlo.TRef.of (T := ⟨S400000x128, .i1⟩) main_call6_v1) (cmpf .oge),
    StableHlo.TRef.unary (StableHlo.TRef.of (T := ⟨S_, .f32⟩) main_cst_23) (StableHlo.TRef.of (T := ⟨S_, .f32⟩) main_call6_v2) id,
    StableHlo.TRef.unary (StableHlo.TRef.of (T := ⟨S_, .f32⟩) main_call6_v2) (StableHlo.TRef.of (T := ⟨S400000x128, .f32⟩) main_call6_v3) (broadcastInDim S400000x128 ![] bcast_S_S400000x128),
    StableHlo.TRef.binary (StableHlo.TRef.of (T := ⟨S400000x128, .f32⟩) main_call6_v3) (StableHlo.TRef.of (T := ⟨S400000x128, .f32⟩) main_v110) (StableHlo.TRef.of (T := ⟨S400000x128, .f32⟩) main_call6_v4) mulf,
    StableHlo.TRef.ternary (StableHlo.TRef.of (T := ⟨S400000x128, .i1⟩) main_call6_v1) (StableHlo.TRef.of (T := ⟨S400000x128, .f32⟩) main_v110) (StableHlo.TRef.of (T := ⟨S400000x128, .f32⟩) main_call6_v4) (StableHlo.TRef.of (T := ⟨S400000x128, .f32⟩) main_v111) select,
    StableHlo.nullary main_cst_24 (constant S_ .f32 0x00000000#32),
    StableHlo.unary main_cst_24 main_v112 (broadcastInDim S100000x128 ![] bcast_S_S100000x128 : (⟨S_, .f32⟩ : BufTy).Contents (Elt F) → (⟨S100000x128, .f32⟩ : BufTy).Contents (Elt F)),
    StableHlo.unary main_arg2 main_v113 (broadcastInDim S400000x1 ![0] bcast_S400000_S400000x1_0 : (⟨S400000, .i32⟩ : BufTy).Contents (Elt F) → (⟨S400000x1, .i32⟩ : BufTy).Contents (Elt F)),
    StableHlo.ternary main_v112 main_v113 main_v111 main_v114 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_25 (constant S_ .f32 0x3F800000#32),
    StableHlo.unary main_cst_25 main_v115 (broadcastInDim S400000 ![] bcast_S_S400000 : (⟨S_, .f32⟩ : BufTy).Contents (Elt F) → (⟨S400000, .f32⟩ : BufTy).Contents (Elt F)),
    StableHlo.nullary main_cst_26 (constant S_ .f32 0x00000000#32),
    StableHlo.unary main_cst_26 main_v116 (broadcastInDim S100000 ![] bcast_S_S100000 : (⟨S_, .f32⟩ : BufTy).Contents (Elt F) → (⟨S100000, .f32⟩ : BufTy).Contents (Elt F)),
    StableHlo.unary main_arg2 main_v117 (broadcastInDim S400000x1 ![0] bcast_S400000_S400000x1_0 : (⟨S400000, .i32⟩ : BufTy).Contents (Elt F) → (⟨S400000x1, .i32⟩ : BufTy).Contents (Elt F)),
    StableHlo.ternary main_v116 main_v117 main_v115 main_v118 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_27 (constant S_ .f32 0x3F800000#32),
    StableHlo.unary main_cst_27 main_v119 (broadcastInDim S100000 ![] bcast_S_S100000 : (⟨S_, .f32⟩ : BufTy).Contents (Elt F) → (⟨S100000, .f32⟩ : BufTy).Contents (Elt F)),
    StableHlo.binary main_v118 main_v119 main_v120 (maximumf : (⟨S100000, .f32⟩ : BufTy).Contents (Elt F) → (⟨S100000, .f32⟩ : BufTy).Contents (Elt F) → (⟨S100000, .f32⟩ : BufTy).Contents (Elt F)),
    StableHlo.unary main_v120 main_v121 (broadcastInDim S100000x1 ![0] bcast_S100000_S100000x1_0 : (⟨S100000, .f32⟩ : BufTy).Contents (Elt F) → (⟨S100000x1, .f32⟩ : BufTy).Contents (Elt F)),
    StableHlo.unary main_v121 main_v122 (broadcastInDim S100000x128 ![0, 1] bcast_S100000x1_S100000x128_0_1 : (⟨S100000x1, .f32⟩ : BufTy).Contents (Elt F) → (⟨S100000x128, .f32⟩ : BufTy).Contents (Elt F)),
    StableHlo.binary main_v114 main_v122 main_v123 (Host.divf : (⟨S100000x128, .f32⟩ : BufTy).Contents (Elt F) → (⟨S100000x128, .f32⟩ : BufTy).Contents (Elt F) → (⟨S100000x128, .f32⟩ : BufTy).Contents (Elt F)),
    StableHlo.binary main_v100 main_v123 main_v124 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.unary main_arg17 main_v125 ((transpose S256x128 [1, 0] · transposes_S128x256_S256x128_1_0) : (⟨S128x256, .f32⟩ : BufTy).Contents (Elt F) → (⟨S256x128, .f32⟩ : BufTy).Contents (Elt F)),
    StableHlo.binary main_v124 main_v125 main_v126 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg18 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v128 main_v129 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call7_cst) (constant S_ .f32 0x00000000#32),
    StableHlo.TRef.unary (StableHlo.TRef.of (T := ⟨S_, .f32⟩) main_call7_cst) (StableHlo.TRef.of (T := ⟨S100000x128, .f32⟩) main_call7_v0) (broadcastInDim S100000x128 ![] bcast_S_S100000x128),
    StableHlo.TRef.binary (StableHlo.TRef.of (T := ⟨S100000x128, .f32⟩) main_v129) (StableHlo.TRef.of (T := ⟨S100000x128, .f32⟩) main_call7_v0) (StableHlo.TRef.of (T := ⟨S100000x128, .f32⟩) main_v130) maximumf,
    StableHlo.nullary main_c_28 (constantI S_ 32 0#32),
    StableHlo.unary main_c_28 main_v131 (broadcastInDim S400000 ![] bcast_S_S400000 : (⟨S_, .i32⟩ : BufTy).Contents (Elt F) → (⟨S400000, .i32⟩ : BufTy).Contents (Elt F)),
    StableHlo.binary main_arg1 main_v131 main_v132 (cmpi .slt : (⟨S400000, .i32⟩ : BufTy).Contents (Elt F) → (⟨S400000, .i32⟩ : BufTy).Contents (Elt F) → (⟨S400000, .i1⟩ : BufTy).Contents (Elt F)),
    StableHlo.nullary main_c_29 (constantI S_ 32 100000#32),
    StableHlo.unary main_c_29 main_v133 (broadcastInDim S400000 ![] bcast_S_S400000 : (⟨S_, .i32⟩ : BufTy).Contents (Elt F) → (⟨S400000, .i32⟩ : BufTy).Contents (Elt F)),
    StableHlo.binary main_arg1 main_v133 main_v134 (addi : (⟨S400000, .i32⟩ : BufTy).Contents (Elt F) → (⟨S400000, .i32⟩ : BufTy).Contents (Elt F) → (⟨S400000, .i32⟩ : BufTy).Contents (Elt F)),
    StableHlo.ternary main_v132 main_v134 main_arg1 main_v135 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v135 main_v136 (broadcastInDim S400000x1 ![0] bcast_S400000_S400000x1_0 : (⟨S400000, .i32⟩ : BufTy).Contents (Elt F) → (⟨S400000x1, .i32⟩ : BufTy).Contents (Elt F)),
    StableHlo.binary main_v130 main_v136 main_v137 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v137 main_v10 main_v138 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)),
    StableHlo.unary main_arg19 main_v139 ((transpose S131x128 [1, 0] · transposes_S128x131_S131x128_1_0) : (⟨S128x131, .f32⟩ : BufTy).Contents (Elt F) → (⟨S131x128, .f32⟩ : BufTy).Contents (Elt F)),
    StableHlo.binary main_v138 main_v139 main_v140 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_30 (constant S_ .f32 0x3C23D70A#32),
    StableHlo.TRef.nullary (StableHlo.TRef.of (T := ⟨S_, .f32⟩) main_call8_cst) (constant S_ .f32 0x00000000#32),
    StableHlo.TRef.unary (StableHlo.TRef.of (T := ⟨S_, .f32⟩) main_call8_cst) (StableHlo.TRef.of (T := ⟨S400000x128, .f32⟩) main_call8_v0) (broadcastInDim S400000x128 ![] bcast_S_S400000x128),
    StableHlo.TRef.binary (StableHlo.TRef.of (T := ⟨S400000x128, .f32⟩) main_v140) (StableHlo.TRef.of (T := ⟨S400000x128, .f32⟩) main_call8_v0) (StableHlo.TRef.of (T := ⟨S400000x128, .i1⟩) main_call8_v1) (cmpf .oge),
    StableHlo.TRef.unary (StableHlo.TRef.of (T := ⟨S_, .f32⟩) main_cst_30) (StableHlo.TRef.of (T := ⟨S_, .f32⟩) main_call8_v2) id,
    StableHlo.TRef.unary (StableHlo.TRef.of (T := ⟨S_, .f32⟩) main_call8_v2) (StableHlo.TRef.of (T := ⟨S400000x128, .f32⟩) main_call8_v3) (broadcastInDim S400000x128 ![] bcast_S_S400000x128),
    StableHlo.TRef.binary (StableHlo.TRef.of (T := ⟨S400000x128, .f32⟩) main_call8_v3) (StableHlo.TRef.of (T := ⟨S400000x128, .f32⟩) main_v140) (StableHlo.TRef.of (T := ⟨S400000x128, .f32⟩) main_call8_v4) mulf,
    StableHlo.TRef.ternary (StableHlo.TRef.of (T := ⟨S400000x128, .i1⟩) main_call8_v1) (StableHlo.TRef.of (T := ⟨S400000x128, .f32⟩) main_v140) (StableHlo.TRef.of (T := ⟨S400000x128, .f32⟩) main_call8_v4) (StableHlo.TRef.of (T := ⟨S400000x128, .f32⟩) main_v141) select,
    StableHlo.nullary main_cst_31 (constant S_ .f32 0x00000000#32),
    StableHlo.unary main_cst_31 main_v142 (broadcastInDim S100000x128 ![] bcast_S_S100000x128 : (⟨S_, .f32⟩ : BufTy).Contents (Elt F) → (⟨S100000x128, .f32⟩ : BufTy).Contents (Elt F)),
    StableHlo.unary main_arg2 main_v143 (broadcastInDim S400000x1 ![0] bcast_S400000_S400000x1_0 : (⟨S400000, .i32⟩ : BufTy).Contents (Elt F) → (⟨S400000x1, .i32⟩ : BufTy).Contents (Elt F)),
    StableHlo.ternary main_v142 main_v143 main_v141 main_v144 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_32 (constant S_ .f32 0x3F800000#32) ]

/-- The references window main_part2 writes, in order. -/
abbrev W2 : List (Ref sig .tc) := [main_v97, main_v98, main_v99, main_call5_cst, main_call5_v0, main_v100, main_c_21, main_v101, main_v102, main_c_22, main_v103, main_v104, main_v105, main_v106, main_v107, main_v108, main_v109, main_v110, main_cst_23, main_call6_cst, main_call6_v0, main_call6_v1, main_call6_v2, main_call6_v3, main_call6_v4, main_v111, main_cst_24, main_v112, main_v113, main_v114, main_cst_25, main_v115, main_cst_26, main_v116, main_v117, main_v118, main_cst_27, main_v119, main_v120, main_v121, main_v122, main_v123, main_v124, main_v125, main_v126, main_v127, main_v128, main_v129, main_call7_cst, main_call7_v0, main_v130, main_c_28, main_v131, main_v132, main_c_29, main_v133, main_v134, main_v135, main_v136, main_v137, main_v138, main_v139, main_v140, main_cst_30, main_call8_cst, main_call8_v0, main_call8_v1, main_call8_v2, main_call8_v3, main_call8_v4, main_v141, main_cst_31, main_v142, main_v143, main_v144, main_cst_32]

theorem ops2_sub : (ops2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub ..⟩

theorem ops2_writes : (ops2 : List (HloOp τ sig (Elt F))).Forall fun op => op.writes ⊆ (W2.map (Proc.devRef (τ := τ) .tc)).toFinset :=
  ⟨writes_sub_of_mem (y := main_v97) rfl (by decide), writes_sub_of_mem (y := main_v98) rfl (by decide), writes_sub_of_mem (y := main_v99) rfl (by decide), writes_sub_of_mem (y := main_call5_cst) rfl (by decide), writes_sub_of_mem (y := main_call5_v0) rfl (by decide), writes_sub_of_mem (y := main_v100) rfl (by decide), writes_sub_of_mem (y := main_c_21) rfl (by decide), writes_sub_of_mem (y := main_v101) rfl (by decide), writes_sub_of_mem (y := main_v102) rfl (by decide), writes_sub_of_mem (y := main_c_22) rfl (by decide), writes_sub_of_mem (y := main_v103) rfl (by decide), writes_sub_of_mem (y := main_v104) rfl (by decide), writes_sub_of_mem (y := main_v105) rfl (by decide), writes_sub_of_mem (y := main_v106) rfl (by decide), writes_sub_of_mem (y := main_v107) rfl (by decide), writes_sub_of_mem (y := main_v108) rfl (by decide), writes_sub_of_mem (y := main_v109) rfl (by decide), writes_sub_of_mem (y := main_v110) rfl (by decide), writes_sub_of_mem (y := main_cst_23) rfl (by decide), writes_sub_of_mem (y := main_call6_cst) rfl (by decide), writes_sub_of_mem (y := main_call6_v0) rfl (by decide), writes_sub_of_mem (y := main_call6_v1) rfl (by decide), writes_sub_of_mem (y := main_call6_v2) rfl (by decide), writes_sub_of_mem (y := main_call6_v3) rfl (by decide), writes_sub_of_mem (y := main_call6_v4) rfl (by decide), writes_sub_of_mem (y := main_v111) rfl (by decide), writes_sub_of_mem (y := main_cst_24) rfl (by decide), writes_sub_of_mem (y := main_v112) rfl (by decide), writes_sub_of_mem (y := main_v113) rfl (by decide), writes_sub_of_mem (y := main_v114) rfl (by decide), writes_sub_of_mem (y := main_cst_25) rfl (by decide), writes_sub_of_mem (y := main_v115) rfl (by decide), writes_sub_of_mem (y := main_cst_26) rfl (by decide), writes_sub_of_mem (y := main_v116) rfl (by decide), writes_sub_of_mem (y := main_v117) rfl (by decide), writes_sub_of_mem (y := main_v118) rfl (by decide), writes_sub_of_mem (y := main_cst_27) rfl (by decide), writes_sub_of_mem (y := main_v119) rfl (by decide), writes_sub_of_mem (y := main_v120) rfl (by decide), writes_sub_of_mem (y := main_v121) rfl (by decide), writes_sub_of_mem (y := main_v122) rfl (by decide), writes_sub_of_mem (y := main_v123) rfl (by decide), writes_sub_of_mem (y := main_v124) rfl (by decide), writes_sub_of_mem (y := main_v125) rfl (by decide), writes_sub_of_mem (y := main_v126) rfl (by decide), writes_sub_of_mem (y := main_v127) rfl (by decide), writes_sub_of_mem (y := main_v128) rfl (by decide), writes_sub_of_mem (y := main_v129) rfl (by decide), writes_sub_of_mem (y := main_call7_cst) rfl (by decide), writes_sub_of_mem (y := main_call7_v0) rfl (by decide), writes_sub_of_mem (y := main_v130) rfl (by decide), writes_sub_of_mem (y := main_c_28) rfl (by decide), writes_sub_of_mem (y := main_v131) rfl (by decide), writes_sub_of_mem (y := main_v132) rfl (by decide), writes_sub_of_mem (y := main_c_29) rfl (by decide), writes_sub_of_mem (y := main_v133) rfl (by decide), writes_sub_of_mem (y := main_v134) rfl (by decide), writes_sub_of_mem (y := main_v135) rfl (by decide), writes_sub_of_mem (y := main_v136) rfl (by decide), writes_sub_of_mem (y := main_v137) rfl (by decide), writes_sub_of_mem (y := main_v138) rfl (by decide), writes_sub_of_mem (y := main_v139) rfl (by decide), writes_sub_of_mem (y := main_v140) rfl (by decide), writes_sub_of_mem (y := main_cst_30) rfl (by decide), writes_sub_of_mem (y := main_call8_cst) rfl (by decide), writes_sub_of_mem (y := main_call8_v0) rfl (by decide), writes_sub_of_mem (y := main_call8_v1) rfl (by decide), writes_sub_of_mem (y := main_call8_v2) rfl (by decide), writes_sub_of_mem (y := main_call8_v3) rfl (by decide), writes_sub_of_mem (y := main_call8_v4) rfl (by decide), writes_sub_of_mem (y := main_v141) rfl (by decide), writes_sub_of_mem (y := main_cst_31) rfl (by decide), writes_sub_of_mem (y := main_v142) rfl (by decide), writes_sub_of_mem (y := main_v143) rfl (by decide), writes_sub_of_mem (y := main_v144) rfl (by decide), writes_sub_of_mem (y := main_cst_32) rfl (by decide)⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 17 operations window main_part3 runs, in order (operations 219 … 235 of @main's). -/
abbrev ops3 : List (HloOp τ sig (Elt F)) :=
  [ StableHlo.unary main_cst_32 main_v145 (broadcastInDim S400000 ![] bcast_S_S400000 : (⟨S_, .f32⟩ : BufTy).Contents (Elt F) → (⟨S400000, .f32⟩ : BufTy).Contents (Elt F)),
    StableHlo.nullary main_cst_33 (constant S_ .f32 0x00000000#32),
    StableHlo.unary main_cst_33 main_v146 (broadcastInDim S100000 ![] bcast_S_S100000 : (⟨S_, .f32⟩ : BufTy).Contents (Elt F) → (⟨S100000, .f32⟩ : BufTy).Contents (Elt F)),
    StableHlo.unary main_arg2 main_v147 (broadcastInDim S400000x1 ![0] bcast_S400000_S400000x1_0 : (⟨S400000, .i32⟩ : BufTy).Contents (Elt F) → (⟨S400000x1, .i32⟩ : BufTy).Contents (Elt F)),
    StableHlo.ternary main_v146 main_v147 main_v145 main_v148 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_34 (constant S_ .f32 0x3F800000#32),
    StableHlo.unary main_cst_34 main_v149 (broadcastInDim S100000 ![] bcast_S_S100000 : (⟨S_, .f32⟩ : BufTy).Contents (Elt F) → (⟨S100000, .f32⟩ : BufTy).Contents (Elt F)),
    StableHlo.binary main_v148 main_v149 main_v150 (maximumf : (⟨S100000, .f32⟩ : BufTy).Contents (Elt F) → (⟨S100000, .f32⟩ : BufTy).Contents (Elt F) → (⟨S100000, .f32⟩ : BufTy).Contents (Elt F)),
    StableHlo.unary main_v150 main_v151 (broadcastInDim S100000x1 ![0] bcast_S100000_S100000x1_0 : (⟨S100000, .f32⟩ : BufTy).Contents (Elt F) → (⟨S100000x1, .f32⟩ : BufTy).Contents (Elt F)),
    StableHlo.unary main_v151 main_v152 (broadcastInDim S100000x128 ![0, 1] bcast_S100000x1_S100000x128_0_1 : (⟨S100000x1, .f32⟩ : BufTy).Contents (Elt F) → (⟨S100000x128, .f32⟩ : BufTy).Contents (Elt F)),
    StableHlo.binary main_v144 main_v152 main_v153 (Host.divf : (⟨S100000x128, .f32⟩ : BufTy).Contents (Elt F) → (⟨S100000x128, .f32⟩ : BufTy).Contents (Elt F) → (⟨S100000x128, .f32⟩ : BufTy).Contents (Elt F)),
    StableHlo.binary main_v130 main_v153 main_v154 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.unary main_arg20 main_v155 ((transpose S256x64 [1, 0] · transposes_S64x256_S256x64_1_0) : (⟨S64x256, .f32⟩ : BufTy).Contents (Elt F) → (⟨S256x64, .f32⟩ : BufTy).Contents (Elt F)),
    StableHlo.binary main_v154 main_v155 main_v156 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg21 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S100000x64 ![0, 1] bcast_S1x64_S100000x64_0_1 : (⟨S1x64, .f32⟩ : BufTy).Contents (Elt F) → (⟨S100000x64, .f32⟩ : BufTy).Contents (Elt F)),
    StableHlo.binary main_v156 main_v158 main_v159 (addf : (⟨S100000x64, .f32⟩ : BufTy).Contents (Elt F) → (⟨S100000x64, .f32⟩ : BufTy).Contents (Elt F) → (⟨S100000x64, .f32⟩ : BufTy).Contents (Elt F)) ]

/-- The references window main_part3 writes, in order. -/
abbrev W3 : List (Ref sig .tc) := [main_v145, main_cst_33, main_v146, main_v147, main_v148, main_cst_34, main_v149, main_v150, main_v151, main_v152, main_v153, main_v154, main_v155, main_v156, main_v157, main_v158, main_v159]

theorem ops3_sub : (ops3 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub ..⟩

theorem ops3_writes : (ops3 : List (HloOp τ sig (Elt F))).Forall fun op => op.writes ⊆ (W3.map (Proc.devRef (τ := τ) .tc)).toFinset :=
  ⟨writes_sub_of_mem (y := main_v145) rfl (by decide), writes_sub_of_mem (y := main_cst_33) rfl (by decide), writes_sub_of_mem (y := main_v146) rfl (by decide), writes_sub_of_mem (y := main_v147) rfl (by decide), writes_sub_of_mem (y := main_v148) rfl (by decide), writes_sub_of_mem (y := main_cst_34) rfl (by decide), writes_sub_of_mem (y := main_v149) rfl (by decide), writes_sub_of_mem (y := main_v150) rfl (by decide), writes_sub_of_mem (y := main_v151) rfl (by decide), writes_sub_of_mem (y := main_v152) rfl (by decide), writes_sub_of_mem (y := main_v153) rfl (by decide), writes_sub_of_mem (y := main_v154) rfl (by decide), writes_sub_of_mem (y := main_v155) rfl (by decide), writes_sub_of_mem (y := main_v156) rfl (by decide), writes_sub_of_mem (y := main_v157) rfl (by decide), writes_sub_of_mem (y := main_v158) rfl (by decide), writes_sub_of_mem (y := main_v159) rfl (by decide)⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl⟩

end Cert.ReferenceIdeal.Hand

end
-- ==== Proof.RefRun.lean ====
/- The reference program's run. @main is one straight line of host operations: its four windows in order, a called
   function's operations standing in its call's place (listed window by window: ops0 … ops3). Every weakly
   fair execution from a memory with zero counters terminates; each buffer then holds the fold of the operations'
   results over the launch contents, and a buffer no operation writes holds what it held. -/
import proofs.«101052_j75445395522274_1_alg».proof.Proof.RefOps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 235 host operations, in order: the four windows' lists in a row (68, 74, 76 and 17 operations). -/
abbrev ops : List (HloOp τ sig (Elt F)) := ops0 ++ (ops1 ++ (ops2 ++ ops3))

/-! ## @main is the line

Each window is the line of its own list: the window's statements and the list's operations are the same
operations in the same order, a call being its function's body, whose statements are the next operations of the
list; sequencing re-associates by computation (a bind whose left side begins with an operation is that operation
followed by the bind of the rest). -/

theorem main_part0_eq (c : Dev nD) : main_part0 (F := F) c = seq ops0 := by chain_rfl
theorem main_part1_eq (c : Dev nD) : main_part1 (F := F) c = seq ops1 := by chain_rfl
theorem main_part2_eq (c : Dev nD) : main_part2 (F := F) c = seq ops2 := by chain_rfl
theorem main_part3_eq (c : Dev nD) : main_part3 (F := F) c = seq ops3 := by chain_rfl

/-- @main runs its windows in order, and lines run in a row are the line of the lists in a row. -/
theorem main_eq (c : Dev nD) : main (F := F) c = seq ops := by
  show (main_part0 (F := F) c >>= fun _ => main_part1 (F := F) c >>= fun _ => main_part2 (F := F) c >>= fun _ => main_part3 (F := F) c)
    = seq (ops0 ++ (ops1 ++ (ops2 ++ ops3)))
  rw [main_part0_eq, main_part1_eq, main_part2_eq, main_part3_eq]
  exact ((seq_append ops0 _).trans (congrArg (fun q => seq ops0 >>= fun _ => q)
    ((seq_append ops1 _).trans (congrArg (fun q => seq ops1 >>= fun _ => q) (seq_append ops2 ops3))))).symm

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- A property every operation of each window's list has, every operation of the whole line has. -/
theorem forall_ops {P : HloOp τ sig (Elt F) → Prop} (h0 : (ops0 : List (HloOp τ sig (Elt F))).Forall P)
    (h1 : (ops1 : List (HloOp τ sig (Elt F))).Forall P) (h2 : (ops2 : List (HloOp τ sig (Elt F))).Forall P)
    (h3 : (ops3 : List (HloOp τ sig (Elt F))).Forall P) : ∀ op ∈ (ops : List (HloOp τ sig (Elt F))), P op := by
  intro op h
  rcases List.mem_append.mp h with h | h
  · exact List.forall_iff_forall_mem.mp h0 op h
  rcases List.mem_append.mp h with h | h
  · exact List.forall_iff_forall_mem.mp h1 op h
  rcases List.mem_append.mp h with h | h
  · exact List.forall_iff_forall_mem.mp h2 op h
  · exact List.forall_iff_forall_mem.mp h3 op h

theorem ops_sub : (ops : List (HloOp τ sig (Elt F))).Forall fun op => op.bufs ⊆ tcRefs τ sig :=
  List.forall_iff_forall_mem.mpr (forall_ops ops0_sub ops1_sub ops2_sub ops3_sub)

theorem ops_fresh : ∀ op ∈ (ops : List (HloOp τ sig (Elt F))), op.fresh = ∅ :=
  forall_ops ops0_fresh ops1_fresh ops2_fresh ops3_fresh

/-- The fold over two lists in a row is the second's over the first's. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- A reference none of the four windows writes holds after the line what it held before it. -/
theorem after_ops_keep (V : Valuation τ sig (Elt F)) (r : Ref sig .tc) (h0 : r ∉ W0) (h1 : r ∉ W1) (h2 : r ∉ W2)
    (h3 : r ∉ W3) : after ops V (Proc.devRef .tc r) = V (Proc.devRef .tc r) := by
  show after (ops0 ++ (ops1 ++ (ops2 ++ ops3))) V _ = _
  rw [after_two, after_two, after_two, after_of_writes_sub ops3 _ ops3_writes h3,
    after_of_writes_sub ops2 _ ops2_writes h2, after_of_writes_sub ops1 _ ops1_writes h1,
    after_of_writes_sub ops0 _ ops0_writes h0]

/-- The whole line's fold is the windows' folds one after the other. -/
theorem after_ops (V : Valuation τ sig (Elt F)) :
    after ops V = after ops3 (after ops2 (after ops1 (after ops0 V))) := by
  show after (ops0 ++ (ops1 ++ (ops2 ++ ops3))) V = _
  rw [after_two, after_two, after_two]

/-! ## The run -/

/-- On every device, for any float values, from any memory with zero counters: every weakly fair execution of @main
    terminates, the result buffer at the fold of the line over the launch contents, every argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v159) = StableHlo.after ops (fun b => m (c, b)) (Proc.devRef .tc main_v159)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  have keep : ∀ (c : Dev nD) (r : Ref sig .tc), r ∉ W0 → r ∉ W1 → r ∉ W2 → r ∉ W3 →
      after ops (launchContents m c) (Proc.devRef .tc r) = m ((c.tc : Thread nD τ).loc r) :=
    fun c r h0 h1 h2 h3 => after_ops_keep (launchContents m c) r h0 h1 h2 h3
  (θ_run (defs (F := F)) _ _).mono (fun _ h c => ⟨h c main_v159,
      (h c main_arg0).trans (keep c main_arg0 (by decide) (by decide) (by decide) (by decide)),
      (h c main_arg1).trans (keep c main_arg1 (by decide) (by decide) (by decide) (by decide)),
      (h c main_arg2).trans (keep c main_arg2 (by decide) (by decide) (by decide) (by decide)),
      (h c main_arg3).trans (keep c main_arg3 (by decide) (by decide) (by decide) (by decide)),
      (h c main_arg4).trans (keep c main_arg4 (by decide) (by decide) (by decide) (by decide)),
      (h c main_arg5).trans (keep c main_arg5 (by decide) (by decide) (by decide) (by decide)),
      (h c main_arg6).trans (keep c main_arg6 (by decide) (by decide) (by decide) (by decide)),
      (h c main_arg7).trans (keep c main_arg7 (by decide) (by decide) (by decide) (by decide)),
      (h c main_arg8).trans (keep c main_arg8 (by decide) (by decide) (by decide) (by decide)),
      (h c main_arg9).trans (keep c main_arg9 (by decide) (by decide) (by decide) (by decide)),
      (h c main_arg10).trans (keep c main_arg10 (by decide) (by decide) (by decide) (by decide)),
      (h c main_arg11).trans (keep c main_arg11 (by decide) (by decide) (by decide) (by decide)),
      (h c main_arg12).trans (keep c main_arg12 (by decide) (by decide) (by decide) (by decide)),
      (h c main_arg13).trans (keep c main_arg13 (by decide) (by decide) (by decide) (by decide)),
      (h c main_arg14).trans (keep c main_arg14 (by decide) (by decide) (by decide) (by decide)),
      (h c main_arg15).trans (keep c main_arg15 (by decide) (by decide) (by decide) (by decide)),
      (h c main_arg16).trans (keep c main_arg16 (by decide) (by decide) (by decide) (by decide)),
      (h c main_arg17).trans (keep c main_arg17 (by decide) (by decide) (by decide) (by decide)),
      (h c main_arg18).trans (keep c main_arg18 (by decide) (by decide) (by decide) (by decide)),
      (h c main_arg19).trans (keep c main_arg19 (by decide) (by decide) (by decide) (by decide)),
      (h c main_arg20).trans (keep c main_arg20 (by decide) (by decide) (by decide) (by decide)),
      (h c main_arg21).trans (keep c main_arg21 (by decide) (by decide) (by decide) (by decide))⟩)
    (run_seq scopedRefs_eq scopedSems_eq (defs (F := F)) (main (F := F)) (fun _ => ops) main_eq (fun _ => ops_sub) m ρ
      (fun _ => ops_fresh))

end Cert.ReferenceIdeal.Hand

end
-- ==== Proof.LibFoldSteps.lean ====
/-
  Two general steps for reading the fold of a line of host operations over the buffers' contents.
  `after_append`: the fold of a line cut in two is the second part's fold over the first part's fold.
  `results_by_rw`: reads a fold one operation at a time — each operation's result at its own buffer is its function of
  the operands' contents, and at any other buffer what was there before — also at places inside a list of operands (the
  pieces of a concatenation), where contents appear as members of a list of shaped arrays.
-/
import Idealize.ShloMosaic.Lib.StableHlo.Run

noncomputable section

namespace Cert.Lib

open Idealize.ShloMosaic Idealize.ShloMosaic.StableHlo

/-- Folding a line cut in two is folding the second part over the first part's fold. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The fold's steps, one rewrite at a time: each operation's result at its own buffer is its function of the operands'
    contents, at any other buffer what was there. -/
macro "results_by_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.Lib

end
-- ==== Proof.KI.Host0.lean ====
/-
  The host operations in front of layer 0, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- The node features at the start: row `n` is the embedding table's row for node `n`'s gate type. -/
def embed (a0 : (⟨S100000, .i32⟩ : BufTy).Contents (Elt F)) (a6 : (⟨S64x64, .f32⟩ : BufTy).Contents (Elt F)) : (⟨S100000x64, .f32⟩ : BufTy).Contents (Elt F) :=
  let c : (⟨S_, .i32⟩ : BufTy).Contents (Elt F) := (constantI S_ 32 0#32)
  let v0 : (⟨S100000, .i32⟩ : BufTy).Contents (Elt F) := (broadcastInDim S100000 ![] bcast_S_S100000 : (⟨S_, .i32⟩ : BufTy).Contents (Elt F) → (⟨S100000, .i32⟩ : BufTy).Contents (Elt F)) c
  let v1 : (⟨S100000, .i1⟩ : BufTy).Contents (Elt F) := (cmpi .slt : (⟨S100000, .i32⟩ : BufTy).Contents (Elt F) → (⟨S100000, .i32⟩ : BufTy).Contents (Elt F) → (⟨S100000, .i1⟩ : BufTy).Contents (Elt F)) a0 v0
  let c_0 : (⟨S_, .i32⟩ : BufTy).Contents (Elt F) := (constantI S_ 32 64#32)
  let v2 : (⟨S100000, .i32⟩ : BufTy).Contents (Elt F) := (broadcastInDim S100000 ![] bcast_S_S100000 : (⟨S_, .i32⟩ : BufTy).Contents (Elt F) → (⟨S100000, .i32⟩ : BufTy).Contents (Elt F)) c_0
  let v3 : (⟨S100000, .i32⟩ : BufTy).Contents (Elt F) := (addi : (⟨S100000, .i32⟩ : BufTy).Contents (Elt F) → (⟨S100000, .i32⟩ : BufTy).Contents (Elt F) → (⟨S100000, .i32⟩ : BufTy).Contents (Elt F)) a0 v2
  let v4 : (⟨S100000, .i32⟩ : BufTy).Contents (Elt F) := (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) v1 v3 a0
  let v5 : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) v4
  let v6 : (⟨S100000x64, .f32⟩ : BufTy).Contents (Elt F) := ((fun x i => Host.gather gather_S64x64_S100000x1_S100000x64_1_0_n_n_0_1_164 x i) : (⟨S64x64, .f32⟩ : BufTy).Contents (Elt F) → (⟨S100000x1, .i32⟩ : BufTy).Contents (Elt F) → (⟨S100000x64, .f32⟩ : BufTy).Contents (Elt F)) a6 v5
  v6

/-- The three edge features side by side, one row per edge. -/
def edgeFeat (a3 : (⟨S400000, .f32⟩ : BufTy).Contents (Elt F)) (a4 : (⟨S400000, .f32⟩ : BufTy).Contents (Elt F)) (a5 : (⟨S400000, .f32⟩ : BufTy).Contents (Elt F)) : (⟨S400000x3, .f32⟩ : BufTy).Contents (Elt F) :=
  let v7 : (⟨S400000x1, .f32⟩ : BufTy).Contents (Elt F) := (broadcastInDim S400000x1 ![0] bcast_S400000_S400000x1_0 : (⟨S400000, .f32⟩ : BufTy).Contents (Elt F) → (⟨S400000x1, .f32⟩ : BufTy).Contents (Elt F)) a3
  let v8 : (⟨S400000x1, .f32⟩ : BufTy).Contents (Elt F) := (broadcastInDim S400000x1 ![0] bcast_S400000_S400000x1_0 : (⟨S400000, .f32⟩ : BufTy).Contents (Elt F) → (⟨S400000x1, .f32⟩ : BufTy).Contents (Elt F)) a4
  let v9 : (⟨S400000x1, .f32⟩ : BufTy).Contents (Elt F) := (broadcastInDim S400000x1 ![0] bcast_S400000_S400000x1_0 : (⟨S400000, .f32⟩ : BufTy).Contents (Elt F) → (⟨S400000x1, .f32⟩ : BufTy).Contents (Elt F)) a5
  let v10 : (⟨S400000x3, .f32⟩ : BufTy).Contents (Elt F) := concatenate S400000x3 1 [⟨S400000x1, v7⟩, ⟨S400000x1, v8⟩, ⟨S400000x1, v9⟩] concatenates_S400000x1_S400000x1_S400000x1_S400000x3_d1
  v10

/-- A message layer's input: per edge, the source node's features beside the edge's features. -/
def msgIn0 (h : (⟨S100000x64, .f32⟩ : BufTy).Contents (Elt F)) (a1 : (⟨S400000, .i32⟩ : BufTy).Contents (Elt F)) (e : (⟨S400000x3, .f32⟩ : BufTy).Contents (Elt F)) : (⟨S400000x67, .f32⟩ : BufTy).Contents (Elt F) :=
  let c_1 : (⟨S_, .i32⟩ : BufTy).Contents (Elt F) := (constantI S_ 32 0#32)
  let v11 : (⟨S400000, .i32⟩ : BufTy).Contents (Elt F) := (broadcastInDim S400000 ![] bcast_S_S400000 : (⟨S_, .i32⟩ : BufTy).Contents (Elt F) → (⟨S400000, .i32⟩ : BufTy).Contents (Elt F)) c_1
  let v12 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 v11
  let c_2 : (⟨S_, .i32⟩ : BufTy).Contents (Elt F) := (constantI S_ 32 100000#32)
  let v13 : (⟨S400000, .i32⟩ : BufTy).Contents (Elt F) := (broadcastInDim S400000 ![] bcast_S_S400000 : (⟨S_, .i32⟩ : BufTy).Contents (Elt F) → (⟨S400000, .i32⟩ : BufTy).Contents (Elt F)) c_2
  let v14 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 v13
  let v15 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) v12 v14 a1
  let v16 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) v15
  let v17 : (⟨S400000x64, .f32⟩ : BufTy).Contents (Elt F) := ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)) h v16
  let v18 : (⟨S400000x67, .f32⟩ : BufTy).Contents (Elt F) := ((fun a b => concatenate S400000x67 1 [⟨S400000x64, a⟩, ⟨S400000x3, b⟩] concatenates_S400000x64_S400000x3_S400000x67_d1) : (⟨S400000x64, .f32⟩ : BufTy).Contents (Elt F) → (⟨S400000x3, .f32⟩ : BufTy).Contents (Elt F) → (⟨S400000x67, .f32⟩ : BufTy).Contents (Elt F)) v17 e
  v18

/-- The layer's weights, transposed. -/
def wT0 (w : (⟨S128x67, .f32⟩ : BufTy).Contents (Elt F)) : (⟨S67x128, .f32⟩ : BufTy).Contents (Elt F) :=
  let v19 : (⟨S67x128, .f32⟩ : BufTy).Contents (Elt F) := ((transpose S67x128 [1, 0] · transposes_S128x67_S67x128_1_0) : (⟨S128x67, .f32⟩ : BufTy).Contents (Elt F) → (⟨S67x128, .f32⟩ : BufTy).Contents (Elt F)) w
  v19

/-- The layer's bias row: zeros. -/
def bRow0  : (⟨S1x128, .f32⟩ : BufTy).Contents (Elt F) :=
  let cst : (⟨S_, .f32⟩ : BufTy).Contents (Elt F) := (constant S_ .f32 0x00000000#32)
  let v20 : (⟨S128, .f32⟩ : BufTy).Contents (Elt F) := (broadcastInDim S128 ![] bcast_S_S128 : (⟨S_, .f32⟩ : BufTy).Contents (Elt F) → (⟨S128, .f32⟩ : BufTy).Contents (Elt F)) cst
  let v21 : (⟨S1x128, .f32⟩ : BufTy).Contents (Elt F) := shapeCast S1x128 v20 shapeCasts_S128_S1x128
  v21

set_option maxHeartbeats 1000000 in
theorem entry0_h (c : Dev nD) : (at1 m c (Proc.devRef .tc main_v6) : (⟨S100000x64, .f32⟩ : BufTy).Contents (Elt F)) = embed (at0 m c main_arg0) (at0 m c main_arg6) := by
  show StableHlo.after hostOps0 (at0 m c) _ = _
  dsimp only [hostOps0]
  after_results_simp
  try dsimp only [Matrix.cons_val_zero, Matrix.cons_val_one, Matrix.head_cons, Matrix.cons_val_two, Matrix.tail_cons]
  results_by_rw
  rfl
set_option maxHeartbeats 1000000 in
theorem entry0_e (c : Dev nD) : (at1 m c (Proc.devRef .tc main_v10) : (⟨S400000x3, .f32⟩ : BufTy).Contents (Elt F)) = edgeFeat (at0 m c main_arg3) (at0 m c main_arg4) (at0 m c main_arg5) := by
  show StableHlo.after hostOps0 (at0 m c) _ = _
  dsimp only [hostOps0]
  after_results_simp
  try dsimp only [Matrix.cons_val_zero, Matrix.cons_val_one, Matrix.head_cons, Matrix.cons_val_two, Matrix.tail_cons]
  results_by_rw
  rfl
set_option maxHeartbeats 1000000 in
theorem entry0_X (c : Dev nD) : (at1 m c (Proc.devRef .tc main_v18) : (⟨S400000x67, .f32⟩ : BufTy).Contents (Elt F)) = msgIn0 (embed (at0 m c main_arg0) (at0 m c main_arg6)) (at0 m c main_arg1) (edgeFeat (at0 m c main_arg3) (at0 m c main_arg4) (at0 m c main_arg5)) := by
  show StableHlo.after hostOps0 (at0 m c) _ = _
  dsimp only [hostOps0]
  after_results_simp
  try dsimp only [Matrix.cons_val_zero, Matrix.cons_val_one, Matrix.head_cons, Matrix.cons_val_two, Matrix.tail_cons]
  results_by_rw
  rfl
set_option maxHeartbeats 1000000 in
theorem entry0_W (c : Dev nD) : (at1 m c (Proc.devRef .tc main_v19) : (⟨S67x128, .f32⟩ : BufTy).Contents (Elt F)) = wT0 (at0 m c main_arg7) := by
  show StableHlo.after hostOps0 (at0 m c) _ = _
  dsimp only [hostOps0]
  after_results_simp
  try dsimp only [Matrix.cons_val_zero, Matrix.cons_val_one, Matrix.head_cons, Matrix.cons_val_two, Matrix.tail_cons]
  results_by_rw
  rfl
set_option maxHeartbeats 1000000 in
theorem entry0_B (c : Dev nD) : (at1 m c (Proc.devRef .tc main_v21) : (⟨S1x128, .f32⟩ : BufTy).Contents (Elt F)) = bRow0 (F := F) := by
  show StableHlo.after hostOps0 (at0 m c) _ = _
  dsimp only [hostOps0]
  after_results_simp
  try dsimp only [Matrix.cons_val_zero, Matrix.cons_val_one, Matrix.head_cons, Matrix.cons_val_two, Matrix.tail_cons]
  results_by_rw
  rfl

end Cert.KernelIdeal.Hand
end
-- ==== Proof.KI.Value0.lean ====
/-
  Layer 0's result array as ONE function of the three arrays the layer is entered with. Row `r` of the result lies in row
  tile `r / 10000`, at row `r % 10000` of that tile; the tile's contents are the layer's arithmetic on rows
  `(r / 10000) * 10000 … + 9999` of the input matrix, the whole weight matrix and the bias row. The 40 tiles cover all 400000 rows.
-/
import proofs.«101052_j75445395522274_1_alg».proof.Proof.KI.Layer0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin0 : (![0, 0] : Fin 2 → Nat) = fun _ => 0 := funext fun a => by fin_cases a <;> rfl

/-- The 10000 rows of tile `t` of the input matrix. -/
def rowsOf0 (X : Vec F S400000x67 .f32) (t : ℕ) (ht : t < 40) : Vec F S10000x67 .f32 :=
  fun y => X (ix2 (⟨t * 10000 + (y 0).val, by have := idx2_lt0 y; omega⟩ : Fin 400000) (⟨(y 1).val, idx2_lt1 y⟩ : Fin 67))

/-- The layer's result, whole: entry `(r, q)` is entry `(r % 10000, q)` of the layer's arithmetic on tile `r / 10000`. -/
def result0 (X : Vec F S400000x67 .f32) (W : Vec F S67x128 .f32) (B : Vec F S1x128 .f32) : Vec F S400000x128 .f32 :=
  fun i => k0_pay1 (rowsOf0 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result0_at (X : Vec F S400000x67 .f32) (W : Vec F S67x128 .f32) (B : Vec F S1x128 .f32) (t : ℕ) (ht : t < 40)
    (p : Fin 10000) (q : Fin 128) (i : S400000x128.Idx) (hi0 : (i 0).val = t * 10000 + p.val) (hi1 : (i 1).val = q.val) :
    result0 X W B i = k0_pay1 (rowsOf0 X t ht) W B (ix2 p q) := by
  unfold result0
  have hp := p.isLt
  have h1 : (i 0).val / 10000 = t := by omega
  subst h1
  refine congrArg (k0_pay1 (rowsOf0 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 40 grid points). -/
theorem tileAt0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is tile `t` of `result0` of the entry arrays. -/
theorem written0 (c : Dev nD) (t : Fin cfg0.N) :
    (data0 V c).flushed 3 t = ((cfg0.win 3).blk t).view.read (Elt F) (result0 (V c main_v18) (V c main_v19) (V c main_v21)) := by
  show (cfg0.win 3).cut (grid0.coords t) ((data0 V c).after 3 t) = _
  rw [after0_3]
  unfold stored0
  rw [View.canon_unit_zero origin0]
  simp only [View.ld_unit_zero (S := S10000x67) origin0, View.ld_unit_zero (S := S67x128) origin0, View.ld_unit_zero (S := S1x128) origin0]
  obtain ⟨e0, e1, e2, e3, e4, e5, e6, e7⟩ := tileAt0 t
  funext y
  have ht : t.val < 40 := N_0 ▸ t.isLt
  have hy0 : (y 0).val < 10000 := (y 0).isLt
  have hy1 : (y 1).val < 128 := (y 1).isLt
  show k0_pay1 (tile0 V c 0 t) (tile0 V c 1 t) (tile0 V c 2 t) y
    = result0 (V c main_v18) (V c main_v19) (V c main_v21) (((cfg0.win 3).blk t).view.emb y)
  rw [result0_at (V c main_v18) (V c main_v19) (V c main_v21) t.val ht ⟨(y 0).val, hy0⟩ ⟨(y 1).val, hy1⟩ _
    (by show win0_3.index t (0 : Fin 2) * 10000 + 1 * (y 0).val = t.val * 10000 + (y 0).val; omega)
    (by show win0_3.index t (1 : Fin 2) * 128 + 1 * (y 1).val = (y 1).val; omega)]
  have hx : tile0 V c 0 t = rowsOf0 (V c main_v18) t.val ht := by
    funext z
    show V c main_v18 (((cfg0.win 0).blk t).view.emb z) = V c main_v18 _
    refine congrArg (V c main_v18) ?_
    funext a; apply Fin.ext
    match a with
    | ⟨0, _⟩ => show win0_0.index t (0 : Fin 2) * 10000 + 1 * (z 0).val = t.val * 10000 + (z 0).val; omega
    | ⟨1, _⟩ => show win0_0.index t (1 : Fin 2) * 67 + 1 * (z 1).val = (z 1).val; omega
  have hw : tile0 V c 1 t = V c main_v19 := by
    funext z
    show V c main_v19 (((cfg0.win 1).blk t).view.emb z) = V c main_v19 z
    refine congrArg (V c main_v19) ?_
    funext a; apply Fin.ext
    match a with
    | ⟨0, _⟩ => show win0_1.index t (0 : Fin 2) * 67 + 1 * (z 0).val = (z 0).val; omega
    | ⟨1, _⟩ => show win0_1.index t (1 : Fin 2) * 128 + 1 * (z 1).val = (z 1).val; omega
  have hb : tile0 V c 2 t = V c main_v21 := by
    funext z
    show V c main_v21 (((cfg0.win 2).blk t).view.emb z) = V c main_v21 z
    refine congrArg (V c main_v21) ?_
    funext a; apply Fin.ext
    match a with
    | ⟨0, _⟩ => show win0_2.index t (0 : Fin 2) * 1 + 1 * (z 0).val = (z 0).val; omega
    | ⟨1, _⟩ => show win0_2.index t (1 : Fin 2) * 128 + 1 * (z 1).val = (z 1).val; omega
  rw [hx, hw, hb]
  refine congrArg (k0_pay1 (rowsOf0 (V c main_v18) t.val ht) (V c main_v19) (V c main_v21)) ?_
  funext a
  match a with
  | ⟨0, _⟩ => rfl
  | ⟨1, _⟩ => rfl

/-- An entry of the result array lies in grid point `t`'s tile iff each coordinate lies in the tile's range on its axis. -/
theorem inTile0 (t : Fin cfg0.N) (i : S400000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v22).slice (win0_3.rect t)).set ↔ _
  rw [View.set_slice_whole, Rect.mem_set_unit]
  exact Iff.rfl

/-- Every entry of the result array is written back by some grid point: row `r` by point `r / 10000`. -/
theorem covered0 (i : S400000x128.Idx) : ∃ t : Fin cfg0.N, (cfg0.win 3).flush t = true ∧ i ∈ ((cfg0.win 3).blk t).view.set := by
  have hi0 := idx2_lt0 i
  have hi1 := idx2_lt1 i
  have hN : (i 0).val / 10000 < cfg0.N := by have hg : grid0.N = 40 := N_0; show (i 0).val / 10000 < grid0.N; omega
  obtain ⟨e0, e1, e2, e3, e4, e5, e6, e7⟩ := tileAt0 ⟨(i 0).val / 10000, hN⟩
  refine ⟨⟨(i 0).val / 10000, hN⟩, flush0_3 _, ?_⟩
  rw [inTile0]
  intro a
  match a with
  | ⟨0, _⟩ =>
    show win0_3.index ⟨(i 0).val / 10000, hN⟩ (0 : Fin 2) * 10000 ≤ (i 0).val ∧ (i 0).val < win0_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, hN⟩ (1 : Fin 2) * 128 ≤ (i 1).val ∧ (i 1).val < win0_3.index ⟨(i 0).val / 10000, hN⟩ (1 : Fin 2) * 128 + 128
    rw [e7]; omega

/-- After all grid points the layer's result array is `result0` of the three arrays the layer was entered with. -/
theorem final0 (c : Dev nD) : (data0 V c).arrAt 3 cfg0.N = result0 (V c main_v18) (V c main_v19) (V c main_v21) :=
  (data0 V c).arrAt_eq_of_cover 3 (result0 (V c main_v18) (V c main_v19) (V c main_v21)) (fun t _ => written0 V c t) (covered0)

end Cert.KernelIdeal.Hand

end
-- ==== Proof.KI.Host1.lean ====
/-
  The host operations in front of layer 1, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- An update layer's input: per node, its features beside the mean of the messages on its incoming edges (the sum
    over the edges that end at the node, divided by their number, or by one if there is none). -/
def updIn1 (h : (⟨S100000x64, .f32⟩ : BufTy).Contents (Elt F)) (mm : (⟨S400000x128, .f32⟩ : BufTy).Contents (Elt F)) (a2 : (⟨S400000, .i32⟩ : BufTy).Contents (Elt F)) : (⟨S100000x192, .f32⟩ : BufTy).Contents (Elt F) :=
  let cst_3 : (⟨S_, .f32⟩ : BufTy).Contents (Elt F) := (constant S_ .f32 0x00000000#32)
  let v23 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_3
  let v24 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let v25 : (⟨S100000x128, .f32⟩ : BufTy).Contents (Elt F) := ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)) v23 v24 mm
  let cst_5 : (⟨S_, .f32⟩ : BufTy).Contents (Elt F) := (constant S_ .f32 0x00000000#32)
  let v27 : (⟨S100000, .f32⟩ : BufTy).Contents (Elt F) := (broadcastInDim S100000 ![] bcast_S_S100000 : (⟨S_, .f32⟩ : BufTy).Contents (Elt F) → (⟨S100000, .f32⟩ : BufTy).Contents (Elt F)) cst_5
  let v28 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let cst_4 : (⟨S_, .f32⟩ : BufTy).Contents (Elt F) := (constant S_ .f32 0x3F800000#32)
  let v26 : (⟨S400000, .f32⟩ : BufTy).Contents (Elt F) := (broadcastInDim S400000 ![] bcast_S_S400000 : (⟨S_, .f32⟩ : BufTy).Contents (Elt F) → (⟨S400000, .f32⟩ : BufTy).Contents (Elt F)) cst_4
  let v29 : (⟨S100000, .f32⟩ : BufTy).Contents (Elt F) := ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)) v27 v28 v26
  let cst_6 : (⟨S_, .f32⟩ : BufTy).Contents (Elt F) := (constant S_ .f32 0x3F800000#32)
  let v30 : (⟨S100000, .f32⟩ : BufTy).Contents (Elt F) := (broadcastInDim S100000 ![] bcast_S_S100000 : (⟨S_, .f32⟩ : BufTy).Contents (Elt F) → (⟨S100000, .f32⟩ : BufTy).Contents (Elt F)) cst_6
  let v31 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v29 v30
  let v32 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v31
  let v33 : (⟨S100000x128, .f32⟩ : BufTy).Contents (Elt F) := (broadcastInDim S100000x128 ![0, 1] bcast_S100000x1_S100000x128_0_1 : (⟨S100000x1, .f32⟩ : BufTy).Contents (Elt F) → (⟨S100000x128, .f32⟩ : BufTy).Contents (Elt F)) v32
  let v34 : (⟨S100000x128, .f32⟩ : BufTy).Contents (Elt F) := (Host.divf : (⟨S100000x128, .f32⟩ : BufTy).Contents (Elt F) → (⟨S100000x128, .f32⟩ : BufTy).Contents (Elt F) → (⟨S100000x128, .f32⟩ : BufTy).Contents (Elt F)) v25 v33
  let v35 : (⟨S100000x192, .f32⟩ : BufTy).Contents (Elt F) := ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)) h v34
  v35

/-- The layer's weights, transposed. -/
def wT1 (w : (⟨S128x192, .f32⟩ : BufTy).Contents (Elt F)) : (⟨S192x128, .f32⟩ : BufTy).Contents (Elt F) :=
  let v36 : (⟨S192x128, .f32⟩ : BufTy).Contents (Elt F) := ((transpose S192x128 [1, 0] · transposes_S128x192_S192x128_1_0) : (⟨S128x192, .f32⟩ : BufTy).Contents (Elt F) → (⟨S192x128, .f32⟩ : BufTy).Contents (Elt F)) w
  v36

/-- The layer's bias as a row. -/
def bRow1 (b : (⟨S128, .f32⟩ : BufTy).Contents (Elt F)) : (⟨S1x128, .f32⟩ : BufTy).Contents (Elt F) :=
  let v37 : (⟨S1x128, .f32⟩ : BufTy).Contents (Elt F) := shapeCast S1x128 b shapeCasts_S128_S1x128
  v37

set_option maxHeartbeats 1000000 in
theorem entry1_X (c : Dev nD) : (at3 m c (Proc.devRef .tc main_v35) : (⟨S100000x192, .f32⟩ : BufTy).Contents (Elt F)) = updIn1 (at2 m c main_v6) (at2 m c main_v22) (at2 m c main_arg2) := by
  show StableHlo.after hostOps1 (at2 m c) _ = _
  dsimp only [hostOps1]
  after_results_simp
  try dsimp only [Matrix.cons_val_zero, Matrix.cons_val_one, Matrix.head_cons, Matrix.cons_val_two, Matrix.tail_cons]
  results_by_rw
  rfl
set_option maxHeartbeats 1000000 in
theorem entry1_W (c : Dev nD) : (at3 m c (Proc.devRef .tc main_v36) : (⟨S192x128, .f32⟩ : BufTy).Contents (Elt F)) = wT1 (at2 m c main_arg8) := by
  show StableHlo.after hostOps1 (at2 m c) _ = _
  dsimp only [hostOps1]
  after_results_simp
  try dsimp only [Matrix.cons_val_zero, Matrix.cons_val_one, Matrix.head_cons, Matrix.cons_val_two, Matrix.tail_cons]
  results_by_rw
  rfl
set_option maxHeartbeats 1000000 in
theorem entry1_B (c : Dev nD) : (at3 m c (Proc.devRef .tc main_v37) : (⟨S1x128, .f32⟩ : BufTy).Contents (Elt F)) = bRow1 (at2 m c main_arg9) := by
  show StableHlo.after hostOps1 (at2 m c) _ = _
  dsimp only [hostOps1]
  after_results_simp
  try dsimp only [Matrix.cons_val_zero, Matrix.cons_val_one, Matrix.head_cons, Matrix.cons_val_two, Matrix.tail_cons]
  results_by_rw
  rfl

end Cert.KernelIdeal.Hand
end
-- ==== Proof.KI.Value1.lean ====
/-
  Layer 1's result array as ONE function of the three arrays the layer is entered with. Row `r` of the result lies in row
  tile `r / 10000`, at row `r % 10000` of that tile; the tile's contents are the layer's arithmetic on rows
  `(r / 10000) * 10000 … + 9999` of the input matrix, the whole weight matrix and the bias row. The 10 tiles cover all 100000 rows.
-/
import proofs.«101052_j75445395522274_1_alg».proof.Proof.KI.Layer1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin1 : (![0, 0] : Fin 2 → Nat) = fun _ => 0 := funext fun a => by fin_cases a <;> rfl

/-- The 10000 rows of tile `t` of the input matrix. -/
def rowsOf1 (X : Vec F S100000x192 .f32) (t : ℕ) (ht : t < 10) : Vec F S10000x192 .f32 :=
  fun y => X (ix2 (⟨t * 10000 + (y 0).val, by have := idx2_lt0 y; omega⟩ : Fin 100000) (⟨(y 1).val, idx2_lt1 y⟩ : Fin 192))

/-- The layer's result, whole: entry `(r, q)` is entry `(r % 10000, q)` of the layer's arithmetic on tile `r / 10000`. -/
def result1 (X : Vec F S100000x192 .f32) (W : Vec F S192x128 .f32) (B : Vec F S1x128 .f32) : Vec F S100000x128 .f32 :=
  fun i => k1_pay1 (rowsOf1 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result1_at (X : Vec F S100000x192 .f32) (W : Vec F S192x128 .f32) (B : Vec F S1x128 .f32) (t : ℕ) (ht : t < 10)
    (p : Fin 10000) (q : Fin 128) (i : S100000x128.Idx) (hi0 : (i 0).val = t * 10000 + p.val) (hi1 : (i 1).val = q.val) :
    result1 X W B i = k1_pay1 (rowsOf1 X t ht) W B (ix2 p q) := by
  unfold result1
  have hp := p.isLt
  have h1 : (i 0).val / 10000 = t := by omega
  subst h1
  refine congrArg (k1_pay1 (rowsOf1 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 10 grid points). -/
theorem tileAt1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is tile `t` of `result1` of the entry arrays. -/
theorem written1 (c : Dev nD) (t : Fin cfg1.N) :
    (data1 V c).flushed 3 t = ((cfg1.win 3).blk t).view.read (Elt F) (result1 (V c main_v35) (V c main_v36) (V c main_v37)) := by
  show (cfg1.win 3).cut (grid1.coords t) ((data1 V c).after 3 t) = _
  rw [after1_3]
  unfold stored1
  rw [View.canon_unit_zero origin1]
  simp only [View.ld_unit_zero (S := S10000x192) origin1, View.ld_unit_zero (S := S192x128) origin1, View.ld_unit_zero (S := S1x128) origin1]
  obtain ⟨e0, e1, e2, e3, e4, e5, e6, e7⟩ := tileAt1 t
  funext y
  have ht : t.val < 10 := N_1 ▸ t.isLt
  have hy0 : (y 0).val < 10000 := (y 0).isLt
  have hy1 : (y 1).val < 128 := (y 1).isLt
  show k1_pay1 (tile1 V c 0 t) (tile1 V c 1 t) (tile1 V c 2 t) y
    = result1 (V c main_v35) (V c main_v36) (V c main_v37) (((cfg1.win 3).blk t).view.emb y)
  rw [result1_at (V c main_v35) (V c main_v36) (V c main_v37) t.val ht ⟨(y 0).val, hy0⟩ ⟨(y 1).val, hy1⟩ _
    (by show win1_3.index t (0 : Fin 2) * 10000 + 1 * (y 0).val = t.val * 10000 + (y 0).val; omega)
    (by show win1_3.index t (1 : Fin 2) * 128 + 1 * (y 1).val = (y 1).val; omega)]
  have hx : tile1 V c 0 t = rowsOf1 (V c main_v35) t.val ht := by
    funext z
    show V c main_v35 (((cfg1.win 0).blk t).view.emb z) = V c main_v35 _
    refine congrArg (V c main_v35) ?_
    funext a; apply Fin.ext
    match a with
    | ⟨0, _⟩ => show win1_0.index t (0 : Fin 2) * 10000 + 1 * (z 0).val = t.val * 10000 + (z 0).val; omega
    | ⟨1, _⟩ => show win1_0.index t (1 : Fin 2) * 192 + 1 * (z 1).val = (z 1).val; omega
  have hw : tile1 V c 1 t = V c main_v36 := by
    funext z
    show V c main_v36 (((cfg1.win 1).blk t).view.emb z) = V c main_v36 z
    refine congrArg (V c main_v36) ?_
    funext a; apply Fin.ext
    match a with
    | ⟨0, _⟩ => show win1_1.index t (0 : Fin 2) * 192 + 1 * (z 0).val = (z 0).val; omega
    | ⟨1, _⟩ => show win1_1.index t (1 : Fin 2) * 128 + 1 * (z 1).val = (z 1).val; omega
  have hb : tile1 V c 2 t = V c main_v37 := by
    funext z
    show V c main_v37 (((cfg1.win 2).blk t).view.emb z) = V c main_v37 z
    refine congrArg (V c main_v37) ?_
    funext a; apply Fin.ext
    match a with
    | ⟨0, _⟩ => show win1_2.index t (0 : Fin 2) * 1 + 1 * (z 0).val = (z 0).val; omega
    | ⟨1, _⟩ => show win1_2.index t (1 : Fin 2) * 128 + 1 * (z 1).val = (z 1).val; omega
  rw [hx, hw, hb]
  refine congrArg (k1_pay1 (rowsOf1 (V c main_v35) t.val ht) (V c main_v36) (V c main_v37)) ?_
  funext a
  match a with
  | ⟨0, _⟩ => rfl
  | ⟨1, _⟩ => rfl

/-- An entry of the result array lies in grid point `t`'s tile iff each coordinate lies in the tile's range on its axis. -/
theorem inTile1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v38).slice (win1_3.rect t)).set ↔ _
  rw [View.set_slice_whole, Rect.mem_set_unit]
  exact Iff.rfl

/-- Every entry of the result array is written back by some grid point: row `r` by point `r / 10000`. -/
theorem covered1 (i : S100000x128.Idx) : ∃ t : Fin cfg1.N, (cfg1.win 3).flush t = true ∧ i ∈ ((cfg1.win 3).blk t).view.set := by
  have hi0 := idx2_lt0 i
  have hi1 := idx2_lt1 i
  have hN : (i 0).val / 10000 < cfg1.N := by have hg : grid1.N = 10 := N_1; show (i 0).val / 10000 < grid1.N; omega
  obtain ⟨e0, e1, e2, e3, e4, e5, e6, e7⟩ := tileAt1 ⟨(i 0).val / 10000, hN⟩
  refine ⟨⟨(i 0).val / 10000, hN⟩, flush1_3 _, ?_⟩
  rw [inTile1]
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hN⟩ (1 : Fin 2) * 128 ≤ (i 1).val ∧ (i 1).val < win1_3.index ⟨(i 0).val / 10000, hN⟩ (1 : Fin 2) * 128 + 128
    rw [e7]; omega

/-- After all grid points the layer's result array is `result1` of the three arrays the layer was entered with. -/
theorem final1 (c : Dev nD) : (data1 V c).arrAt 3 cfg1.N = result1 (V c main_v35) (V c main_v36) (V c main_v37) :=
  (data1 V c).arrAt_eq_of_cover 3 (result1 (V c main_v35) (V c main_v36) (V c main_v37)) (fun t _ => written1 V c t) (covered1)

end Cert.KernelIdeal.Hand

end
-- ==== Proof.KI.Host2.lean ====
/-
  The host operations in front of layer 2, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- A message layer's input: per edge, the source node's features beside the edge's features. -/
def msgIn2 (h : (⟨S100000x128, .f32⟩ : BufTy).Contents (Elt F)) (a1 : (⟨S400000, .i32⟩ : BufTy).Contents (Elt F)) (e : (⟨S400000x3, .f32⟩ : BufTy).Contents (Elt F)) : (⟨S400000x131, .f32⟩ : BufTy).Contents (Elt F) :=
  let c_7 : (⟨S_, .i32⟩ : BufTy).Contents (Elt F) := (constantI S_ 32 0#32)
  let v39 : (⟨S400000, .i32⟩ : BufTy).Contents (Elt F) := (broadcastInDim S400000 ![] bcast_S_S400000 : (⟨S_, .i32⟩ : BufTy).Contents (Elt F) → (⟨S400000, .i32⟩ : BufTy).Contents (Elt F)) c_7
  let v40 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 v39
  let c_8 : (⟨S_, .i32⟩ : BufTy).Contents (Elt F) := (constantI S_ 32 100000#32)
  let v41 : (⟨S400000, .i32⟩ : BufTy).Contents (Elt F) := (broadcastInDim S400000 ![] bcast_S_S400000 : (⟨S_, .i32⟩ : BufTy).Contents (Elt F) → (⟨S400000, .i32⟩ : BufTy).Contents (Elt F)) c_8
  let v42 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 v41
  let v43 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) v40 v42 a1
  let v44 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) v43
  let v45 : (⟨S400000x128, .f32⟩ : BufTy).Contents (Elt F) := ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)) h v44
  let v46 : (⟨S400000x131, .f32⟩ : BufTy).Contents (Elt F) := ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) v45 e
  v46

/-- The layer's weights, transposed. -/
def wT2 (w : (⟨S128x131, .f32⟩ : BufTy).Contents (Elt F)) : (⟨S131x128, .f32⟩ : BufTy).Contents (Elt F) :=
  let v47 : (⟨S131x128, .f32⟩ : BufTy).Contents (Elt F) := ((transpose S131x128 [1, 0] · transposes_S128x131_S131x128_1_0) : (⟨S128x131, .f32⟩ : BufTy).Contents (Elt F) → (⟨S131x128, .f32⟩ : BufTy).Contents (Elt F)) w
  v47

/-- The layer's bias row: zeros. -/
def bRow2  : (⟨S1x128, .f32⟩ : BufTy).Contents (Elt F) :=
  let cst_9 : (⟨S_, .f32⟩ : BufTy).Contents (Elt F) := (constant S_ .f32 0x00000000#32)
  let v48 : (⟨S128, .f32⟩ : BufTy).Contents (Elt F) := (broadcastInDim S128 ![] bcast_S_S128 : (⟨S_, .f32⟩ : BufTy).Contents (Elt F) → (⟨S128, .f32⟩ : BufTy).Contents (Elt F)) cst_9
  let v49 : (⟨S1x128, .f32⟩ : BufTy).Contents (Elt F) := shapeCast S1x128 v48 shapeCasts_S128_S1x128
  v49

set_option maxHeartbeats 1000000 in
theorem entry2_X (c : Dev nD) : (at5 m c (Proc.devRef .tc main_v46) : (⟨S400000x131, .f32⟩ : BufTy).Contents (Elt F)) = msgIn2 (at4 m c main_v38) (at4 m c main_arg1) (at4 m c main_v10) := by
  show StableHlo.after hostOps2 (at4 m c) _ = _
  dsimp only [hostOps2]
  after_results_simp
  try dsimp only [Matrix.cons_val_zero, Matrix.cons_val_one, Matrix.head_cons, Matrix.cons_val_two, Matrix.tail_cons]
  results_by_rw
  rfl
set_option maxHeartbeats 1000000 in
theorem entry2_W (c : Dev nD) : (at5 m c (Proc.devRef .tc main_v47) : (⟨S131x128, .f32⟩ : BufTy).Contents (Elt F)) = wT2 (at4 m c main_arg10) := by
  show StableHlo.after hostOps2 (at4 m c) _ = _
  dsimp only [hostOps2]
  after_results_simp
  try dsimp only [Matrix.cons_val_zero, Matrix.cons_val_one, Matrix.head_cons, Matrix.cons_val_two, Matrix.tail_cons]
  results_by_rw
  rfl
set_option maxHeartbeats 1000000 in
theorem entry2_B (c : Dev nD) : (at5 m c (Proc.devRef .tc main_v49) : (⟨S1x128, .f32⟩ : BufTy).Contents (Elt F)) = bRow2 (F := F) := by
  show StableHlo.after hostOps2 (at4 m c) _ = _
  dsimp only [hostOps2]
  after_results_simp
  try dsimp only [Matrix.cons_val_zero, Matrix.cons_val_one, Matrix.head_cons, Matrix.cons_val_two, Matrix.tail_cons]
  results_by_rw
  rfl

end Cert.KernelIdeal.Hand
end
-- ==== Proof.KI.Value2.lean ====
/-
  Layer 2's result array as ONE function of the three arrays the layer is entered with. Row `r` of the result lies in row
  tile `r / 10000`, at row `r % 10000` of that tile; the tile's contents are the layer's arithmetic on rows
  `(r / 10000) * 10000 … + 9999` of the input matrix, the whole weight matrix and the bias row. The 40 tiles cover all 400000 rows.
-/
import proofs.«101052_j75445395522274_1_alg».proof.Proof.KI.Layer2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin2 : (![0, 0] : Fin 2 → Nat) = fun _ => 0 := funext fun a => by fin_cases a <;> rfl

/-- The 10000 rows of tile `t` of the input matrix. -/
def rowsOf2 (X : Vec F S400000x131 .f32) (t : ℕ) (ht : t < 40) : Vec F S10000x131 .f32 :=
  fun y => X (ix2 (⟨t * 10000 + (y 0).val, by have := idx2_lt0 y; omega⟩ : Fin 400000) (⟨(y 1).val, idx2_lt1 y⟩ : Fin 131))

/-- The layer's result, whole: entry `(r, q)` is entry `(r % 10000, q)` of the layer's arithmetic on tile `r / 10000`. -/
def result2 (X : Vec F S400000x131 .f32) (W : Vec F S131x128 .f32) (B : Vec F S1x128 .f32) : Vec F S400000x128 .f32 :=
  fun i => k2_pay1 (rowsOf2 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result2_at (X : Vec F S400000x131 .f32) (W : Vec F S131x128 .f32) (B : Vec F S1x128 .f32) (t : ℕ) (ht : t < 40)
    (p : Fin 10000) (q : Fin 128) (i : S400000x128.Idx) (hi0 : (i 0).val = t * 10000 + p.val) (hi1 : (i 1).val = q.val) :
    result2 X W B i = k2_pay1 (rowsOf2 X t ht) W B (ix2 p q) := by
  unfold result2
  have hp := p.isLt
  have h1 : (i 0).val / 10000 = t := by omega
  subst h1
  refine congrArg (k2_pay1 (rowsOf2 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 40 grid points). -/
theorem tileAt2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is tile `t` of `result2` of the entry arrays. -/
theorem written2 (c : Dev nD) (t : Fin cfg2.N) :
    (data2 V c).flushed 3 t = ((cfg2.win 3).blk t).view.read (Elt F) (result2 (V c main_v46) (V c main_v47) (V c main_v49)) := by
  show (cfg2.win 3).cut (grid2.coords t) ((data2 V c).after 3 t) = _
  rw [after2_3]
  unfold stored2
  rw [View.canon_unit_zero origin2]
  simp only [View.ld_unit_zero (S := S10000x131) origin2, View.ld_unit_zero (S := S131x128) origin2, View.ld_unit_zero (S := S1x128) origin2]
  obtain ⟨e0, e1, e2, e3, e4, e5, e6, e7⟩ := tileAt2 t
  funext y
  have ht : t.val < 40 := N_2 ▸ t.isLt
  have hy0 : (y 0).val < 10000 := (y 0).isLt
  have hy1 : (y 1).val < 128 := (y 1).isLt
  show k2_pay1 (tile2 V c 0 t) (tile2 V c 1 t) (tile2 V c 2 t) y
    = result2 (V c main_v46) (V c main_v47) (V c main_v49) (((cfg2.win 3).blk t).view.emb y)
  rw [result2_at (V c main_v46) (V c main_v47) (V c main_v49) t.val ht ⟨(y 0).val, hy0⟩ ⟨(y 1).val, hy1⟩ _
    (by show win2_3.index t (0 : Fin 2) * 10000 + 1 * (y 0).val = t.val * 10000 + (y 0).val; omega)
    (by show win2_3.index t (1 : Fin 2) * 128 + 1 * (y 1).val = (y 1).val; omega)]
  have hx : tile2 V c 0 t = rowsOf2 (V c main_v46) t.val ht := by
    funext z
    show V c main_v46 (((cfg2.win 0).blk t).view.emb z) = V c main_v46 _
    refine congrArg (V c main_v46) ?_
    funext a; apply Fin.ext
    match a with
    | ⟨0, _⟩ => show win2_0.index t (0 : Fin 2) * 10000 + 1 * (z 0).val = t.val * 10000 + (z 0).val; omega
    | ⟨1, _⟩ => show win2_0.index t (1 : Fin 2) * 131 + 1 * (z 1).val = (z 1).val; omega
  have hw : tile2 V c 1 t = V c main_v47 := by
    funext z
    show V c main_v47 (((cfg2.win 1).blk t).view.emb z) = V c main_v47 z
    refine congrArg (V c main_v47) ?_
    funext a; apply Fin.ext
    match a with
    | ⟨0, _⟩ => show win2_1.index t (0 : Fin 2) * 131 + 1 * (z 0).val = (z 0).val; omega
    | ⟨1, _⟩ => show win2_1.index t (1 : Fin 2) * 128 + 1 * (z 1).val = (z 1).val; omega
  have hb : tile2 V c 2 t = V c main_v49 := by
    funext z
    show V c main_v49 (((cfg2.win 2).blk t).view.emb z) = V c main_v49 z
    refine congrArg (V c main_v49) ?_
    funext a; apply Fin.ext
    match a with
    | ⟨0, _⟩ => show win2_2.index t (0 : Fin 2) * 1 + 1 * (z 0).val = (z 0).val; omega
    | ⟨1, _⟩ => show win2_2.index t (1 : Fin 2) * 128 + 1 * (z 1).val = (z 1).val; omega
  rw [hx, hw, hb]
  refine congrArg (k2_pay1 (rowsOf2 (V c main_v46) t.val ht) (V c main_v47) (V c main_v49)) ?_
  funext a
  match a with
  | ⟨0, _⟩ => rfl
  | ⟨1, _⟩ => rfl

/-- An entry of the result array lies in grid point `t`'s tile iff each coordinate lies in the tile's range on its axis. -/
theorem inTile2 (t : Fin cfg2.N) (i : S400000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v50).slice (win2_3.rect t)).set ↔ _
  rw [View.set_slice_whole, Rect.mem_set_unit]
  exact Iff.rfl

/-- Every entry of the result array is written back by some grid point: row `r` by point `r / 10000`. -/
theorem covered2 (i : S400000x128.Idx) : ∃ t : Fin cfg2.N, (cfg2.win 3).flush t = true ∧ i ∈ ((cfg2.win 3).blk t).view.set := by
  have hi0 := idx2_lt0 i
  have hi1 := idx2_lt1 i
  have hN : (i 0).val / 10000 < cfg2.N := by have hg : grid2.N = 40 := N_2; show (i 0).val / 10000 < grid2.N; omega
  obtain ⟨e0, e1, e2, e3, e4, e5, e6, e7⟩ := tileAt2 ⟨(i 0).val / 10000, hN⟩
  refine ⟨⟨(i 0).val / 10000, hN⟩, flush2_3 _, ?_⟩
  rw [inTile2]
  intro a
  match a with
  | ⟨0, _⟩ =>
    show win2_3.index ⟨(i 0).val / 10000, hN⟩ (0 : Fin 2) * 10000 ≤ (i 0).val ∧ (i 0).val < win2_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, hN⟩ (1 : Fin 2) * 128 ≤ (i 1).val ∧ (i 1).val < win2_3.index ⟨(i 0).val / 10000, hN⟩ (1 : Fin 2) * 128 + 128
    rw [e7]; omega

/-- After all grid points the layer's result array is `result2` of the three arrays the layer was entered with. -/
theorem final2 (c : Dev nD) : (data2 V c).arrAt 3 cfg2.N = result2 (V c main_v46) (V c main_v47) (V c main_v49) :=
  (data2 V c).arrAt_eq_of_cover 3 (result2 (V c main_v46) (V c main_v47) (V c main_v49)) (fun t _ => written2 V c t) (covered2)

end Cert.KernelIdeal.Hand

end
-- ==== Proof.KI.Host3.lean ====
/-
  The host operations in front of layer 3, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- An update layer's input: per node, its features beside the mean of the messages on its incoming edges (the sum
    over the edges that end at the node, divided by their number, or by one if there is none). -/
def updIn3 (h : (⟨S100000x128, .f32⟩ : BufTy).Contents (Elt F)) (mm : (⟨S400000x128, .f32⟩ : BufTy).Contents (Elt F)) (a2 : (⟨S400000, .i32⟩ : BufTy).Contents (Elt F)) : (⟨S100000x256, .f32⟩ : BufTy).Contents (Elt F) :=
  let cst_10 : (⟨S_, .f32⟩ : BufTy).Contents (Elt F) := (constant S_ .f32 0x00000000#32)
  let v51 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_10
  let v52 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let v53 : (⟨S100000x128, .f32⟩ : BufTy).Contents (Elt F) := ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)) v51 v52 mm
  let cst_12 : (⟨S_, .f32⟩ : BufTy).Contents (Elt F) := (constant S_ .f32 0x00000000#32)
  let v55 : (⟨S100000, .f32⟩ : BufTy).Contents (Elt F) := (broadcastInDim S100000 ![] bcast_S_S100000 : (⟨S_, .f32⟩ : BufTy).Contents (Elt F) → (⟨S100000, .f32⟩ : BufTy).Contents (Elt F)) cst_12
  let v56 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let cst_11 : (⟨S_, .f32⟩ : BufTy).Contents (Elt F) := (constant S_ .f32 0x3F800000#32)
  let v54 : (⟨S400000, .f32⟩ : BufTy).Contents (Elt F) := (broadcastInDim S400000 ![] bcast_S_S400000 : (⟨S_, .f32⟩ : BufTy).Contents (Elt F) → (⟨S400000, .f32⟩ : BufTy).Contents (Elt F)) cst_11
  let v57 : (⟨S100000, .f32⟩ : BufTy).Contents (Elt F) := ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)) v55 v56 v54
  let cst_13 : (⟨S_, .f32⟩ : BufTy).Contents (Elt F) := (constant S_ .f32 0x3F800000#32)
  let v58 : (⟨S100000, .f32⟩ : BufTy).Contents (Elt F) := (broadcastInDim S100000 ![] bcast_S_S100000 : (⟨S_, .f32⟩ : BufTy).Contents (Elt F) → (⟨S100000, .f32⟩ : BufTy).Contents (Elt F)) cst_13
  let v59 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v57 v58
  let v60 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v59
  let v61 : (⟨S100000x128, .f32⟩ : BufTy).Contents (Elt F) := (broadcastInDim S100000x128 ![0, 1] bcast_S100000x1_S100000x128_0_1 : (⟨S100000x1, .f32⟩ : BufTy).Contents (Elt F) → (⟨S100000x128, .f32⟩ : BufTy).Contents (Elt F)) v60
  let v62 : (⟨S100000x128, .f32⟩ : BufTy).Contents (Elt F) := (Host.divf : (⟨S100000x128, .f32⟩ : BufTy).Contents (Elt F) → (⟨S100000x128, .f32⟩ : BufTy).Contents (Elt F) → (⟨S100000x128, .f32⟩ : BufTy).Contents (Elt F)) v53 v61
  let v63 : (⟨S100000x256, .f32⟩ : BufTy).Contents (Elt F) := ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) h v62
  v63

/-- The layer's weights, transposed. -/
def wT3 (w : (⟨S128x256, .f32⟩ : BufTy).Contents (Elt F)) : (⟨S256x128, .f32⟩ : BufTy).Contents (Elt F) :=
  let v64 : (⟨S256x128, .f32⟩ : BufTy).Contents (Elt F) := ((transpose S256x128 [1, 0] · transposes_S128x256_S256x128_1_0) : (⟨S128x256, .f32⟩ : BufTy).Contents (Elt F) → (⟨S256x128, .f32⟩ : BufTy).Contents (Elt F)) w
  v64

/-- The layer's bias as a row. -/
def bRow3 (b : (⟨S128, .f32⟩ : BufTy).Contents (Elt F)) : (⟨S1x128, .f32⟩ : BufTy).Contents (Elt F) :=
  let v65 : (⟨S1x128, .f32⟩ : BufTy).Contents (Elt F) := shapeCast S1x128 b shapeCasts_S128_S1x128
  v65

set_option maxHeartbeats 1000000 in
theorem entry3_X (c : Dev nD) : (at7 m c (Proc.devRef .tc main_v63) : (⟨S100000x256, .f32⟩ : BufTy).Contents (Elt F)) = updIn3 (at6 m c main_v38) (at6 m c main_v50) (at6 m c main_arg2) := by
  show StableHlo.after hostOps3 (at6 m c) _ = _
  dsimp only [hostOps3]
  after_results_simp
  try dsimp only [Matrix.cons_val_zero, Matrix.cons_val_one, Matrix.head_cons, Matrix.cons_val_two, Matrix.tail_cons]
  results_by_rw
  rfl
set_option maxHeartbeats 1000000 in
theorem entry3_W (c : Dev nD) : (at7 m c (Proc.devRef .tc main_v64) : (⟨S256x128, .f32⟩ : BufTy).Contents (Elt F)) = wT3 (at6 m c main_arg11) := by
  show StableHlo.after hostOps3 (at6 m c) _ = _
  dsimp only [hostOps3]
  after_results_simp
  try dsimp only [Matrix.cons_val_zero, Matrix.cons_val_one, Matrix.head_cons, Matrix.cons_val_two, Matrix.tail_cons]
  results_by_rw
  rfl
set_option maxHeartbeats 1000000 in
theorem entry3_B (c : Dev nD) : (at7 m c (Proc.devRef .tc main_v65) : (⟨S1x128, .f32⟩ : BufTy).Contents (Elt F)) = bRow3 (at6 m c main_arg12) := by
  show StableHlo.after hostOps3 (at6 m c) _ = _
  dsimp only [hostOps3]
  after_results_simp
  try dsimp only [Matrix.cons_val_zero, Matrix.cons_val_one, Matrix.head_cons, Matrix.cons_val_two, Matrix.tail_cons]
  results_by_rw
  rfl

end Cert.KernelIdeal.Hand
end
-- ==== Proof.KI.Value3.lean ====
/-
  Layer 3's result array as ONE function of the three arrays the layer is entered with. Row `r` of the result lies in row
  tile `r / 10000`, at row `r % 10000` of that tile; the tile's contents are the layer's arithmetic on rows
  `(r / 10000) * 10000 … + 9999` of the input matrix, the whole weight matrix and the bias row. The 10 tiles cover all 100000 rows.
-/
import proofs.«101052_j75445395522274_1_alg».proof.Proof.KI.Layer3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin3 : (![0, 0] : Fin 2 → Nat) = fun _ => 0 := funext fun a => by fin_cases a <;> rfl

/-- The 10000 rows of tile `t` of the input matrix. -/
def rowsOf3 (X : Vec F S100000x256 .f32) (t : ℕ) (ht : t < 10) : Vec F S10000x256 .f32 :=
  fun y => X (ix2 (⟨t * 10000 + (y 0).val, by have := idx2_lt0 y; omega⟩ : Fin 100000) (⟨(y 1).val, idx2_lt1 y⟩ : Fin 256))

/-- The layer's result, whole: entry `(r, q)` is entry `(r % 10000, q)` of the layer's arithmetic on tile `r / 10000`. -/
def result3 (X : Vec F S100000x256 .f32) (W : Vec F S256x128 .f32) (B : Vec F S1x128 .f32) : Vec F S100000x128 .f32 :=
  fun i => k3_pay1 (rowsOf3 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result3_at (X : Vec F S100000x256 .f32) (W : Vec F S256x128 .f32) (B : Vec F S1x128 .f32) (t : ℕ) (ht : t < 10)
    (p : Fin 10000) (q : Fin 128) (i : S100000x128.Idx) (hi0 : (i 0).val = t * 10000 + p.val) (hi1 : (i 1).val = q.val) :
    result3 X W B i = k3_pay1 (rowsOf3 X t ht) W B (ix2 p q) := by
  unfold result3
  have hp := p.isLt
  have h1 : (i 0).val / 10000 = t := by omega
  subst h1
  refine congrArg (k3_pay1 (rowsOf3 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 10 grid points). -/
theorem tileAt3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point `t` writes back is tile `t` of `result3` of the entry arrays. -/
theorem written3 (c : Dev nD) (t : Fin cfg3.N) :
    (data3 V c).flushed 3 t = ((cfg3.win 3).blk t).view.read (Elt F) (result3 (V c main_v63) (V c main_v64) (V c main_v65)) := by
  show (cfg3.win 3).cut (grid3.coords t) ((data3 V c).after 3 t) = _
  rw [after3_3]
  unfold stored3
  rw [View.canon_unit_zero origin3]
  simp only [View.ld_unit_zero (S := S10000x256) origin3, View.ld_unit_zero (S := S256x128) origin3, View.ld_unit_zero (S := S1x128) origin3]
  obtain ⟨e0, e1, e2, e3, e4, e5, e6, e7⟩ := tileAt3 t
  funext y
  have ht : t.val < 10 := N_3 ▸ t.isLt
  have hy0 : (y 0).val < 10000 := (y 0).isLt
  have hy1 : (y 1).val < 128 := (y 1).isLt
  show k3_pay1 (tile3 V c 0 t) (tile3 V c 1 t) (tile3 V c 2 t) y
    = result3 (V c main_v63) (V c main_v64) (V c main_v65) (((cfg3.win 3).blk t).view.emb y)
  rw [result3_at (V c main_v63) (V c main_v64) (V c main_v65) t.val ht ⟨(y 0).val, hy0⟩ ⟨(y 1).val, hy1⟩ _
    (by show win3_3.index t (0 : Fin 2) * 10000 + 1 * (y 0).val = t.val * 10000 + (y 0).val; omega)
    (by show win3_3.index t (1 : Fin 2) * 128 + 1 * (y 1).val = (y 1).val; omega)]
  have hx : tile3 V c 0 t = rowsOf3 (V c main_v63) t.val ht := by
    funext z
    show V c main_v63 (((cfg3.win 0).blk t).view.emb z) = V c main_v63 _
    refine congrArg (V c main_v63) ?_
    funext a; apply Fin.ext
    match a with
    | ⟨0, _⟩ => show win3_0.index t (0 : Fin 2) * 10000 + 1 * (z 0).val = t.val * 10000 + (z 0).val; omega
    | ⟨1, _⟩ => show win3_0.index t (1 : Fin 2) * 256 + 1 * (z 1).val = (z 1).val; omega
  have hw : tile3 V c 1 t = V c main_v64 := by
    funext z
    show V c main_v64 (((cfg3.win 1).blk t).view.emb z) = V c main_v64 z
    refine congrArg (V c main_v64) ?_
    funext a; apply Fin.ext
    match a with
    | ⟨0, _⟩ => show win3_1.index t (0 : Fin 2) * 256 + 1 * (z 0).val = (z 0).val; omega
    | ⟨1, _⟩ => show win3_1.index t (1 : Fin 2) * 128 + 1 * (z 1).val = (z 1).val; omega
  have hb : tile3 V c 2 t = V c main_v65 := by
    funext z
    show V c main_v65 (((cfg3.win 2).blk t).view.emb z) = V c main_v65 z
    refine congrArg (V c main_v65) ?_
    funext a; apply Fin.ext
    match a with
    | ⟨0, _⟩ => show win3_2.index t (0 : Fin 2) * 1 + 1 * (z 0).val = (z 0).val; omega
    | ⟨1, _⟩ => show win3_2.index t (1 : Fin 2) * 128 + 1 * (z 1).val = (z 1).val; omega
  rw [hx, hw, hb]
  refine congrArg (k3_pay1 (rowsOf3 (V c main_v63) t.val ht) (V c main_v64) (V c main_v65)) ?_
  funext a
  match a with
  | ⟨0, _⟩ => rfl
  | ⟨1, _⟩ => rfl

/-- An entry of the result array lies in grid point `t`'s tile iff each coordinate lies in the tile's range on its axis. -/
theorem inTile3 (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v66).slice (win3_3.rect t)).set ↔ _
  rw [View.set_slice_whole, Rect.mem_set_unit]
  exact Iff.rfl

/-- Every entry of the result array is written back by some grid point: row `r` by point `r / 10000`. -/
theorem covered3 (i : S100000x128.Idx) : ∃ t : Fin cfg3.N, (cfg3.win 3).flush t = true ∧ i ∈ ((cfg3.win 3).blk t).view.set := by
  have hi0 := idx2_lt0 i
  have hi1 := idx2_lt1 i
  have hN : (i 0).val / 10000 < cfg3.N := by have hg : grid3.N = 10 := N_3; show (i 0).val / 10000 < grid3.N; omega
  obtain ⟨e0, e1, e2, e3, e4, e5, e6, e7⟩ := tileAt3 ⟨(i 0).val / 10000, hN⟩
  refine ⟨⟨(i 0).val / 10000, hN⟩, flush3_3 _, ?_⟩
  rw [inTile3]
  intro a
  match a with
  | ⟨0, _⟩ =>
    show win3_3.index ⟨(i 0).val / 10000, hN⟩ (0 : Fin 2) * 10000 ≤ (i 0).val ∧ (i 0).val < win3_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, hN⟩ (1 : Fin 2) * 128 ≤ (i 1).val ∧ (i 1).val < win3_3.index ⟨(i 0).val / 10000, hN⟩ (1 : Fin 2) * 128 + 128
    rw [e7]; omega

/-- After all grid points the layer's result array is `result3` of the three arrays the layer was entered with. -/
theorem final3 (c : Dev nD) : (data3 V c).arrAt 3 cfg3.N = result3 (V c main_v63) (V c main_v64) (V c main_v65) :=
  (data3 V c).arrAt_eq_of_cover 3 (result3 (V c main_v63) (V c main_v64) (V c main_v65)) (fun t _ => written3 V c t) (covered3)

end Cert.KernelIdeal.Hand

end
-- ==== Proof.KI.Host4.lean ====
/-
  The host operations in front of layer 4, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- A message layer's input: per edge, the source node's features beside the edge's features. -/
def msgIn4 (h : (⟨S100000x128, .f32⟩ : BufTy).Contents (Elt F)) (a1 : (⟨S400000, .i32⟩ : BufTy).Contents (Elt F)) (e : (⟨S400000x3, .f32⟩ : BufTy).Contents (Elt F)) : (⟨S400000x131, .f32⟩ : BufTy).Contents (Elt F) :=
  let c_14 : (⟨S_, .i32⟩ : BufTy).Contents (Elt F) := (constantI S_ 32 0#32)
  let v67 : (⟨S400000, .i32⟩ : BufTy).Contents (Elt F) := (broadcastInDim S400000 ![] bcast_S_S400000 : (⟨S_, .i32⟩ : BufTy).Contents (Elt F) → (⟨S400000, .i32⟩ : BufTy).Contents (Elt F)) c_14
  let v68 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 v67
  let c_15 : (⟨S_, .i32⟩ : BufTy).Contents (Elt F) := (constantI S_ 32 100000#32)
  let v69 : (⟨S400000, .i32⟩ : BufTy).Contents (Elt F) := (broadcastInDim S400000 ![] bcast_S_S400000 : (⟨S_, .i32⟩ : BufTy).Contents (Elt F) → (⟨S400000, .i32⟩ : BufTy).Contents (Elt F)) c_15
  let v70 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 v69
  let v71 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) v68 v70 a1
  let v72 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) v71
  let v73 : (⟨S400000x128, .f32⟩ : BufTy).Contents (Elt F) := ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)) h v72
  let v74 : (⟨S400000x131, .f32⟩ : BufTy).Contents (Elt F) := ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) v73 e
  v74

/-- The layer's weights, transposed. -/
def wT4 (w : (⟨S128x131, .f32⟩ : BufTy).Contents (Elt F)) : (⟨S131x128, .f32⟩ : BufTy).Contents (Elt F) :=
  let v75 : (⟨S131x128, .f32⟩ : BufTy).Contents (Elt F) := ((transpose S131x128 [1, 0] · transposes_S128x131_S131x128_1_0) : (⟨S128x131, .f32⟩ : BufTy).Contents (Elt F) → (⟨S131x128, .f32⟩ : BufTy).Contents (Elt F)) w
  v75

/-- The layer's bias row: zeros. -/
def bRow4  : (⟨S1x128, .f32⟩ : BufTy).Contents (Elt F) :=
  let cst_16 : (⟨S_, .f32⟩ : BufTy).Contents (Elt F) := (constant S_ .f32 0x00000000#32)
  let v76 : (⟨S128, .f32⟩ : BufTy).Contents (Elt F) := (broadcastInDim S128 ![] bcast_S_S128 : (⟨S_, .f32⟩ : BufTy).Contents (Elt F) → (⟨S128, .f32⟩ : BufTy).Contents (Elt F)) cst_16
  let v77 : (⟨S1x128, .f32⟩ : BufTy).Contents (Elt F) := shapeCast S1x128 v76 shapeCasts_S128_S1x128
  v77

set_option maxHeartbeats 1000000 in
theorem entry4_X (c : Dev nD) : (at9 m c (Proc.devRef .tc main_v74) : (⟨S400000x131, .f32⟩ : BufTy).Contents (Elt F)) = msgIn4 (at8 m c main_v66) (at8 m c main_arg1) (at8 m c main_v10) := by
  show StableHlo.after hostOps4 (at8 m c) _ = _
  dsimp only [hostOps4]
  after_results_simp
  try dsimp only [Matrix.cons_val_zero, Matrix.cons_val_one, Matrix.head_cons, Matrix.cons_val_two, Matrix.tail_cons]
  results_by_rw
  rfl
set_option maxHeartbeats 1000000 in
theorem entry4_W (c : Dev nD) : (at9 m c (Proc.devRef .tc main_v75) : (⟨S131x128, .f32⟩ : BufTy).Contents (Elt F)) = wT4 (at8 m c main_arg13) := by
  show StableHlo.after hostOps4 (at8 m c) _ = _
  dsimp only [hostOps4]
  after_results_simp
  try dsimp only [Matrix.cons_val_zero, Matrix.cons_val_one, Matrix.head_cons, Matrix.cons_val_two, Matrix.tail_cons]
  results_by_rw
  rfl
set_option maxHeartbeats 1000000 in
theorem entry4_B (c : Dev nD) : (at9 m c (Proc.devRef .tc main_v77) : (⟨S1x128, .f32⟩ : BufTy).Contents (Elt F)) = bRow4 (F := F) := by
  show StableHlo.after hostOps4 (at8 m c) _ = _
  dsimp only [hostOps4]
  after_results_simp
  try dsimp only [Matrix.cons_val_zero, Matrix.cons_val_one, Matrix.head_cons, Matrix.cons_val_two, Matrix.tail_cons]
  results_by_rw
  rfl

end Cert.KernelIdeal.Hand
end
-- ==== Proof.KI.Value4.lean ====
/-
  Layer 4's result array as ONE function of the three arrays the layer is entered with. Row `r` of the result lies in row
  tile `r / 10000`, at row `r % 10000` of that tile; the tile's contents are the layer's arithmetic on rows
  `(r / 10000) * 10000 … + 9999` of the input matrix, the whole weight matrix and the bias row. The 40 tiles cover all 400000 rows.
-/
import proofs.«101052_j75445395522274_1_alg».proof.Proof.KI.Layer4
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin4 : (![0, 0] : Fin 2 → Nat) = fun _ => 0 := funext fun a => by fin_cases a <;> rfl

/-- The 10000 rows of tile `t` of the input matrix. -/
def rowsOf4 (X : Vec F S400000x131 .f32) (t : ℕ) (ht : t < 40) : Vec F S10000x131 .f32 :=
  fun y => X (ix2 (⟨t * 10000 + (y 0).val, by have := idx2_lt0 y; omega⟩ : Fin 400000) (⟨(y 1).val, idx2_lt1 y⟩ : Fin 131))

/-- The layer's result, whole: entry `(r, q)` is entry `(r % 10000, q)` of the layer's arithmetic on tile `r / 10000`. -/
def result4 (X : Vec F S400000x131 .f32) (W : Vec F S131x128 .f32) (B : Vec F S1x128 .f32) : Vec F S400000x128 .f32 :=
  fun i => k4_pay1 (rowsOf4 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result4_at (X : Vec F S400000x131 .f32) (W : Vec F S131x128 .f32) (B : Vec F S1x128 .f32) (t : ℕ) (ht : t < 40)
    (p : Fin 10000) (q : Fin 128) (i : S400000x128.Idx) (hi0 : (i 0).val = t * 10000 + p.val) (hi1 : (i 1).val = q.val) :
    result4 X W B i = k4_pay1 (rowsOf4 X t ht) W B (ix2 p q) := by
  unfold result4
  have hp := p.isLt
  have h1 : (i 0).val / 10000 = t := by omega
  subst h1
  refine congrArg (k4_pay1 (rowsOf4 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 40 grid points). -/
theorem tileAt4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What grid point `t` writes back is tile `t` of `result4` of the entry arrays. -/
theorem written4 (c : Dev nD) (t : Fin cfg4.N) :
    (data4 V c).flushed 3 t = ((cfg4.win 3).blk t).view.read (Elt F) (result4 (V c main_v74) (V c main_v75) (V c main_v77)) := by
  show (cfg4.win 3).cut (grid4.coords t) ((data4 V c).after 3 t) = _
  rw [after4_3]
  unfold stored4
  rw [View.canon_unit_zero origin4]
  simp only [View.ld_unit_zero (S := S10000x131) origin4, View.ld_unit_zero (S := S131x128) origin4, View.ld_unit_zero (S := S1x128) origin4]
  obtain ⟨e0, e1, e2, e3, e4, e5, e6, e7⟩ := tileAt4 t
  funext y
  have ht : t.val < 40 := N_4 ▸ t.isLt
  have hy0 : (y 0).val < 10000 := (y 0).isLt
  have hy1 : (y 1).val < 128 := (y 1).isLt
  show k4_pay1 (tile4 V c 0 t) (tile4 V c 1 t) (tile4 V c 2 t) y
    = result4 (V c main_v74) (V c main_v75) (V c main_v77) (((cfg4.win 3).blk t).view.emb y)
  rw [result4_at (V c main_v74) (V c main_v75) (V c main_v77) t.val ht ⟨(y 0).val, hy0⟩ ⟨(y 1).val, hy1⟩ _
    (by show win4_3.index t (0 : Fin 2) * 10000 + 1 * (y 0).val = t.val * 10000 + (y 0).val; omega)
    (by show win4_3.index t (1 : Fin 2) * 128 + 1 * (y 1).val = (y 1).val; omega)]
  have hx : tile4 V c 0 t = rowsOf4 (V c main_v74) t.val ht := by
    funext z
    show V c main_v74 (((cfg4.win 0).blk t).view.emb z) = V c main_v74 _
    refine congrArg (V c main_v74) ?_
    funext a; apply Fin.ext
    match a with
    | ⟨0, _⟩ => show win4_0.index t (0 : Fin 2) * 10000 + 1 * (z 0).val = t.val * 10000 + (z 0).val; omega
    | ⟨1, _⟩ => show win4_0.index t (1 : Fin 2) * 131 + 1 * (z 1).val = (z 1).val; omega
  have hw : tile4 V c 1 t = V c main_v75 := by
    funext z
    show V c main_v75 (((cfg4.win 1).blk t).view.emb z) = V c main_v75 z
    refine congrArg (V c main_v75) ?_
    funext a; apply Fin.ext
    match a with
    | ⟨0, _⟩ => show win4_1.index t (0 : Fin 2) * 131 + 1 * (z 0).val = (z 0).val; omega
    | ⟨1, _⟩ => show win4_1.index t (1 : Fin 2) * 128 + 1 * (z 1).val = (z 1).val; omega
  have hb : tile4 V c 2 t = V c main_v77 := by
    funext z
    show V c main_v77 (((cfg4.win 2).blk t).view.emb z) = V c main_v77 z
    refine congrArg (V c main_v77) ?_
    funext a; apply Fin.ext
    match a with
    | ⟨0, _⟩ => show win4_2.index t (0 : Fin 2) * 1 + 1 * (z 0).val = (z 0).val; omega
    | ⟨1, _⟩ => show win4_2.index t (1 : Fin 2) * 128 + 1 * (z 1).val = (z 1).val; omega
  rw [hx, hw, hb]
  refine congrArg (k4_pay1 (rowsOf4 (V c main_v74) t.val ht) (V c main_v75) (V c main_v77)) ?_
  funext a
  match a with
  | ⟨0, _⟩ => rfl
  | ⟨1, _⟩ => rfl

/-- An entry of the result array lies in grid point `t`'s tile iff each coordinate lies in the tile's range on its axis. -/
theorem inTile4 (t : Fin cfg4.N) (i : S400000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v78).slice (win4_3.rect t)).set ↔ _
  rw [View.set_slice_whole, Rect.mem_set_unit]
  exact Iff.rfl

/-- Every entry of the result array is written back by some grid point: row `r` by point `r / 10000`. -/
theorem covered4 (i : S400000x128.Idx) : ∃ t : Fin cfg4.N, (cfg4.win 3).flush t = true ∧ i ∈ ((cfg4.win 3).blk t).view.set := by
  have hi0 := idx2_lt0 i
  have hi1 := idx2_lt1 i
  have hN : (i 0).val / 10000 < cfg4.N := by have hg : grid4.N = 40 := N_4; show (i 0).val / 10000 < grid4.N; omega
  obtain ⟨e0, e1, e2, e3, e4, e5, e6, e7⟩ := tileAt4 ⟨(i 0).val / 10000, hN⟩
  refine ⟨⟨(i 0).val / 10000, hN⟩, flush4_3 _, ?_⟩
  rw [inTile4]
  intro a
  match a with
  | ⟨0, _⟩ =>
    show win4_3.index ⟨(i 0).val / 10000, hN⟩ (0 : Fin 2) * 10000 ≤ (i 0).val ∧ (i 0).val < win4_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, hN⟩ (1 : Fin 2) * 128 ≤ (i 1).val ∧ (i 1).val < win4_3.index ⟨(i 0).val / 10000, hN⟩ (1 : Fin 2) * 128 + 128
    rw [e7]; omega

/-- After all grid points the layer's result array is `result4` of the three arrays the layer was entered with. -/
theorem final4 (c : Dev nD) : (data4 V c).arrAt 3 cfg4.N = result4 (V c main_v74) (V c main_v75) (V c main_v77) :=
  (data4 V c).arrAt_eq_of_cover 3 (result4 (V c main_v74) (V c main_v75) (V c main_v77)) (fun t _ => written4 V c t) (covered4)

end Cert.KernelIdeal.Hand

end
-- ==== Proof.KI.Host5.lean ====
/-
  The host operations in front of layer 5, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- An update layer's input: per node, its features beside the mean of the messages on its incoming edges (the sum
    over the edges that end at the node, divided by their number, or by one if there is none). -/
def updIn5 (h : (⟨S100000x128, .f32⟩ : BufTy).Contents (Elt F)) (mm : (⟨S400000x128, .f32⟩ : BufTy).Contents (Elt F)) (a2 : (⟨S400000, .i32⟩ : BufTy).Contents (Elt F)) : (⟨S100000x256, .f32⟩ : BufTy).Contents (Elt F) :=
  let cst_17 : (⟨S_, .f32⟩ : BufTy).Contents (Elt F) := (constant S_ .f32 0x00000000#32)
  let v79 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_17
  let v80 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let v81 : (⟨S100000x128, .f32⟩ : BufTy).Contents (Elt F) := ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)) v79 v80 mm
  let cst_19 : (⟨S_, .f32⟩ : BufTy).Contents (Elt F) := (constant S_ .f32 0x00000000#32)
  let v83 : (⟨S100000, .f32⟩ : BufTy).Contents (Elt F) := (broadcastInDim S100000 ![] bcast_S_S100000 : (⟨S_, .f32⟩ : BufTy).Contents (Elt F) → (⟨S100000, .f32⟩ : BufTy).Contents (Elt F)) cst_19
  let v84 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let cst_18 : (⟨S_, .f32⟩ : BufTy).Contents (Elt F) := (constant S_ .f32 0x3F800000#32)
  let v82 : (⟨S400000, .f32⟩ : BufTy).Contents (Elt F) := (broadcastInDim S400000 ![] bcast_S_S400000 : (⟨S_, .f32⟩ : BufTy).Contents (Elt F) → (⟨S400000, .f32⟩ : BufTy).Contents (Elt F)) cst_18
  let v85 : (⟨S100000, .f32⟩ : BufTy).Contents (Elt F) := ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)) v83 v84 v82
  let cst_20 : (⟨S_, .f32⟩ : BufTy).Contents (Elt F) := (constant S_ .f32 0x3F800000#32)
  let v86 : (⟨S100000, .f32⟩ : BufTy).Contents (Elt F) := (broadcastInDim S100000 ![] bcast_S_S100000 : (⟨S_, .f32⟩ : BufTy).Contents (Elt F) → (⟨S100000, .f32⟩ : BufTy).Contents (Elt F)) cst_20
  let v87 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v85 v86
  let v88 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v87
  let v89 : (⟨S100000x128, .f32⟩ : BufTy).Contents (Elt F) := (broadcastInDim S100000x128 ![0, 1] bcast_S100000x1_S100000x128_0_1 : (⟨S100000x1, .f32⟩ : BufTy).Contents (Elt F) → (⟨S100000x128, .f32⟩ : BufTy).Contents (Elt F)) v88
  let v90 : (⟨S100000x128, .f32⟩ : BufTy).Contents (Elt F) := (Host.divf : (⟨S100000x128, .f32⟩ : BufTy).Contents (Elt F) → (⟨S100000x128, .f32⟩ : BufTy).Contents (Elt F) → (⟨S100000x128, .f32⟩ : BufTy).Contents (Elt F)) v81 v89
  let v91 : (⟨S100000x256, .f32⟩ : BufTy).Contents (Elt F) := ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) h v90
  v91

/-- The layer's weights, transposed. -/
def wT5 (w : (⟨S128x256, .f32⟩ : BufTy).Contents (Elt F)) : (⟨S256x128, .f32⟩ : BufTy).Contents (Elt F) :=
  let v92 : (⟨S256x128, .f32⟩ : BufTy).Contents (Elt F) := ((transpose S256x128 [1, 0] · transposes_S128x256_S256x128_1_0) : (⟨S128x256, .f32⟩ : BufTy).Contents (Elt F) → (⟨S256x128, .f32⟩ : BufTy).Contents (Elt F)) w
  v92

/-- The layer's bias as a row. -/
def bRow5 (b : (⟨S128, .f32⟩ : BufTy).Contents (Elt F)) : (⟨S1x128, .f32⟩ : BufTy).Contents (Elt F) :=
  let v93 : (⟨S1x128, .f32⟩ : BufTy).Contents (Elt F) := shapeCast S1x128 b shapeCasts_S128_S1x128
  v93

set_option maxHeartbeats 1000000 in
theorem entry5_X (c : Dev nD) : (at11 m c (Proc.devRef .tc main_v91) : (⟨S100000x256, .f32⟩ : BufTy).Contents (Elt F)) = updIn5 (at10 m c main_v66) (at10 m c main_v78) (at10 m c main_arg2) := by
  show StableHlo.after hostOps5 (at10 m c) _ = _
  dsimp only [hostOps5]
  after_results_simp
  try dsimp only [Matrix.cons_val_zero, Matrix.cons_val_one, Matrix.head_cons, Matrix.cons_val_two, Matrix.tail_cons]
  results_by_rw
  rfl
set_option maxHeartbeats 1000000 in
theorem entry5_W (c : Dev nD) : (at11 m c (Proc.devRef .tc main_v92) : (⟨S256x128, .f32⟩ : BufTy).Contents (Elt F)) = wT5 (at10 m c main_arg14) := by
  show StableHlo.after hostOps5 (at10 m c) _ = _
  dsimp only [hostOps5]
  after_results_simp
  try dsimp only [Matrix.cons_val_zero, Matrix.cons_val_one, Matrix.head_cons, Matrix.cons_val_two, Matrix.tail_cons]
  results_by_rw
  rfl
set_option maxHeartbeats 1000000 in
theorem entry5_B (c : Dev nD) : (at11 m c (Proc.devRef .tc main_v93) : (⟨S1x128, .f32⟩ : BufTy).Contents (Elt F)) = bRow5 (at10 m c main_arg15) := by
  show StableHlo.after hostOps5 (at10 m c) _ = _
  dsimp only [hostOps5]
  after_results_simp
  try dsimp only [Matrix.cons_val_zero, Matrix.cons_val_one, Matrix.head_cons, Matrix.cons_val_two, Matrix.tail_cons]
  results_by_rw
  rfl

end Cert.KernelIdeal.Hand
end
-- ==== Proof.KI.Value5.lean ====
/-
  Layer 5's result array as ONE function of the three arrays the layer is entered with. Row `r` of the result lies in row
  tile `r / 10000`, at row `r % 10000` of that tile; the tile's contents are the layer's arithmetic on rows
  `(r / 10000) * 10000 … + 9999` of the input matrix, the whole weight matrix and the bias row. The 10 tiles cover all 100000 rows.
-/
import proofs.«101052_j75445395522274_1_alg».proof.Proof.KI.Layer5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin5 : (![0, 0] : Fin 2 → Nat) = fun _ => 0 := funext fun a => by fin_cases a <;> rfl

/-- The 10000 rows of tile `t` of the input matrix. -/
def rowsOf5 (X : Vec F S100000x256 .f32) (t : ℕ) (ht : t < 10) : Vec F S10000x256 .f32 :=
  fun y => X (ix2 (⟨t * 10000 + (y 0).val, by have := idx2_lt0 y; omega⟩ : Fin 100000) (⟨(y 1).val, idx2_lt1 y⟩ : Fin 256))

/-- The layer's result, whole: entry `(r, q)` is entry `(r % 10000, q)` of the layer's arithmetic on tile `r / 10000`. -/
def result5 (X : Vec F S100000x256 .f32) (W : Vec F S256x128 .f32) (B : Vec F S1x128 .f32) : Vec F S100000x128 .f32 :=
  fun i => k5_pay1 (rowsOf5 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result5_at (X : Vec F S100000x256 .f32) (W : Vec F S256x128 .f32) (B : Vec F S1x128 .f32) (t : ℕ) (ht : t < 10)
    (p : Fin 10000) (q : Fin 128) (i : S100000x128.Idx) (hi0 : (i 0).val = t * 10000 + p.val) (hi1 : (i 1).val = q.val) :
    result5 X W B i = k5_pay1 (rowsOf5 X t ht) W B (ix2 p q) := by
  unfold result5
  have hp := p.isLt
  have h1 : (i 0).val / 10000 = t := by omega
  subst h1
  refine congrArg (k5_pay1 (rowsOf5 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 10 grid points). -/
theorem tileAt5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What grid point `t` writes back is tile `t` of `result5` of the entry arrays. -/
theorem written5 (c : Dev nD) (t : Fin cfg5.N) :
    (data5 V c).flushed 3 t = ((cfg5.win 3).blk t).view.read (Elt F) (result5 (V c main_v91) (V c main_v92) (V c main_v93)) := by
  show (cfg5.win 3).cut (grid5.coords t) ((data5 V c).after 3 t) = _
  rw [after5_3]
  unfold stored5
  rw [View.canon_unit_zero origin5]
  simp only [View.ld_unit_zero (S := S10000x256) origin5, View.ld_unit_zero (S := S256x128) origin5, View.ld_unit_zero (S := S1x128) origin5]
  obtain ⟨e0, e1, e2, e3, e4, e5, e6, e7⟩ := tileAt5 t
  funext y
  have ht : t.val < 10 := N_5 ▸ t.isLt
  have hy0 : (y 0).val < 10000 := (y 0).isLt
  have hy1 : (y 1).val < 128 := (y 1).isLt
  show k5_pay1 (tile5 V c 0 t) (tile5 V c 1 t) (tile5 V c 2 t) y
    = result5 (V c main_v91) (V c main_v92) (V c main_v93) (((cfg5.win 3).blk t).view.emb y)
  rw [result5_at (V c main_v91) (V c main_v92) (V c main_v93) t.val ht ⟨(y 0).val, hy0⟩ ⟨(y 1).val, hy1⟩ _
    (by show win5_3.index t (0 : Fin 2) * 10000 + 1 * (y 0).val = t.val * 10000 + (y 0).val; omega)
    (by show win5_3.index t (1 : Fin 2) * 128 + 1 * (y 1).val = (y 1).val; omega)]
  have hx : tile5 V c 0 t = rowsOf5 (V c main_v91) t.val ht := by
    funext z
    show V c main_v91 (((cfg5.win 0).blk t).view.emb z) = V c main_v91 _
    refine congrArg (V c main_v91) ?_
    funext a; apply Fin.ext
    match a with
    | ⟨0, _⟩ => show win5_0.index t (0 : Fin 2) * 10000 + 1 * (z 0).val = t.val * 10000 + (z 0).val; omega
    | ⟨1, _⟩ => show win5_0.index t (1 : Fin 2) * 256 + 1 * (z 1).val = (z 1).val; omega
  have hw : tile5 V c 1 t = V c main_v92 := by
    funext z
    show V c main_v92 (((cfg5.win 1).blk t).view.emb z) = V c main_v92 z
    refine congrArg (V c main_v92) ?_
    funext a; apply Fin.ext
    match a with
    | ⟨0, _⟩ => show win5_1.index t (0 : Fin 2) * 256 + 1 * (z 0).val = (z 0).val; omega
    | ⟨1, _⟩ => show win5_1.index t (1 : Fin 2) * 128 + 1 * (z 1).val = (z 1).val; omega
  have hb : tile5 V c 2 t = V c main_v93 := by
    funext z
    show V c main_v93 (((cfg5.win 2).blk t).view.emb z) = V c main_v93 z
    refine congrArg (V c main_v93) ?_
    funext a; apply Fin.ext
    match a with
    | ⟨0, _⟩ => show win5_2.index t (0 : Fin 2) * 1 + 1 * (z 0).val = (z 0).val; omega
    | ⟨1, _⟩ => show win5_2.index t (1 : Fin 2) * 128 + 1 * (z 1).val = (z 1).val; omega
  rw [hx, hw, hb]
  refine congrArg (k5_pay1 (rowsOf5 (V c main_v91) t.val ht) (V c main_v92) (V c main_v93)) ?_
  funext a
  match a with
  | ⟨0, _⟩ => rfl
  | ⟨1, _⟩ => rfl

/-- An entry of the result array lies in grid point `t`'s tile iff each coordinate lies in the tile's range on its axis. -/
theorem inTile5 (t : Fin cfg5.N) (i : S100000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v94).slice (win5_3.rect t)).set ↔ _
  rw [View.set_slice_whole, Rect.mem_set_unit]
  exact Iff.rfl

/-- Every entry of the result array is written back by some grid point: row `r` by point `r / 10000`. -/
theorem covered5 (i : S100000x128.Idx) : ∃ t : Fin cfg5.N, (cfg5.win 3).flush t = true ∧ i ∈ ((cfg5.win 3).blk t).view.set := by
  have hi0 := idx2_lt0 i
  have hi1 := idx2_lt1 i
  have hN : (i 0).val / 10000 < cfg5.N := by have hg : grid5.N = 10 := N_5; show (i 0).val / 10000 < grid5.N; omega
  obtain ⟨e0, e1, e2, e3, e4, e5, e6, e7⟩ := tileAt5 ⟨(i 0).val / 10000, hN⟩
  refine ⟨⟨(i 0).val / 10000, hN⟩, flush5_3 _, ?_⟩
  rw [inTile5]
  intro a
  match a with
  | ⟨0, _⟩ =>
    show win5_3.index ⟨(i 0).val / 10000, hN⟩ (0 : Fin 2) * 10000 ≤ (i 0).val ∧ (i 0).val < win5_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win5_3.index ⟨(i 0).val / 10000, hN⟩ (1 : Fin 2) * 128 ≤ (i 1).val ∧ (i 1).val < win5_3.index ⟨(i 0).val / 10000, hN⟩ (1 : Fin 2) * 128 + 128
    rw [e7]; omega

/-- After all grid points the layer's result array is `result5` of the three arrays the layer was entered with. -/
theorem final5 (c : Dev nD) : (data5 V c).arrAt 3 cfg5.N = result5 (V c main_v91) (V c main_v92) (V c main_v93) :=
  (data5 V c).arrAt_eq_of_cover 3 (result5 (V c main_v91) (V c main_v92) (V c main_v93)) (fun t _ => written5 V c t) (covered5)

end Cert.KernelIdeal.Hand

end
-- ==== Proof.KI.Host6.lean ====
/-
  The host operations in front of layer 6, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- A message layer's input: per edge, the source node's features beside the edge's features. -/
def msgIn6 (h : (⟨S100000x128, .f32⟩ : BufTy).Contents (Elt F)) (a1 : (⟨S400000, .i32⟩ : BufTy).Contents (Elt F)) (e : (⟨S400000x3, .f32⟩ : BufTy).Contents (Elt F)) : (⟨S400000x131, .f32⟩ : BufTy).Contents (Elt F) :=
  let c_21 : (⟨S_, .i32⟩ : BufTy).Contents (Elt F) := (constantI S_ 32 0#32)
  let v95 : (⟨S400000, .i32⟩ : BufTy).Contents (Elt F) := (broadcastInDim S400000 ![] bcast_S_S400000 : (⟨S_, .i32⟩ : BufTy).Contents (Elt F) → (⟨S400000, .i32⟩ : BufTy).Contents (Elt F)) c_21
  let v96 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 v95
  let c_22 : (⟨S_, .i32⟩ : BufTy).Contents (Elt F) := (constantI S_ 32 100000#32)
  let v97 : (⟨S400000, .i32⟩ : BufTy).Contents (Elt F) := (broadcastInDim S400000 ![] bcast_S_S400000 : (⟨S_, .i32⟩ : BufTy).Contents (Elt F) → (⟨S400000, .i32⟩ : BufTy).Contents (Elt F)) c_22
  let v98 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 v97
  let v99 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) v96 v98 a1
  let v100 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) v99
  let v101 : (⟨S400000x128, .f32⟩ : BufTy).Contents (Elt F) := ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)) h v100
  let v102 : (⟨S400000x131, .f32⟩ : BufTy).Contents (Elt F) := ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) v101 e
  v102

/-- The layer's weights, transposed. -/
def wT6 (w : (⟨S128x131, .f32⟩ : BufTy).Contents (Elt F)) : (⟨S131x128, .f32⟩ : BufTy).Contents (Elt F) :=
  let v103 : (⟨S131x128, .f32⟩ : BufTy).Contents (Elt F) := ((transpose S131x128 [1, 0] · transposes_S128x131_S131x128_1_0) : (⟨S128x131, .f32⟩ : BufTy).Contents (Elt F) → (⟨S131x128, .f32⟩ : BufTy).Contents (Elt F)) w
  v103

/-- The layer's bias row: zeros. -/
def bRow6  : (⟨S1x128, .f32⟩ : BufTy).Contents (Elt F) :=
  let cst_23 : (⟨S_, .f32⟩ : BufTy).Contents (Elt F) := (constant S_ .f32 0x00000000#32)
  let v104 : (⟨S128, .f32⟩ : BufTy).Contents (Elt F) := (broadcastInDim S128 ![] bcast_S_S128 : (⟨S_, .f32⟩ : BufTy).Contents (Elt F) → (⟨S128, .f32⟩ : BufTy).Contents (Elt F)) cst_23
  let v105 : (⟨S1x128, .f32⟩ : BufTy).Contents (Elt F) := shapeCast S1x128 v104 shapeCasts_S128_S1x128
  v105

set_option maxHeartbeats 1000000 in
theorem entry6_X (c : Dev nD) : (at13 m c (Proc.devRef .tc main_v102) : (⟨S400000x131, .f32⟩ : BufTy).Contents (Elt F)) = msgIn6 (at12 m c main_v94) (at12 m c main_arg1) (at12 m c main_v10) := by
  show StableHlo.after hostOps6 (at12 m c) _ = _
  dsimp only [hostOps6]
  after_results_simp
  try dsimp only [Matrix.cons_val_zero, Matrix.cons_val_one, Matrix.head_cons, Matrix.cons_val_two, Matrix.tail_cons]
  results_by_rw
  rfl
set_option maxHeartbeats 1000000 in
theorem entry6_W (c : Dev nD) : (at13 m c (Proc.devRef .tc main_v103) : (⟨S131x128, .f32⟩ : BufTy).Contents (Elt F)) = wT6 (at12 m c main_arg16) := by
  show StableHlo.after hostOps6 (at12 m c) _ = _
  dsimp only [hostOps6]
  after_results_simp
  try dsimp only [Matrix.cons_val_zero, Matrix.cons_val_one, Matrix.head_cons, Matrix.cons_val_two, Matrix.tail_cons]
  results_by_rw
  rfl
set_option maxHeartbeats 1000000 in
theorem entry6_B (c : Dev nD) : (at13 m c (Proc.devRef .tc main_v105) : (⟨S1x128, .f32⟩ : BufTy).Contents (Elt F)) = bRow6 (F := F) := by
  show StableHlo.after hostOps6 (at12 m c) _ = _
  dsimp only [hostOps6]
  after_results_simp
  try dsimp only [Matrix.cons_val_zero, Matrix.cons_val_one, Matrix.head_cons, Matrix.cons_val_two, Matrix.tail_cons]
  results_by_rw
  rfl

end Cert.KernelIdeal.Hand
end
-- ==== Proof.KI.Value6.lean ====
/-
  Layer 6's result array as ONE function of the three arrays the layer is entered with. Row `r` of the result lies in row
  tile `r / 10000`, at row `r % 10000` of that tile; the tile's contents are the layer's arithmetic on rows
  `(r / 10000) * 10000 … + 9999` of the input matrix, the whole weight matrix and the bias row. The 40 tiles cover all 400000 rows.
-/
import proofs.«101052_j75445395522274_1_alg».proof.Proof.KI.Layer6
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin6 : (![0, 0] : Fin 2 → Nat) = fun _ => 0 := funext fun a => by fin_cases a <;> rfl

/-- The 10000 rows of tile `t` of the input matrix. -/
def rowsOf6 (X : Vec F S400000x131 .f32) (t : ℕ) (ht : t < 40) : Vec F S10000x131 .f32 :=
  fun y => X (ix2 (⟨t * 10000 + (y 0).val, by have := idx2_lt0 y; omega⟩ : Fin 400000) (⟨(y 1).val, idx2_lt1 y⟩ : Fin 131))

/-- The layer's result, whole: entry `(r, q)` is entry `(r % 10000, q)` of the layer's arithmetic on tile `r / 10000`. -/
def result6 (X : Vec F S400000x131 .f32) (W : Vec F S131x128 .f32) (B : Vec F S1x128 .f32) : Vec F S400000x128 .f32 :=
  fun i => k6_pay1 (rowsOf6 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result6_at (X : Vec F S400000x131 .f32) (W : Vec F S131x128 .f32) (B : Vec F S1x128 .f32) (t : ℕ) (ht : t < 40)
    (p : Fin 10000) (q : Fin 128) (i : S400000x128.Idx) (hi0 : (i 0).val = t * 10000 + p.val) (hi1 : (i 1).val = q.val) :
    result6 X W B i = k6_pay1 (rowsOf6 X t ht) W B (ix2 p q) := by
  unfold result6
  have hp := p.isLt
  have h1 : (i 0).val / 10000 = t := by omega
  subst h1
  refine congrArg (k6_pay1 (rowsOf6 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 40 grid points). -/
theorem tileAt6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What grid point `t` writes back is tile `t` of `result6` of the entry arrays. -/
theorem written6 (c : Dev nD) (t : Fin cfg6.N) :
    (data6 V c).flushed 3 t = ((cfg6.win 3).blk t).view.read (Elt F) (result6 (V c main_v102) (V c main_v103) (V c main_v105)) := by
  show (cfg6.win 3).cut (grid6.coords t) ((data6 V c).after 3 t) = _
  rw [after6_3]
  unfold stored6
  rw [View.canon_unit_zero origin6]
  simp only [View.ld_unit_zero (S := S10000x131) origin6, View.ld_unit_zero (S := S131x128) origin6, View.ld_unit_zero (S := S1x128) origin6]
  obtain ⟨e0, e1, e2, e3, e4, e5, e6, e7⟩ := tileAt6 t
  funext y
  have ht : t.val < 40 := N_6 ▸ t.isLt
  have hy0 : (y 0).val < 10000 := (y 0).isLt
  have hy1 : (y 1).val < 128 := (y 1).isLt
  show k6_pay1 (tile6 V c 0 t) (tile6 V c 1 t) (tile6 V c 2 t) y
    = result6 (V c main_v102) (V c main_v103) (V c main_v105) (((cfg6.win 3).blk t).view.emb y)
  rw [result6_at (V c main_v102) (V c main_v103) (V c main_v105) t.val ht ⟨(y 0).val, hy0⟩ ⟨(y 1).val, hy1⟩ _
    (by show win6_3.index t (0 : Fin 2) * 10000 + 1 * (y 0).val = t.val * 10000 + (y 0).val; omega)
    (by show win6_3.index t (1 : Fin 2) * 128 + 1 * (y 1).val = (y 1).val; omega)]
  have hx : tile6 V c 0 t = rowsOf6 (V c main_v102) t.val ht := by
    funext z
    show V c main_v102 (((cfg6.win 0).blk t).view.emb z) = V c main_v102 _
    refine congrArg (V c main_v102) ?_
    funext a; apply Fin.ext
    match a with
    | ⟨0, _⟩ => show win6_0.index t (0 : Fin 2) * 10000 + 1 * (z 0).val = t.val * 10000 + (z 0).val; omega
    | ⟨1, _⟩ => show win6_0.index t (1 : Fin 2) * 131 + 1 * (z 1).val = (z 1).val; omega
  have hw : tile6 V c 1 t = V c main_v103 := by
    funext z
    show V c main_v103 (((cfg6.win 1).blk t).view.emb z) = V c main_v103 z
    refine congrArg (V c main_v103) ?_
    funext a; apply Fin.ext
    match a with
    | ⟨0, _⟩ => show win6_1.index t (0 : Fin 2) * 131 + 1 * (z 0).val = (z 0).val; omega
    | ⟨1, _⟩ => show win6_1.index t (1 : Fin 2) * 128 + 1 * (z 1).val = (z 1).val; omega
  have hb : tile6 V c 2 t = V c main_v105 := by
    funext z
    show V c main_v105 (((cfg6.win 2).blk t).view.emb z) = V c main_v105 z
    refine congrArg (V c main_v105) ?_
    funext a; apply Fin.ext
    match a with
    | ⟨0, _⟩ => show win6_2.index t (0 : Fin 2) * 1 + 1 * (z 0).val = (z 0).val; omega
    | ⟨1, _⟩ => show win6_2.index t (1 : Fin 2) * 128 + 1 * (z 1).val = (z 1).val; omega
  rw [hx, hw, hb]
  refine congrArg (k6_pay1 (rowsOf6 (V c main_v102) t.val ht) (V c main_v103) (V c main_v105)) ?_
  funext a
  match a with
  | ⟨0, _⟩ => rfl
  | ⟨1, _⟩ => rfl

/-- An entry of the result array lies in grid point `t`'s tile iff each coordinate lies in the tile's range on its axis. -/
theorem inTile6 (t : Fin cfg6.N) (i : S400000x128.Idx) :
    i ∈ ((cfg6.win 3).blk t).view.set ↔ ∀ a : Fin 2, win6_3.index t a * S10000x128.size a ≤ (i a).val ∧ (i a).val < win6_3.index t a * S10000x128.size a + S10000x128.size a := by
  show i ∈ ((View.whole main_v106).slice (win6_3.rect t)).set ↔ _
  rw [View.set_slice_whole, Rect.mem_set_unit]
  exact Iff.rfl

/-- Every entry of the result array is written back by some grid point: row `r` by point `r / 10000`. -/
theorem covered6 (i : S400000x128.Idx) : ∃ t : Fin cfg6.N, (cfg6.win 3).flush t = true ∧ i ∈ ((cfg6.win 3).blk t).view.set := by
  have hi0 := idx2_lt0 i
  have hi1 := idx2_lt1 i
  have hN : (i 0).val / 10000 < cfg6.N := by have hg : grid6.N = 40 := N_6; show (i 0).val / 10000 < grid6.N; omega
  obtain ⟨e0, e1, e2, e3, e4, e5, e6, e7⟩ := tileAt6 ⟨(i 0).val / 10000, hN⟩
  refine ⟨⟨(i 0).val / 10000, hN⟩, flush6_3 _, ?_⟩
  rw [inTile6]
  intro a
  match a with
  | ⟨0, _⟩ =>
    show win6_3.index ⟨(i 0).val / 10000, hN⟩ (0 : Fin 2) * 10000 ≤ (i 0).val ∧ (i 0).val < win6_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win6_3.index ⟨(i 0).val / 10000, hN⟩ (1 : Fin 2) * 128 ≤ (i 1).val ∧ (i 1).val < win6_3.index ⟨(i 0).val / 10000, hN⟩ (1 : Fin 2) * 128 + 128
    rw [e7]; omega

/-- After all grid points the layer's result array is `result6` of the three arrays the layer was entered with. -/
theorem final6 (c : Dev nD) : (data6 V c).arrAt 3 cfg6.N = result6 (V c main_v102) (V c main_v103) (V c main_v105) :=
  (data6 V c).arrAt_eq_of_cover 3 (result6 (V c main_v102) (V c main_v103) (V c main_v105)) (fun t _ => written6 V c t) (covered6)

end Cert.KernelIdeal.Hand

end
-- ==== Proof.KI.Host7.lean ====
/-
  The host operations in front of layer 7, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- An update layer's input: per node, its features beside the mean of the messages on its incoming edges (the sum
    over the edges that end at the node, divided by their number, or by one if there is none). -/
def updIn7 (h : (⟨S100000x128, .f32⟩ : BufTy).Contents (Elt F)) (mm : (⟨S400000x128, .f32⟩ : BufTy).Contents (Elt F)) (a2 : (⟨S400000, .i32⟩ : BufTy).Contents (Elt F)) : (⟨S100000x256, .f32⟩ : BufTy).Contents (Elt F) :=
  let cst_24 : (⟨S_, .f32⟩ : BufTy).Contents (Elt F) := (constant S_ .f32 0x00000000#32)
  let v107 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_24
  let v108 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let v109 : (⟨S100000x128, .f32⟩ : BufTy).Contents (Elt F) := ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)) v107 v108 mm
  let cst_26 : (⟨S_, .f32⟩ : BufTy).Contents (Elt F) := (constant S_ .f32 0x00000000#32)
  let v111 : (⟨S100000, .f32⟩ : BufTy).Contents (Elt F) := (broadcastInDim S100000 ![] bcast_S_S100000 : (⟨S_, .f32⟩ : BufTy).Contents (Elt F) → (⟨S100000, .f32⟩ : BufTy).Contents (Elt F)) cst_26
  let v112 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let cst_25 : (⟨S_, .f32⟩ : BufTy).Contents (Elt F) := (constant S_ .f32 0x3F800000#32)
  let v110 : (⟨S400000, .f32⟩ : BufTy).Contents (Elt F) := (broadcastInDim S400000 ![] bcast_S_S400000 : (⟨S_, .f32⟩ : BufTy).Contents (Elt F) → (⟨S400000, .f32⟩ : BufTy).Contents (Elt F)) cst_25
  let v113 : (⟨S100000, .f32⟩ : BufTy).Contents (Elt F) := ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)) v111 v112 v110
  let cst_27 : (⟨S_, .f32⟩ : BufTy).Contents (Elt F) := (constant S_ .f32 0x3F800000#32)
  let v114 : (⟨S100000, .f32⟩ : BufTy).Contents (Elt F) := (broadcastInDim S100000 ![] bcast_S_S100000 : (⟨S_, .f32⟩ : BufTy).Contents (Elt F) → (⟨S100000, .f32⟩ : BufTy).Contents (Elt F)) cst_27
  let v115 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v113 v114
  let v116 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v115
  let v117 : (⟨S100000x128, .f32⟩ : BufTy).Contents (Elt F) := (broadcastInDim S100000x128 ![0, 1] bcast_S100000x1_S100000x128_0_1 : (⟨S100000x1, .f32⟩ : BufTy).Contents (Elt F) → (⟨S100000x128, .f32⟩ : BufTy).Contents (Elt F)) v116
  let v118 : (⟨S100000x128, .f32⟩ : BufTy).Contents (Elt F) := (Host.divf : (⟨S100000x128, .f32⟩ : BufTy).Contents (Elt F) → (⟨S100000x128, .f32⟩ : BufTy).Contents (Elt F) → (⟨S100000x128, .f32⟩ : BufTy).Contents (Elt F)) v109 v117
  let v119 : (⟨S100000x256, .f32⟩ : BufTy).Contents (Elt F) := ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) h v118
  v119

/-- The layer's weights, transposed. -/
def wT7 (w : (⟨S128x256, .f32⟩ : BufTy).Contents (Elt F)) : (⟨S256x128, .f32⟩ : BufTy).Contents (Elt F) :=
  let v120 : (⟨S256x128, .f32⟩ : BufTy).Contents (Elt F) := ((transpose S256x128 [1, 0] · transposes_S128x256_S256x128_1_0) : (⟨S128x256, .f32⟩ : BufTy).Contents (Elt F) → (⟨S256x128, .f32⟩ : BufTy).Contents (Elt F)) w
  v120

/-- The layer's bias as a row. -/
def bRow7 (b : (⟨S128, .f32⟩ : BufTy).Contents (Elt F)) : (⟨S1x128, .f32⟩ : BufTy).Contents (Elt F) :=
  let v121 : (⟨S1x128, .f32⟩ : BufTy).Contents (Elt F) := shapeCast S1x128 b shapeCasts_S128_S1x128
  v121

set_option maxHeartbeats 1000000 in
theorem entry7_X (c : Dev nD) : (at15 m c (Proc.devRef .tc main_v119) : (⟨S100000x256, .f32⟩ : BufTy).Contents (Elt F)) = updIn7 (at14 m c main_v94) (at14 m c main_v106) (at14 m c main_arg2) := by
  show StableHlo.after hostOps7 (at14 m c) _ = _
  dsimp only [hostOps7]
  after_results_simp
  try dsimp only [Matrix.cons_val_zero, Matrix.cons_val_one, Matrix.head_cons, Matrix.cons_val_two, Matrix.tail_cons]
  results_by_rw
  rfl
set_option maxHeartbeats 1000000 in
theorem entry7_W (c : Dev nD) : (at15 m c (Proc.devRef .tc main_v120) : (⟨S256x128, .f32⟩ : BufTy).Contents (Elt F)) = wT7 (at14 m c main_arg17) := by
  show StableHlo.after hostOps7 (at14 m c) _ = _
  dsimp only [hostOps7]
  after_results_simp
  try dsimp only [Matrix.cons_val_zero, Matrix.cons_val_one, Matrix.head_cons, Matrix.cons_val_two, Matrix.tail_cons]
  results_by_rw
  rfl
set_option maxHeartbeats 1000000 in
theorem entry7_B (c : Dev nD) : (at15 m c (Proc.devRef .tc main_v121) : (⟨S1x128, .f32⟩ : BufTy).Contents (Elt F)) = bRow7 (at14 m c main_arg18) := by
  show StableHlo.after hostOps7 (at14 m c) _ = _
  dsimp only [hostOps7]
  after_results_simp
  try dsimp only [Matrix.cons_val_zero, Matrix.cons_val_one, Matrix.head_cons, Matrix.cons_val_two, Matrix.tail_cons]
  results_by_rw
  rfl

end Cert.KernelIdeal.Hand
end
-- ==== Proof.KI.Value7.lean ====
/-
  Layer 7's result array as ONE function of the three arrays the layer is entered with. Row `r` of the result lies in row
  tile `r / 10000`, at row `r % 10000` of that tile; the tile's contents are the layer's arithmetic on rows
  `(r / 10000) * 10000 … + 9999` of the input matrix, the whole weight matrix and the bias row. The 10 tiles cover all 100000 rows.
-/
import proofs.«101052_j75445395522274_1_alg».proof.Proof.KI.Layer7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin7 : (![0, 0] : Fin 2 → Nat) = fun _ => 0 := funext fun a => by fin_cases a <;> rfl

/-- The 10000 rows of tile `t` of the input matrix. -/
def rowsOf7 (X : Vec F S100000x256 .f32) (t : ℕ) (ht : t < 10) : Vec F S10000x256 .f32 :=
  fun y => X (ix2 (⟨t * 10000 + (y 0).val, by have := idx2_lt0 y; omega⟩ : Fin 100000) (⟨(y 1).val, idx2_lt1 y⟩ : Fin 256))

/-- The layer's result, whole: entry `(r, q)` is entry `(r % 10000, q)` of the layer's arithmetic on tile `r / 10000`. -/
def result7 (X : Vec F S100000x256 .f32) (W : Vec F S256x128 .f32) (B : Vec F S1x128 .f32) : Vec F S100000x128 .f32 :=
  fun i => k7_pay1 (rowsOf7 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result7_at (X : Vec F S100000x256 .f32) (W : Vec F S256x128 .f32) (B : Vec F S1x128 .f32) (t : ℕ) (ht : t < 10)
    (p : Fin 10000) (q : Fin 128) (i : S100000x128.Idx) (hi0 : (i 0).val = t * 10000 + p.val) (hi1 : (i 1).val = q.val) :
    result7 X W B i = k7_pay1 (rowsOf7 X t ht) W B (ix2 p q) := by
  unfold result7
  have hp := p.isLt
  have h1 : (i 0).val / 10000 = t := by omega
  subst h1
  refine congrArg (k7_pay1 (rowsOf7 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 10 grid points). -/
theorem tileAt7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What grid point `t` writes back is tile `t` of `result7` of the entry arrays. -/
theorem written7 (c : Dev nD) (t : Fin cfg7.N) :
    (data7 V c).flushed 3 t = ((cfg7.win 3).blk t).view.read (Elt F) (result7 (V c main_v119) (V c main_v120) (V c main_v121)) := by
  show (cfg7.win 3).cut (grid7.coords t) ((data7 V c).after 3 t) = _
  rw [after7_3]
  unfold stored7
  rw [View.canon_unit_zero origin7]
  simp only [View.ld_unit_zero (S := S10000x256) origin7, View.ld_unit_zero (S := S256x128) origin7, View.ld_unit_zero (S := S1x128) origin7]
  obtain ⟨e0, e1, e2, e3, e4, e5, e6, e7⟩ := tileAt7 t
  funext y
  have ht : t.val < 10 := N_7 ▸ t.isLt
  have hy0 : (y 0).val < 10000 := (y 0).isLt
  have hy1 : (y 1).val < 128 := (y 1).isLt
  show k7_pay1 (tile7 V c 0 t) (tile7 V c 1 t) (tile7 V c 2 t) y
    = result7 (V c main_v119) (V c main_v120) (V c main_v121) (((cfg7.win 3).blk t).view.emb y)
  rw [result7_at (V c main_v119) (V c main_v120) (V c main_v121) t.val ht ⟨(y 0).val, hy0⟩ ⟨(y 1).val, hy1⟩ _
    (by show win7_3.index t (0 : Fin 2) * 10000 + 1 * (y 0).val = t.val * 10000 + (y 0).val; omega)
    (by show win7_3.index t (1 : Fin 2) * 128 + 1 * (y 1).val = (y 1).val; omega)]
  have hx : tile7 V c 0 t = rowsOf7 (V c main_v119) t.val ht := by
    funext z
    show V c main_v119 (((cfg7.win 0).blk t).view.emb z) = V c main_v119 _
    refine congrArg (V c main_v119) ?_
    funext a; apply Fin.ext
    match a with
    | ⟨0, _⟩ => show win7_0.index t (0 : Fin 2) * 10000 + 1 * (z 0).val = t.val * 10000 + (z 0).val; omega
    | ⟨1, _⟩ => show win7_0.index t (1 : Fin 2) * 256 + 1 * (z 1).val = (z 1).val; omega
  have hw : tile7 V c 1 t = V c main_v120 := by
    funext z
    show V c main_v120 (((cfg7.win 1).blk t).view.emb z) = V c main_v120 z
    refine congrArg (V c main_v120) ?_
    funext a; apply Fin.ext
    match a with
    | ⟨0, _⟩ => show win7_1.index t (0 : Fin 2) * 256 + 1 * (z 0).val = (z 0).val; omega
    | ⟨1, _⟩ => show win7_1.index t (1 : Fin 2) * 128 + 1 * (z 1).val = (z 1).val; omega
  have hb : tile7 V c 2 t = V c main_v121 := by
    funext z
    show V c main_v121 (((cfg7.win 2).blk t).view.emb z) = V c main_v121 z
    refine congrArg (V c main_v121) ?_
    funext a; apply Fin.ext
    match a with
    | ⟨0, _⟩ => show win7_2.index t (0 : Fin 2) * 1 + 1 * (z 0).val = (z 0).val; omega
    | ⟨1, _⟩ => show win7_2.index t (1 : Fin 2) * 128 + 1 * (z 1).val = (z 1).val; omega
  rw [hx, hw, hb]
  refine congrArg (k7_pay1 (rowsOf7 (V c main_v119) t.val ht) (V c main_v120) (V c main_v121)) ?_
  funext a
  match a with
  | ⟨0, _⟩ => rfl
  | ⟨1, _⟩ => rfl

/-- An entry of the result array lies in grid point `t`'s tile iff each coordinate lies in the tile's range on its axis. -/
theorem inTile7 (t : Fin cfg7.N) (i : S100000x128.Idx) :
    i ∈ ((cfg7.win 3).blk t).view.set ↔ ∀ a : Fin 2, win7_3.index t a * S10000x128.size a ≤ (i a).val ∧ (i a).val < win7_3.index t a * S10000x128.size a + S10000x128.size a := by
  show i ∈ ((View.whole main_v122).slice (win7_3.rect t)).set ↔ _
  rw [View.set_slice_whole, Rect.mem_set_unit]
  exact Iff.rfl

/-- Every entry of the result array is written back by some grid point: row `r` by point `r / 10000`. -/
theorem covered7 (i : S100000x128.Idx) : ∃ t : Fin cfg7.N, (cfg7.win 3).flush t = true ∧ i ∈ ((cfg7.win 3).blk t).view.set := by
  have hi0 := idx2_lt0 i
  have hi1 := idx2_lt1 i
  have hN : (i 0).val / 10000 < cfg7.N := by have hg : grid7.N = 10 := N_7; show (i 0).val / 10000 < grid7.N; omega
  obtain ⟨e0, e1, e2, e3, e4, e5, e6, e7⟩ := tileAt7 ⟨(i 0).val / 10000, hN⟩
  refine ⟨⟨(i 0).val / 10000, hN⟩, flush7_3 _, ?_⟩
  rw [inTile7]
  intro a
  match a with
  | ⟨0, _⟩ =>
    show win7_3.index ⟨(i 0).val / 10000, hN⟩ (0 : Fin 2) * 10000 ≤ (i 0).val ∧ (i 0).val < win7_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win7_3.index ⟨(i 0).val / 10000, hN⟩ (1 : Fin 2) * 128 ≤ (i 1).val ∧ (i 1).val < win7_3.index ⟨(i 0).val / 10000, hN⟩ (1 : Fin 2) * 128 + 128
    rw [e7]; omega

/-- After all grid points the layer's result array is `result7` of the three arrays the layer was entered with. -/
theorem final7 (c : Dev nD) : (data7 V c).arrAt 3 cfg7.N = result7 (V c main_v119) (V c main_v120) (V c main_v121) :=
  (data7 V c).arrAt_eq_of_cover 3 (result7 (V c main_v119) (V c main_v120) (V c main_v121)) (fun t _ => written7 V c t) (covered7)

end Cert.KernelIdeal.Hand

end
-- ==== Proof.KI.Host8.lean ====
/-
  The host operations in front of layer 8, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- A message layer's input: per edge, the source node's features beside the edge's features. -/
def msgIn8 (h : (⟨S100000x128, .f32⟩ : BufTy).Contents (Elt F)) (a1 : (⟨S400000, .i32⟩ : BufTy).Contents (Elt F)) (e : (⟨S400000x3, .f32⟩ : BufTy).Contents (Elt F)) : (⟨S400000x131, .f32⟩ : BufTy).Contents (Elt F) :=
  let c_28 : (⟨S_, .i32⟩ : BufTy).Contents (Elt F) := (constantI S_ 32 0#32)
  let v123 : (⟨S400000, .i32⟩ : BufTy).Contents (Elt F) := (broadcastInDim S400000 ![] bcast_S_S400000 : (⟨S_, .i32⟩ : BufTy).Contents (Elt F) → (⟨S400000, .i32⟩ : BufTy).Contents (Elt F)) c_28
  let v124 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 v123
  let c_29 : (⟨S_, .i32⟩ : BufTy).Contents (Elt F) := (constantI S_ 32 100000#32)
  let v125 : (⟨S400000, .i32⟩ : BufTy).Contents (Elt F) := (broadcastInDim S400000 ![] bcast_S_S400000 : (⟨S_, .i32⟩ : BufTy).Contents (Elt F) → (⟨S400000, .i32⟩ : BufTy).Contents (Elt F)) c_29
  let v126 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 v125
  let v127 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) v124 v126 a1
  let v128 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) v127
  let v129 : (⟨S400000x128, .f32⟩ : BufTy).Contents (Elt F) := ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)) h v128
  let v130 : (⟨S400000x131, .f32⟩ : BufTy).Contents (Elt F) := ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) v129 e
  v130

/-- The layer's weights, transposed. -/
def wT8 (w : (⟨S128x131, .f32⟩ : BufTy).Contents (Elt F)) : (⟨S131x128, .f32⟩ : BufTy).Contents (Elt F) :=
  let v131 : (⟨S131x128, .f32⟩ : BufTy).Contents (Elt F) := ((transpose S131x128 [1, 0] · transposes_S128x131_S131x128_1_0) : (⟨S128x131, .f32⟩ : BufTy).Contents (Elt F) → (⟨S131x128, .f32⟩ : BufTy).Contents (Elt F)) w
  v131

/-- The layer's bias row: zeros. -/
def bRow8  : (⟨S1x128, .f32⟩ : BufTy).Contents (Elt F) :=
  let cst_30 : (⟨S_, .f32⟩ : BufTy).Contents (Elt F) := (constant S_ .f32 0x00000000#32)
  let v132 : (⟨S128, .f32⟩ : BufTy).Contents (Elt F) := (broadcastInDim S128 ![] bcast_S_S128 : (⟨S_, .f32⟩ : BufTy).Contents (Elt F) → (⟨S128, .f32⟩ : BufTy).Contents (Elt F)) cst_30
  let v133 : (⟨S1x128, .f32⟩ : BufTy).Contents (Elt F) := shapeCast S1x128 v132 shapeCasts_S128_S1x128
  v133

set_option maxHeartbeats 1000000 in
theorem entry8_X (c : Dev nD) : (at17 m c (Proc.devRef .tc main_v130) : (⟨S400000x131, .f32⟩ : BufTy).Contents (Elt F)) = msgIn8 (at16 m c main_v122) (at16 m c main_arg1) (at16 m c main_v10) := by
  show StableHlo.after hostOps8 (at16 m c) _ = _
  dsimp only [hostOps8]
  after_results_simp
  try dsimp only [Matrix.cons_val_zero, Matrix.cons_val_one, Matrix.head_cons, Matrix.cons_val_two, Matrix.tail_cons]
  results_by_rw
  rfl
set_option maxHeartbeats 1000000 in
theorem entry8_W (c : Dev nD) : (at17 m c (Proc.devRef .tc main_v131) : (⟨S131x128, .f32⟩ : BufTy).Contents (Elt F)) = wT8 (at16 m c main_arg19) := by
  show StableHlo.after hostOps8 (at16 m c) _ = _
  dsimp only [hostOps8]
  after_results_simp
  try dsimp only [Matrix.cons_val_zero, Matrix.cons_val_one, Matrix.head_cons, Matrix.cons_val_two, Matrix.tail_cons]
  results_by_rw
  rfl
set_option maxHeartbeats 1000000 in
theorem entry8_B (c : Dev nD) : (at17 m c (Proc.devRef .tc main_v133) : (⟨S1x128, .f32⟩ : BufTy).Contents (Elt F)) = bRow8 (F := F) := by
  show StableHlo.after hostOps8 (at16 m c) _ = _
  dsimp only [hostOps8]
  after_results_simp
  try dsimp only [Matrix.cons_val_zero, Matrix.cons_val_one, Matrix.head_cons, Matrix.cons_val_two, Matrix.tail_cons]
  results_by_rw
  rfl

end Cert.KernelIdeal.Hand
end
-- ==== Proof.KI.Value8.lean ====
/-
  Layer 8's result array as ONE function of the three arrays the layer is entered with. Row `r` of the result lies in row
  tile `r / 10000`, at row `r % 10000` of that tile; the tile's contents are the layer's arithmetic on rows
  `(r / 10000) * 10000 … + 9999` of the input matrix, the whole weight matrix and the bias row. The 40 tiles cover all 400000 rows.
-/
import proofs.«101052_j75445395522274_1_alg».proof.Proof.KI.Layer8
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin8 : (![0, 0] : Fin 2 → Nat) = fun _ => 0 := funext fun a => by fin_cases a <;> rfl

/-- The 10000 rows of tile `t` of the input matrix. -/
def rowsOf8 (X : Vec F S400000x131 .f32) (t : ℕ) (ht : t < 40) : Vec F S10000x131 .f32 :=
  fun y => X (ix2 (⟨t * 10000 + (y 0).val, by have := idx2_lt0 y; omega⟩ : Fin 400000) (⟨(y 1).val, idx2_lt1 y⟩ : Fin 131))

/-- The layer's result, whole: entry `(r, q)` is entry `(r % 10000, q)` of the layer's arithmetic on tile `r / 10000`. -/
def result8 (X : Vec F S400000x131 .f32) (W : Vec F S131x128 .f32) (B : Vec F S1x128 .f32) : Vec F S400000x128 .f32 :=
  fun i => k8_pay1 (rowsOf8 X ((i 0).val / 10000) (by have := idx2_lt0 i; omega)) W B
    (ix2 (⟨(i 0).val % 10000, Nat.mod_lt _ (by norm_num)⟩ : Fin 10000) (⟨(i 1).val, idx2_lt1 i⟩ : Fin 128))

/-- Entry `(t * 10000 + p, q)` of the result is entry `(p, q)` of the layer's arithmetic on tile `t`. -/
theorem result8_at (X : Vec F S400000x131 .f32) (W : Vec F S131x128 .f32) (B : Vec F S1x128 .f32) (t : ℕ) (ht : t < 40)
    (p : Fin 10000) (q : Fin 128) (i : S400000x128.Idx) (hi0 : (i 0).val = t * 10000 + p.val) (hi1 : (i 1).val = q.val) :
    result8 X W B i = k8_pay1 (rowsOf8 X t ht) W B (ix2 p q) := by
  unfold result8
  have hp := p.isLt
  have h1 : (i 0).val / 10000 = t := by omega
  subst h1
  refine congrArg (k8_pay1 (rowsOf8 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 40 grid points). -/
theorem tileAt8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What grid point `t` writes back is tile `t` of `result8` of the entry arrays. -/
theorem written8 (c : Dev nD) (t : Fin cfg8.N) :
    (data8 V c).flushed 3 t = ((cfg8.win 3).blk t).view.read (Elt F) (result8 (V c main_v130) (V c main_v131) (V c main_v133)) := by
  show (cfg8.win 3).cut (grid8.coords t) ((data8 V c).after 3 t) = _
  rw [after8_3]
  unfold stored8
  rw [View.canon_unit_zero origin8]
  simp only [View.ld_unit_zero (S := S10000x131) origin8, View.ld_unit_zero (S := S131x128) origin8, View.ld_unit_zero (S := S1x128) origin8]
  obtain ⟨e0, e1, e2, e3, e4, e5, e6, e7⟩ := tileAt8 t
  funext y
  have ht : t.val < 40 := N_8 ▸ t.isLt
  have hy0 : (y 0).val < 10000 := (y 0).isLt
  have hy1 : (y 1).val < 128 := (y 1).isLt
  show k8_pay1 (tile8 V c 0 t) (tile8 V c 1 t) (tile8 V c 2 t) y
    = result8 (V c main_v130) (V c main_v131) (V c main_v133) (((cfg8.win 3).blk t).view.emb y)
  rw [result8_at (V c main_v130) (V c main_v131) (V c main_v133) t.val ht ⟨(y 0).val, hy0⟩ ⟨(y 1).val, hy1⟩ _
    (by show win8_3.index t (0 : Fin 2) * 10000 + 1 * (y 0).val = t.val * 10000 + (y 0).val; omega)
    (by show win8_3.index t (1 : Fin 2) * 128 + 1 * (y 1).val = (y 1).val; omega)]
  have hx : tile8 V c 0 t = rowsOf8 (V c main_v130) t.val ht := by
    funext z
    show V c main_v130 (((cfg8.win 0).blk t).view.emb z) = V c main_v130 _
    refine congrArg (V c main_v130) ?_
    funext a; apply Fin.ext
    match a with
    | ⟨0, _⟩ => show win8_0.index t (0 : Fin 2) * 10000 + 1 * (z 0).val = t.val * 10000 + (z 0).val; omega
    | ⟨1, _⟩ => show win8_0.index t (1 : Fin 2) * 131 + 1 * (z 1).val = (z 1).val; omega
  have hw : tile8 V c 1 t = V c main_v131 := by
    funext z
    show V c main_v131 (((cfg8.win 1).blk t).view.emb z) = V c main_v131 z
    refine congrArg (V c main_v131) ?_
    funext a; apply Fin.ext
    match a with
    | ⟨0, _⟩ => show win8_1.index t (0 : Fin 2) * 131 + 1 * (z 0).val = (z 0).val; omega
    | ⟨1, _⟩ => show win8_1.index t (1 : Fin 2) * 128 + 1 * (z 1).val = (z 1).val; omega
  have hb : tile8 V c 2 t = V c main_v133 := by
    funext z
    show V c main_v133 (((cfg8.win 2).blk t).view.emb z) = V c main_v133 z
    refine congrArg (V c main_v133) ?_
    funext a; apply Fin.ext
    match a with
    | ⟨0, _⟩ => show win8_2.index t (0 : Fin 2) * 1 + 1 * (z 0).val = (z 0).val; omega
    | ⟨1, _⟩ => show win8_2.index t (1 : Fin 2) * 128 + 1 * (z 1).val = (z 1).val; omega
  rw [hx, hw, hb]
  refine congrArg (k8_pay1 (rowsOf8 (V c main_v130) t.val ht) (V c main_v131) (V c main_v133)) ?_
  funext a
  match a with
  | ⟨0, _⟩ => rfl
  | ⟨1, _⟩ => rfl

/-- An entry of the result array lies in grid point `t`'s tile iff each coordinate lies in the tile's range on its axis. -/
theorem inTile8 (t : Fin cfg8.N) (i : S400000x128.Idx) :
    i ∈ ((cfg8.win 3).blk t).view.set ↔ ∀ a : Fin 2, win8_3.index t a * S10000x128.size a ≤ (i a).val ∧ (i a).val < win8_3.index t a * S10000x128.size a + S10000x128.size a := by
  show i ∈ ((View.whole main_v134).slice (win8_3.rect t)).set ↔ _
  rw [View.set_slice_whole, Rect.mem_set_unit]
  exact Iff.rfl

/-- Every entry of the result array is written back by some grid point: row `r` by point `r / 10000`. -/
theorem covered8 (i : S400000x128.Idx) : ∃ t : Fin cfg8.N, (cfg8.win 3).flush t = true ∧ i ∈ ((cfg8.win 3).blk t).view.set := by
  have hi0 := idx2_lt0 i
  have hi1 := idx2_lt1 i
  have hN : (i 0).val / 10000 < cfg8.N := by have hg : grid8.N = 40 := N_8; show (i 0).val / 10000 < grid8.N; omega
  obtain ⟨e0, e1, e2, e3, e4, e5, e6, e7⟩ := tileAt8 ⟨(i 0).val / 10000, hN⟩
  refine ⟨⟨(i 0).val / 10000, hN⟩, flush8_3 _, ?_⟩
  rw [inTile8]
  intro a
  match a with
  | ⟨0, _⟩ =>
    show win8_3.index ⟨(i 0).val / 10000, hN⟩ (0 : Fin 2) * 10000 ≤ (i 0).val ∧ (i 0).val < win8_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win8_3.index ⟨(i 0).val / 10000, hN⟩ (1 : Fin 2) * 128 ≤ (i 1).val ∧ (i 1).val < win8_3.index ⟨(i 0).val / 10000, hN⟩ (1 : Fin 2) * 128 + 128
    rw [e7]; omega

/-- After all grid points the layer's result array is `result8` of the three arrays the layer was entered with. -/
theorem final8 (c : Dev nD) : (data8 V c).arrAt 3 cfg8.N = result8 (V c main_v130) (V c main_v131) (V c main_v133) :=
  (data8 V c).arrAt_eq_of_cover 3 (result8 (V c main_v130) (V c main_v131) (V c main_v133)) (fun t _ => written8 V c t) (covered8)

end Cert.KernelIdeal.Hand

end
-- ==== Proof.KI.Host9.lean ====
/-
  The host operations in front of layer 9, read as plain functions: the layer's input matrix, its transposed weights and
  its bias row, each from the arrays held before these operations run.
-/
import proofs.«101052_j75445395522274_1_alg».proof.Proof.KI.Run
import proofs.«101052_j75445395522274_1_alg».proof.Proof.LibFoldSteps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib

variable (m : (ℓ : Loc nD τ sig) → Buf (Elt F) ℓ)

/-- An update layer's input: per node, its features beside the mean of the messages on its incoming edges (the sum
    over the edges that end at the node, divided by their number, or by one if there is none). -/
def updIn9 (h : (⟨S100000x128, .f32⟩ : BufTy).Contents (Elt F)) (mm : (⟨S400000x128, .f32⟩ : BufTy).Contents (Elt F)) (a2 : (⟨S400000, .i32⟩ : BufTy).Contents (Elt F)) : (⟨S100000x256, .f32⟩ : BufTy).Contents (Elt F) :=
  let cst_31 : (⟨S_, .f32⟩ : BufTy).Contents (Elt F) := (constant S_ .f32 0x00000000#32)
  let v135 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_31
  let v136 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let v137 : (⟨S100000x128, .f32⟩ : BufTy).Contents (Elt F) := ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)) v135 v136 mm
  let cst_33 : (⟨S_, .f32⟩ : BufTy).Contents (Elt F) := (constant S_ .f32 0x00000000#32)
  let v139 : (⟨S100000, .f32⟩ : BufTy).Contents (Elt F) := (broadcastInDim S100000 ![] bcast_S_S100000 : (⟨S_, .f32⟩ : BufTy).Contents (Elt F) → (⟨S100000, .f32⟩ : BufTy).Contents (Elt F)) cst_33
  let v140 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) a2
  let cst_32 : (⟨S_, .f32⟩ : BufTy).Contents (Elt F) := (constant S_ .f32 0x3F800000#32)
  let v138 : (⟨S400000, .f32⟩ : BufTy).Contents (Elt F) := (broadcastInDim S400000 ![] bcast_S_S400000 : (⟨S_, .f32⟩ : BufTy).Contents (Elt F) → (⟨S400000, .f32⟩ : BufTy).Contents (Elt F)) cst_32
  let v141 : (⟨S100000, .f32⟩ : BufTy).Contents (Elt F) := ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)) v139 v140 v138
  let cst_34 : (⟨S_, .f32⟩ : BufTy).Contents (Elt F) := (constant S_ .f32 0x3F800000#32)
  let v142 : (⟨S100000, .f32⟩ : BufTy).Contents (Elt F) := (broadcastInDim S100000 ![] bcast_S_S100000 : (⟨S_, .f32⟩ : BufTy).Contents (Elt F) → (⟨S100000, .f32⟩ : BufTy).Contents (Elt F)) cst_34
  let v143 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v141 v142
  let v144 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v143
  let v145 : (⟨S100000x128, .f32⟩ : BufTy).Contents (Elt F) := (broadcastInDim S100000x128 ![0, 1] bcast_S100000x1_S100000x128_0_1 : (⟨S100000x1, .f32⟩ : BufTy).Contents (Elt F) → (⟨S100000x128, .f32⟩ : BufTy).Contents (Elt F)) v144
  let v146 : (⟨S100000x128, .f32⟩ : BufTy).Contents (Elt F) := (Host.divf : (⟨S100000x128, .f32⟩ : BufTy).Contents (Elt F) → (⟨S100000x128, .f32⟩ : BufTy).Contents (Elt F) → (⟨S100000x128, .f32⟩ : BufTy).Contents (Elt F)) v137 v145
  let v147 : (⟨S100000x256, .f32⟩ : BufTy).Contents (Elt F) := ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) h v146
  v147

/-- The layer's weights, transposed. -/
def wT9 (w : (⟨S64x256, .f32⟩ : BufTy).Contents (Elt F)) : (⟨S256x64, .f32⟩ : BufTy).Contents (Elt F) :=
  let v148 : (⟨S256x64, .f32⟩ : BufTy).Contents (Elt F) := ((transpose S256x64 [1, 0] · transposes_S64x256_S256x64_1_0) : (⟨S64x256, .f32⟩ : BufTy).Contents (Elt F) → (⟨S256x64, .f32⟩ : BufTy).Contents (Elt F)) w
  v148

/-- The layer's bias as a row. -/
def bRow9 (b : (⟨S64, .f32⟩ : BufTy).Contents (Elt F)) : (⟨S1x64, .f32⟩ : BufTy).Contents (Elt F) :=
  let v149 : (⟨S1x64, .f32⟩ : BufTy).Contents (Elt F) := shapeCast S1x64 b shapeCasts_S64_S1x64
  v149

set_option maxHeartbeats 1000000 in
theorem entry9_X (c : Dev nD) : (at19 m c (Proc.devRef .tc main_v147) : (⟨S100000x256, .f32⟩ : BufTy).Contents (Elt F)) = updIn9 (at18 m c main_v122) (at18 m c main_v134) (at18 m c main_arg2) := by
  show StableHlo.after hostOps9 (at18 m c) _ = _
  dsimp only [hostOps9]
  after_results_simp
  try dsimp only [Matrix.cons_val_zero, Matrix.cons_val_one, Matrix.head_cons, Matrix.cons_val_two, Matrix.tail_cons]
  results_by_rw
  rfl
set_option maxHeartbeats 1000000 in
theorem entry9_W (c : Dev nD) : (at19 m c (Proc.devRef .tc main_v148) : (⟨S256x64, .f32⟩ : BufTy).Contents (Elt F)) = wT9 (at18 m c main_arg20) := by
  show StableHlo.after hostOps9 (at18 m c) _ = _
  dsimp only [hostOps9]
  after_results_simp
  try dsimp only [Matrix.cons_val_zero, Matrix.cons_val_one, Matrix.head_cons, Matrix.cons_val_two, Matrix.tail_cons]
  results_by_rw
  rfl
set_option maxHeartbeats 1000000 in
theorem entry9_B (c : Dev nD) : (at19 m c (Proc.devRef .tc main_v149) : (⟨S1x64, .f32⟩ : BufTy).Contents (Elt F)) = bRow9 (at18 m c main_arg21) := by
  show StableHlo.after hostOps9 (at18 m c) _ = _
  dsimp only [hostOps9]
  after_results_simp
  try dsimp only [Matrix.cons_val_zero, Matrix.cons_val_one, Matrix.head_cons, Matrix.cons_val_two, Matrix.tail_cons]
  results_by_rw
  rfl

end Cert.KernelIdeal.Hand
end
-- ==== Proof.KI.Value9.lean ====
/-
  Layer 9's result array as ONE function of the three arrays the layer is entered with. Row `r` of the result lies in row
  tile `r / 10000`, at row `r % 10000` of that tile; the tile's contents are the layer's arithmetic on rows
  `(r / 10000) * 10000 … + 9999` of the input matrix, the whole weight matrix and the bias row. The 10 tiles cover all 100000 rows.
-/
import proofs.«101052_j75445395522274_1_alg».proof.Proof.KI.Layer9
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem origin9 : (![0, 0] : Fin 2 → Nat) = fun _ => 0 := funext fun a => by fin_cases a <;> rfl

/-- The 10000 rows of tile `t` of the input matrix. -/
def rowsOf9 (X : Vec F S100000x256 .f32) (t : ℕ) (ht : t < 10) : Vec F S10000x256 .f32 :=
  fun y => X (ix2 (⟨t * 10000 + (y 0).val, by have := idx2_lt0 y; omega⟩ : Fin 100000) (⟨(y 1).val, idx2_lt1 y⟩ : Fin 256))

/-- The layer's result, whole: entry `(r, q)` is entry `(r % 10000, q)` of the layer's arithmetic on tile `r / 10000`. -/
def result9 (X : Vec F S100000x256 .f32) (W : Vec F S256x64 .f32) (B : Vec F S1x64 .f32) : Vec F S100000x64 .f32 :=
  fun i => k9_pay1 (rowsOf9 X ((i 0).val / 10000) (by have := idx2_lt0 i; omega)) W B
    (ix2 (⟨(i 0).val % 10000, Nat.mod_lt _ (by norm_num)⟩ : Fin 10000) (⟨(i 1).val, idx2_lt1 i⟩ : Fin 64))

/-- Entry `(t * 10000 + p, q)` of the result is entry `(p, q)` of the layer's arithmetic on tile `t`. -/
theorem result9_at (X : Vec F S100000x256 .f32) (W : Vec F S256x64 .f32) (B : Vec F S1x64 .f32) (t : ℕ) (ht : t < 10)
    (p : Fin 10000) (q : Fin 64) (i : S100000x64.Idx) (hi0 : (i 0).val = t * 10000 + p.val) (hi1 : (i 1).val = q.val) :
    result9 X W B i = k9_pay1 (rowsOf9 X t ht) W B (ix2 p q) := by
  unfold result9
  have hp := p.isLt
  have h1 : (i 0).val / 10000 = t := by omega
  subst h1
  refine congrArg (k9_pay1 (rowsOf9 X ((i 0).val / 10000) ht) W B) ?_
  funext a
  match a with
  | ⟨0, _⟩ => exact Fin.ext (by show (i 0).val % 10000 = p.val; omega)
  | ⟨1, _⟩ => exact Fin.ext hi1

/-- Where each window's tile sits at grid point `t`: the row tiles at tile number `t`, the weights and the bias at their
    one tile (decided over the 10 grid points). -/
theorem tileAt9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What grid point `t` writes back is tile `t` of `result9` of the entry arrays. -/
theorem written9 (c : Dev nD) (t : Fin cfg9.N) :
    (data9 V c).flushed 3 t = ((cfg9.win 3).blk t).view.read (Elt F) (result9 (V c main_v147) (V c main_v148) (V c main_v149)) := by
  show (cfg9.win 3).cut (grid9.coords t) ((data9 V c).after 3 t) = _
  rw [after9_3]
  unfold stored9
  rw [View.canon_unit_zero origin9]
  simp only [View.ld_unit_zero (S := S10000x256) origin9, View.ld_unit_zero (S := S256x64) origin9, View.ld_unit_zero (S := S1x64) origin9]
  obtain ⟨e0, e1, e2, e3, e4, e5, e6, e7⟩ := tileAt9 t
  funext y
  have ht : t.val < 10 := N_9 ▸ t.isLt
  have hy0 : (y 0).val < 10000 := (y 0).isLt
  have hy1 : (y 1).val < 64 := (y 1).isLt
  show k9_pay1 (tile9 V c 0 t) (tile9 V c 1 t) (tile9 V c 2 t) y
    = result9 (V c main_v147) (V c main_v148) (V c main_v149) (((cfg9.win 3).blk t).view.emb y)
  rw [result9_at (V c main_v147) (V c main_v148) (V c main_v149) t.val ht ⟨(y 0).val, hy0⟩ ⟨(y 1).val, hy1⟩ _
    (by show win9_3.index t (0 : Fin 2) * 10000 + 1 * (y 0).val = t.val * 10000 + (y 0).val; omega)
    (by show win9_3.index t (1 : Fin 2) * 64 + 1 * (y 1).val = (y 1).val; omega)]
  have hx : tile9 V c 0 t = rowsOf9 (V c main_v147) t.val ht := by
    funext z
    show V c main_v147 (((cfg9.win 0).blk t).view.emb z) = V c main_v147 _
    refine congrArg (V c main_v147) ?_
    funext a; apply Fin.ext
    match a with
    | ⟨0, _⟩ => show win9_0.index t (0 : Fin 2) * 10000 + 1 * (z 0).val = t.val * 10000 + (z 0).val; omega
    | ⟨1, _⟩ => show win9_0.index t (1 : Fin 2) * 256 + 1 * (z 1).val = (z 1).val; omega
  have hw : tile9 V c 1 t = V c main_v148 := by
    funext z
    show V c main_v148 (((cfg9.win 1).blk t).view.emb z) = V c main_v148 z
    refine congrArg (V c main_v148) ?_
    funext a; apply Fin.ext
    match a with
    | ⟨0, _⟩ => show win9_1.index t (0 : Fin 2) * 256 + 1 * (z 0).val = (z 0).val; omega
    | ⟨1, _⟩ => show win9_1.index t (1 : Fin 2) * 64 + 1 * (z 1).val = (z 1).val; omega
  have hb : tile9 V c 2 t = V c main_v149 := by
    funext z
    show V c main_v149 (((cfg9.win 2).blk t).view.emb z) = V c main_v149 z
    refine congrArg (V c main_v149) ?_
    funext a; apply Fin.ext
    match a with
    | ⟨0, _⟩ => show win9_2.index t (0 : Fin 2) * 1 + 1 * (z 0).val = (z 0).val; omega
    | ⟨1, _⟩ => show win9_2.index t (1 : Fin 2) * 64 + 1 * (z 1).val = (z 1).val; omega
  rw [hx, hw, hb]
  refine congrArg (k9_pay1 (rowsOf9 (V c main_v147) t.val ht) (V c main_v148) (V c main_v149)) ?_
  funext a
  match a with
  | ⟨0, _⟩ => rfl
  | ⟨1, _⟩ => rfl

/-- An entry of the result array lies in grid point `t`'s tile iff each coordinate lies in the tile's range on its axis. -/
theorem inTile9 (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v150).slice (win9_3.rect t)).set ↔ _
  rw [View.set_slice_whole, Rect.mem_set_unit]
  exact Iff.rfl

/-- Every entry of the result array is written back by some grid point: row `r` by point `r / 10000`. -/
theorem covered9 (i : S100000x64.Idx) : ∃ t : Fin cfg9.N, (cfg9.win 3).flush t = true ∧ i ∈ ((cfg9.win 3).blk t).view.set := by
  have hi0 := idx2_lt0 i
  have hi1 := idx2_lt1 i
  have hN : (i 0).val / 10000 < cfg9.N := by have hg : grid9.N = 10 := N_9; show (i 0).val / 10000 < grid9.N; omega
  obtain ⟨e0, e1, e2, e3, e4, e5, e6, e7⟩ := tileAt9 ⟨(i 0).val / 10000, hN⟩
  refine ⟨⟨(i 0).val / 10000, hN⟩, flush9_3 _, ?_⟩
  rw [inTile9]
  intro a
  match a with
  | ⟨0, _⟩ =>
    show win9_3.index ⟨(i 0).val / 10000, hN⟩ (0 : Fin 2) * 10000 ≤ (i 0).val ∧ (i 0).val < win9_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win9_3.index ⟨(i 0).val / 10000, hN⟩ (1 : Fin 2) * 64 ≤ (i 1).val ∧ (i 1).val < win9_3.index ⟨(i 0).val / 10000, hN⟩ (1 : Fin 2) * 64 + 64
    rw [e7]; omega

/-- After all grid points the layer's result array is `result9` of the three arrays the layer was entered with. -/
theorem final9 (c : Dev nD) : (data9 V c).arrAt 3 cfg9.N = result9 (V c main_v147) (V c main_v148) (V c main_v149) :=
  (data9 V c).arrAt_eq_of_cover 3 (result9 (V c main_v147) (V c main_v148) (V c main_v149)) (fun t _ => written9 V c t) (covered9)

end Cert.KernelIdeal.Hand

end
-- ==== Proof.KI.Net.lean ====
/-
  The kernel program's arrays, layer by layer. Named here: the edge features, the node features before the first layer,
  and for each of the five layer pairs the messages and the new node features, each as the layer's whole-array result on
  the previous ones. Shown: after each layer the program's buffers hold exactly these (an array no later step writes is
  carried along unchanged), so the program's result is the last of them.
-/
import proofs.«101052_j75445395522274_1_alg».proof.Proof.KI.Host0
import proofs.«101052_j75445395522274_1_alg».proof.Proof.KI.Value0
import proofs.«101052_j75445395522274_1_alg».proof.Proof.KI.Host1
import proofs.«101052_j75445395522274_1_alg».proof.Proof.KI.Value1
import proofs.«101052_j75445395522274_1_alg».proof.Proof.KI.Host2
import proofs.«101052_j75445395522274_1_alg».proof.Proof.KI.Value2
import proofs.«101052_j75445395522274_1_alg».proof.Proof.KI.Host3
import proofs.«101052_j75445395522274_1_alg».proof.Proof.KI.Value3
import proofs.«101052_j75445395522274_1_alg».proof.Proof.KI.Host4
import proofs.«101052_j75445395522274_1_alg».proof.Proof.KI.Value4
import proofs.«101052_j75445395522274_1_alg».proof.Proof.KI.Host5
import proofs.«101052_j75445395522274_1_alg».proof.Proof.KI.Value5
import proofs.«101052_j75445395522274_1_alg».proof.Proof.KI.Host6
import proofs.«101052_j75445395522274_1_alg».proof.Proof.KI.Value6
import proofs.«101052_j75445395522274_1_alg».proof.Proof.KI.Host7
import proofs.«101052_j75445395522274_1_alg».proof.Proof.KI.Value7
import proofs.«101052_j75445395522274_1_alg».proof.Proof.KI.Host8
import proofs.«101052_j75445395522274_1_alg».proof.Proof.KI.Value8
import proofs.«101052_j75445395522274_1_alg».proof.Proof.KI.Host9
import proofs.«101052_j75445395522274_1_alg».proof.Proof.KI.Value9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer that the steps in between leave alone -/

theorem carry_0_2 (c : Dev nD) (r : Ref sig .tc) (h0 : r ∉ hostOps0_W) (g0 : ∀ w, Pipeline.arrRef spec0 w ≠ r) :
    at2 m c (Proc.devRef .tc r) = at0 m c (Proc.devRef .tc r) :=
  (at2_of_ne m c r g0).trans <|
  (StableHlo.after_of_writes_sub hostOps0 _ hostOps0_writes h0).trans <| rfl

theorem carry_0_4 (c : Dev nD) (r : Ref sig .tc) (h0 : r ∉ hostOps0_W) (g0 : ∀ w, Pipeline.arrRef spec0 w ≠ r) (h1 : r ∉ hostOps1_W) (g1 : ∀ w, Pipeline.arrRef spec1 w ≠ r) :
    at4 m c (Proc.devRef .tc r) = at0 m c (Proc.devRef .tc r) :=
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_0_6 (c : Dev nD) (r : Ref sig .tc) (h0 : r ∉ hostOps0_W) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) :
    at6 m c (Proc.devRef .tc r) = at0 m c (Proc.devRef .tc r) :=
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_0_8 (c : Dev nD) (r : Ref sig .tc) (h0 : r ∉ hostOps0_W) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) :
    at8 m c (Proc.devRef .tc r) = at0 m c (Proc.devRef .tc r) :=
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_0_10 (c : Dev nD) (r : Ref sig .tc) (h0 : r ∉ hostOps0_W) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) (h4 : r ∉ hostOps4_W) (g4 : ∀ w, Pipeline.arrRef spec4 w ≠ r) :
    at10 m c (Proc.devRef .tc r) = at0 m c (Proc.devRef .tc r) :=
  (at10_of_ne m c r g4).trans <|
  (StableHlo.after_of_writes_sub hostOps4 _ hostOps4_writes h4).trans <|
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_0_12 (c : Dev nD) (r : Ref sig .tc) (h0 : r ∉ hostOps0_W) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) (h4 : r ∉ hostOps4_W) (g4 : ∀ w, Pipeline.arrRef spec4 w ≠ r) (h5 : r ∉ hostOps5_W) (g5 : ∀ w, Pipeline.arrRef spec5 w ≠ r) :
    at12 m c (Proc.devRef .tc r) = at0 m c (Proc.devRef .tc r) :=
  (at12_of_ne m c r g5).trans <|
  (StableHlo.after_of_writes_sub hostOps5 _ hostOps5_writes h5).trans <|
  (at10_of_ne m c r g4).trans <|
  (StableHlo.after_of_writes_sub hostOps4 _ hostOps4_writes h4).trans <|
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_0_14 (c : Dev nD) (r : Ref sig .tc) (h0 : r ∉ hostOps0_W) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) (h4 : r ∉ hostOps4_W) (g4 : ∀ w, Pipeline.arrRef spec4 w ≠ r) (h5 : r ∉ hostOps5_W) (g5 : ∀ w, Pipeline.arrRef spec5 w ≠ r) (h6 : r ∉ hostOps6_W) (g6 : ∀ w, Pipeline.arrRef spec6 w ≠ r) :
    at14 m c (Proc.devRef .tc r) = at0 m c (Proc.devRef .tc r) :=
  (at14_of_ne m c r g6).trans <|
  (StableHlo.after_of_writes_sub hostOps6 _ hostOps6_writes h6).trans <|
  (at12_of_ne m c r g5).trans <|
  (StableHlo.after_of_writes_sub hostOps5 _ hostOps5_writes h5).trans <|
  (at10_of_ne m c r g4).trans <|
  (StableHlo.after_of_writes_sub hostOps4 _ hostOps4_writes h4).trans <|
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_0_16 (c : Dev nD) (r : Ref sig .tc) (h0 : r ∉ hostOps0_W) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) (h4 : r ∉ hostOps4_W) (g4 : ∀ w, Pipeline.arrRef spec4 w ≠ r) (h5 : r ∉ hostOps5_W) (g5 : ∀ w, Pipeline.arrRef spec5 w ≠ r) (h6 : r ∉ hostOps6_W) (g6 : ∀ w, Pipeline.arrRef spec6 w ≠ r) (h7 : r ∉ hostOps7_W) (g7 : ∀ w, Pipeline.arrRef spec7 w ≠ r) :
    at16 m c (Proc.devRef .tc r) = at0 m c (Proc.devRef .tc r) :=
  (at16_of_ne m c r g7).trans <|
  (StableHlo.after_of_writes_sub hostOps7 _ hostOps7_writes h7).trans <|
  (at14_of_ne m c r g6).trans <|
  (StableHlo.after_of_writes_sub hostOps6 _ hostOps6_writes h6).trans <|
  (at12_of_ne m c r g5).trans <|
  (StableHlo.after_of_writes_sub hostOps5 _ hostOps5_writes h5).trans <|
  (at10_of_ne m c r g4).trans <|
  (StableHlo.after_of_writes_sub hostOps4 _ hostOps4_writes h4).trans <|
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_0_18 (c : Dev nD) (r : Ref sig .tc) (h0 : r ∉ hostOps0_W) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) (h4 : r ∉ hostOps4_W) (g4 : ∀ w, Pipeline.arrRef spec4 w ≠ r) (h5 : r ∉ hostOps5_W) (g5 : ∀ w, Pipeline.arrRef spec5 w ≠ r) (h6 : r ∉ hostOps6_W) (g6 : ∀ w, Pipeline.arrRef spec6 w ≠ r) (h7 : r ∉ hostOps7_W) (g7 : ∀ w, Pipeline.arrRef spec7 w ≠ r) (h8 : r ∉ hostOps8_W) (g8 : ∀ w, Pipeline.arrRef spec8 w ≠ r) :
    at18 m c (Proc.devRef .tc r) = at0 m c (Proc.devRef .tc r) :=
  (at18_of_ne m c r g8).trans <|
  (StableHlo.after_of_writes_sub hostOps8 _ hostOps8_writes h8).trans <|
  (at16_of_ne m c r g7).trans <|
  (StableHlo.after_of_writes_sub hostOps7 _ hostOps7_writes h7).trans <|
  (at14_of_ne m c r g6).trans <|
  (StableHlo.after_of_writes_sub hostOps6 _ hostOps6_writes h6).trans <|
  (at12_of_ne m c r g5).trans <|
  (StableHlo.after_of_writes_sub hostOps5 _ hostOps5_writes h5).trans <|
  (at10_of_ne m c r g4).trans <|
  (StableHlo.after_of_writes_sub hostOps4 _ hostOps4_writes h4).trans <|
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <|
  (StableHlo.after_of_writes_sub hostOps0 _ hostOps0_writes h0).trans <| rfl

theorem carry_1_2 (c : Dev nD) (r : Ref sig .tc) (g0 : ∀ w, Pipeline.arrRef spec0 w ≠ r) :
    at2 m c (Proc.devRef .tc r) = at1 m c (Proc.devRef .tc r) :=
  (at2_of_ne m c r g0).trans <| rfl

theorem carry_1_4 (c : Dev nD) (r : Ref sig .tc) (g0 : ∀ w, Pipeline.arrRef spec0 w ≠ r) (h1 : r ∉ hostOps1_W) (g1 : ∀ w, Pipeline.arrRef spec1 w ≠ r) :
    at4 m c (Proc.devRef .tc r) = at1 m c (Proc.devRef .tc r) :=
  (at4_of_ne m c r g1).trans <|
  (StableHlo.after_of_writes_sub hostOps1 _ hostOps1_writes h1).trans <|
  (at2_of_ne m c r g0).trans <| rfl

theorem carry_1_8 (c : Dev nD) (r : Ref sig .tc) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) :
    at8 m c (Proc.devRef .tc r) = at1 m c (Proc.devRef .tc r) :=
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <| rfl

theorem carry_1_12 (c : Dev nD) (r : Ref sig .tc) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) (h4 : r ∉ hostOps4_W) (g4 : ∀ w, Pipeline.arrRef spec4 w ≠ r) (h5 : r ∉ hostOps5_W) (g5 : ∀ w, Pipeline.arrRef spec5 w ≠ r) :
    at12 m c (Proc.devRef .tc r) = at1 m c (Proc.devRef .tc r) :=
  (at12_of_ne m c r g5).trans <|
  (StableHlo.after_of_writes_sub hostOps5 _ hostOps5_writes h5).trans <|
  (at10_of_ne m c r g4).trans <|
  (StableHlo.after_of_writes_sub hostOps4 _ hostOps4_writes h4).trans <|
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <| rfl

theorem carry_1_16 (c : Dev nD) (r : Ref sig .tc) (g0 : ∀ w, Pipeline.arrRef spec0 w ≠ r) (h1 : r ∉ hostOps1_W) (g1 : ∀ w, Pipeline.arrRef spec1 w ≠ r) (h2 : r ∉ hostOps2_W) (g2 : ∀ w, Pipeline.arrRef spec2 w ≠ r) (h3 : r ∉ hostOps3_W) (g3 : ∀ w, Pipeline.arrRef spec3 w ≠ r) (h4 : r ∉ hostOps4_W) (g4 : ∀ w, Pipeline.arrRef spec4 w ≠ r) (h5 : r ∉ hostOps5_W) (g5 : ∀ w, Pipeline.arrRef spec5 w ≠ r) (h6 : r ∉ hostOps6_W) (g6 : ∀ w, Pipeline.arrRef spec6 w ≠ r) (h7 : r ∉ hostOps7_W) (g7 : ∀ w, Pipeline.arrRef spec7 w ≠ r) :
    at16 m c (Proc.devRef .tc r) = at1 m c (Proc.devRef .tc r) :=
  (at16_of_ne m c r g7).trans <|
  (StableHlo.after_of_writes_sub hostOps7 _ hostOps7_writes h7).trans <|
  (at14_of_ne m c r g6).trans <|
  (StableHlo.after_of_writes_sub hostOps6 _ hostOps6_writes h6).trans <|
  (at12_of_ne m c r g5).trans <|
  (StableHlo.after_of_writes_sub hostOps5 _ hostOps5_writes h5).trans <|
  (at10_of_ne m c r g4).trans <|
  (StableHlo.after_of_writes_sub hostOps4 _ hostOps4_writes h4).trans <|
  (at8_of_ne m c r g3).trans <|
  (StableHlo.after_of_writes_sub hostOps3 _ hostOps3_writes h3).trans <|
  (at6_of_ne m c r g2).trans <|
  (StableHlo.after_of_writes_sub hostOps2 _ hostOps2_writes h2).trans <|
  (at4_of_ne m c r g1).trans <|
  (StableHlo.after_of_writes_sub hostOps1 _ hostOps1_writes h1).trans <|
  (at2_of_ne m c r g0).trans <| rfl

theorem carry_4_6 (c : Dev nD) (r : Ref sig .tc) (h2 : r ∉ hostOps2_W) (g2 : ∀ w, Pipeline.arrRef spec2 w ≠ r) :
    at6 m c (Proc.devRef .tc r) = at4 m c (Proc.devRef .tc r) :=
  (at6_of_ne m c r g2).trans <|
  (StableHlo.after_of_writes_sub hostOps2 _ hostOps2_writes h2).trans <| rfl

theorem carry_8_10 (c : Dev nD) (r : Ref sig .tc) (h4 : r ∉ hostOps4_W) (g4 : ∀ w, Pipeline.arrRef spec4 w ≠ r) :
    at10 m c (Proc.devRef .tc r) = at8 m c (Proc.devRef .tc r) :=
  (at10_of_ne m c r g4).trans <|
  (StableHlo.after_of_writes_sub hostOps4 _ hostOps4_writes h4).trans <| rfl

theorem carry_12_14 (c : Dev nD) (r : Ref sig .tc) (h6 : r ∉ hostOps6_W) (g6 : ∀ w, Pipeline.arrRef spec6 w ≠ r) :
    at14 m c (Proc.devRef .tc r) = at12 m c (Proc.devRef .tc r) :=
  (at14_of_ne m c r g6).trans <|
  (StableHlo.after_of_writes_sub hostOps6 _ hostOps6_writes h6).trans <| rfl

theorem carry_16_18 (c : Dev nD) (r : Ref sig .tc) (h8 : r ∉ hostOps8_W) (g8 : ∀ w, Pipeline.arrRef spec8 w ≠ r) :
    at18 m c (Proc.devRef .tc r) = at16 m c (Proc.devRef .tc r) :=
  (at18_of_ne m c r g8).trans <|
  (StableHlo.after_of_writes_sub hostOps8 _ hostOps8_writes h8).trans <| rfl

/-! ## What each layer leaves in its result array -/

theorem out0 (c : Dev nD) : (at2 m c (Proc.devRef .tc main_v22) : (⟨S400000x128, .f32⟩ : BufTy).Contents (Elt F))
    = result0 (at1 m c (Proc.devRef .tc main_v18)) (at1 m c (Proc.devRef .tc main_v19)) (at1 m c (Proc.devRef .tc main_v21)) :=
  (at2_arr m c 3).trans (final0 (ent0 m) c)

theorem out1 (c : Dev nD) : (at4 m c (Proc.devRef .tc main_v38) : (⟨S100000x128, .f32⟩ : BufTy).Contents (Elt F))
    = result1 (at3 m c (Proc.devRef .tc main_v35)) (at3 m c (Proc.devRef .tc main_v36)) (at3 m c (Proc.devRef .tc main_v37)) :=
  (at4_arr m c 3).trans (final1 (ent1 m) c)

theorem out2 (c : Dev nD) : (at6 m c (Proc.devRef .tc main_v50) : (⟨S400000x128, .f32⟩ : BufTy).Contents (Elt F))
    = result2 (at5 m c (Proc.devRef .tc main_v46)) (at5 m c (Proc.devRef .tc main_v47)) (at5 m c (Proc.devRef .tc main_v49)) :=
  (at6_arr m c 3).trans (final2 (ent2 m) c)

theorem out3 (c : Dev nD) : (at8 m c (Proc.devRef .tc main_v66) : (⟨S100000x128, .f32⟩ : BufTy).Contents (Elt F))
    = result3 (at7 m c (Proc.devRef .tc main_v63)) (at7 m c (Proc.devRef .tc main_v64)) (at7 m c (Proc.devRef .tc main_v65)) :=
  (at8_arr m c 3).trans (final3 (ent3 m) c)

theorem out4 (c : Dev nD) : (at10 m c (Proc.devRef .tc main_v78) : (⟨S400000x128, .f32⟩ : BufTy).Contents (Elt F))
    = result4 (at9 m c (Proc.devRef .tc main_v74)) (at9 m c (Proc.devRef .tc main_v75)) (at9 m c (Proc.devRef .tc main_v77)) :=
  (at10_arr m c 3).trans (final4 (ent4 m) c)

theorem out5 (c : Dev nD) : (at12 m c (Proc.devRef .tc main_v94) : (⟨S100000x128, .f32⟩ : BufTy).Contents (Elt F))
    = result5 (at11 m c (Proc.devRef .tc main_v91)) (at11 m c (Proc.devRef .tc main_v92)) (at11 m c (Proc.devRef .tc main_v93)) :=
  (at12_arr m c 3).trans (final5 (ent5 m) c)

theorem out6 (c : Dev nD) : (at14 m c (Proc.devRef .tc main_v106) : (⟨S400000x128, .f32⟩ : BufTy).Contents (Elt F))
    = result6 (at13 m c (Proc.devRef .tc main_v102)) (at13 m c (Proc.devRef .tc main_v103)) (at13 m c (Proc.devRef .tc main_v105)) :=
  (at14_arr m c 3).trans (final6 (ent6 m) c)

theorem out7 (c : Dev nD) : (at16 m c (Proc.devRef .tc main_v122) : (⟨S100000x128, .f32⟩ : BufTy).Contents (Elt F))
    = result7 (at15 m c (Proc.devRef .tc main_v119)) (at15 m c (Proc.devRef .tc main_v120)) (at15 m c (Proc.devRef .tc main_v121)) :=
  (at16_arr m c 3).trans (final7 (ent7 m) c)

theorem out8 (c : Dev nD) : (at18 m c (Proc.devRef .tc main_v134) : (⟨S400000x128, .f32⟩ : BufTy).Contents (Elt F))
    = result8 (at17 m c (Proc.devRef .tc main_v130)) (at17 m c (Proc.devRef .tc main_v131)) (at17 m c (Proc.devRef .tc main_v133)) :=
  (at18_arr m c 3).trans (final8 (ent8 m) c)

theorem out9 (c : Dev nD) : (at20 m c (Proc.devRef .tc main_v150) : (⟨S100000x64, .f32⟩ : BufTy).Contents (Elt F))
    = result9 (at19 m c (Proc.devRef .tc main_v147)) (at19 m c (Proc.devRef .tc main_v148)) (at19 m c (Proc.devRef .tc main_v149)) :=
  (at20_arr m c 3).trans (final9 (ent9 m) c)

/-! ## The network's arrays by name -/

/-- The edge features, and the node features before the first layer, from the launch memory. -/
def edges (c : Dev nD) : (⟨S400000x3, .f32⟩ : BufTy).Contents (Elt F) := edgeFeat (at0 m c main_arg3) (at0 m c main_arg4) (at0 m c main_arg5)
def hid0 (c : Dev nD) : (⟨S100000x64, .f32⟩ : BufTy).Contents (Elt F) := embed (at0 m c main_arg0) (at0 m c main_arg6)
/-- Layer pair 1: the messages on the edges, then the nodes' new features. -/
def msg1 (c : Dev nD) : (⟨S400000x128, .f32⟩ : BufTy).Contents (Elt F) := result0 (msgIn0 (hid0 m c) (at0 m c main_arg1) (edges m c)) (wT0 (at0 m c main_arg7)) (bRow0 (F := F))
def hid1 (c : Dev nD) : (⟨S100000x128, .f32⟩ : BufTy).Contents (Elt F) := result1 (updIn1 (hid0 m c) (msg1 m c) (at0 m c main_arg2)) (wT1 (at0 m c main_arg8)) (bRow1 (at0 m c main_arg9))
/-- Layer pair 2: the messages on the edges, then the nodes' new features. -/
def msg2 (c : Dev nD) : (⟨S400000x128, .f32⟩ : BufTy).Contents (Elt F) := result2 (msgIn2 (hid1 m c) (at0 m c main_arg1) (edges m c)) (wT2 (at0 m c main_arg10)) (bRow2 (F := F))
def hid2 (c : Dev nD) : (⟨S100000x128, .f32⟩ : BufTy).Contents (Elt F) := result3 (updIn3 (hid1 m c) (msg2 m c) (at0 m c main_arg2)) (wT3 (at0 m c main_arg11)) (bRow3 (at0 m c main_arg12))
/-- Layer pair 3: the messages on the edges, then the nodes' new features. -/
def msg3 (c : Dev nD) : (⟨S400000x128, .f32⟩ : BufTy).Contents (Elt F) := result4 (msgIn4 (hid2 m c) (at0 m c main_arg1) (edges m c)) (wT4 (at0 m c main_arg13)) (bRow4 (F := F))
def hid3 (c : Dev nD) : (⟨S100000x128, .f32⟩ : BufTy).Contents (Elt F) := result5 (updIn5 (hid2 m c) (msg3 m c) (at0 m c main_arg2)) (wT5 (at0 m c main_arg14)) (bRow5 (at0 m c main_arg15))
/-- Layer pair 4: the messages on the edges, then the nodes' new features. -/
def msg4 (c : Dev nD) : (⟨S400000x128, .f32⟩ : BufTy).Contents (Elt F) := result6 (msgIn6 (hid3 m c) (at0 m c main_arg1) (edges m c)) (wT6 (at0 m c main_arg16)) (bRow6 (F := F))
def hid4 (c : Dev nD) : (⟨S100000x128, .f32⟩ : BufTy).Contents (Elt F) := result7 (updIn7 (hid3 m c) (msg4 m c) (at0 m c main_arg2)) (wT7 (at0 m c main_arg17)) (bRow7 (at0 m c main_arg18))
/-- Layer pair 5: the messages on the edges, then the nodes' new features. -/
def msg5 (c : Dev nD) : (⟨S400000x128, .f32⟩ : BufTy).Contents (Elt F) := result8 (msgIn8 (hid4 m c) (at0 m c main_arg1) (edges m c)) (wT8 (at0 m c main_arg19)) (bRow8 (F := F))
def hid5 (c : Dev nD) : (⟨S100000x64, .f32⟩ : BufTy).Contents (Elt F) := result9 (updIn9 (hid4 m c) (msg5 m c) (at0 m c main_arg2)) (wT9 (at0 m c main_arg20)) (bRow9 (at0 m c main_arg21))

/-! ## The program holds them -/

theorem holds_msg1 (c : Dev nD) : (at2 m c (Proc.devRef .tc main_v22) : (⟨S400000x128, .f32⟩ : BufTy).Contents (Elt F)) = msg1 m c := by
  rw [out0, entry0_X, entry0_W, entry0_B]; rfl
theorem holds_hid1 (c : Dev nD) : (at4 m c (Proc.devRef .tc main_v38) : (⟨S100000x128, .f32⟩ : BufTy).Contents (Elt F)) = hid1 m c := by
  rw [out1, entry1_X, entry1_W, entry1_B, holds_msg1,
    carry_1_2 m c main_v6 (by decide), entry0_h,
    carry_0_2 m c main_arg2 (by decide) (by decide), carry_0_2 m c main_arg8 (by decide) (by decide), carry_0_2 m c main_arg9 (by decide) (by decide)]; rfl
theorem holds_msg2 (c : Dev nD) : (at6 m c (Proc.devRef .tc main_v50) : (⟨S400000x128, .f32⟩ : BufTy).Contents (Elt F)) = msg2 m c := by
  rw [out2, entry2_X, entry2_W, entry2_B, holds_hid1,
    carry_0_4 m c main_arg1 (by decide) (by decide) (by decide) (by decide), carry_0_4 m c main_arg10 (by decide) (by decide) (by decide) (by decide),
    carry_1_4 m c main_v10 (by decide) (by decide) (by decide), entry0_e]; rfl
theorem holds_hid2 (c : Dev nD) : (at8 m c (Proc.devRef .tc main_v66) : (⟨S100000x128, .f32⟩ : BufTy).Contents (Elt F)) = hid2 m c := by
  rw [out3, entry3_X, entry3_W, entry3_B, holds_msg2,
    carry_4_6 m c main_v38 (by decide) (by decide), holds_hid1,
    carry_0_6 m c main_arg2 (by decide) (by decide) (by decide) (by decide) (by decide) (by decide), carry_0_6 m c main_arg11 (by decide) (by decide) (by decide) (by decide) (by decide) (by decide), carry_0_6 m c main_arg12 (by decide) (by decide) (by decide) (by decide) (by decide) (by decide)]; rfl
theorem holds_msg3 (c : Dev nD) : (at10 m c (Proc.devRef .tc main_v78) : (⟨S400000x128, .f32⟩ : BufTy).Contents (Elt F)) = msg3 m c := by
  rw [out4, entry4_X, entry4_W, entry4_B, holds_hid2,
    carry_0_8 m c main_arg1 (by decide) (by decide) (by decide) (by decide) (by decide) (by decide) (by decide) (by decide), carry_0_8 m c main_arg13 (by decide) (by decide) (by decide) (by decide) (by decide) (by decide) (by decide) (by decide),
    carry_1_8 m c main_v10 (by decide) (by decide) (by decide) (by decide) (by decide) (by decide) (by decide), entry0_e]; rfl
theorem holds_hid3 (c : Dev nD) : (at12 m c (Proc.devRef .tc main_v94) : (⟨S100000x128, .f32⟩ : BufTy).Contents (Elt F)) = hid3 m c := by
  rw [out5, entry5_X, entry5_W, entry5_B, holds_msg3,
    carry_8_10 m c main_v66 (by decide) (by decide), holds_hid2,
    carry_0_10 m c main_arg2 (by decide) (by decide) (by decide) (by decide) (by decide) (by decide) (by decide) (by decide) (by decide) (by decide), carry_0_10 m c main_arg14 (by decide) (by decide) (by decide) (by decide) (by decide) (by decide) (by decide) (by decide) (by decide) (by decide), carry_0_10 m c main_arg15 (by decide) (by decide) (by decide) (by decide) (by decide) (by decide) (by decide) (by decide) (by decide) (by decide)]; rfl
theorem holds_msg4 (c : Dev nD) : (at14 m c (Proc.devRef .tc main_v106) : (⟨S400000x128, .f32⟩ : BufTy).Contents (Elt F)) = msg4 m c := by
  rw [out6, entry6_X, entry6_W, entry6_B, holds_hid3,
    carry_0_12 m c main_arg1 (by decide) (by decide) (by decide) (by decide) (by decide) (by decide) (by decide) (by decide) (by decide) (by decide) (by decide) (by decide), carry_0_12 m c main_arg16 (by decide) (by decide) (by decide) (by decide) (by decide) (by decide) (by decide) (by decide) (by decide) (by decide) (by decide) (by decide),
    carry_1_12 m c main_v10 (by decide) (by decide) (by decide) (by decide) (by decide) (by decide) (by decide) (by decide) (by decide) (by decide) (by decide), entry0_e]; rfl
theorem holds_hid4 (c : Dev nD) : (at16 m c (Proc.devRef .tc main_v122) : (⟨S100000x128, .f32⟩ : BufTy).Contents (Elt F)) = hid4 m c := by
  rw [out7, entry7_X, entry7_W, entry7_B, holds_msg4,
    carry_12_14 m c main_v94 (by decide) (by decide), holds_hid3,
    carry_0_14 m c main_arg2 (by decide) (by decide) (by decide) (by decide) (by decide) (by decide) (by decide) (by decide) (by decide) (by decide) (by decide) (by decide) (by decide) (by decide), carry_0_14 m c main_arg17 (by decide) (by decide) (by decide) (by decide) (by decide) (by decide) (by decide) (by decide) (by decide) (by decide) (by decide) (by decide) (by decide) (by decide), carry_0_14 m c main_arg18 (by decide) (by decide) (by decide) (by decide) (by decide) (by decide) (by decide) (by decide) (by decide) (by decide) (by decide) (by decide) (by decide) (by decide)]; rfl
theorem holds_msg5 (c : Dev nD) : (at18 m c (Proc.devRef .tc main_v134) : (⟨S400000x128, .f32⟩ : BufTy).Contents (Elt F)) = msg5 m c := by
  rw [out8, entry8_X, entry8_W, entry8_B, holds_hid4,
    carry_0_16 m c main_arg1 (by decide) (by decide) (by decide) (by decide) (by decide) (by decide) (by decide) (by decide) (by decide) (by decide) (by decide) (by decide) (by decide) (by decide) (by decide) (by decide), carry_0_16 m c main_arg19 (by decide) (by decide) (by decide) (by decide) (by decide) (by decide) (by decide) (by decide) (by decide) (by decide) (by decide) (by decide) (by decide) (by decide) (by decide) (by decide),
    carry_1_16 m c main_v10 (by decide) (by decide) (by decide) (by decide) (by decide) (by decide) (by decide) (by decide) (by decide) (by decide) (by decide) (by decide) (by decide) (by decide) (by decide), entry0_e]; rfl
theorem holds_hid5 (c : Dev nD) : (at20 m c (Proc.devRef .tc main_v150) : (⟨S100000x64, .f32⟩ : BufTy).Contents (Elt F)) = hid5 m c := by
  rw [out9, entry9_X, entry9_W, entry9_B, holds_msg5,
    carry_16_18 m c main_v122 (by decide) (by decide), holds_hid4,
    carry_0_18 m c main_arg2 (by decide) (by decide) (by decide) (by decide) (by decide) (by decide) (by decide) (by decide) (by decide) (by decide) (by decide) (by decide) (by decide) (by decide) (by decide) (by decide) (by decide) (by decide), carry_0_18 m c main_arg20 (by decide) (by decide) (by decide) (by decide) (by decide) (by decide) (by decide) (by decide) (by decide) (by decide) (by decide) (by decide) (by decide) (by decide) (by decide) (by decide) (by decide) (by decide), carry_0_18 m c main_arg21 (by decide) (by decide) (by decide) (by decide) (by decide) (by decide) (by decide) (by decide) (by decide) (by decide) (by decide) (by decide) (by decide) (by decide) (by decide) (by decide) (by decide) (by decide)]; rfl

/-- The program's result array at the end is the fifth layer pair's node features. -/
theorem result_is_hid5 (c : Dev nD) : (at20 m c (Proc.devRef .tc main_v150) : (⟨S100000x64, .f32⟩ : BufTy).Contents (Elt F)) = hid5 m c := holds_hid5 m c

end Cert.KernelIdeal.Hand
end
-- ==== Proof.KI.Result.lean ====
/-
  The kernel program's run with its result named: every weakly fair execution terminates without a fault, ends with the
  result array at the fifth layer pair's node features, and leaves every argument as launched.
-/
import proofs.«101052_j75445395522274_1_alg».proof.Proof.KI.Frame
import proofs.«101052_j75445395522274_1_alg».proof.Proof.KI.Net

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_named : θ_run defs (onTc (τ := τ) (main (F := F))) ⟨m, fun _ => 0, ρ⟩ (fun r => ∀ c : Dev nD,
      r.2.mem ((c.tc : Thread nD τ).loc main_v150) = hid5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_v150 (by decide))).trans (result_is_hid5 m c),
     ends_as_launched m r.2 h c main_arg0 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg1 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg2 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg3 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg4 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg5 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg6 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg7 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg8 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg9 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg10 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg11 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg12 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg13 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg14 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg15 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg16 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg17 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg18 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg19 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg20 (by decide) (by decide) (by decide) (by decide) (by decide) (by decide) (by decide) (by decide) (by decide) (by decide) (by decide) (by decide) (by decide) (by decide) (by decide) (by decide) (by decide) (by decide) (by decide) (by decide) (by decide),
     ends_as_launched m r.2 h c main_arg21 (by decide) (by decide) (by decide) (by decide) (by decide) (by decide) (by decide) (by decide) (by decide) (by decide) (by decide) (by decide) (by decide) (by decide) (by decide) (by decide) (by decide) (by decide) (by decide) (by decide) (by decide)⟩) (run m ρ)

end Cert.KernelIdeal.Hand

end
-- ==== Proof.RefStretch.lean ====
/- The reference program's 235 host operations cut into 22 stretches, one per stage of the network (stK; stretch K
   ends with the operation that writes the stage's array), each stretch's written references (WstK) and that each
   operation writes one of them (stK_writes); the tails TK = stK ++ T(K+1) with their written references
   WTK = WstK ++ WT(K+1); the contents preK the line reaches before stretch K; and, per stretch, tail_K (the whole
   line's fold is the tail's over preK), in_K (a reference the tail does not write reads as before it) and out_K (a
   reference no later stretch writes reads as after stretch K). -/
import proofs.«101052_j75445395522274_1_alg».proof.Proof.RefRun

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lists whose operations write inside two lists of references: in a row they write inside the two in a row. -/
theorem writes_append {s t : List (HloOp τ sig (Elt F))} {Ws Wt : List (Ref sig .tc)}
    (hs : s.Forall fun op => op.writes ⊆ (Ws.map (Proc.devRef (τ := τ) .tc)).toFinset)
    (ht : t.Forall fun op => op.writes ⊆ (Wt.map (Proc.devRef (τ := τ) .tc)).toFinset) :
    (s ++ t).Forall fun op => op.writes ⊆ ((Ws ++ Wt).map (Proc.devRef (τ := τ) .tc)).toFinset := by
  rw [List.forall_iff_forall_mem] at hs ht ⊢
  intro op h
  rcases List.mem_append.mp h with h | h
  · exact (hs op h).trans fun x hx => by
      rw [List.map_append, List.toFinset_append, Finset.mem_union]; exact Or.inl hx
  · exact (ht op h).trans fun x hx => by
      rw [List.map_append, List.toFinset_append, Finset.mem_union]; exact Or.inr hx

/-- Stretch 0: operations 1 … 9 of the line, ending with the one that writes main_v6. -/
abbrev st0 : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg0 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 64#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg0 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg6 main_v5 main_v6 ((fun x i => Host.gather gather_S64x64_S100000x1_S100000x64_1_0_n_n_0_1_164 x i) : (⟨S64x64, .f32⟩ : BufTy).Contents (Elt F) → (⟨S100000x1, .i32⟩ : BufTy).Contents (Elt F) → (⟨S100000x64, .f32⟩ : BufTy).Contents (Elt F)) ]
abbrev Wst0 : List (Ref sig .tc) := [main_c, main_v0, main_v1, main_c_0, main_v2, main_v3, main_v4, main_v5, main_v6]
theorem st0_writes : (st0 : List (HloOp τ sig (Elt F))).Forall fun op => op.writes ⊆ (Wst0.map (Proc.devRef (τ := τ) .tc)).toFinset :=
  ⟨writes_sub_of_mem (y := main_c) rfl (by decide), writes_sub_of_mem (y := main_v0) rfl (by decide), writes_sub_of_mem (y := main_v1) rfl (by decide), writes_sub_of_mem (y := main_c_0) rfl (by decide), writes_sub_of_mem (y := main_v2) rfl (by decide), writes_sub_of_mem (y := main_v3) rfl (by decide), writes_sub_of_mem (y := main_v4) rfl (by decide), writes_sub_of_mem (y := main_v5) rfl (by decide), writes_sub_of_mem (y := main_v6) rfl (by decide)⟩

/-- Stretch 1: operations 10 … 13 of the line, ending with the one that writes main_v10. -/
abbrev st1 : List (HloOp τ sig (Elt F)) :=
  [ StableHlo.unary main_arg3 main_v7 (broadcastInDim S400000x1 ![0] bcast_S400000_S400000x1_0 : (⟨S400000, .f32⟩ : BufTy).Contents (Elt F) → (⟨S400000x1, .f32⟩ : BufTy).Contents (Elt F)),
    StableHlo.unary main_arg4 main_v8 (broadcastInDim S400000x1 ![0] bcast_S400000_S400000x1_0 : (⟨S400000, .f32⟩ : BufTy).Contents (Elt F) → (⟨S400000x1, .f32⟩ : BufTy).Contents (Elt F)),
    StableHlo.unary main_arg5 main_v9 (broadcastInDim S400000x1 ![0] bcast_S400000_S400000x1_0 : (⟨S400000, .f32⟩ : BufTy).Contents (Elt F) → (⟨S400000x1, .f32⟩ : BufTy).Contents (Elt F)),
    StableHlo.nary ![main_v7, main_v8, main_v9] main_v10 (fun u => concatenate S400000x3 1 [⟨S400000x1, u 0⟩, ⟨S400000x1, u 1⟩, ⟨S400000x1, u 2⟩] concatenates_S400000x1_S400000x1_S400000x1_S400000x3_d1) ]
abbrev Wst1 : List (Ref sig .tc) := [main_v7, main_v8, main_v9, main_v10]
theorem st1_writes : (st1 : List (HloOp τ sig (Elt F))).Forall fun op => op.writes ⊆ (Wst1.map (Proc.devRef (τ := τ) .tc)).toFinset :=
  ⟨writes_sub_of_mem (y := main_v7) rfl (by decide), writes_sub_of_mem (y := main_v8) rfl (by decide), writes_sub_of_mem (y := main_v9) rfl (by decide), writes_sub_of_mem (y := main_v10) rfl (by decide)⟩

/-- Stretch 2: operations 14 … 23 of the line, ending with the one that writes main_v18. -/
abbrev st2 : List (HloOp τ sig (Elt F)) :=
  [ StableHlo.nullary main_c_1 (constantI S_ 32 0#32),
    StableHlo.unary main_c_1 main_v11 (broadcastInDim S400000 ![] bcast_S_S400000 : (⟨S_, .i32⟩ : BufTy).Contents (Elt F) → (⟨S400000, .i32⟩ : BufTy).Contents (Elt F)),
    StableHlo.binary main_arg1 main_v11 main_v12 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 100000#32),
    StableHlo.unary main_c_2 main_v13 (broadcastInDim S400000 ![] bcast_S_S400000 : (⟨S_, .i32⟩ : BufTy).Contents (Elt F) → (⟨S400000, .i32⟩ : BufTy).Contents (Elt F)),
    StableHlo.binary main_arg1 main_v13 main_v14 (addi : (⟨S400000, .i32⟩ : BufTy).Contents (Elt F) → (⟨S400000, .i32⟩ : BufTy).Contents (Elt F) → (⟨S400000, .i32⟩ : BufTy).Contents (Elt F)),
    StableHlo.ternary main_v12 main_v14 main_arg1 main_v15 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v15 main_v16 (broadcastInDim S400000x1 ![0] bcast_S400000_S400000x1_0 : (⟨S400000, .i32⟩ : BufTy).Contents (Elt F) → (⟨S400000x1, .i32⟩ : BufTy).Contents (Elt F)),
    StableHlo.binary main_v6 main_v16 main_v17 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    StableHlo.binary main_v17 main_v10 main_v18 ((fun a b => concatenate S400000x67 1 [⟨S400000x64, a⟩, ⟨S400000x3, b⟩] concatenates_S400000x64_S400000x3_S400000x67_d1) : (⟨S400000x64, .f32⟩ : BufTy).Contents (Elt F) → (⟨S400000x3, .f32⟩ : BufTy).Contents (Elt F) → (⟨S400000x67, .f32⟩ : BufTy).Contents (Elt F)) ]
abbrev Wst2 : List (Ref sig .tc) := [main_c_1, main_v11, main_v12, main_c_2, main_v13, main_v14, main_v15, main_v16, main_v17, main_v18]
theorem st2_writes : (st2 : List (HloOp τ sig (Elt F))).Forall fun op => op.writes ⊆ (Wst2.map (Proc.devRef (τ := τ) .tc)).toFinset :=
  ⟨writes_sub_of_mem (y := main_c_1) rfl (by decide), writes_sub_of_mem (y := main_v11) rfl (by decide), writes_sub_of_mem (y := main_v12) rfl (by decide), writes_sub_of_mem (y := main_c_2) rfl (by decide), writes_sub_of_mem (y := main_v13) rfl (by decide), writes_sub_of_mem (y := main_v14) rfl (by decide), writes_sub_of_mem (y := main_v15) rfl (by decide), writes_sub_of_mem (y := main_v16) rfl (by decide), writes_sub_of_mem (y := main_v17) rfl (by decide), writes_sub_of_mem (y := main_v18) rfl (by decide)⟩

/-- Stretch 3: operations 24 … 33 of the line, ending with the one that writes main_v21. -/
abbrev st3 : List (HloOp τ sig (Elt F)) :=
  [ StableHlo.unary main_arg7 main_v19 ((transpose S67x128 [1, 0] · transposes_S128x67_S67x128_1_0) : (⟨S128x67, .f32⟩ : BufTy).Contents (Elt F) → (⟨S67x128, .f32⟩ : BufTy).Contents (Elt F)),
    StableHlo.binary main_v18 main_v19 main_v20 ((fun l r => Host.dotGeneral dot_S400000x67_S67x128_S400000x128_1_0_0_1_n_n none l r) : (⟨S400000x67, .f32⟩ : BufTy).Contents (Elt F) → (⟨S67x128, .f32⟩ : BufTy).Contents (Elt F) → (⟨S400000x128, .f32⟩ : BufTy).Contents (Elt F)),
    StableHlo.nullary main_cst (constant S_ .f32 0x3C23D70A#32),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S400000x128, .f32⟩) main_call0_v0) (broadcastInDim S400000x128 ![] bcast_S_S400000x128),
    StableHlo.TRef.binary (StableHlo.TRef.of (T := ⟨S400000x128, .f32⟩) main_v20) (StableHlo.TRef.of (T := ⟨S400000x128, .f32⟩) main_call0_v0) (StableHlo.TRef.of (T := ⟨S400000x128, .i1⟩) main_call0_v1) (cmpf .oge),
    StableHlo.TRef.unary (StableHlo.TRef.of (T := ⟨S_, .f32⟩) main_cst) (StableHlo.TRef.of (T := ⟨S_, .f32⟩) main_call0_v2) id,
    StableHlo.TRef.unary (StableHlo.TRef.of (T := ⟨S_, .f32⟩) main_call0_v2) (StableHlo.TRef.of (T := ⟨S400000x128, .f32⟩) main_call0_v3) (broadcastInDim S400000x128 ![] bcast_S_S400000x128),
    StableHlo.TRef.binary (StableHlo.TRef.of (T := ⟨S400000x128, .f32⟩) main_call0_v3) (StableHlo.TRef.of (T := ⟨S400000x128, .f32⟩) main_v20) (StableHlo.TRef.of (T := ⟨S400000x128, .f32⟩) main_call0_v4) mulf,
    StableHlo.TRef.ternary (StableHlo.TRef.of (T := ⟨S400000x128, .i1⟩) main_call0_v1) (StableHlo.TRef.of (T := ⟨S400000x128, .f32⟩) main_v20) (StableHlo.TRef.of (T := ⟨S400000x128, .f32⟩) main_call0_v4) (StableHlo.TRef.of (T := ⟨S400000x128, .f32⟩) main_v21) select ]
abbrev Wst3 : List (Ref sig .tc) := [main_v19, main_v20, main_cst, main_call0_cst, main_call0_v0, main_call0_v1, main_call0_v2, main_call0_v3, main_call0_v4, main_v21]
theorem st3_writes : (st3 : List (HloOp τ sig (Elt F))).Forall fun op => op.writes ⊆ (Wst3.map (Proc.devRef (τ := τ) .tc)).toFinset :=
  ⟨writes_sub_of_mem (y := main_v19) rfl (by decide), writes_sub_of_mem (y := main_v20) rfl (by decide), writes_sub_of_mem (y := main_cst) rfl (by decide), writes_sub_of_mem (y := main_call0_cst) rfl (by decide), writes_sub_of_mem (y := main_call0_v0) rfl (by decide), writes_sub_of_mem (y := main_call0_v1) rfl (by decide), writes_sub_of_mem (y := main_call0_v2) rfl (by decide), writes_sub_of_mem (y := main_call0_v3) rfl (by decide), writes_sub_of_mem (y := main_call0_v4) rfl (by decide), writes_sub_of_mem (y := main_v21) rfl (by decide)⟩

/-- Stretch 4: operations 34 … 50 of the line, ending with the one that writes main_v34. -/
abbrev st4 : List (HloOp τ sig (Elt F)) :=
  [ StableHlo.nullary main_cst_3 (constant S_ .f32 0x00000000#32),
    StableHlo.unary main_cst_3 main_v22 (broadcastInDim S100000x128 ![] bcast_S_S100000x128 : (⟨S_, .f32⟩ : BufTy).Contents (Elt F) → (⟨S100000x128, .f32⟩ : BufTy).Contents (Elt F)),
    StableHlo.unary main_arg2 main_v23 (broadcastInDim S400000x1 ![0] bcast_S400000_S400000x1_0 : (⟨S400000, .i32⟩ : BufTy).Contents (Elt F) → (⟨S400000x1, .i32⟩ : BufTy).Contents (Elt F)),
    StableHlo.ternary main_v22 main_v23 main_v21 main_v24 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_4 (constant S_ .f32 0x3F800000#32),
    StableHlo.unary main_cst_4 main_v25 (broadcastInDim S400000 ![] bcast_S_S400000 : (⟨S_, .f32⟩ : BufTy).Contents (Elt F) → (⟨S400000, .f32⟩ : BufTy).Contents (Elt F)),
    StableHlo.nullary main_cst_5 (constant S_ .f32 0x00000000#32),
    StableHlo.unary main_cst_5 main_v26 (broadcastInDim S100000 ![] bcast_S_S100000 : (⟨S_, .f32⟩ : BufTy).Contents (Elt F) → (⟨S100000, .f32⟩ : BufTy).Contents (Elt F)),
    StableHlo.unary main_arg2 main_v27 (broadcastInDim S400000x1 ![0] bcast_S400000_S400000x1_0 : (⟨S400000, .i32⟩ : BufTy).Contents (Elt F) → (⟨S400000x1, .i32⟩ : BufTy).Contents (Elt F)),
    StableHlo.ternary main_v26 main_v27 main_v25 main_v28 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_6 (constant S_ .f32 0x3F800000#32),
    StableHlo.unary main_cst_6 main_v29 (broadcastInDim S100000 ![] bcast_S_S100000 : (⟨S_, .f32⟩ : BufTy).Contents (Elt F) → (⟨S100000, .f32⟩ : BufTy).Contents (Elt F)),
    StableHlo.binary main_v28 main_v29 main_v30 (maximumf : (⟨S100000, .f32⟩ : BufTy).Contents (Elt F) → (⟨S100000, .f32⟩ : BufTy).Contents (Elt F) → (⟨S100000, .f32⟩ : BufTy).Contents (Elt F)),
    StableHlo.unary main_v30 main_v31 (broadcastInDim S100000x1 ![0] bcast_S100000_S100000x1_0 : (⟨S100000, .f32⟩ : BufTy).Contents (Elt F) → (⟨S100000x1, .f32⟩ : BufTy).Contents (Elt F)),
    StableHlo.unary main_v31 main_v32 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v32 main_v33 (Host.divf : (⟨S100000x128, .f32⟩ : BufTy).Contents (Elt F) → (⟨S100000x128, .f32⟩ : BufTy).Contents (Elt F) → (⟨S100000x128, .f32⟩ : BufTy).Contents (Elt F)),
    StableHlo.binary main_v6 main_v33 main_v34 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)) ]
abbrev Wst4 : List (Ref sig .tc) := [main_cst_3, main_v22, main_v23, main_v24, main_cst_4, main_v25, main_cst_5, main_v26, main_v27, main_v28, main_cst_6, main_v29, main_v30, main_v31, main_v32, main_v33, main_v34]
theorem st4_writes : (st4 : List (HloOp τ sig (Elt F))).Forall fun op => op.writes ⊆ (Wst4.map (Proc.devRef (τ := τ) .tc)).toFinset :=
  ⟨writes_sub_of_mem (y := main_cst_3) rfl (by decide), writes_sub_of_mem (y := main_v22) rfl (by decide), writes_sub_of_mem (y := main_v23) rfl (by decide), writes_sub_of_mem (y := main_v24) rfl (by decide), writes_sub_of_mem (y := main_cst_4) rfl (by decide), writes_sub_of_mem (y := main_v25) rfl (by decide), writes_sub_of_mem (y := main_cst_5) rfl (by decide), writes_sub_of_mem (y := main_v26) rfl (by decide), writes_sub_of_mem (y := main_v27) rfl (by decide), writes_sub_of_mem (y := main_v28) rfl (by decide), writes_sub_of_mem (y := main_cst_6) rfl (by decide), writes_sub_of_mem (y := main_v29) rfl (by decide), writes_sub_of_mem (y := main_v30) rfl (by decide), writes_sub_of_mem (y := main_v31) rfl (by decide), writes_sub_of_mem (y := main_v32) rfl (by decide), writes_sub_of_mem (y := main_v33) rfl (by decide), writes_sub_of_mem (y := main_v34) rfl (by decide)⟩

/-- Stretch 5: operations 51 … 58 of the line, ending with the one that writes main_v40. -/
abbrev st5 : List (HloOp τ sig (Elt F)) :=
  [ StableHlo.unary main_arg8 main_v35 ((transpose S192x128 [1, 0] · transposes_S128x192_S192x128_1_0) : (⟨S128x192, .f32⟩ : BufTy).Contents (Elt F) → (⟨S192x128, .f32⟩ : BufTy).Contents (Elt F)),
    StableHlo.binary main_v34 main_v35 main_v36 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)),
    StableHlo.unary main_arg9 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S100000x128, .f32⟩) main_call1_v0) (broadcastInDim S100000x128 ![] bcast_S_S100000x128),
    StableHlo.TRef.binary (StableHlo.TRef.of (T := ⟨S100000x128, .f32⟩) main_v39) (StableHlo.TRef.of (T := ⟨S100000x128, .f32⟩) main_call1_v0) (StableHlo.TRef.of (T := ⟨S100000x128, .f32⟩) main_v40) maximumf ]
abbrev Wst5 : List (Ref sig .tc) := [main_v35, main_v36, main_v37, main_v38, main_v39, main_call1_cst, main_call1_v0, main_v40]
theorem st5_writes : (st5 : List (HloOp τ sig (Elt F))).Forall fun op => op.writes ⊆ (Wst5.map (Proc.devRef (τ := τ) .tc)).toFinset :=
  ⟨writes_sub_of_mem (y := main_v35) rfl (by decide), writes_sub_of_mem (y := main_v36) rfl (by decide), writes_sub_of_mem (y := main_v37) rfl (by decide), writes_sub_of_mem (y := main_v38) rfl (by decide), writes_sub_of_mem (y := main_v39) rfl (by decide), writes_sub_of_mem (y := main_call1_cst) rfl (by decide), writes_sub_of_mem (y := main_call1_v0) rfl (by decide), writes_sub_of_mem (y := main_v40) rfl (by decide)⟩

/-- Stretch 6: operations 59 … 68 of the line, ending with the one that writes main_v48. -/
abbrev st6 : List (HloOp τ sig (Elt F)) :=
  [ StableHlo.nullary main_c_7 (constantI S_ 32 0#32),
    StableHlo.unary main_c_7 main_v41 (broadcastInDim S400000 ![] bcast_S_S400000 : (⟨S_, .i32⟩ : BufTy).Contents (Elt F) → (⟨S400000, .i32⟩ : BufTy).Contents (Elt F)),
    StableHlo.binary main_arg1 main_v41 main_v42 (cmpi .slt : (⟨S400000, .i32⟩ : BufTy).Contents (Elt F) → (⟨S400000, .i32⟩ : BufTy).Contents (Elt F) → (⟨S400000, .i1⟩ : BufTy).Contents (Elt F)),
    StableHlo.nullary main_c_8 (constantI S_ 32 100000#32),
    StableHlo.unary main_c_8 main_v43 (broadcastInDim S400000 ![] bcast_S_S400000 : (⟨S_, .i32⟩ : BufTy).Contents (Elt F) → (⟨S400000, .i32⟩ : BufTy).Contents (Elt F)),
    StableHlo.binary main_arg1 main_v43 main_v44 (addi : (⟨S400000, .i32⟩ : BufTy).Contents (Elt F) → (⟨S400000, .i32⟩ : BufTy).Contents (Elt F) → (⟨S400000, .i32⟩ : BufTy).Contents (Elt F)),
    StableHlo.ternary main_v42 main_v44 main_arg1 main_v45 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v45 main_v46 (broadcastInDim S400000x1 ![0] bcast_S400000_S400000x1_0 : (⟨S400000, .i32⟩ : BufTy).Contents (Elt F) → (⟨S400000x1, .i32⟩ : BufTy).Contents (Elt F)),
    StableHlo.binary main_v40 main_v46 main_v47 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v47 main_v10 main_v48 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) ]
abbrev Wst6 : List (Ref sig .tc) := [main_c_7, main_v41, main_v42, main_c_8, main_v43, main_v44, main_v45, main_v46, main_v47, main_v48]
theorem st6_writes : (st6 : List (HloOp τ sig (Elt F))).Forall fun op => op.writes ⊆ (Wst6.map (Proc.devRef (τ := τ) .tc)).toFinset :=
  ⟨writes_sub_of_mem (y := main_c_7) rfl (by decide), writes_sub_of_mem (y := main_v41) rfl (by decide), writes_sub_of_mem (y := main_v42) rfl (by decide), writes_sub_of_mem (y := main_c_8) rfl (by decide), writes_sub_of_mem (y := main_v43) rfl (by decide), writes_sub_of_mem (y := main_v44) rfl (by decide), writes_sub_of_mem (y := main_v45) rfl (by decide), writes_sub_of_mem (y := main_v46) rfl (by decide), writes_sub_of_mem (y := main_v47) rfl (by decide), writes_sub_of_mem (y := main_v48) rfl (by decide)⟩

/-- Stretch 7: operations 69 … 78 of the line, ending with the one that writes main_v51. -/
abbrev st7 : List (HloOp τ sig (Elt F)) :=
  [ StableHlo.unary main_arg10 main_v49 ((transpose S131x128 [1, 0] · transposes_S128x131_S131x128_1_0) : (⟨S128x131, .f32⟩ : BufTy).Contents (Elt F) → (⟨S131x128, .f32⟩ : BufTy).Contents (Elt F)),
    StableHlo.binary main_v48 main_v49 main_v50 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_9 (constant S_ .f32 0x3C23D70A#32),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S400000x128, .f32⟩) main_call2_v0) (broadcastInDim S400000x128 ![] bcast_S_S400000x128),
    StableHlo.TRef.binary (StableHlo.TRef.of (T := ⟨S400000x128, .f32⟩) main_v50) (StableHlo.TRef.of (T := ⟨S400000x128, .f32⟩) main_call2_v0) (StableHlo.TRef.of (T := ⟨S400000x128, .i1⟩) main_call2_v1) (cmpf .oge),
    StableHlo.TRef.unary (StableHlo.TRef.of (T := ⟨S_, .f32⟩) main_cst_9) (StableHlo.TRef.of (T := ⟨S_, .f32⟩) main_call2_v2) id,
    StableHlo.TRef.unary (StableHlo.TRef.of (T := ⟨S_, .f32⟩) main_call2_v2) (StableHlo.TRef.of (T := ⟨S400000x128, .f32⟩) main_call2_v3) (broadcastInDim S400000x128 ![] bcast_S_S400000x128),
    StableHlo.TRef.binary (StableHlo.TRef.of (T := ⟨S400000x128, .f32⟩) main_call2_v3) (StableHlo.TRef.of (T := ⟨S400000x128, .f32⟩) main_v50) (StableHlo.TRef.of (T := ⟨S400000x128, .f32⟩) main_call2_v4) mulf,
    StableHlo.TRef.ternary (StableHlo.TRef.of (T := ⟨S400000x128, .i1⟩) main_call2_v1) (StableHlo.TRef.of (T := ⟨S400000x128, .f32⟩) main_v50) (StableHlo.TRef.of (T := ⟨S400000x128, .f32⟩) main_call2_v4) (StableHlo.TRef.of (T := ⟨S400000x128, .f32⟩) main_v51) select ]
abbrev Wst7 : List (Ref sig .tc) := [main_v49, main_v50, main_cst_9, main_call2_cst, main_call2_v0, main_call2_v1, main_call2_v2, main_call2_v3, main_call2_v4, main_v51]
theorem st7_writes : (st7 : List (HloOp τ sig (Elt F))).Forall fun op => op.writes ⊆ (Wst7.map (Proc.devRef (τ := τ) .tc)).toFinset :=
  ⟨writes_sub_of_mem (y := main_v49) rfl (by decide), writes_sub_of_mem (y := main_v50) rfl (by decide), writes_sub_of_mem (y := main_cst_9) rfl (by decide), writes_sub_of_mem (y := main_call2_cst) rfl (by decide), writes_sub_of_mem (y := main_call2_v0) rfl (by decide), writes_sub_of_mem (y := main_call2_v1) rfl (by decide), writes_sub_of_mem (y := main_call2_v2) rfl (by decide), writes_sub_of_mem (y := main_call2_v3) rfl (by decide), writes_sub_of_mem (y := main_call2_v4) rfl (by decide), writes_sub_of_mem (y := main_v51) rfl (by decide)⟩

/-- Stretch 8: operations 79 … 95 of the line, ending with the one that writes main_v64. -/
abbrev st8 : List (HloOp τ sig (Elt F)) :=
  [ StableHlo.nullary main_cst_10 (constant S_ .f32 0x00000000#32),
    StableHlo.unary main_cst_10 main_v52 (broadcastInDim S100000x128 ![] bcast_S_S100000x128 : (⟨S_, .f32⟩ : BufTy).Contents (Elt F) → (⟨S100000x128, .f32⟩ : BufTy).Contents (Elt F)),
    StableHlo.unary main_arg2 main_v53 (broadcastInDim S400000x1 ![0] bcast_S400000_S400000x1_0 : (⟨S400000, .i32⟩ : BufTy).Contents (Elt F) → (⟨S400000x1, .i32⟩ : BufTy).Contents (Elt F)),
    StableHlo.ternary main_v52 main_v53 main_v51 main_v54 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_11 (constant S_ .f32 0x3F800000#32),
    StableHlo.unary main_cst_11 main_v55 (broadcastInDim S400000 ![] bcast_S_S400000 : (⟨S_, .f32⟩ : BufTy).Contents (Elt F) → (⟨S400000, .f32⟩ : BufTy).Contents (Elt F)),
    StableHlo.nullary main_cst_12 (constant S_ .f32 0x00000000#32),
    StableHlo.unary main_cst_12 main_v56 (broadcastInDim S100000 ![] bcast_S_S100000 : (⟨S_, .f32⟩ : BufTy).Contents (Elt F) → (⟨S100000, .f32⟩ : BufTy).Contents (Elt F)),
    StableHlo.unary main_arg2 main_v57 (broadcastInDim S400000x1 ![0] bcast_S400000_S400000x1_0 : (⟨S400000, .i32⟩ : BufTy).Contents (Elt F) → (⟨S400000x1, .i32⟩ : BufTy).Contents (Elt F)),
    StableHlo.ternary main_v56 main_v57 main_v55 main_v58 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_13 (constant S_ .f32 0x3F800000#32),
    StableHlo.unary main_cst_13 main_v59 (broadcastInDim S100000 ![] bcast_S_S100000 : (⟨S_, .f32⟩ : BufTy).Contents (Elt F) → (⟨S100000, .f32⟩ : BufTy).Contents (Elt F)),
    StableHlo.binary main_v58 main_v59 main_v60 (maximumf : (⟨S100000, .f32⟩ : BufTy).Contents (Elt F) → (⟨S100000, .f32⟩ : BufTy).Contents (Elt F) → (⟨S100000, .f32⟩ : BufTy).Contents (Elt F)),
    StableHlo.unary main_v60 main_v61 (broadcastInDim S100000x1 ![0] bcast_S100000_S100000x1_0 : (⟨S100000, .f32⟩ : BufTy).Contents (Elt F) → (⟨S100000x1, .f32⟩ : BufTy).Contents (Elt F)),
    StableHlo.unary main_v61 main_v62 (broadcastInDim S100000x128 ![0, 1] bcast_S100000x1_S100000x128_0_1 : (⟨S100000x1, .f32⟩ : BufTy).Contents (Elt F) → (⟨S100000x128, .f32⟩ : BufTy).Contents (Elt F)),
    StableHlo.binary main_v54 main_v62 main_v63 (Host.divf : (⟨S100000x128, .f32⟩ : BufTy).Contents (Elt F) → (⟨S100000x128, .f32⟩ : BufTy).Contents (Elt F) → (⟨S100000x128, .f32⟩ : BufTy).Contents (Elt F)),
    StableHlo.binary main_v40 main_v63 main_v64 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]
abbrev Wst8 : List (Ref sig .tc) := [main_cst_10, main_v52, main_v53, main_v54, main_cst_11, main_v55, main_cst_12, main_v56, main_v57, main_v58, main_cst_13, main_v59, main_v60, main_v61, main_v62, main_v63, main_v64]
theorem st8_writes : (st8 : List (HloOp τ sig (Elt F))).Forall fun op => op.writes ⊆ (Wst8.map (Proc.devRef (τ := τ) .tc)).toFinset :=
  ⟨writes_sub_of_mem (y := main_cst_10) rfl (by decide), writes_sub_of_mem (y := main_v52) rfl (by decide), writes_sub_of_mem (y := main_v53) rfl (by decide), writes_sub_of_mem (y := main_v54) rfl (by decide), writes_sub_of_mem (y := main_cst_11) rfl (by decide), writes_sub_of_mem (y := main_v55) rfl (by decide), writes_sub_of_mem (y := main_cst_12) rfl (by decide), writes_sub_of_mem (y := main_v56) rfl (by decide), writes_sub_of_mem (y := main_v57) rfl (by decide), writes_sub_of_mem (y := main_v58) rfl (by decide), writes_sub_of_mem (y := main_cst_13) rfl (by decide), writes_sub_of_mem (y := main_v59) rfl (by decide), writes_sub_of_mem (y := main_v60) rfl (by decide), writes_sub_of_mem (y := main_v61) rfl (by decide), writes_sub_of_mem (y := main_v62) rfl (by decide), writes_sub_of_mem (y := main_v63) rfl (by decide), writes_sub_of_mem (y := main_v64) rfl (by decide)⟩

/-- Stretch 9: operations 96 … 103 of the line, ending with the one that writes main_v70. -/
abbrev st9 : List (HloOp τ sig (Elt F)) :=
  [ StableHlo.unary main_arg11 main_v65 ((transpose S256x128 [1, 0] · transposes_S128x256_S256x128_1_0) : (⟨S128x256, .f32⟩ : BufTy).Contents (Elt F) → (⟨S256x128, .f32⟩ : BufTy).Contents (Elt F)),
    StableHlo.binary main_v64 main_v65 main_v66 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg12 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v68 main_v69 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S100000x128, .f32⟩) main_call3_v0) (broadcastInDim S100000x128 ![] bcast_S_S100000x128),
    StableHlo.TRef.binary (StableHlo.TRef.of (T := ⟨S100000x128, .f32⟩) main_v69) (StableHlo.TRef.of (T := ⟨S100000x128, .f32⟩) main_call3_v0) (StableHlo.TRef.of (T := ⟨S100000x128, .f32⟩) main_v70) maximumf ]
abbrev Wst9 : List (Ref sig .tc) := [main_v65, main_v66, main_v67, main_v68, main_v69, main_call3_cst, main_call3_v0, main_v70]
theorem st9_writes : (st9 : List (HloOp τ sig (Elt F))).Forall fun op => op.writes ⊆ (Wst9.map (Proc.devRef (τ := τ) .tc)).toFinset :=
  ⟨writes_sub_of_mem (y := main_v65) rfl (by decide), writes_sub_of_mem (y := main_v66) rfl (by decide), writes_sub_of_mem (y := main_v67) rfl (by decide), writes_sub_of_mem (y := main_v68) rfl (by decide), writes_sub_of_mem (y := main_v69) rfl (by decide), writes_sub_of_mem (y := main_call3_cst) rfl (by decide), writes_sub_of_mem (y := main_call3_v0) rfl (by decide), writes_sub_of_mem (y := main_v70) rfl (by decide)⟩

/-- Stretch 10: operations 104 … 113 of the line, ending with the one that writes main_v78. -/
abbrev st10 : List (HloOp τ sig (Elt F)) :=
  [ StableHlo.nullary main_c_14 (constantI S_ 32 0#32),
    StableHlo.unary main_c_14 main_v71 (broadcastInDim S400000 ![] bcast_S_S400000 : (⟨S_, .i32⟩ : BufTy).Contents (Elt F) → (⟨S400000, .i32⟩ : BufTy).Contents (Elt F)),
    StableHlo.binary main_arg1 main_v71 main_v72 (cmpi .slt : (⟨S400000, .i32⟩ : BufTy).Contents (Elt F) → (⟨S400000, .i32⟩ : BufTy).Contents (Elt F) → (⟨S400000, .i1⟩ : BufTy).Contents (Elt F)),
    StableHlo.nullary main_c_15 (constantI S_ 32 100000#32),
    StableHlo.unary main_c_15 main_v73 (broadcastInDim S400000 ![] bcast_S_S400000 : (⟨S_, .i32⟩ : BufTy).Contents (Elt F) → (⟨S400000, .i32⟩ : BufTy).Contents (Elt F)),
    StableHlo.binary main_arg1 main_v73 main_v74 (addi : (⟨S400000, .i32⟩ : BufTy).Contents (Elt F) → (⟨S400000, .i32⟩ : BufTy).Contents (Elt F) → (⟨S400000, .i32⟩ : BufTy).Contents (Elt F)),
    StableHlo.ternary main_v72 main_v74 main_arg1 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v75 main_v76 (broadcastInDim S400000x1 ![0] bcast_S400000_S400000x1_0 : (⟨S400000, .i32⟩ : BufTy).Contents (Elt F) → (⟨S400000x1, .i32⟩ : BufTy).Contents (Elt F)),
    StableHlo.binary main_v70 main_v76 main_v77 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v77 main_v10 main_v78 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) ]
abbrev Wst10 : List (Ref sig .tc) := [main_c_14, main_v71, main_v72, main_c_15, main_v73, main_v74, main_v75, main_v76, main_v77, main_v78]
theorem st10_writes : (st10 : List (HloOp τ sig (Elt F))).Forall fun op => op.writes ⊆ (Wst10.map (Proc.devRef (τ := τ) .tc)).toFinset :=
  ⟨writes_sub_of_mem (y := main_c_14) rfl (by decide), writes_sub_of_mem (y := main_v71) rfl (by decide), writes_sub_of_mem (y := main_v72) rfl (by decide), writes_sub_of_mem (y := main_c_15) rfl (by decide), writes_sub_of_mem (y := main_v73) rfl (by decide), writes_sub_of_mem (y := main_v74) rfl (by decide), writes_sub_of_mem (y := main_v75) rfl (by decide), writes_sub_of_mem (y := main_v76) rfl (by decide), writes_sub_of_mem (y := main_v77) rfl (by decide), writes_sub_of_mem (y := main_v78) rfl (by decide)⟩

/-- Stretch 11: operations 114 … 123 of the line, ending with the one that writes main_v81. -/
abbrev st11 : List (HloOp τ sig (Elt F)) :=
  [ StableHlo.unary main_arg13 main_v79 ((transpose S131x128 [1, 0] · transposes_S128x131_S131x128_1_0) : (⟨S128x131, .f32⟩ : BufTy).Contents (Elt F) → (⟨S131x128, .f32⟩ : BufTy).Contents (Elt F)),
    StableHlo.binary main_v78 main_v79 main_v80 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_16 (constant S_ .f32 0x3C23D70A#32),
    StableHlo.TRef.nullary (StableHlo.TRef.of (T := ⟨S_, .f32⟩) main_call4_cst) (constant S_ .f32 0x00000000#32),
    StableHlo.TRef.unary (StableHlo.TRef.of (T := ⟨S_, .f32⟩) main_call4_cst) (StableHlo.TRef.of (T := ⟨S400000x128, .f32⟩) main_call4_v0) (broadcastInDim S400000x128 ![] bcast_S_S400000x128),
    StableHlo.TRef.binary (StableHlo.TRef.of (T := ⟨S400000x128, .f32⟩) main_v80) (StableHlo.TRef.of (T := ⟨S400000x128, .f32⟩) main_call4_v0) (StableHlo.TRef.of (T := ⟨S400000x128, .i1⟩) main_call4_v1) (cmpf .oge),
    StableHlo.TRef.unary (StableHlo.TRef.of (T := ⟨S_, .f32⟩) main_cst_16) (StableHlo.TRef.of (T := ⟨S_, .f32⟩) main_call4_v2) id,
    StableHlo.TRef.unary (StableHlo.TRef.of (T := ⟨S_, .f32⟩) main_call4_v2) (StableHlo.TRef.of (T := ⟨S400000x128, .f32⟩) main_call4_v3) (broadcastInDim S400000x128 ![] bcast_S_S400000x128),
    StableHlo.TRef.binary (StableHlo.TRef.of (T := ⟨S400000x128, .f32⟩) main_call4_v3) (StableHlo.TRef.of (T := ⟨S400000x128, .f32⟩) main_v80) (StableHlo.TRef.of (T := ⟨S400000x128, .f32⟩) main_call4_v4) mulf,
    StableHlo.TRef.ternary (StableHlo.TRef.of (T := ⟨S400000x128, .i1⟩) main_call4_v1) (StableHlo.TRef.of (T := ⟨S400000x128, .f32⟩) main_v80) (StableHlo.TRef.of (T := ⟨S400000x128, .f32⟩) main_call4_v4) (StableHlo.TRef.of (T := ⟨S400000x128, .f32⟩) main_v81) select ]
abbrev Wst11 : List (Ref sig .tc) := [main_v79, main_v80, main_cst_16, main_call4_cst, main_call4_v0, main_call4_v1, main_call4_v2, main_call4_v3, main_call4_v4, main_v81]
theorem st11_writes : (st11 : List (HloOp τ sig (Elt F))).Forall fun op => op.writes ⊆ (Wst11.map (Proc.devRef (τ := τ) .tc)).toFinset :=
  ⟨writes_sub_of_mem (y := main_v79) rfl (by decide), writes_sub_of_mem (y := main_v80) rfl (by decide), writes_sub_of_mem (y := main_cst_16) rfl (by decide), writes_sub_of_mem (y := main_call4_cst) rfl (by decide), writes_sub_of_mem (y := main_call4_v0) rfl (by decide), writes_sub_of_mem (y := main_call4_v1) rfl (by decide), writes_sub_of_mem (y := main_call4_v2) rfl (by decide), writes_sub_of_mem (y := main_call4_v3) rfl (by decide), writes_sub_of_mem (y := main_call4_v4) rfl (by decide), writes_sub_of_mem (y := main_v81) rfl (by decide)⟩

/-- Stretch 12: operations 124 … 140 of the line, ending with the one that writes main_v94. -/
abbrev st12 : List (HloOp τ sig (Elt F)) :=
  [ StableHlo.nullary main_cst_17 (constant S_ .f32 0x00000000#32),
    StableHlo.unary main_cst_17 main_v82 (broadcastInDim S100000x128 ![] bcast_S_S100000x128 : (⟨S_, .f32⟩ : BufTy).Contents (Elt F) → (⟨S100000x128, .f32⟩ : BufTy).Contents (Elt F)),
    StableHlo.unary main_arg2 main_v83 (broadcastInDim S400000x1 ![0] bcast_S400000_S400000x1_0 : (⟨S400000, .i32⟩ : BufTy).Contents (Elt F) → (⟨S400000x1, .i32⟩ : BufTy).Contents (Elt F)),
    StableHlo.ternary main_v82 main_v83 main_v81 main_v84 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_18 (constant S_ .f32 0x3F800000#32),
    StableHlo.unary main_cst_18 main_v85 (broadcastInDim S400000 ![] bcast_S_S400000 : (⟨S_, .f32⟩ : BufTy).Contents (Elt F) → (⟨S400000, .f32⟩ : BufTy).Contents (Elt F)),
    StableHlo.nullary main_cst_19 (constant S_ .f32 0x00000000#32),
    StableHlo.unary main_cst_19 main_v86 (broadcastInDim S100000 ![] bcast_S_S100000 : (⟨S_, .f32⟩ : BufTy).Contents (Elt F) → (⟨S100000, .f32⟩ : BufTy).Contents (Elt F)),
    StableHlo.unary main_arg2 main_v87 (broadcastInDim S400000x1 ![0] bcast_S400000_S400000x1_0 : (⟨S400000, .i32⟩ : BufTy).Contents (Elt F) → (⟨S400000x1, .i32⟩ : BufTy).Contents (Elt F)),
    StableHlo.ternary main_v86 main_v87 main_v85 main_v88 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_20 (constant S_ .f32 0x3F800000#32),
    StableHlo.unary main_cst_20 main_v89 (broadcastInDim S100000 ![] bcast_S_S100000 : (⟨S_, .f32⟩ : BufTy).Contents (Elt F) → (⟨S100000, .f32⟩ : BufTy).Contents (Elt F)),
    StableHlo.binary main_v88 main_v89 main_v90 (maximumf : (⟨S100000, .f32⟩ : BufTy).Contents (Elt F) → (⟨S100000, .f32⟩ : BufTy).Contents (Elt F) → (⟨S100000, .f32⟩ : BufTy).Contents (Elt F)),
    StableHlo.unary main_v90 main_v91 (broadcastInDim S100000x1 ![0] bcast_S100000_S100000x1_0 : (⟨S100000, .f32⟩ : BufTy).Contents (Elt F) → (⟨S100000x1, .f32⟩ : BufTy).Contents (Elt F)),
    StableHlo.unary main_v91 main_v92 (broadcastInDim S100000x128 ![0, 1] bcast_S100000x1_S100000x128_0_1 : (⟨S100000x1, .f32⟩ : BufTy).Contents (Elt F) → (⟨S100000x128, .f32⟩ : BufTy).Contents (Elt F)),
    StableHlo.binary main_v84 main_v92 main_v93 (Host.divf : (⟨S100000x128, .f32⟩ : BufTy).Contents (Elt F) → (⟨S100000x128, .f32⟩ : BufTy).Contents (Elt F) → (⟨S100000x128, .f32⟩ : BufTy).Contents (Elt F)),
    StableHlo.binary main_v70 main_v93 main_v94 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]
abbrev Wst12 : List (Ref sig .tc) := [main_cst_17, main_v82, main_v83, main_v84, main_cst_18, main_v85, main_cst_19, main_v86, main_v87, main_v88, main_cst_20, main_v89, main_v90, main_v91, main_v92, main_v93, main_v94]
theorem st12_writes : (st12 : List (HloOp τ sig (Elt F))).Forall fun op => op.writes ⊆ (Wst12.map (Proc.devRef (τ := τ) .tc)).toFinset :=
  ⟨writes_sub_of_mem (y := main_cst_17) rfl (by decide), writes_sub_of_mem (y := main_v82) rfl (by decide), writes_sub_of_mem (y := main_v83) rfl (by decide), writes_sub_of_mem (y := main_v84) rfl (by decide), writes_sub_of_mem (y := main_cst_18) rfl (by decide), writes_sub_of_mem (y := main_v85) rfl (by decide), writes_sub_of_mem (y := main_cst_19) rfl (by decide), writes_sub_of_mem (y := main_v86) rfl (by decide), writes_sub_of_mem (y := main_v87) rfl (by decide), writes_sub_of_mem (y := main_v88) rfl (by decide), writes_sub_of_mem (y := main_cst_20) rfl (by decide), writes_sub_of_mem (y := main_v89) rfl (by decide), writes_sub_of_mem (y := main_v90) rfl (by decide), writes_sub_of_mem (y := main_v91) rfl (by decide), writes_sub_of_mem (y := main_v92) rfl (by decide), writes_sub_of_mem (y := main_v93) rfl (by decide), writes_sub_of_mem (y := main_v94) rfl (by decide)⟩

/-- Stretch 13: operations 141 … 148 of the line, ending with the one that writes main_v100. -/
abbrev st13 : List (HloOp τ sig (Elt F)) :=
  [ StableHlo.unary main_arg14 main_v95 ((transpose S256x128 [1, 0] · transposes_S128x256_S256x128_1_0) : (⟨S128x256, .f32⟩ : BufTy).Contents (Elt F) → (⟨S256x128, .f32⟩ : BufTy).Contents (Elt F)),
    StableHlo.binary main_v94 main_v95 main_v96 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg15 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call5_cst) (constant S_ .f32 0x00000000#32),
    StableHlo.TRef.unary (StableHlo.TRef.of (T := ⟨S_, .f32⟩) main_call5_cst) (StableHlo.TRef.of (T := ⟨S100000x128, .f32⟩) main_call5_v0) (broadcastInDim S100000x128 ![] bcast_S_S100000x128),
    StableHlo.TRef.binary (StableHlo.TRef.of (T := ⟨S100000x128, .f32⟩) main_v99) (StableHlo.TRef.of (T := ⟨S100000x128, .f32⟩) main_call5_v0) (StableHlo.TRef.of (T := ⟨S100000x128, .f32⟩) main_v100) maximumf ]
abbrev Wst13 : List (Ref sig .tc) := [main_v95, main_v96, main_v97, main_v98, main_v99, main_call5_cst, main_call5_v0, main_v100]
theorem st13_writes : (st13 : List (HloOp τ sig (Elt F))).Forall fun op => op.writes ⊆ (Wst13.map (Proc.devRef (τ := τ) .tc)).toFinset :=
  ⟨writes_sub_of_mem (y := main_v95) rfl (by decide), writes_sub_of_mem (y := main_v96) rfl (by decide), writes_sub_of_mem (y := main_v97) rfl (by decide), writes_sub_of_mem (y := main_v98) rfl (by decide), writes_sub_of_mem (y := main_v99) rfl (by decide), writes_sub_of_mem (y := main_call5_cst) rfl (by decide), writes_sub_of_mem (y := main_call5_v0) rfl (by decide), writes_sub_of_mem (y := main_v100) rfl (by decide)⟩

/-- Stretch 14: operations 149 … 158 of the line, ending with the one that writes main_v108. -/
abbrev st14 : List (HloOp τ sig (Elt F)) :=
  [ StableHlo.nullary main_c_21 (constantI S_ 32 0#32),
    StableHlo.unary main_c_21 main_v101 (broadcastInDim S400000 ![] bcast_S_S400000 : (⟨S_, .i32⟩ : BufTy).Contents (Elt F) → (⟨S400000, .i32⟩ : BufTy).Contents (Elt F)),
    StableHlo.binary main_arg1 main_v101 main_v102 (cmpi .slt : (⟨S400000, .i32⟩ : BufTy).Contents (Elt F) → (⟨S400000, .i32⟩ : BufTy).Contents (Elt F) → (⟨S400000, .i1⟩ : BufTy).Contents (Elt F)),
    StableHlo.nullary main_c_22 (constantI S_ 32 100000#32),
    StableHlo.unary main_c_22 main_v103 (broadcastInDim S400000 ![] bcast_S_S400000 : (⟨S_, .i32⟩ : BufTy).Contents (Elt F) → (⟨S400000, .i32⟩ : BufTy).Contents (Elt F)),
    StableHlo.binary main_arg1 main_v103 main_v104 (addi : (⟨S400000, .i32⟩ : BufTy).Contents (Elt F) → (⟨S400000, .i32⟩ : BufTy).Contents (Elt F) → (⟨S400000, .i32⟩ : BufTy).Contents (Elt F)),
    StableHlo.ternary main_v102 main_v104 main_arg1 main_v105 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v105 main_v106 (broadcastInDim S400000x1 ![0] bcast_S400000_S400000x1_0 : (⟨S400000, .i32⟩ : BufTy).Contents (Elt F) → (⟨S400000x1, .i32⟩ : BufTy).Contents (Elt F)),
    StableHlo.binary main_v100 main_v106 main_v107 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v107 main_v10 main_v108 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) ]
abbrev Wst14 : List (Ref sig .tc) := [main_c_21, main_v101, main_v102, main_c_22, main_v103, main_v104, main_v105, main_v106, main_v107, main_v108]
theorem st14_writes : (st14 : List (HloOp τ sig (Elt F))).Forall fun op => op.writes ⊆ (Wst14.map (Proc.devRef (τ := τ) .tc)).toFinset :=
  ⟨writes_sub_of_mem (y := main_c_21) rfl (by decide), writes_sub_of_mem (y := main_v101) rfl (by decide), writes_sub_of_mem (y := main_v102) rfl (by decide), writes_sub_of_mem (y := main_c_22) rfl (by decide), writes_sub_of_mem (y := main_v103) rfl (by decide), writes_sub_of_mem (y := main_v104) rfl (by decide), writes_sub_of_mem (y := main_v105) rfl (by decide), writes_sub_of_mem (y := main_v106) rfl (by decide), writes_sub_of_mem (y := main_v107) rfl (by decide), writes_sub_of_mem (y := main_v108) rfl (by decide)⟩

/-- Stretch 15: operations 159 … 168 of the line, ending with the one that writes main_v111. -/
abbrev st15 : List (HloOp τ sig (Elt F)) :=
  [ StableHlo.unary main_arg16 main_v109 ((transpose S131x128 [1, 0] · transposes_S128x131_S131x128_1_0) : (⟨S128x131, .f32⟩ : BufTy).Contents (Elt F) → (⟨S131x128, .f32⟩ : BufTy).Contents (Elt F)),
    StableHlo.binary main_v108 main_v109 main_v110 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_23 (constant S_ .f32 0x3C23D70A#32),
    StableHlo.TRef.nullary (StableHlo.TRef.of (T := ⟨S_, .f32⟩) main_call6_cst) (constant S_ .f32 0x00000000#32),
    StableHlo.TRef.unary (StableHlo.TRef.of (T := ⟨S_, .f32⟩) main_call6_cst) (StableHlo.TRef.of (T := ⟨S400000x128, .f32⟩) main_call6_v0) (broadcastInDim S400000x128 ![] bcast_S_S400000x128),
    StableHlo.TRef.binary (StableHlo.TRef.of (T := ⟨S400000x128, .f32⟩) main_v110) (StableHlo.TRef.of (T := ⟨S400000x128, .f32⟩) main_call6_v0) (StableHlo.TRef.of (T := ⟨S400000x128, .i1⟩) main_call6_v1) (cmpf .oge),
    StableHlo.TRef.unary (StableHlo.TRef.of (T := ⟨S_, .f32⟩) main_cst_23) (StableHlo.TRef.of (T := ⟨S_, .f32⟩) main_call6_v2) id,
    StableHlo.TRef.unary (StableHlo.TRef.of (T := ⟨S_, .f32⟩) main_call6_v2) (StableHlo.TRef.of (T := ⟨S400000x128, .f32⟩) main_call6_v3) (broadcastInDim S400000x128 ![] bcast_S_S400000x128),
    StableHlo.TRef.binary (StableHlo.TRef.of (T := ⟨S400000x128, .f32⟩) main_call6_v3) (StableHlo.TRef.of (T := ⟨S400000x128, .f32⟩) main_v110) (StableHlo.TRef.of (T := ⟨S400000x128, .f32⟩) main_call6_v4) mulf,
    StableHlo.TRef.ternary (StableHlo.TRef.of (T := ⟨S400000x128, .i1⟩) main_call6_v1) (StableHlo.TRef.of (T := ⟨S400000x128, .f32⟩) main_v110) (StableHlo.TRef.of (T := ⟨S400000x128, .f32⟩) main_call6_v4) (StableHlo.TRef.of (T := ⟨S400000x128, .f32⟩) main_v111) select ]
abbrev Wst15 : List (Ref sig .tc) := [main_v109, main_v110, main_cst_23, main_call6_cst, main_call6_v0, main_call6_v1, main_call6_v2, main_call6_v3, main_call6_v4, main_v111]
theorem st15_writes : (st15 : List (HloOp τ sig (Elt F))).Forall fun op => op.writes ⊆ (Wst15.map (Proc.devRef (τ := τ) .tc)).toFinset :=
  ⟨writes_sub_of_mem (y := main_v109) rfl (by decide), writes_sub_of_mem (y := main_v110) rfl (by decide), writes_sub_of_mem (y := main_cst_23) rfl (by decide), writes_sub_of_mem (y := main_call6_cst) rfl (by decide), writes_sub_of_mem (y := main_call6_v0) rfl (by decide), writes_sub_of_mem (y := main_call6_v1) rfl (by decide), writes_sub_of_mem (y := main_call6_v2) rfl (by decide), writes_sub_of_mem (y := main_call6_v3) rfl (by decide), writes_sub_of_mem (y := main_call6_v4) rfl (by decide), writes_sub_of_mem (y := main_v111) rfl (by decide)⟩

/-- Stretch 16: operations 169 … 185 of the line, ending with the one that writes main_v124. -/
abbrev st16 : List (HloOp τ sig (Elt F)) :=
  [ StableHlo.nullary main_cst_24 (constant S_ .f32 0x00000000#32),
    StableHlo.unary main_cst_24 main_v112 (broadcastInDim S100000x128 ![] bcast_S_S100000x128 : (⟨S_, .f32⟩ : BufTy).Contents (Elt F) → (⟨S100000x128, .f32⟩ : BufTy).Contents (Elt F)),
    StableHlo.unary main_arg2 main_v113 (broadcastInDim S400000x1 ![0] bcast_S400000_S400000x1_0 : (⟨S400000, .i32⟩ : BufTy).Contents (Elt F) → (⟨S400000x1, .i32⟩ : BufTy).Contents (Elt F)),
    StableHlo.ternary main_v112 main_v113 main_v111 main_v114 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_25 (constant S_ .f32 0x3F800000#32),
    StableHlo.unary main_cst_25 main_v115 (broadcastInDim S400000 ![] bcast_S_S400000 : (⟨S_, .f32⟩ : BufTy).Contents (Elt F) → (⟨S400000, .f32⟩ : BufTy).Contents (Elt F)),
    StableHlo.nullary main_cst_26 (constant S_ .f32 0x00000000#32),
    StableHlo.unary main_cst_26 main_v116 (broadcastInDim S100000 ![] bcast_S_S100000 : (⟨S_, .f32⟩ : BufTy).Contents (Elt F) → (⟨S100000, .f32⟩ : BufTy).Contents (Elt F)),
    StableHlo.unary main_arg2 main_v117 (broadcastInDim S400000x1 ![0] bcast_S400000_S400000x1_0 : (⟨S400000, .i32⟩ : BufTy).Contents (Elt F) → (⟨S400000x1, .i32⟩ : BufTy).Contents (Elt F)),
    StableHlo.ternary main_v116 main_v117 main_v115 main_v118 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_27 (constant S_ .f32 0x3F800000#32),
    StableHlo.unary main_cst_27 main_v119 (broadcastInDim S100000 ![] bcast_S_S100000 : (⟨S_, .f32⟩ : BufTy).Contents (Elt F) → (⟨S100000, .f32⟩ : BufTy).Contents (Elt F)),
    StableHlo.binary main_v118 main_v119 main_v120 (maximumf : (⟨S100000, .f32⟩ : BufTy).Contents (Elt F) → (⟨S100000, .f32⟩ : BufTy).Contents (Elt F) → (⟨S100000, .f32⟩ : BufTy).Contents (Elt F)),
    StableHlo.unary main_v120 main_v121 (broadcastInDim S100000x1 ![0] bcast_S100000_S100000x1_0 : (⟨S100000, .f32⟩ : BufTy).Contents (Elt F) → (⟨S100000x1, .f32⟩ : BufTy).Contents (Elt F)),
    StableHlo.unary main_v121 main_v122 (broadcastInDim S100000x128 ![0, 1] bcast_S100000x1_S100000x128_0_1 : (⟨S100000x1, .f32⟩ : BufTy).Contents (Elt F) → (⟨S100000x128, .f32⟩ : BufTy).Contents (Elt F)),
    StableHlo.binary main_v114 main_v122 main_v123 (Host.divf : (⟨S100000x128, .f32⟩ : BufTy).Contents (Elt F) → (⟨S100000x128, .f32⟩ : BufTy).Contents (Elt F) → (⟨S100000x128, .f32⟩ : BufTy).Contents (Elt F)),
    StableHlo.binary main_v100 main_v123 main_v124 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]
abbrev Wst16 : List (Ref sig .tc) := [main_cst_24, main_v112, main_v113, main_v114, main_cst_25, main_v115, main_cst_26, main_v116, main_v117, main_v118, main_cst_27, main_v119, main_v120, main_v121, main_v122, main_v123, main_v124]
theorem st16_writes : (st16 : List (HloOp τ sig (Elt F))).Forall fun op => op.writes ⊆ (Wst16.map (Proc.devRef (τ := τ) .tc)).toFinset :=
  ⟨writes_sub_of_mem (y := main_cst_24) rfl (by decide), writes_sub_of_mem (y := main_v112) rfl (by decide), writes_sub_of_mem (y := main_v113) rfl (by decide), writes_sub_of_mem (y := main_v114) rfl (by decide), writes_sub_of_mem (y := main_cst_25) rfl (by decide), writes_sub_of_mem (y := main_v115) rfl (by decide), writes_sub_of_mem (y := main_cst_26) rfl (by decide), writes_sub_of_mem (y := main_v116) rfl (by decide), writes_sub_of_mem (y := main_v117) rfl (by decide), writes_sub_of_mem (y := main_v118) rfl (by decide), writes_sub_of_mem (y := main_cst_27) rfl (by decide), writes_sub_of_mem (y := main_v119) rfl (by decide), writes_sub_of_mem (y := main_v120) rfl (by decide), writes_sub_of_mem (y := main_v121) rfl (by decide), writes_sub_of_mem (y := main_v122) rfl (by decide), writes_sub_of_mem (y := main_v123) rfl (by decide), writes_sub_of_mem (y := main_v124) rfl (by decide)⟩

/-- Stretch 17: operations 186 … 193 of the line, ending with the one that writes main_v130. -/
abbrev st17 : List (HloOp τ sig (Elt F)) :=
  [ StableHlo.unary main_arg17 main_v125 ((transpose S256x128 [1, 0] · transposes_S128x256_S256x128_1_0) : (⟨S128x256, .f32⟩ : BufTy).Contents (Elt F) → (⟨S256x128, .f32⟩ : BufTy).Contents (Elt F)),
    StableHlo.binary main_v124 main_v125 main_v126 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg18 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v128 main_v129 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call7_cst) (constant S_ .f32 0x00000000#32),
    StableHlo.TRef.unary (StableHlo.TRef.of (T := ⟨S_, .f32⟩) main_call7_cst) (StableHlo.TRef.of (T := ⟨S100000x128, .f32⟩) main_call7_v0) (broadcastInDim S100000x128 ![] bcast_S_S100000x128),
    StableHlo.TRef.binary (StableHlo.TRef.of (T := ⟨S100000x128, .f32⟩) main_v129) (StableHlo.TRef.of (T := ⟨S100000x128, .f32⟩) main_call7_v0) (StableHlo.TRef.of (T := ⟨S100000x128, .f32⟩) main_v130) maximumf ]
abbrev Wst17 : List (Ref sig .tc) := [main_v125, main_v126, main_v127, main_v128, main_v129, main_call7_cst, main_call7_v0, main_v130]
theorem st17_writes : (st17 : List (HloOp τ sig (Elt F))).Forall fun op => op.writes ⊆ (Wst17.map (Proc.devRef (τ := τ) .tc)).toFinset :=
  ⟨writes_sub_of_mem (y := main_v125) rfl (by decide), writes_sub_of_mem (y := main_v126) rfl (by decide), writes_sub_of_mem (y := main_v127) rfl (by decide), writes_sub_of_mem (y := main_v128) rfl (by decide), writes_sub_of_mem (y := main_v129) rfl (by decide), writes_sub_of_mem (y := main_call7_cst) rfl (by decide), writes_sub_of_mem (y := main_call7_v0) rfl (by decide), writes_sub_of_mem (y := main_v130) rfl (by decide)⟩

/-- Stretch 18: operations 194 … 203 of the line, ending with the one that writes main_v138. -/
abbrev st18 : List (HloOp τ sig (Elt F)) :=
  [ StableHlo.nullary main_c_28 (constantI S_ 32 0#32),
    StableHlo.unary main_c_28 main_v131 (broadcastInDim S400000 ![] bcast_S_S400000 : (⟨S_, .i32⟩ : BufTy).Contents (Elt F) → (⟨S400000, .i32⟩ : BufTy).Contents (Elt F)),
    StableHlo.binary main_arg1 main_v131 main_v132 (cmpi .slt : (⟨S400000, .i32⟩ : BufTy).Contents (Elt F) → (⟨S400000, .i32⟩ : BufTy).Contents (Elt F) → (⟨S400000, .i1⟩ : BufTy).Contents (Elt F)),
    StableHlo.nullary main_c_29 (constantI S_ 32 100000#32),
    StableHlo.unary main_c_29 main_v133 (broadcastInDim S400000 ![] bcast_S_S400000 : (⟨S_, .i32⟩ : BufTy).Contents (Elt F) → (⟨S400000, .i32⟩ : BufTy).Contents (Elt F)),
    StableHlo.binary main_arg1 main_v133 main_v134 (addi : (⟨S400000, .i32⟩ : BufTy).Contents (Elt F) → (⟨S400000, .i32⟩ : BufTy).Contents (Elt F) → (⟨S400000, .i32⟩ : BufTy).Contents (Elt F)),
    StableHlo.ternary main_v132 main_v134 main_arg1 main_v135 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v135 main_v136 (broadcastInDim S400000x1 ![0] bcast_S400000_S400000x1_0 : (⟨S400000, .i32⟩ : BufTy).Contents (Elt F) → (⟨S400000x1, .i32⟩ : BufTy).Contents (Elt F)),
    StableHlo.binary main_v130 main_v136 main_v137 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v137 main_v10 main_v138 ((fun a b => concatenate S400000x131 1 [⟨S400000x128, a⟩, ⟨S400000x3, b⟩] concatenates_S400000x128_S400000x3_S400000x131_d1) : (⟨S400000x128, .f32⟩ : BufTy).Contents (Elt F) → (⟨S400000x3, .f32⟩ : BufTy).Contents (Elt F) → (⟨S400000x131, .f32⟩ : BufTy).Contents (Elt F)) ]
abbrev Wst18 : List (Ref sig .tc) := [main_c_28, main_v131, main_v132, main_c_29, main_v133, main_v134, main_v135, main_v136, main_v137, main_v138]
theorem st18_writes : (st18 : List (HloOp τ sig (Elt F))).Forall fun op => op.writes ⊆ (Wst18.map (Proc.devRef (τ := τ) .tc)).toFinset :=
  ⟨writes_sub_of_mem (y := main_c_28) rfl (by decide), writes_sub_of_mem (y := main_v131) rfl (by decide), writes_sub_of_mem (y := main_v132) rfl (by decide), writes_sub_of_mem (y := main_c_29) rfl (by decide), writes_sub_of_mem (y := main_v133) rfl (by decide), writes_sub_of_mem (y := main_v134) rfl (by decide), writes_sub_of_mem (y := main_v135) rfl (by decide), writes_sub_of_mem (y := main_v136) rfl (by decide), writes_sub_of_mem (y := main_v137) rfl (by decide), writes_sub_of_mem (y := main_v138) rfl (by decide)⟩

/-- Stretch 19: operations 204 … 213 of the line, ending with the one that writes main_v141. -/
abbrev st19 : List (HloOp τ sig (Elt F)) :=
  [ StableHlo.unary main_arg19 main_v139 ((transpose S131x128 [1, 0] · transposes_S128x131_S131x128_1_0) : (⟨S128x131, .f32⟩ : BufTy).Contents (Elt F) → (⟨S131x128, .f32⟩ : BufTy).Contents (Elt F)),
    StableHlo.binary main_v138 main_v139 main_v140 ((fun l r => Host.dotGeneral dot_S400000x131_S131x128_S400000x128_1_0_0_1_n_n none l r) : (⟨S400000x131, .f32⟩ : BufTy).Contents (Elt F) → (⟨S131x128, .f32⟩ : BufTy).Contents (Elt F) → (⟨S400000x128, .f32⟩ : BufTy).Contents (Elt F)),
    StableHlo.nullary main_cst_30 (constant S_ .f32 0x3C23D70A#32),
    StableHlo.TRef.nullary (StableHlo.TRef.of (T := ⟨S_, .f32⟩) main_call8_cst) (constant S_ .f32 0x00000000#32),
    StableHlo.TRef.unary (StableHlo.TRef.of (T := ⟨S_, .f32⟩) main_call8_cst) (StableHlo.TRef.of (T := ⟨S400000x128, .f32⟩) main_call8_v0) (broadcastInDim S400000x128 ![] bcast_S_S400000x128),
    StableHlo.TRef.binary (StableHlo.TRef.of (T := ⟨S400000x128, .f32⟩) main_v140) (StableHlo.TRef.of (T := ⟨S400000x128, .f32⟩) main_call8_v0) (StableHlo.TRef.of (T := ⟨S400000x128, .i1⟩) main_call8_v1) (cmpf .oge),
    StableHlo.TRef.unary (StableHlo.TRef.of (T := ⟨S_, .f32⟩) main_cst_30) (StableHlo.TRef.of (T := ⟨S_, .f32⟩) main_call8_v2) id,
    StableHlo.TRef.unary (StableHlo.TRef.of (T := ⟨S_, .f32⟩) main_call8_v2) (StableHlo.TRef.of (T := ⟨S400000x128, .f32⟩) main_call8_v3) (broadcastInDim S400000x128 ![] bcast_S_S400000x128),
    StableHlo.TRef.binary (StableHlo.TRef.of (T := ⟨S400000x128, .f32⟩) main_call8_v3) (StableHlo.TRef.of (T := ⟨S400000x128, .f32⟩) main_v140) (StableHlo.TRef.of (T := ⟨S400000x128, .f32⟩) main_call8_v4) mulf,
    StableHlo.TRef.ternary (StableHlo.TRef.of (T := ⟨S400000x128, .i1⟩) main_call8_v1) (StableHlo.TRef.of (T := ⟨S400000x128, .f32⟩) main_v140) (StableHlo.TRef.of (T := ⟨S400000x128, .f32⟩) main_call8_v4) (StableHlo.TRef.of (T := ⟨S400000x128, .f32⟩) main_v141) select ]
abbrev Wst19 : List (Ref sig .tc) := [main_v139, main_v140, main_cst_30, main_call8_cst, main_call8_v0, main_call8_v1, main_call8_v2, main_call8_v3, main_call8_v4, main_v141]
theorem st19_writes : (st19 : List (HloOp τ sig (Elt F))).Forall fun op => op.writes ⊆ (Wst19.map (Proc.devRef (τ := τ) .tc)).toFinset :=
  ⟨writes_sub_of_mem (y := main_v139) rfl (by decide), writes_sub_of_mem (y := main_v140) rfl (by decide), writes_sub_of_mem (y := main_cst_30) rfl (by decide), writes_sub_of_mem (y := main_call8_cst) rfl (by decide), writes_sub_of_mem (y := main_call8_v0) rfl (by decide), writes_sub_of_mem (y := main_call8_v1) rfl (by decide), writes_sub_of_mem (y := main_call8_v2) rfl (by decide), writes_sub_of_mem (y := main_call8_v3) rfl (by decide), writes_sub_of_mem (y := main_call8_v4) rfl (by decide), writes_sub_of_mem (y := main_v141) rfl (by decide)⟩

/-- Stretch 20: operations 214 … 230 of the line, ending with the one that writes main_v154. -/
abbrev st20 : List (HloOp τ sig (Elt F)) :=
  [ StableHlo.nullary main_cst_31 (constant S_ .f32 0x00000000#32),
    StableHlo.unary main_cst_31 main_v142 (broadcastInDim S100000x128 ![] bcast_S_S100000x128 : (⟨S_, .f32⟩ : BufTy).Contents (Elt F) → (⟨S100000x128, .f32⟩ : BufTy).Contents (Elt F)),
    StableHlo.unary main_arg2 main_v143 (broadcastInDim S400000x1 ![0] bcast_S400000_S400000x1_0 : (⟨S400000, .i32⟩ : BufTy).Contents (Elt F) → (⟨S400000x1, .i32⟩ : BufTy).Contents (Elt F)),
    StableHlo.ternary main_v142 main_v143 main_v141 main_v144 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_32 (constant S_ .f32 0x3F800000#32),
    StableHlo.unary main_cst_32 main_v145 (broadcastInDim S400000 ![] bcast_S_S400000 : (⟨S_, .f32⟩ : BufTy).Contents (Elt F) → (⟨S400000, .f32⟩ : BufTy).Contents (Elt F)),
    StableHlo.nullary main_cst_33 (constant S_ .f32 0x00000000#32),
    StableHlo.unary main_cst_33 main_v146 (broadcastInDim S100000 ![] bcast_S_S100000 : (⟨S_, .f32⟩ : BufTy).Contents (Elt F) → (⟨S100000, .f32⟩ : BufTy).Contents (Elt F)),
    StableHlo.unary main_arg2 main_v147 (broadcastInDim S400000x1 ![0] bcast_S400000_S400000x1_0 : (⟨S400000, .i32⟩ : BufTy).Contents (Elt F) → (⟨S400000x1, .i32⟩ : BufTy).Contents (Elt F)),
    StableHlo.ternary main_v146 main_v147 main_v145 main_v148 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_34 (constant S_ .f32 0x3F800000#32),
    StableHlo.unary main_cst_34 main_v149 (broadcastInDim S100000 ![] bcast_S_S100000 : (⟨S_, .f32⟩ : BufTy).Contents (Elt F) → (⟨S100000, .f32⟩ : BufTy).Contents (Elt F)),
    StableHlo.binary main_v148 main_v149 main_v150 (maximumf : (⟨S100000, .f32⟩ : BufTy).Contents (Elt F) → (⟨S100000, .f32⟩ : BufTy).Contents (Elt F) → (⟨S100000, .f32⟩ : BufTy).Contents (Elt F)),
    StableHlo.unary main_v150 main_v151 (broadcastInDim S100000x1 ![0] bcast_S100000_S100000x1_0 : (⟨S100000, .f32⟩ : BufTy).Contents (Elt F) → (⟨S100000x1, .f32⟩ : BufTy).Contents (Elt F)),
    StableHlo.unary main_v151 main_v152 (broadcastInDim S100000x128 ![0, 1] bcast_S100000x1_S100000x128_0_1 : (⟨S100000x1, .f32⟩ : BufTy).Contents (Elt F) → (⟨S100000x128, .f32⟩ : BufTy).Contents (Elt F)),
    StableHlo.binary main_v144 main_v152 main_v153 (Host.divf : (⟨S100000x128, .f32⟩ : BufTy).Contents (Elt F) → (⟨S100000x128, .f32⟩ : BufTy).Contents (Elt F) → (⟨S100000x128, .f32⟩ : BufTy).Contents (Elt F)),
    StableHlo.binary main_v130 main_v153 main_v154 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]
abbrev Wst20 : List (Ref sig .tc) := [main_cst_31, main_v142, main_v143, main_v144, main_cst_32, main_v145, main_cst_33, main_v146, main_v147, main_v148, main_cst_34, main_v149, main_v150, main_v151, main_v152, main_v153, main_v154]
theorem st20_writes : (st20 : List (HloOp τ sig (Elt F))).Forall fun op => op.writes ⊆ (Wst20.map (Proc.devRef (τ := τ) .tc)).toFinset :=
  ⟨writes_sub_of_mem (y := main_cst_31) rfl (by decide), writes_sub_of_mem (y := main_v142) rfl (by decide), writes_sub_of_mem (y := main_v143) rfl (by decide), writes_sub_of_mem (y := main_v144) rfl (by decide), writes_sub_of_mem (y := main_cst_32) rfl (by decide), writes_sub_of_mem (y := main_v145) rfl (by decide), writes_sub_of_mem (y := main_cst_33) rfl (by decide), writes_sub_of_mem (y := main_v146) rfl (by decide), writes_sub_of_mem (y := main_v147) rfl (by decide), writes_sub_of_mem (y := main_v148) rfl (by decide), writes_sub_of_mem (y := main_cst_34) rfl (by decide), writes_sub_of_mem (y := main_v149) rfl (by decide), writes_sub_of_mem (y := main_v150) rfl (by decide), writes_sub_of_mem (y := main_v151) rfl (by decide), writes_sub_of_mem (y := main_v152) rfl (by decide), writes_sub_of_mem (y := main_v153) rfl (by decide), writes_sub_of_mem (y := main_v154) rfl (by decide)⟩

/-- Stretch 21: operations 231 … 235 of the line, ending with the one that writes main_v159. -/
abbrev st21 : List (HloOp τ sig (Elt F)) :=
  [ StableHlo.unary main_arg20 main_v155 ((transpose S256x64 [1, 0] · transposes_S64x256_S256x64_1_0) : (⟨S64x256, .f32⟩ : BufTy).Contents (Elt F) → (⟨S256x64, .f32⟩ : BufTy).Contents (Elt F)),
    StableHlo.binary main_v154 main_v155 main_v156 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg21 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S100000x64 ![0, 1] bcast_S1x64_S100000x64_0_1 : (⟨S1x64, .f32⟩ : BufTy).Contents (Elt F) → (⟨S100000x64, .f32⟩ : BufTy).Contents (Elt F)),
    StableHlo.binary main_v156 main_v158 main_v159 (addf : (⟨S100000x64, .f32⟩ : BufTy).Contents (Elt F) → (⟨S100000x64, .f32⟩ : BufTy).Contents (Elt F) → (⟨S100000x64, .f32⟩ : BufTy).Contents (Elt F)) ]
abbrev Wst21 : List (Ref sig .tc) := [main_v155, main_v156, main_v157, main_v158, main_v159]
theorem st21_writes : (st21 : List (HloOp τ sig (Elt F))).Forall fun op => op.writes ⊆ (Wst21.map (Proc.devRef (τ := τ) .tc)).toFinset :=
  ⟨writes_sub_of_mem (y := main_v155) rfl (by decide), writes_sub_of_mem (y := main_v156) rfl (by decide), writes_sub_of_mem (y := main_v157) rfl (by decide), writes_sub_of_mem (y := main_v158) rfl (by decide), writes_sub_of_mem (y := main_v159) rfl (by decide)⟩

/-- The tails: T22 is empty, TK is stretch K then T(K+1); WTK the references TK writes. -/
abbrev T22 : List (HloOp τ sig (Elt F)) := []
abbrev WT22 : List (Ref sig .tc) := []
theorem T22_writes : (T22 : List (HloOp τ sig (Elt F))).Forall fun op => op.writes ⊆ (WT22.map (Proc.devRef (τ := τ) .tc)).toFinset := trivial
abbrev T21 : List (HloOp τ sig (Elt F)) := st21 ++ T22
abbrev WT21 : List (Ref sig .tc) := Wst21 ++ WT22
theorem T21_writes : (T21 : List (HloOp τ sig (Elt F))).Forall fun op => op.writes ⊆ (WT21.map (Proc.devRef (τ := τ) .tc)).toFinset :=
  writes_append st21_writes T22_writes
abbrev T20 : List (HloOp τ sig (Elt F)) := st20 ++ T21
abbrev WT20 : List (Ref sig .tc) := Wst20 ++ WT21
theorem T20_writes : (T20 : List (HloOp τ sig (Elt F))).Forall fun op => op.writes ⊆ (WT20.map (Proc.devRef (τ := τ) .tc)).toFinset :=
  writes_append st20_writes T21_writes
abbrev T19 : List (HloOp τ sig (Elt F)) := st19 ++ T20
abbrev WT19 : List (Ref sig .tc) := Wst19 ++ WT20
theorem T19_writes : (T19 : List (HloOp τ sig (Elt F))).Forall fun op => op.writes ⊆ (WT19.map (Proc.devRef (τ := τ) .tc)).toFinset :=
  writes_append st19_writes T20_writes
abbrev T18 : List (HloOp τ sig (Elt F)) := st18 ++ T19
abbrev WT18 : List (Ref sig .tc) := Wst18 ++ WT19
theorem T18_writes : (T18 : List (HloOp τ sig (Elt F))).Forall fun op => op.writes ⊆ (WT18.map (Proc.devRef (τ := τ) .tc)).toFinset :=
  writes_append st18_writes T19_writes
abbrev T17 : List (HloOp τ sig (Elt F)) := st17 ++ T18
abbrev WT17 : List (Ref sig .tc) := Wst17 ++ WT18
theorem T17_writes : (T17 : List (HloOp τ sig (Elt F))).Forall fun op => op.writes ⊆ (WT17.map (Proc.devRef (τ := τ) .tc)).toFinset :=
  writes_append st17_writes T18_writes
abbrev T16 : List (HloOp τ sig (Elt F)) := st16 ++ T17
abbrev WT16 : List (Ref sig .tc) := Wst16 ++ WT17
theorem T16_writes : (T16 : List (HloOp τ sig (Elt F))).Forall fun op => op.writes ⊆ (WT16.map (Proc.devRef (τ := τ) .tc)).toFinset :=
  writes_append st16_writes T17_writes
abbrev T15 : List (HloOp τ sig (Elt F)) := st15 ++ T16
abbrev WT15 : List (Ref sig .tc) := Wst15 ++ WT16
theorem T15_writes : (T15 : List (HloOp τ sig (Elt F))).Forall fun op => op.writes ⊆ (WT15.map (Proc.devRef (τ := τ) .tc)).toFinset :=
  writes_append st15_writes T16_writes
abbrev T14 : List (HloOp τ sig (Elt F)) := st14 ++ T15
abbrev WT14 : List (Ref sig .tc) := Wst14 ++ WT15
theorem T14_writes : (T14 : List (HloOp τ sig (Elt F))).Forall fun op => op.writes ⊆ (WT14.map (Proc.devRef (τ := τ) .tc)).toFinset :=
  writes_append st14_writes T15_writes
abbrev T13 : List (HloOp τ sig (Elt F)) := st13 ++ T14
abbrev WT13 : List (Ref sig .tc) := Wst13 ++ WT14
theorem T13_writes : (T13 : List (HloOp τ sig (Elt F))).Forall fun op => op.writes ⊆ (WT13.map (Proc.devRef (τ := τ) .tc)).toFinset :=
  writes_append st13_writes T14_writes
abbrev T12 : List (HloOp τ sig (Elt F)) := st12 ++ T13
abbrev WT12 : List (Ref sig .tc) := Wst12 ++ WT13
theorem T12_writes : (T12 : List (HloOp τ sig (Elt F))).Forall fun op => op.writes ⊆ (WT12.map (Proc.devRef (τ := τ) .tc)).toFinset :=
  writes_append st12_writes T13_writes
abbrev T11 : List (HloOp τ sig (Elt F)) := st11 ++ T12
abbrev WT11 : List (Ref sig .tc) := Wst11 ++ WT12
theorem T11_writes : (T11 : List (HloOp τ sig (Elt F))).Forall fun op => op.writes ⊆ (WT11.map (Proc.devRef (τ := τ) .tc)).toFinset :=
  writes_append st11_writes T12_writes
abbrev T10 : List (HloOp τ sig (Elt F)) := st10 ++ T11
abbrev WT10 : List (Ref sig .tc) := Wst10 ++ WT11
theorem T10_writes : (T10 : List (HloOp τ sig (Elt F))).Forall fun op => op.writes ⊆ (WT10.map (Proc.devRef (τ := τ) .tc)).toFinset :=
  writes_append st10_writes T11_writes
abbrev T9 : List (HloOp τ sig (Elt F)) := st9 ++ T10
abbrev WT9 : List (Ref sig .tc) := Wst9 ++ WT10
theorem T9_writes : (T9 : List (HloOp τ sig (Elt F))).Forall fun op => op.writes ⊆ (WT9.map (Proc.devRef (τ := τ) .tc)).toFinset :=
  writes_append st9_writes T10_writes
abbrev T8 : List (HloOp τ sig (Elt F)) := st8 ++ T9
abbrev WT8 : List (Ref sig .tc) := Wst8 ++ WT9
theorem T8_writes : (T8 : List (HloOp τ sig (Elt F))).Forall fun op => op.writes ⊆ (WT8.map (Proc.devRef (τ := τ) .tc)).toFinset :=
  writes_append st8_writes T9_writes
abbrev T7 : List (HloOp τ sig (Elt F)) := st7 ++ T8
abbrev WT7 : List (Ref sig .tc) := Wst7 ++ WT8
theorem T7_writes : (T7 : List (HloOp τ sig (Elt F))).Forall fun op => op.writes ⊆ (WT7.map (Proc.devRef (τ := τ) .tc)).toFinset :=
  writes_append st7_writes T8_writes
abbrev T6 : List (HloOp τ sig (Elt F)) := st6 ++ T7
abbrev WT6 : List (Ref sig .tc) := Wst6 ++ WT7
theorem T6_writes : (T6 : List (HloOp τ sig (Elt F))).Forall fun op => op.writes ⊆ (WT6.map (Proc.devRef (τ := τ) .tc)).toFinset :=
  writes_append st6_writes T7_writes
abbrev T5 : List (HloOp τ sig (Elt F)) := st5 ++ T6
abbrev WT5 : List (Ref sig .tc) := Wst5 ++ WT6
theorem T5_writes : (T5 : List (HloOp τ sig (Elt F))).Forall fun op => op.writes ⊆ (WT5.map (Proc.devRef (τ := τ) .tc)).toFinset :=
  writes_append st5_writes T6_writes
abbrev T4 : List (HloOp τ sig (Elt F)) := st4 ++ T5
abbrev WT4 : List (Ref sig .tc) := Wst4 ++ WT5
theorem T4_writes : (T4 : List (HloOp τ sig (Elt F))).Forall fun op => op.writes ⊆ (WT4.map (Proc.devRef (τ := τ) .tc)).toFinset :=
  writes_append st4_writes T5_writes
abbrev T3 : List (HloOp τ sig (Elt F)) := st3 ++ T4
abbrev WT3 : List (Ref sig .tc) := Wst3 ++ WT4
theorem T3_writes : (T3 : List (HloOp τ sig (Elt F))).Forall fun op => op.writes ⊆ (WT3.map (Proc.devRef (τ := τ) .tc)).toFinset :=
  writes_append st3_writes T4_writes
abbrev T2 : List (HloOp τ sig (Elt F)) := st2 ++ T3
abbrev WT2 : List (Ref sig .tc) := Wst2 ++ WT3
theorem T2_writes : (T2 : List (HloOp τ sig (Elt F))).Forall fun op => op.writes ⊆ (WT2.map (Proc.devRef (τ := τ) .tc)).toFinset :=
  writes_append st2_writes T3_writes
abbrev T1 : List (HloOp τ sig (Elt F)) := st1 ++ T2
abbrev WT1 : List (Ref sig .tc) := Wst1 ++ WT2
theorem T1_writes : (T1 : List (HloOp τ sig (Elt F))).Forall fun op => op.writes ⊆ (WT1.map (Proc.devRef (τ := τ) .tc)).toFinset :=
  writes_append st1_writes T2_writes
abbrev T0 : List (HloOp τ sig (Elt F)) := st0 ++ T1
abbrev WT0 : List (Ref sig .tc) := Wst0 ++ WT1
theorem T0_writes : (T0 : List (HloOp τ sig (Elt F))).Forall fun op => op.writes ⊆ (WT0.map (Proc.devRef (τ := τ) .tc)).toFinset :=
  writes_append st0_writes T1_writes

/-- The line is the stretches in a row. -/
theorem ops_eq_T0 : (ops : List (HloOp τ sig (Elt F))) = T0 := rfl

/-- The contents the line reaches before each stretch. -/
abbrev pre0 (V : Valuation τ sig (Elt F)) : Valuation τ sig (Elt F) := V
abbrev pre1 (V : Valuation τ sig (Elt F)) : Valuation τ sig (Elt F) := after st0 (pre0 V)
abbrev pre2 (V : Valuation τ sig (Elt F)) : Valuation τ sig (Elt F) := after st1 (pre1 V)
abbrev pre3 (V : Valuation τ sig (Elt F)) : Valuation τ sig (Elt F) := after st2 (pre2 V)
abbrev pre4 (V : Valuation τ sig (Elt F)) : Valuation τ sig (Elt F) := after st3 (pre3 V)
abbrev pre5 (V : Valuation τ sig (Elt F)) : Valuation τ sig (Elt F) := after st4 (pre4 V)
abbrev pre6 (V : Valuation τ sig (Elt F)) : Valuation τ sig (Elt F) := after st5 (pre5 V)
abbrev pre7 (V : Valuation τ sig (Elt F)) : Valuation τ sig (Elt F) := after st6 (pre6 V)
abbrev pre8 (V : Valuation τ sig (Elt F)) : Valuation τ sig (Elt F) := after st7 (pre7 V)
abbrev pre9 (V : Valuation τ sig (Elt F)) : Valuation τ sig (Elt F) := after st8 (pre8 V)
abbrev pre10 (V : Valuation τ sig (Elt F)) : Valuation τ sig (Elt F) := after st9 (pre9 V)
abbrev pre11 (V : Valuation τ sig (Elt F)) : Valuation τ sig (Elt F) := after st10 (pre10 V)
abbrev pre12 (V : Valuation τ sig (Elt F)) : Valuation τ sig (Elt F) := after st11 (pre11 V)
abbrev pre13 (V : Valuation τ sig (Elt F)) : Valuation τ sig (Elt F) := after st12 (pre12 V)
abbrev pre14 (V : Valuation τ sig (Elt F)) : Valuation τ sig (Elt F) := after st13 (pre13 V)
abbrev pre15 (V : Valuation τ sig (Elt F)) : Valuation τ sig (Elt F) := after st14 (pre14 V)
abbrev pre16 (V : Valuation τ sig (Elt F)) : Valuation τ sig (Elt F) := after st15 (pre15 V)
abbrev pre17 (V : Valuation τ sig (Elt F)) : Valuation τ sig (Elt F) := after st16 (pre16 V)
abbrev pre18 (V : Valuation τ sig (Elt F)) : Valuation τ sig (Elt F) := after st17 (pre17 V)
abbrev pre19 (V : Valuation τ sig (Elt F)) : Valuation τ sig (Elt F) := after st18 (pre18 V)
abbrev pre20 (V : Valuation τ sig (Elt F)) : Valuation τ sig (Elt F) := after st19 (pre19 V)
abbrev pre21 (V : Valuation τ sig (Elt F)) : Valuation τ sig (Elt F) := after st20 (pre20 V)
abbrev pre22 (V : Valuation τ sig (Elt F)) : Valuation τ sig (Elt F) := after st21 (pre21 V)

theorem tail_0 (V : Valuation τ sig (Elt F)) : after ops V = after T0 (pre0 V) := congrArg (fun l => after l V) ops_eq_T0
theorem tail_1 (V : Valuation τ sig (Elt F)) : after ops V = after T1 (pre1 V) := (tail_0 V).trans (after_two st0 T1 (pre0 V))
theorem tail_2 (V : Valuation τ sig (Elt F)) : after ops V = after T2 (pre2 V) := (tail_1 V).trans (after_two st1 T2 (pre1 V))
theorem tail_3 (V : Valuation τ sig (Elt F)) : after ops V = after T3 (pre3 V) := (tail_2 V).trans (after_two st2 T3 (pre2 V))
theorem tail_4 (V : Valuation τ sig (Elt F)) : after ops V = after T4 (pre4 V) := (tail_3 V).trans (after_two st3 T4 (pre3 V))
theorem tail_5 (V : Valuation τ sig (Elt F)) : after ops V = after T5 (pre5 V) := (tail_4 V).trans (after_two st4 T5 (pre4 V))
theorem tail_6 (V : Valuation τ sig (Elt F)) : after ops V = after T6 (pre6 V) := (tail_5 V).trans (after_two st5 T6 (pre5 V))
theorem tail_7 (V : Valuation τ sig (Elt F)) : after ops V = after T7 (pre7 V) := (tail_6 V).trans (after_two st6 T7 (pre6 V))
theorem tail_8 (V : Valuation τ sig (Elt F)) : after ops V = after T8 (pre8 V) := (tail_7 V).trans (after_two st7 T8 (pre7 V))
theorem tail_9 (V : Valuation τ sig (Elt F)) : after ops V = after T9 (pre9 V) := (tail_8 V).trans (after_two st8 T9 (pre8 V))
theorem tail_10 (V : Valuation τ sig (Elt F)) : after ops V = after T10 (pre10 V) := (tail_9 V).trans (after_two st9 T10 (pre9 V))
theorem tail_11 (V : Valuation τ sig (Elt F)) : after ops V = after T11 (pre11 V) := (tail_10 V).trans (after_two st10 T11 (pre10 V))
theorem tail_12 (V : Valuation τ sig (Elt F)) : after ops V = after T12 (pre12 V) := (tail_11 V).trans (after_two st11 T12 (pre11 V))
theorem tail_13 (V : Valuation τ sig (Elt F)) : after ops V = after T13 (pre13 V) := (tail_12 V).trans (after_two st12 T13 (pre12 V))
theorem tail_14 (V : Valuation τ sig (Elt F)) : after ops V = after T14 (pre14 V) := (tail_13 V).trans (after_two st13 T14 (pre13 V))
theorem tail_15 (V : Valuation τ sig (Elt F)) : after ops V = after T15 (pre15 V) := (tail_14 V).trans (after_two st14 T15 (pre14 V))
theorem tail_16 (V : Valuation τ sig (Elt F)) : after ops V = after T16 (pre16 V) := (tail_15 V).trans (after_two st15 T16 (pre15 V))
theorem tail_17 (V : Valuation τ sig (Elt F)) : after ops V = after T17 (pre17 V) := (tail_16 V).trans (after_two st16 T17 (pre16 V))
theorem tail_18 (V : Valuation τ sig (Elt F)) : after ops V = after T18 (pre18 V) := (tail_17 V).trans (after_two st17 T18 (pre17 V))
theorem tail_19 (V : Valuation τ sig (Elt F)) : after ops V = after T19 (pre19 V) := (tail_18 V).trans (after_two st18 T19 (pre18 V))
theorem tail_20 (V : Valuation τ sig (Elt F)) : after ops V = after T20 (pre20 V) := (tail_19 V).trans (after_two st19 T20 (pre19 V))
theorem tail_21 (V : Valuation τ sig (Elt F)) : after ops V = after T21 (pre21 V) := (tail_20 V).trans (after_two st20 T21 (pre20 V))
theorem tail_22 (V : Valuation τ sig (Elt F)) : after ops V = after T22 (pre22 V) := (tail_21 V).trans (after_two st21 T22 (pre21 V))

theorem in_0 (W : Valuation τ sig (Elt F)) (r : Ref sig .tc) (h : r ∉ WT0) : after T0 W (Proc.devRef .tc r) = W (Proc.devRef .tc r) :=
  after_of_writes_sub T0 W T0_writes h
theorem in_1 (W : Valuation τ sig (Elt F)) (r : Ref sig .tc) (h : r ∉ WT1) : after T1 W (Proc.devRef .tc r) = W (Proc.devRef .tc r) :=
  after_of_writes_sub T1 W T1_writes h
theorem in_2 (W : Valuation τ sig (Elt F)) (r : Ref sig .tc) (h : r ∉ WT2) : after T2 W (Proc.devRef .tc r) = W (Proc.devRef .tc r) :=
  after_of_writes_sub T2 W T2_writes h
theorem in_3 (W : Valuation τ sig (Elt F)) (r : Ref sig .tc) (h : r ∉ WT3) : after T3 W (Proc.devRef .tc r) = W (Proc.devRef .tc r) :=
  after_of_writes_sub T3 W T3_writes h
theorem in_4 (W : Valuation τ sig (Elt F)) (r : Ref sig .tc) (h : r ∉ WT4) : after T4 W (Proc.devRef .tc r) = W (Proc.devRef .tc r) :=
  after_of_writes_sub T4 W T4_writes h
theorem in_5 (W : Valuation τ sig (Elt F)) (r : Ref sig .tc) (h : r ∉ WT5) : after T5 W (Proc.devRef .tc r) = W (Proc.devRef .tc r) :=
  after_of_writes_sub T5 W T5_writes h
theorem in_6 (W : Valuation τ sig (Elt F)) (r : Ref sig .tc) (h : r ∉ WT6) : after T6 W (Proc.devRef .tc r) = W (Proc.devRef .tc r) :=
  after_of_writes_sub T6 W T6_writes h
theorem in_7 (W : Valuation τ sig (Elt F)) (r : Ref sig .tc) (h : r ∉ WT7) : after T7 W (Proc.devRef .tc r) = W (Proc.devRef .tc r) :=
  after_of_writes_sub T7 W T7_writes h
theorem in_8 (W : Valuation τ sig (Elt F)) (r : Ref sig .tc) (h : r ∉ WT8) : after T8 W (Proc.devRef .tc r) = W (Proc.devRef .tc r) :=
  after_of_writes_sub T8 W T8_writes h
theorem in_9 (W : Valuation τ sig (Elt F)) (r : Ref sig .tc) (h : r ∉ WT9) : after T9 W (Proc.devRef .tc r) = W (Proc.devRef .tc r) :=
  after_of_writes_sub T9 W T9_writes h
theorem in_10 (W : Valuation τ sig (Elt F)) (r : Ref sig .tc) (h : r ∉ WT10) : after T10 W (Proc.devRef .tc r) = W (Proc.devRef .tc r) :=
  after_of_writes_sub T10 W T10_writes h
theorem in_11 (W : Valuation τ sig (Elt F)) (r : Ref sig .tc) (h : r ∉ WT11) : after T11 W (Proc.devRef .tc r) = W (Proc.devRef .tc r) :=
  after_of_writes_sub T11 W T11_writes h
theorem in_12 (W : Valuation τ sig (Elt F)) (r : Ref sig .tc) (h : r ∉ WT12) : after T12 W (Proc.devRef .tc r) = W (Proc.devRef .tc r) :=
  after_of_writes_sub T12 W T12_writes h
theorem in_13 (W : Valuation τ sig (Elt F)) (r : Ref sig .tc) (h : r ∉ WT13) : after T13 W (Proc.devRef .tc r) = W (Proc.devRef .tc r) :=
  after_of_writes_sub T13 W T13_writes h
theorem in_14 (W : Valuation τ sig (Elt F)) (r : Ref sig .tc) (h : r ∉ WT14) : after T14 W (Proc.devRef .tc r) = W (Proc.devRef .tc r) :=
  after_of_writes_sub T14 W T14_writes h
theorem in_15 (W : Valuation τ sig (Elt F)) (r : Ref sig .tc) (h : r ∉ WT15) : after T15 W (Proc.devRef .tc r) = W (Proc.devRef .tc r) :=
  after_of_writes_sub T15 W T15_writes h
theorem in_16 (W : Valuation τ sig (Elt F)) (r : Ref sig .tc) (h : r ∉ WT16) : after T16 W (Proc.devRef .tc r) = W (Proc.devRef .tc r) :=
  after_of_writes_sub T16 W T16_writes h
theorem in_17 (W : Valuation τ sig (Elt F)) (r : Ref sig .tc) (h : r ∉ WT17) : after T17 W (Proc.devRef .tc r) = W (Proc.devRef .tc r) :=
  after_of_writes_sub T17 W T17_writes h
theorem in_18 (W : Valuation τ sig (Elt F)) (r : Ref sig .tc) (h : r ∉ WT18) : after T18 W (Proc.devRef .tc r) = W (Proc.devRef .tc r) :=
  after_of_writes_sub T18 W T18_writes h
theorem in_19 (W : Valuation τ sig (Elt F)) (r : Ref sig .tc) (h : r ∉ WT19) : after T19 W (Proc.devRef .tc r) = W (Proc.devRef .tc r) :=
  after_of_writes_sub T19 W T19_writes h
theorem in_20 (W : Valuation τ sig (Elt F)) (r : Ref sig .tc) (h : r ∉ WT20) : after T20 W (Proc.devRef .tc r) = W (Proc.devRef .tc r) :=
  after_of_writes_sub T20 W T20_writes h
theorem in_21 (W : Valuation τ sig (Elt F)) (r : Ref sig .tc) (h : r ∉ WT21) : after T21 W (Proc.devRef .tc r) = W (Proc.devRef .tc r) :=
  after_of_writes_sub T21 W T21_writes h
theorem in_22 (W : Valuation τ sig (Elt F)) (r : Ref sig .tc) (h : r ∉ WT22) : after T22 W (Proc.devRef .tc r) = W (Proc.devRef .tc r) :=
  after_of_writes_sub T22 W T22_writes h

theorem out_0 (W : Valuation τ sig (Elt F)) (r : Ref sig .tc) (h : r ∉ WT1) : after T0 W (Proc.devRef .tc r) = after st0 W (Proc.devRef .tc r) :=
  (congrFun (after_two st0 T1 W) _).trans (in_1 (after st0 W) r h)
theorem out_1 (W : Valuation τ sig (Elt F)) (r : Ref sig .tc) (h : r ∉ WT2) : after T1 W (Proc.devRef .tc r) = after st1 W (Proc.devRef .tc r) :=
  (congrFun (after_two st1 T2 W) _).trans (in_2 (after st1 W) r h)
theorem out_2 (W : Valuation τ sig (Elt F)) (r : Ref sig .tc) (h : r ∉ WT3) : after T2 W (Proc.devRef .tc r) = after st2 W (Proc.devRef .tc r) :=
  (congrFun (after_two st2 T3 W) _).trans (in_3 (after st2 W) r h)
theorem out_3 (W : Valuation τ sig (Elt F)) (r : Ref sig .tc) (h : r ∉ WT4) : after T3 W (Proc.devRef .tc r) = after st3 W (Proc.devRef .tc r) :=
  (congrFun (after_two st3 T4 W) _).trans (in_4 (after st3 W) r h)
theorem out_4 (W : Valuation τ sig (Elt F)) (r : Ref sig .tc) (h : r ∉ WT5) : after T4 W (Proc.devRef .tc r) = after st4 W (Proc.devRef .tc r) :=
  (congrFun (after_two st4 T5 W) _).trans (in_5 (after st4 W) r h)
theorem out_5 (W : Valuation τ sig (Elt F)) (r : Ref sig .tc) (h : r ∉ WT6) : after T5 W (Proc.devRef .tc r) = after st5 W (Proc.devRef .tc r) :=
  (congrFun (after_two st5 T6 W) _).trans (in_6 (after st5 W) r h)
theorem out_6 (W : Valuation τ sig (Elt F)) (r : Ref sig .tc) (h : r ∉ WT7) : after T6 W (Proc.devRef .tc r) = after st6 W (Proc.devRef .tc r) :=
  (congrFun (after_two st6 T7 W) _).trans (in_7 (after st6 W) r h)
theorem out_7 (W : Valuation τ sig (Elt F)) (r : Ref sig .tc) (h : r ∉ WT8) : after T7 W (Proc.devRef .tc r) = after st7 W (Proc.devRef .tc r) :=
  (congrFun (after_two st7 T8 W) _).trans (in_8 (after st7 W) r h)
theorem out_8 (W : Valuation τ sig (Elt F)) (r : Ref sig .tc) (h : r ∉ WT9) : after T8 W (Proc.devRef .tc r) = after st8 W (Proc.devRef .tc r) :=
  (congrFun (after_two st8 T9 W) _).trans (in_9 (after st8 W) r h)
theorem out_9 (W : Valuation τ sig (Elt F)) (r : Ref sig .tc) (h : r ∉ WT10) : after T9 W (Proc.devRef .tc r) = after st9 W (Proc.devRef .tc r) :=
  (congrFun (after_two st9 T10 W) _).trans (in_10 (after st9 W) r h)
theorem out_10 (W : Valuation τ sig (Elt F)) (r : Ref sig .tc) (h : r ∉ WT11) : after T10 W (Proc.devRef .tc r) = after st10 W (Proc.devRef .tc r) :=
  (congrFun (after_two st10 T11 W) _).trans (in_11 (after st10 W) r h)
theorem out_11 (W : Valuation τ sig (Elt F)) (r : Ref sig .tc) (h : r ∉ WT12) : after T11 W (Proc.devRef .tc r) = after st11 W (Proc.devRef .tc r) :=
  (congrFun (after_two st11 T12 W) _).trans (in_12 (after st11 W) r h)
theorem out_12 (W : Valuation τ sig (Elt F)) (r : Ref sig .tc) (h : r ∉ WT13) : after T12 W (Proc.devRef .tc r) = after st12 W (Proc.devRef .tc r) :=
  (congrFun (after_two st12 T13 W) _).trans (in_13 (after st12 W) r h)
theorem out_13 (W : Valuation τ sig (Elt F)) (r : Ref sig .tc) (h : r ∉ WT14) : after T13 W (Proc.devRef .tc r) = after st13 W (Proc.devRef .tc r) :=
  (congrFun (after_two st13 T14 W) _).trans (in_14 (after st13 W) r h)
theorem out_14 (W : Valuation τ sig (Elt F)) (r : Ref sig .tc) (h : r ∉ WT15) : after T14 W (Proc.devRef .tc r) = after st14 W (Proc.devRef .tc r) :=
  (congrFun (after_two st14 T15 W) _).trans (in_15 (after st14 W) r h)
theorem out_15 (W : Valuation τ sig (Elt F)) (r : Ref sig .tc) (h : r ∉ WT16) : after T15 W (Proc.devRef .tc r) = after st15 W (Proc.devRef .tc r) :=
  (congrFun (after_two st15 T16 W) _).trans (in_16 (after st15 W) r h)
theorem out_16 (W : Valuation τ sig (Elt F)) (r : Ref sig .tc) (h : r ∉ WT17) : after T16 W (Proc.devRef .tc r) = after st16 W (Proc.devRef .tc r) :=
  (congrFun (after_two st16 T17 W) _).trans (in_17 (after st16 W) r h)
theorem out_17 (W : Valuation τ sig (Elt F)) (r : Ref sig .tc) (h : r ∉ WT18) : after T17 W (Proc.devRef .tc r) = after st17 W (Proc.devRef .tc r) :=
  (congrFun (after_two st17 T18 W) _).trans (in_18 (after st17 W) r h)
theorem out_18 (W : Valuation τ sig (Elt F)) (r : Ref sig .tc) (h : r ∉ WT19) : after T18 W (Proc.devRef .tc r) = after st18 W (Proc.devRef .tc r) :=
  (congrFun (after_two st18 T19 W) _).trans (in_19 (after st18 W) r h)
theorem out_19 (W : Valuation τ sig (Elt F)) (r : Ref sig .tc) (h : r ∉ WT20) : after T19 W (Proc.devRef .tc r) = after st19 W (Proc.devRef .tc r) :=
  (congrFun (after_two st19 T20 W) _).trans (in_20 (after st19 W) r h)
theorem out_20 (W : Valuation τ sig (Elt F)) (r : Ref sig .tc) (h : r ∉ WT21) : after T20 W (Proc.devRef .tc r) = after st20 W (Proc.devRef .tc r) :=
  (congrFun (after_two st20 T21 W) _).trans (in_21 (after st20 W) r h)
theorem out_21 (W : Valuation τ sig (Elt F)) (r : Ref sig .tc) (h : r ∉ WT22) : after T21 W (Proc.devRef .tc r) = after st21 W (Proc.devRef .tc r) :=
  (congrFun (after_two st21 T22 W) _).trans (in_22 (after st21 W) r h)

end Cert.ReferenceIdeal.Hand

end
-- ==== Proof.RefFun.lean ====
/- The reference program's arithmetic as plain functions of arrays: one function per stage of the network, its body the
   printed operations' own pure functions composed in the printed order (each let is one operation's result). The
   stages: the edge features (the three coordinate columns side by side), the node embedding (a table row per node, the
   index wrapped when negative), and per layer the message input (the source node's state beside the edge features),
   the message (a dense layer and a leaky rectifier), the aggregate (per target node the mean of its messages, beside
   the node's own state) and the update (a dense layer with bias, rectified except in the last layer). -/
import proofs.«101052_j75445395522274_1_alg».proof.Proof.Gen.ReferenceIdeal
import Idealize.ShloMosaic.Lib.StableHlo

noncomputable section

namespace Cert.ReferenceIdeal.Hand

open Cert.ReferenceIdeal Cert.ReferenceIdeal.Gen Idealize.ShloMosaic

variable {F : FTy → Type} [FloatOps F]

/-- An array of shape S and element type e over the float values F: the contents of a buffer of that type. -/
abbrev Arr (F : FTy → Type) (S : Shape) (e : EltTy) : Type := (⟨S, e⟩ : BufTy).Contents (Elt F)

/-- The edge features: the three per-edge columns side by side (400000 × 3). -/
def rEdge (a3 a4 a5 : Arr F S400000 .f32) : Arr F S400000x3 .f32 :=
  let v7 : Arr F S400000x1 .f32 := broadcastInDim S400000x1 ![0] bcast_S400000_S400000x1_0 a3
  let v8 : Arr F S400000x1 .f32 := broadcastInDim S400000x1 ![0] bcast_S400000_S400000x1_0 a4
  let v9 : Arr F S400000x1 .f32 := broadcastInDim S400000x1 ![0] bcast_S400000_S400000x1_0 a5
  concatenate S400000x3 1 [⟨S400000x1, v7⟩, ⟨S400000x1, v8⟩, ⟨S400000x1, v9⟩] concatenates_S400000x1_S400000x1_S400000x1_S400000x3_d1

/-- The node embedding: row a0[n] of the table a6 for node n, a negative index wrapped by 64 first (100000 × 64). -/
def rH0 (a0 : Arr F S100000 .i32) (a6 : Arr F S64x64 .f32) : Arr F S100000x64 .f32 :=
  let c : Arr F S_ .i32 := constantI S_ 32 0#32
  let v0 : Arr F S100000 .i32 := broadcastInDim S100000 ![] bcast_S_S100000 c
  let v1 : Arr F S100000 .i1 := cmpi .slt a0 v0
  let c0 : Arr F S_ .i32 := constantI S_ 32 64#32
  let v2 : Arr F S100000 .i32 := broadcastInDim S100000 ![] bcast_S_S100000 c0
  let v3 : Arr F S100000 .i32 := addi a0 v2
  let v4 : Arr F S100000 .i32 := select v1 v3 a0
  let v5 : Arr F S100000x1 .i32 := broadcastInDim S100000x1 ![0] bcast_S100000_S100000x1_0 v4
  Host.gather gather_S64x64_S100000x1_S100000x64_1_0_n_n_0_1_164 a6 v5

/-! ## Layer 1 (node states of width 64) -/

/-- The message input: per edge the state of its source node a1[e] (a negative index wrapped by 100000) beside the
    edge's features (400000 × 67). -/
def rX1 (h : Arr F S100000x64 .f32) (a1 : Arr F S400000 .i32) (e : Arr F S400000x3 .f32) : Arr F S400000x67 .f32 :=
  let c1 : Arr F S_ .i32 := constantI S_ 32 0#32
  let v11 : Arr F S400000 .i32 := broadcastInDim S400000 ![] bcast_S_S400000 c1
  let v12 : Arr F S400000 .i1 := cmpi .slt a1 v11
  let c2 : Arr F S_ .i32 := constantI S_ 32 100000#32
  let v13 : Arr F S400000 .i32 := broadcastInDim S400000 ![] bcast_S_S400000 c2
  let v14 : Arr F S400000 .i32 := addi a1 v13
  let v15 : Arr F S400000 .i32 := select v12 v14 a1
  let v16 : Arr F S400000x1 .i32 := broadcastInDim S400000x1 ![0] bcast_S400000_S400000x1_0 v15
  let v17 : Arr F S400000x64 .f32 := Host.gather gather_S100000x64_S400000x1_S400000x64_1_0_n_n_0_1_164 h v16
  concatenate S400000x67 1 [⟨S400000x64, v17⟩, ⟨S400000x3, e⟩] concatenates_S400000x64_S400000x3_S400000x67_d1

/-- The message: the input times the transposed weights, then the leaky rectifier (x where x ≥ 0, else the literal
    slope times x) (400000 × 128). -/
def rM1 (x : Arr F S400000x67 .f32) (w1 : Arr F S128x67 .f32) : Arr F S400000x128 .f32 :=
  let v19 : Arr F S67x128 .f32 := transpose S67x128 [1, 0] w1 transposes_S128x67_S67x128_1_0
  let v20 : Arr F S400000x128 .f32 := Host.dotGeneral dot_S400000x67_S67x128_S400000x128_1_0_0_1_n_n none x v19
  let cst : Arr F S_ .f32 := constant S_ .f32 0x3C23D70A#32
  let k0 : Arr F S_ .f32 := constant S_ .f32 0x00000000#32
  let z : Arr F S400000x128 .f32 := broadcastInDim S400000x128 ![] bcast_S_S400000x128 k0
  let p : Arr F S400000x128 .i1 := cmpf .oge v20 z
  let s : Arr F S_ .f32 := id cst
  let sb : Arr F S400000x128 .f32 := broadcastInDim S400000x128 ![] bcast_S_S400000x128 s
  let q : Arr F S400000x128 .f32 := mulf sb v20
  select p v20 q

/-- The aggregate: per target node a2[e] the sum of its edges' messages divided by the larger of its edge count and
    one, beside the node's own state (100000 × 192). -/
def rY1 (h : Arr F S100000x64 .f32) (mm : Arr F S400000x128 .f32) (a2 : Arr F S400000 .i32) : Arr F S100000x192 .f32 :=
  let cst3 : Arr F S_ .f32 := constant S_ .f32 0x00000000#32
  let v22 : Arr F S100000x128 .f32 := broadcastInDim S100000x128 ![] bcast_S_S100000x128 cst3
  let v23 : Arr F S400000x1 .i32 := broadcastInDim S400000x1 ![0] bcast_S400000_S400000x1_0 a2
  let v24 : Arr F S100000x128 .f32 := Host.scatterAdd scatter_S100000x128_S400000x1_S400000x128_1_0_0_1 v22 v23 mm
  let cst4 : Arr F S_ .f32 := constant S_ .f32 0x3F800000#32
  let v25 : Arr F S400000 .f32 := broadcastInDim S400000 ![] bcast_S_S400000 cst4
  let cst5 : Arr F S_ .f32 := constant S_ .f32 0x00000000#32
  let v26 : Arr F S100000 .f32 := broadcastInDim S100000 ![] bcast_S_S100000 cst5
  let v27 : Arr F S400000x1 .i32 := broadcastInDim S400000x1 ![0] bcast_S400000_S400000x1_0 a2
  let v28 : Arr F S100000 .f32 := Host.scatterAdd scatter_S100000_S400000x1_S400000_n_0_0_1 v26 v27 v25
  let cst6 : Arr F S_ .f32 := constant S_ .f32 0x3F800000#32
  let v29 : Arr F S100000 .f32 := broadcastInDim S100000 ![] bcast_S_S100000 cst6
  let v30 : Arr F S100000 .f32 := maximumf v28 v29
  let v31 : Arr F S100000x1 .f32 := broadcastInDim S100000x1 ![0] bcast_S100000_S100000x1_0 v30
  let v32 : Arr F S100000x128 .f32 := broadcastInDim S100000x128 ![0, 1] bcast_S100000x1_S100000x128_0_1 v31
  let v33 : Arr F S100000x128 .f32 := Host.divf v24 v32
  concatenate S100000x192 1 [⟨S100000x64, h⟩, ⟨S100000x128, v33⟩] concatenates_S100000x64_S100000x128_S100000x192_d1

/-- The update: the aggregate times the transposed weights plus the bias along the rows, rectified (100000 × 128). -/
def rU1 (y : Arr F S100000x192 .f32) (w2 : Arr F S128x192 .f32) (b2 : Arr F S128 .f32) : Arr F S100000x128 .f32 :=
  let v35 : Arr F S192x128 .f32 := transpose S192x128 [1, 0] w2 transposes_S128x192_S192x128_1_0
  let v36 : Arr F S100000x128 .f32 := Host.dotGeneral dot_S100000x192_S192x128_S100000x128_1_0_0_1_n_n none y v35
  let v37 : Arr F S1x128 .f32 := broadcastInDim S1x128 ![1] bcast_S128_S1x128_1 b2
  let v38 : Arr F S100000x128 .f32 := broadcastInDim S100000x128 ![0, 1] bcast_S1x128_S100000x128_0_1 v37
  let v39 : Arr F S100000x128 .f32 := addf v36 v38
  let k0 : Arr F S_ .f32 := constant S_ .f32 0x00000000#32
  let z : Arr F S100000x128 .f32 := broadcastInDim S100000x128 ![] bcast_S_S100000x128 k0
  maximumf v39 z

/-! ## Layers 2 to 5 (node states of width 128): the same operations at the wider shapes -/

/-- The message input at width 128 (400000 × 131). -/
def rX (h : Arr F S100000x128 .f32) (a1 : Arr F S400000 .i32) (e : Arr F S400000x3 .f32) : Arr F S400000x131 .f32 :=
  let c1 : Arr F S_ .i32 := constantI S_ 32 0#32
  let v11 : Arr F S400000 .i32 := broadcastInDim S400000 ![] bcast_S_S400000 c1
  let v12 : Arr F S400000 .i1 := cmpi .slt a1 v11
  let c2 : Arr F S_ .i32 := constantI S_ 32 100000#32
  let v13 : Arr F S400000 .i32 := broadcastInDim S400000 ![] bcast_S_S400000 c2
  let v14 : Arr F S400000 .i32 := addi a1 v13
  let v15 : Arr F S400000 .i32 := select v12 v14 a1
  let v16 : Arr F S400000x1 .i32 := broadcastInDim S400000x1 ![0] bcast_S400000_S400000x1_0 v15
  let v17 : Arr F S400000x128 .f32 := Host.gather gather_S100000x128_S400000x1_S400000x128_1_0_n_n_0_1_1128 h v16
  concatenate S400000x131 1 [⟨S400000x128, v17⟩, ⟨S400000x3, e⟩] concatenates_S400000x128_S400000x3_S400000x131_d1

/-- The message at width 128 (400000 × 128). -/
def rM (x : Arr F S400000x131 .f32) (w1 : Arr F S128x131 .f32) : Arr F S400000x128 .f32 :=
  let v19 : Arr F S131x128 .f32 := transpose S131x128 [1, 0] w1 transposes_S128x131_S131x128_1_0
  let v20 : Arr F S400000x128 .f32 := Host.dotGeneral dot_S400000x131_S131x128_S400000x128_1_0_0_1_n_n none x v19
  let cst : Arr F S_ .f32 := constant S_ .f32 0x3C23D70A#32
  let k0 : Arr F S_ .f32 := constant S_ .f32 0x00000000#32
  let z : Arr F S400000x128 .f32 := broadcastInDim S400000x128 ![] bcast_S_S400000x128 k0
  let p : Arr F S400000x128 .i1 := cmpf .oge v20 z
  let s : Arr F S_ .f32 := id cst
  let sb : Arr F S400000x128 .f32 := broadcastInDim S400000x128 ![] bcast_S_S400000x128 s
  let q : Arr F S400000x128 .f32 := mulf sb v20
  select p v20 q

/-- The aggregate at width 128 (100000 × 256). -/
def rY (h : Arr F S100000x128 .f32) (mm : Arr F S400000x128 .f32) (a2 : Arr F S400000 .i32) : Arr F S100000x256 .f32 :=
  let cst3 : Arr F S_ .f32 := constant S_ .f32 0x00000000#32
  let v22 : Arr F S100000x128 .f32 := broadcastInDim S100000x128 ![] bcast_S_S100000x128 cst3
  let v23 : Arr F S400000x1 .i32 := broadcastInDim S400000x1 ![0] bcast_S400000_S400000x1_0 a2
  let v24 : Arr F S100000x128 .f32 := Host.scatterAdd scatter_S100000x128_S400000x1_S400000x128_1_0_0_1 v22 v23 mm
  let cst4 : Arr F S_ .f32 := constant S_ .f32 0x3F800000#32
  let v25 : Arr F S400000 .f32 := broadcastInDim S400000 ![] bcast_S_S400000 cst4
  let cst5 : Arr F S_ .f32 := constant S_ .f32 0x00000000#32
  let v26 : Arr F S100000 .f32 := broadcastInDim S100000 ![] bcast_S_S100000 cst5
  let v27 : Arr F S400000x1 .i32 := broadcastInDim S400000x1 ![0] bcast_S400000_S400000x1_0 a2
  let v28 : Arr F S100000 .f32 := Host.scatterAdd scatter_S100000_S400000x1_S400000_n_0_0_1 v26 v27 v25
  let cst6 : Arr F S_ .f32 := constant S_ .f32 0x3F800000#32
  let v29 : Arr F S100000 .f32 := broadcastInDim S100000 ![] bcast_S_S100000 cst6
  let v30 : Arr F S100000 .f32 := maximumf v28 v29
  let v31 : Arr F S100000x1 .f32 := broadcastInDim S100000x1 ![0] bcast_S100000_S100000x1_0 v30
  let v32 : Arr F S100000x128 .f32 := broadcastInDim S100000x128 ![0, 1] bcast_S100000x1_S100000x128_0_1 v31
  let v33 : Arr F S100000x128 .f32 := Host.divf v24 v32
  concatenate S100000x256 1 [⟨S100000x128, h⟩, ⟨S100000x128, v33⟩] concatenates_S100000x128_S100000x128_S100000x256_d1

/-- The update at width 128, rectified (layers 2 to 4) (100000 × 128). -/
def rU (y : Arr F S100000x256 .f32) (w2 : Arr F S128x256 .f32) (b2 : Arr F S128 .f32) : Arr F S100000x128 .f32 :=
  let v35 : Arr F S256x128 .f32 := transpose S256x128 [1, 0] w2 transposes_S128x256_S256x128_1_0
  let v36 : Arr F S100000x128 .f32 := Host.dotGeneral dot_S100000x256_S256x128_S100000x128_1_0_0_1_n_n none y v35
  let v37 : Arr F S1x128 .f32 := broadcastInDim S1x128 ![1] bcast_S128_S1x128_1 b2
  let v38 : Arr F S100000x128 .f32 := broadcastInDim S100000x128 ![0, 1] bcast_S1x128_S100000x128_0_1 v37
  let v39 : Arr F S100000x128 .f32 := addf v36 v38
  let k0 : Arr F S_ .f32 := constant S_ .f32 0x00000000#32
  let z : Arr F S100000x128 .f32 := broadcastInDim S100000x128 ![] bcast_S_S100000x128 k0
  maximumf v39 z

/-- The last update: to width 64, with bias, not rectified (100000 × 64). -/
def rU5 (y : Arr F S100000x256 .f32) (w2 : Arr F S64x256 .f32) (b2 : Arr F S64 .f32) : Arr F S100000x64 .f32 :=
  let v155 : Arr F S256x64 .f32 := transpose S256x64 [1, 0] w2 transposes_S64x256_S256x64_1_0
  let v156 : Arr F S100000x64 .f32 := Host.dotGeneral dot_S100000x256_S256x64_S100000x64_1_0_0_1_n_n none y v155
  let v157 : Arr F S1x64 .f32 := broadcastInDim S1x64 ![1] bcast_S64_S1x64_1 b2
  let v158 : Arr F S100000x64 .f32 := broadcastInDim S100000x64 ![0, 1] bcast_S1x64_S100000x64_0_1 v157
  addf v156 v158

end Cert.ReferenceIdeal.Hand

end
-- ==== Proof.RefEq.lean ====
/- Per stretch K of the reference's line (stK), with OUT the reference its last operation writes, FN the function of
   the stage and INS the references whose contents it takes: res_OUT — the stretch's fold at OUT is FN of the incoming
   contents at INS (the operations' results composed, in order, are the function's lets); eq_OUT — the same equation
   between the whole line's final contents (no later operation writes OUT, none from the stretch on writes an IN). -/
import proofs.«101052_j75445395522274_1_alg».proof.Proof.RefStretch
import proofs.«101052_j75445395522274_1_alg».proof.Proof.RefFun

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
theorem res_v6 (W : Valuation τ sig (Elt F)) :
    after st0 W (Proc.devRef .tc main_v6) = rH0 (W (Proc.devRef .tc main_arg0)) (W (Proc.devRef .tc main_arg6)) := by
  dsimp only [st0]
  after_results_simp
  rfl
theorem eq_v6 (V : Valuation τ sig (Elt F)) :
    after ops V (Proc.devRef .tc main_v6) = rH0 (after ops V (Proc.devRef .tc main_arg0)) (after ops V (Proc.devRef .tc main_arg6)) := by
  rw [tail_0 V, out_0 _ main_v6 (by decide), in_0 _ main_arg0 (by decide), in_0 _ main_arg6 (by decide)]
  exact res_v6 _

set_option maxHeartbeats 1000000 in
theorem res_v10 (W : Valuation τ sig (Elt F)) :
    after st1 W (Proc.devRef .tc main_v10) = rEdge (W (Proc.devRef .tc main_arg3)) (W (Proc.devRef .tc main_arg4)) (W (Proc.devRef .tc main_arg5)) := by
  dsimp only [st1]
  after_results
  rfl
theorem eq_v10 (V : Valuation τ sig (Elt F)) :
    after ops V (Proc.devRef .tc main_v10) = rEdge (after ops V (Proc.devRef .tc main_arg3)) (after ops V (Proc.devRef .tc main_arg4)) (after ops V (Proc.devRef .tc main_arg5)) := by
  rw [tail_1 V, out_1 _ main_v10 (by decide), in_1 _ main_arg3 (by decide), in_1 _ main_arg4 (by decide), in_1 _ main_arg5 (by decide)]
  exact res_v10 _

set_option maxHeartbeats 1000000 in
theorem res_v18 (W : Valuation τ sig (Elt F)) :
    after st2 W (Proc.devRef .tc main_v18) = rX1 (W (Proc.devRef .tc main_v6)) (W (Proc.devRef .tc main_arg1)) (W (Proc.devRef .tc main_v10)) := by
  dsimp only [st2]
  after_results_simp
  rfl
theorem eq_v18 (V : Valuation τ sig (Elt F)) :
    after ops V (Proc.devRef .tc main_v18) = rX1 (after ops V (Proc.devRef .tc main_v6)) (after ops V (Proc.devRef .tc main_arg1)) (after ops V (Proc.devRef .tc main_v10)) := by
  rw [tail_2 V, out_2 _ main_v18 (by decide), in_2 _ main_v6 (by decide), in_2 _ main_arg1 (by decide), in_2 _ main_v10 (by decide)]
  exact res_v18 _

set_option maxHeartbeats 1000000 in
theorem res_v21 (W : Valuation τ sig (Elt F)) :
    after st3 W (Proc.devRef .tc main_v21) = rM1 (W (Proc.devRef .tc main_v18)) (W (Proc.devRef .tc main_arg7)) := by
  dsimp only [st3]
  after_results_simp
  rfl
theorem eq_v21 (V : Valuation τ sig (Elt F)) :
    after ops V (Proc.devRef .tc main_v21) = rM1 (after ops V (Proc.devRef .tc main_v18)) (after ops V (Proc.devRef .tc main_arg7)) := by
  rw [tail_3 V, out_3 _ main_v21 (by decide), in_3 _ main_v18 (by decide), in_3 _ main_arg7 (by decide)]
  exact res_v21 _

set_option maxHeartbeats 1000000 in
theorem res_v34 (W : Valuation τ sig (Elt F)) :
    after st4 W (Proc.devRef .tc main_v34) = rY1 (W (Proc.devRef .tc main_v6)) (W (Proc.devRef .tc main_v21)) (W (Proc.devRef .tc main_arg2)) := by
  dsimp only [st4]
  after_results_simp
  rfl
theorem eq_v34 (V : Valuation τ sig (Elt F)) :
    after ops V (Proc.devRef .tc main_v34) = rY1 (after ops V (Proc.devRef .tc main_v6)) (after ops V (Proc.devRef .tc main_v21)) (after ops V (Proc.devRef .tc main_arg2)) := by
  rw [tail_4 V, out_4 _ main_v34 (by decide), in_4 _ main_v6 (by decide), in_4 _ main_v21 (by decide), in_4 _ main_arg2 (by decide)]
  exact res_v34 _

set_option maxHeartbeats 1000000 in
theorem res_v40 (W : Valuation τ sig (Elt F)) :
    after st5 W (Proc.devRef .tc main_v40) = rU1 (W (Proc.devRef .tc main_v34)) (W (Proc.devRef .tc main_arg8)) (W (Proc.devRef .tc main_arg9)) := by
  dsimp only [st5]
  after_results_simp
  rfl
theorem eq_v40 (V : Valuation τ sig (Elt F)) :
    after ops V (Proc.devRef .tc main_v40) = rU1 (after ops V (Proc.devRef .tc main_v34)) (after ops V (Proc.devRef .tc main_arg8)) (after ops V (Proc.devRef .tc main_arg9)) := by
  rw [tail_5 V, out_5 _ main_v40 (by decide), in_5 _ main_v34 (by decide), in_5 _ main_arg8 (by decide), in_5 _ main_arg9 (by decide)]
  exact res_v40 _

set_option maxHeartbeats 1000000 in
theorem res_v48 (W : Valuation τ sig (Elt F)) :
    after st6 W (Proc.devRef .tc main_v48) = rX (W (Proc.devRef .tc main_v40)) (W (Proc.devRef .tc main_arg1)) (W (Proc.devRef .tc main_v10)) := by
  dsimp only [st6]
  after_results_simp
  rfl
theorem eq_v48 (V : Valuation τ sig (Elt F)) :
    after ops V (Proc.devRef .tc main_v48) = rX (after ops V (Proc.devRef .tc main_v40)) (after ops V (Proc.devRef .tc main_arg1)) (after ops V (Proc.devRef .tc main_v10)) := by
  rw [tail_6 V, out_6 _ main_v48 (by decide), in_6 _ main_v40 (by decide), in_6 _ main_arg1 (by decide), in_6 _ main_v10 (by decide)]
  exact res_v48 _

set_option maxHeartbeats 1000000 in
theorem res_v51 (W : Valuation τ sig (Elt F)) :
    after st7 W (Proc.devRef .tc main_v51) = rM (W (Proc.devRef .tc main_v48)) (W (Proc.devRef .tc main_arg10)) := by
  dsimp only [st7]
  after_results_simp
  rfl
theorem eq_v51 (V : Valuation τ sig (Elt F)) :
    after ops V (Proc.devRef .tc main_v51) = rM (after ops V (Proc.devRef .tc main_v48)) (after ops V (Proc.devRef .tc main_arg10)) := by
  rw [tail_7 V, out_7 _ main_v51 (by decide), in_7 _ main_v48 (by decide), in_7 _ main_arg10 (by decide)]
  exact res_v51 _

set_option maxHeartbeats 1000000 in
theorem res_v64 (W : Valuation τ sig (Elt F)) :
    after st8 W (Proc.devRef .tc main_v64) = rY (W (Proc.devRef .tc main_v40)) (W (Proc.devRef .tc main_v51)) (W (Proc.devRef .tc main_arg2)) := by
  dsimp only [st8]
  after_results_simp
  rfl
theorem eq_v64 (V : Valuation τ sig (Elt F)) :
    after ops V (Proc.devRef .tc main_v64) = rY (after ops V (Proc.devRef .tc main_v40)) (after ops V (Proc.devRef .tc main_v51)) (after ops V (Proc.devRef .tc main_arg2)) := by
  rw [tail_8 V, out_8 _ main_v64 (by decide), in_8 _ main_v40 (by decide), in_8 _ main_v51 (by decide), in_8 _ main_arg2 (by decide)]
  exact res_v64 _

set_option maxHeartbeats 1000000 in
theorem res_v70 (W : Valuation τ sig (Elt F)) :
    after st9 W (Proc.devRef .tc main_v70) = rU (W (Proc.devRef .tc main_v64)) (W (Proc.devRef .tc main_arg11)) (W (Proc.devRef .tc main_arg12)) := by
  dsimp only [st9]
  after_results_simp
  rfl
theorem eq_v70 (V : Valuation τ sig (Elt F)) :
    after ops V (Proc.devRef .tc main_v70) = rU (after ops V (Proc.devRef .tc main_v64)) (after ops V (Proc.devRef .tc main_arg11)) (after ops V (Proc.devRef .tc main_arg12)) := by
  rw [tail_9 V, out_9 _ main_v70 (by decide), in_9 _ main_v64 (by decide), in_9 _ main_arg11 (by decide), in_9 _ main_arg12 (by decide)]
  exact res_v70 _

set_option maxHeartbeats 1000000 in
theorem res_v78 (W : Valuation τ sig (Elt F)) :
    after st10 W (Proc.devRef .tc main_v78) = rX (W (Proc.devRef .tc main_v70)) (W (Proc.devRef .tc main_arg1)) (W (Proc.devRef .tc main_v10)) := by
  dsimp only [st10]
  after_results_simp
  rfl
theorem eq_v78 (V : Valuation τ sig (Elt F)) :
    after ops V (Proc.devRef .tc main_v78) = rX (after ops V (Proc.devRef .tc main_v70)) (after ops V (Proc.devRef .tc main_arg1)) (after ops V (Proc.devRef .tc main_v10)) := by
  rw [tail_10 V, out_10 _ main_v78 (by decide), in_10 _ main_v70 (by decide), in_10 _ main_arg1 (by decide), in_10 _ main_v10 (by decide)]
  exact res_v78 _

set_option maxHeartbeats 1000000 in
theorem res_v81 (W : Valuation τ sig (Elt F)) :
    after st11 W (Proc.devRef .tc main_v81) = rM (W (Proc.devRef .tc main_v78)) (W (Proc.devRef .tc main_arg13)) := by
  dsimp only [st11]
  after_results_simp
  rfl
theorem eq_v81 (V : Valuation τ sig (Elt F)) :
    after ops V (Proc.devRef .tc main_v81) = rM (after ops V (Proc.devRef .tc main_v78)) (after ops V (Proc.devRef .tc main_arg13)) := by
  rw [tail_11 V, out_11 _ main_v81 (by decide), in_11 _ main_v78 (by decide), in_11 _ main_arg13 (by decide)]
  exact res_v81 _

set_option maxHeartbeats 1000000 in
theorem res_v94 (W : Valuation τ sig (Elt F)) :
    after st12 W (Proc.devRef .tc main_v94) = rY (W (Proc.devRef .tc main_v70)) (W (Proc.devRef .tc main_v81)) (W (Proc.devRef .tc main_arg2)) := by
  dsimp only [st12]
  after_results_simp
  rfl
theorem eq_v94 (V : Valuation τ sig (Elt F)) :
    after ops V (Proc.devRef .tc main_v94) = rY (after ops V (Proc.devRef .tc main_v70)) (after ops V (Proc.devRef .tc main_v81)) (after ops V (Proc.devRef .tc main_arg2)) := by
  rw [tail_12 V, out_12 _ main_v94 (by decide), in_12 _ main_v70 (by decide), in_12 _ main_v81 (by decide), in_12 _ main_arg2 (by decide)]
  exact res_v94 _

set_option maxHeartbeats 1000000 in
theorem res_v100 (W : Valuation τ sig (Elt F)) :
    after st13 W (Proc.devRef .tc main_v100) = rU (W (Proc.devRef .tc main_v94)) (W (Proc.devRef .tc main_arg14)) (W (Proc.devRef .tc main_arg15)) := by
  dsimp only [st13]
  after_results_simp
  rfl
theorem eq_v100 (V : Valuation τ sig (Elt F)) :
    after ops V (Proc.devRef .tc main_v100) = rU (after ops V (Proc.devRef .tc main_v94)) (after ops V (Proc.devRef .tc main_arg14)) (after ops V (Proc.devRef .tc main_arg15)) := by
  rw [tail_13 V, out_13 _ main_v100 (by decide), in_13 _ main_v94 (by decide), in_13 _ main_arg14 (by decide), in_13 _ main_arg15 (by decide)]
  exact res_v100 _

set_option maxHeartbeats 1000000 in
theorem res_v108 (W : Valuation τ sig (Elt F)) :
    after st14 W (Proc.devRef .tc main_v108) = rX (W (Proc.devRef .tc main_v100)) (W (Proc.devRef .tc main_arg1)) (W (Proc.devRef .tc main_v10)) := by
  dsimp only [st14]
  after_results_simp
  rfl
theorem eq_v108 (V : Valuation τ sig (Elt F)) :
    after ops V (Proc.devRef .tc main_v108) = rX (after ops V (Proc.devRef .tc main_v100)) (after ops V (Proc.devRef .tc main_arg1)) (after ops V (Proc.devRef .tc main_v10)) := by
  rw [tail_14 V, out_14 _ main_v108 (by decide), in_14 _ main_v100 (by decide), in_14 _ main_arg1 (by decide), in_14 _ main_v10 (by decide)]
  exact res_v108 _

set_option maxHeartbeats 1000000 in
theorem res_v111 (W : Valuation τ sig (Elt F)) :
    after st15 W (Proc.devRef .tc main_v111) = rM (W (Proc.devRef .tc main_v108)) (W (Proc.devRef .tc main_arg16)) := by
  dsimp only [st15]
  after_results_simp
  rfl
theorem eq_v111 (V : Valuation τ sig (Elt F)) :
    after ops V (Proc.devRef .tc main_v111) = rM (after ops V (Proc.devRef .tc main_v108)) (after ops V (Proc.devRef .tc main_arg16)) := by
  rw [tail_15 V, out_15 _ main_v111 (by decide), in_15 _ main_v108 (by decide), in_15 _ main_arg16 (by decide)]
  exact res_v111 _

set_option maxHeartbeats 1000000 in
theorem res_v124 (W : Valuation τ sig (Elt F)) :
    after st16 W (Proc.devRef .tc main_v124) = rY (W (Proc.devRef .tc main_v100)) (W (Proc.devRef .tc main_v111)) (W (Proc.devRef .tc main_arg2)) := by
  dsimp only [st16]
  after_results_simp
  rfl
theorem eq_v124 (V : Valuation τ sig (Elt F)) :
    after ops V (Proc.devRef .tc main_v124) = rY (after ops V (Proc.devRef .tc main_v100)) (after ops V (Proc.devRef .tc main_v111)) (after ops V (Proc.devRef .tc main_arg2)) := by
  rw [tail_16 V, out_16 _ main_v124 (by decide), in_16 _ main_v100 (by decide), in_16 _ main_v111 (by decide), in_16 _ main_arg2 (by decide)]
  exact res_v124 _

set_option maxHeartbeats 1000000 in
theorem res_v130 (W : Valuation τ sig (Elt F)) :
    after st17 W (Proc.devRef .tc main_v130) = rU (W (Proc.devRef .tc main_v124)) (W (Proc.devRef .tc main_arg17)) (W (Proc.devRef .tc main_arg18)) := by
  dsimp only [st17]
  after_results_simp
  rfl
theorem eq_v130 (V : Valuation τ sig (Elt F)) :
    after ops V (Proc.devRef .tc main_v130) = rU (after ops V (Proc.devRef .tc main_v124)) (after ops V (Proc.devRef .tc main_arg17)) (after ops V (Proc.devRef .tc main_arg18)) := by
  rw [tail_17 V, out_17 _ main_v130 (by decide), in_17 _ main_v124 (by decide), in_17 _ main_arg17 (by decide), in_17 _ main_arg18 (by decide)]
  exact res_v130 _

set_option maxHeartbeats 1000000 in
theorem res_v138 (W : Valuation τ sig (Elt F)) :
    after st18 W (Proc.devRef .tc main_v138) = rX (W (Proc.devRef .tc main_v130)) (W (Proc.devRef .tc main_arg1)) (W (Proc.devRef .tc main_v10)) := by
  dsimp only [st18]
  after_results_simp
  rfl
theorem eq_v138 (V : Valuation τ sig (Elt F)) :
    after ops V (Proc.devRef .tc main_v138) = rX (after ops V (Proc.devRef .tc main_v130)) (after ops V (Proc.devRef .tc main_arg1)) (after ops V (Proc.devRef .tc main_v10)) := by
  rw [tail_18 V, out_18 _ main_v138 (by decide), in_18 _ main_v130 (by decide), in_18 _ main_arg1 (by decide), in_18 _ main_v10 (by decide)]
  exact res_v138 _

set_option maxHeartbeats 1000000 in
theorem res_v141 (W : Valuation τ sig (Elt F)) :
    after st19 W (Proc.devRef .tc main_v141) = rM (W (Proc.devRef .tc main_v138)) (W (Proc.devRef .tc main_arg19)) := by
  dsimp only [st19]
  after_results_simp
  rfl
theorem eq_v141 (V : Valuation τ sig (Elt F)) :
    after ops V (Proc.devRef .tc main_v141) = rM (after ops V (Proc.devRef .tc main_v138)) (after ops V (Proc.devRef .tc main_arg19)) := by
  rw [tail_19 V, out_19 _ main_v141 (by decide), in_19 _ main_v138 (by decide), in_19 _ main_arg19 (by decide)]
  exact res_v141 _

set_option maxHeartbeats 1000000 in
theorem res_v154 (W : Valuation τ sig (Elt F)) :
    after st20 W (Proc.devRef .tc main_v154) = rY (W (Proc.devRef .tc main_v130)) (W (Proc.devRef .tc main_v141)) (W (Proc.devRef .tc main_arg2)) := by
  dsimp only [st20]
  after_results_simp
  rfl
theorem eq_v154 (V : Valuation τ sig (Elt F)) :
    after ops V (Proc.devRef .tc main_v154) = rY (after ops V (Proc.devRef .tc main_v130)) (after ops V (Proc.devRef .tc main_v141)) (after ops V (Proc.devRef .tc main_arg2)) := by
  rw [tail_20 V, out_20 _ main_v154 (by decide), in_20 _ main_v130 (by decide), in_20 _ main_v141 (by decide), in_20 _ main_arg2 (by decide)]
  exact res_v154 _

set_option maxHeartbeats 1000000 in
theorem res_v159 (W : Valuation τ sig (Elt F)) :
    after st21 W (Proc.devRef .tc main_v159) = rU5 (W (Proc.devRef .tc main_v154)) (W (Proc.devRef .tc main_arg20)) (W (Proc.devRef .tc main_arg21)) := by
  dsimp only [st21]
  after_results_simp
  rfl
theorem eq_v159 (V : Valuation τ sig (Elt F)) :
    after ops V (Proc.devRef .tc main_v159) = rU5 (after ops V (Proc.devRef .tc main_v154)) (after ops V (Proc.devRef .tc main_arg20)) (after ops V (Proc.devRef .tc main_arg21)) := by
  rw [tail_21 V, out_21 _ main_v159 (by decide), in_21 _ main_v154 (by decide), in_21 _ main_arg20 (by decide), in_21 _ main_arg21 (by decide)]
  exact res_v159 _

end Cert.ReferenceIdeal.Hand

end
-- ==== Proof.RefValue.lean ====
/- The value of the reference program: its result buffer holds, after the line, the network's output — the node
   embedding taken through five message-passing layers over the same edge features and edge lists. The intermediate
   arrays are named over the launch contents, each by the previous ones: the edge features, the embedding, and per
   layer the messages and the new node states. A stage's equation between the line's final contents (eq_OUT) turns
   into the named array once its inputs are the named arrays and the arguments are the launch contents. -/
import proofs.«101052_j75445395522274_1_alg».proof.Proof.RefEq

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The named arrays, over any contents V of the device's buffers (the arguments read at V) -/

/-- The edge features. -/
def re (V : Valuation τ sig (Elt F)) : Arr F S400000x3 .f32 :=
  rEdge (V (Proc.devRef .tc main_arg3)) (V (Proc.devRef .tc main_arg4)) (V (Proc.devRef .tc main_arg5))

/-- The node embedding. -/
def rh0 (V : Valuation τ sig (Elt F)) : Arr F S100000x64 .f32 :=
  rH0 (V (Proc.devRef .tc main_arg0)) (V (Proc.devRef .tc main_arg6))

/-- Layer 1's messages, -/
def rm1 (V : Valuation τ sig (Elt F)) : Arr F S400000x128 .f32 :=
  rM1 (rX1 (rh0 V) (V (Proc.devRef .tc main_arg1)) (re V)) (V (Proc.devRef .tc main_arg7))
/-- and node states. -/
def rh1 (V : Valuation τ sig (Elt F)) : Arr F S100000x128 .f32 :=
  rU1 (rY1 (rh0 V) (rm1 V) (V (Proc.devRef .tc main_arg2))) (V (Proc.devRef .tc main_arg8)) (V (Proc.devRef .tc main_arg9))

/-- Layer 2's messages, -/
def rm2 (V : Valuation τ sig (Elt F)) : Arr F S400000x128 .f32 :=
  rM (rX (rh1 V) (V (Proc.devRef .tc main_arg1)) (re V)) (V (Proc.devRef .tc main_arg10))
/-- and node states. -/
def rh2 (V : Valuation τ sig (Elt F)) : Arr F S100000x128 .f32 :=
  rU (rY (rh1 V) (rm2 V) (V (Proc.devRef .tc main_arg2))) (V (Proc.devRef .tc main_arg11)) (V (Proc.devRef .tc main_arg12))

/-- Layer 3's messages, -/
def rm3 (V : Valuation τ sig (Elt F)) : Arr F S400000x128 .f32 :=
  rM (rX (rh2 V) (V (Proc.devRef .tc main_arg1)) (re V)) (V (Proc.devRef .tc main_arg13))
/-- and node states. -/
def rh3 (V : Valuation τ sig (Elt F)) : Arr F S100000x128 .f32 :=
  rU (rY (rh2 V) (rm3 V) (V (Proc.devRef .tc main_arg2))) (V (Proc.devRef .tc main_arg14)) (V (Proc.devRef .tc main_arg15))

/-- Layer 4's messages, -/
def rm4 (V : Valuation τ sig (Elt F)) : Arr F S400000x128 .f32 :=
  rM (rX (rh3 V) (V (Proc.devRef .tc main_arg1)) (re V)) (V (Proc.devRef .tc main_arg16))
/-- and node states. -/
def rh4 (V : Valuation τ sig (Elt F)) : Arr F S100000x128 .f32 :=
  rU (rY (rh3 V) (rm4 V) (V (Proc.devRef .tc main_arg2))) (V (Proc.devRef .tc main_arg17)) (V (Proc.devRef .tc main_arg18))

/-- Layer 5's messages, -/
def rm5 (V : Valuation τ sig (Elt F)) : Arr F S400000x128 .f32 :=
  rM (rX (rh4 V) (V (Proc.devRef .tc main_arg1)) (re V)) (V (Proc.devRef .tc main_arg19))
/-- and the output: the last update, of width 64, not rectified. -/
def rh5 (V : Valuation τ sig (Elt F)) : Arr F S100000x64 .f32 :=
  rU5 (rY (rh4 V) (rm5 V) (V (Proc.devRef .tc main_arg2))) (V (Proc.devRef .tc main_arg20)) (V (Proc.devRef .tc main_arg21))

/-! ## The arguments after the line -/

/-- A reference no operation of the line writes holds after it what it held. -/
theorem at_kept (V : Valuation τ sig (Elt F)) (r : Ref sig .tc) (h : r ∉ WT0) :
    after ops V (Proc.devRef .tc r) = V (Proc.devRef .tc r) :=
  (congrFun (tail_0 V) _).trans (in_0 V r h)

theorem at_arg0 (V : Valuation τ sig (Elt F)) : after ops V (Proc.devRef .tc main_arg0) = V (Proc.devRef .tc main_arg0) := at_kept V _ (by decide)
theorem at_arg1 (V : Valuation τ sig (Elt F)) : after ops V (Proc.devRef .tc main_arg1) = V (Proc.devRef .tc main_arg1) := at_kept V _ (by decide)
theorem at_arg2 (V : Valuation τ sig (Elt F)) : after ops V (Proc.devRef .tc main_arg2) = V (Proc.devRef .tc main_arg2) := at_kept V _ (by decide)
theorem at_arg3 (V : Valuation τ sig (Elt F)) : after ops V (Proc.devRef .tc main_arg3) = V (Proc.devRef .tc main_arg3) := at_kept V _ (by decide)
theorem at_arg4 (V : Valuation τ sig (Elt F)) : after ops V (Proc.devRef .tc main_arg4) = V (Proc.devRef .tc main_arg4) := at_kept V _ (by decide)
theorem at_arg5 (V : Valuation τ sig (Elt F)) : after ops V (Proc.devRef .tc main_arg5) = V (Proc.devRef .tc main_arg5) := at_kept V _ (by decide)
theorem at_arg6 (V : Valuation τ sig (Elt F)) : after ops V (Proc.devRef .tc main_arg6) = V (Proc.devRef .tc main_arg6) := at_kept V _ (by decide)
theorem at_arg7 (V : Valuation τ sig (Elt F)) : after ops V (Proc.devRef .tc main_arg7) = V (Proc.devRef .tc main_arg7) := at_kept V _ (by decide)
theorem at_arg8 (V : Valuation τ sig (Elt F)) : after ops V (Proc.devRef .tc main_arg8) = V (Proc.devRef .tc main_arg8) := at_kept V _ (by decide)
theorem at_arg9 (V : Valuation τ sig (Elt F)) : after ops V (Proc.devRef .tc main_arg9) = V (Proc.devRef .tc main_arg9) := at_kept V _ (by decide)
theorem at_arg10 (V : Valuation τ sig (Elt F)) : after ops V (Proc.devRef .tc main_arg10) = V (Proc.devRef .tc main_arg10) := at_kept V _ (by decide)
theorem at_arg11 (V : Valuation τ sig (Elt F)) : after ops V (Proc.devRef .tc main_arg11) = V (Proc.devRef .tc main_arg11) := at_kept V _ (by decide)
theorem at_arg12 (V : Valuation τ sig (Elt F)) : after ops V (Proc.devRef .tc main_arg12) = V (Proc.devRef .tc main_arg12) := at_kept V _ (by decide)
theorem at_arg13 (V : Valuation τ sig (Elt F)) : after ops V (Proc.devRef .tc main_arg13) = V (Proc.devRef .tc main_arg13) := at_kept V _ (by decide)
theorem at_arg14 (V : Valuation τ sig (Elt F)) : after ops V (Proc.devRef .tc main_arg14) = V (Proc.devRef .tc main_arg14) := at_kept V _ (by decide)
theorem at_arg15 (V : Valuation τ sig (Elt F)) : after ops V (Proc.devRef .tc main_arg15) = V (Proc.devRef .tc main_arg15) := at_kept V _ (by decide)
theorem at_arg16 (V : Valuation τ sig (Elt F)) : after ops V (Proc.devRef .tc main_arg16) = V (Proc.devRef .tc main_arg16) := at_kept V _ (by decide)
theorem at_arg17 (V : Valuation τ sig (Elt F)) : after ops V (Proc.devRef .tc main_arg17) = V (Proc.devRef .tc main_arg17) := at_kept V _ (by decide)
theorem at_arg18 (V : Valuation τ sig (Elt F)) : after ops V (Proc.devRef .tc main_arg18) = V (Proc.devRef .tc main_arg18) := at_kept V _ (by decide)
theorem at_arg19 (V : Valuation τ sig (Elt F)) : after ops V (Proc.devRef .tc main_arg19) = V (Proc.devRef .tc main_arg19) := at_kept V _ (by decide)
theorem at_arg20 (V : Valuation τ sig (Elt F)) : after ops V (Proc.devRef .tc main_arg20) = V (Proc.devRef .tc main_arg20) := at_kept V _ (by decide)
theorem at_arg21 (V : Valuation τ sig (Elt F)) : after ops V (Proc.devRef .tc main_arg21) = V (Proc.devRef .tc main_arg21) := at_kept V _ (by decide)

/-! ## The named arrays are what the line leaves in their buffers

Each from the stage equations (eq_OUT), the earlier named arrays and the unchanged arguments. -/

theorem at_v10 (V : Valuation τ sig (Elt F)) : after ops V (Proc.devRef .tc main_v10) = re V := by
  rw [eq_v10 V, at_arg3 V, at_arg4 V, at_arg5 V]; rfl

theorem at_v6 (V : Valuation τ sig (Elt F)) : after ops V (Proc.devRef .tc main_v6) = rh0 V := by
  rw [eq_v6 V, at_arg0 V, at_arg6 V]; rfl

theorem at_v21 (V : Valuation τ sig (Elt F)) : after ops V (Proc.devRef .tc main_v21) = rm1 V := by
  rw [eq_v21 V, eq_v18 V, at_v6 V, at_v10 V, at_arg1 V, at_arg7 V]; rfl

theorem at_v40 (V : Valuation τ sig (Elt F)) : after ops V (Proc.devRef .tc main_v40) = rh1 V := by
  rw [eq_v40 V, eq_v34 V, at_v6 V, at_v21 V, at_arg2 V, at_arg8 V, at_arg9 V]; rfl

theorem at_v51 (V : Valuation τ sig (Elt F)) : after ops V (Proc.devRef .tc main_v51) = rm2 V := by
  rw [eq_v51 V, eq_v48 V, at_v40 V, at_v10 V, at_arg1 V, at_arg10 V]; rfl

theorem at_v70 (V : Valuation τ sig (Elt F)) : after ops V (Proc.devRef .tc main_v70) = rh2 V := by
  rw [eq_v70 V, eq_v64 V, at_v40 V, at_v51 V, at_arg2 V, at_arg11 V, at_arg12 V]; rfl

theorem at_v81 (V : Valuation τ sig (Elt F)) : after ops V (Proc.devRef .tc main_v81) = rm3 V := by
  rw [eq_v81 V, eq_v78 V, at_v70 V, at_v10 V, at_arg1 V, at_arg13 V]; rfl

theorem at_v100 (V : Valuation τ sig (Elt F)) : after ops V (Proc.devRef .tc main_v100) = rh3 V := by
  rw [eq_v100 V, eq_v94 V, at_v70 V, at_v81 V, at_arg2 V, at_arg14 V, at_arg15 V]; rfl

theorem at_v111 (V : Valuation τ sig (Elt F)) : after ops V (Proc.devRef .tc main_v111) = rm4 V := by
  rw [eq_v111 V, eq_v108 V, at_v100 V, at_v10 V, at_arg1 V, at_arg16 V]; rfl

theorem at_v130 (V : Valuation τ sig (Elt F)) : after ops V (Proc.devRef .tc main_v130) = rh4 V := by
  rw [eq_v130 V, eq_v124 V, at_v100 V, at_v111 V, at_arg2 V, at_arg17 V, at_arg18 V]; rfl

theorem at_v141 (V : Valuation τ sig (Elt F)) : after ops V (Proc.devRef .tc main_v141) = rm5 V := by
  rw [eq_v141 V, eq_v138 V, at_v130 V, at_v10 V, at_arg1 V, at_arg19 V]; rfl

/-- The result buffer holds the network's output. -/
theorem ref_value (V : Valuation τ sig (Elt F)) : after ops V (Proc.devRef .tc main_v159) = rh5 V := by
  rw [eq_v159 V, eq_v154 V, at_v130 V, at_v141 V, at_arg2 V, at_arg20 V, at_arg21 V]; rfl

end Cert.ReferenceIdeal.Hand

end
-- ==== Proof.LibLinearRow.lean ====
/-
  One row of a linear layer at the ideal values (extended reals, exact operations).

  A layer computes, at row `p` and column `q`, an activation of  (∑ k, x p k * w k q) + b q.
  This file reads that value at an index for the two spellings a program can give it:
  the vector spelling (a matrix product into a zero accumulator, a one-row bias broadcast
  down the rows, a pointwise activation written with splats) and the whole-array spelling
  (a `dot_general`, a bias vector broadcast to one row and then down the rows, an
  activation written with scalars broadcast to the array). Both read as the same
  expression, so two programs that feed them the same rows agree entry by entry.

  Contents:
  * `DotDims`: on a free axis that is the only one, an operand index reads the result index
    (`lhsIdx_val_of_free_single`, `rhsIdx_val_of_free_single`); for plain "rows × columns"
    dimension numbers the contraction sum is the sum over the shared extent (`sum_contr_plain`).
  * the product at an index (`matmul_plain_apply`, `dotGeneral_plain_apply`);
  * the bias at an index (`biasRow_apply`, `biasVec_apply`), a bias row made from a vector (`reshapeRow_apply`,
    `zeroRow_apply`), and the affine part of a layer in both spellings (`affine_vec_apply`, `affine_host_apply`);
  * the activations `leaky`, `relu` and their two spellings at an index.
-/
import Idealize.ShloMosaic.PureOps.Ideal.Laws
import Idealize.ShloMosaic.Lib.ValueLayout
import Idealize.ShloMosaic.Lib.KernelVsHost
import Idealize.ShloMosaic.Lib.IdealHost

noncomputable section

open scoped BigOperators

namespace Cert.LinearRow

open Idealize.ShloMosaic Idealize.ShloMosaic.ValueIdx

/-! ## Dimension numbers with one free axis per operand -/

section Dims
variable {sl sr so : Shape} (d : DotDims sl sr so)

/-- With no batch axis and one free left axis `a`, the left operand's index on `a` is the
    result index's first coordinate. -/
theorem lhsIdx_val_of_free_single {a : Fin sl.rank} (hb : d.lhsBatch = []) (hn : d.lhsNonContracting = [a])
    (j : so.Idx) (k : d.contr.Idx) :
    (d.lhsIdx j k a).val = (j ⟨0, by rw [d.rank_out, hb, hn]; exact Nat.one_pos.trans_le (Nat.le_add_right _ _)⟩).val := by
  have hmem : a ∈ d.lhsNonContracting := by rw [hn]; exact List.mem_singleton.mpr rfl
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free left axis and one free right axis `c`, the right operand's index
    on `c` is the result index's second coordinate. -/
theorem rhsIdx_val_of_free_single {a : Fin sl.rank} {c : Fin sr.rank} (hb : d.lhsBatch = []) (hb' : d.rhsBatch = [])
    (hn : d.lhsNonContracting = [a]) (hn' : d.rhsNonContracting = [c]) (j : so.Idx) (k : d.contr.Idx) :
    (d.rhsIdx j k c).val = (j ⟨1, by rw [d.rank_out, hb, hn, hn']; exact Nat.lt_succ_self 1⟩).val := by
  have hmem : c ∈ d.rhsNonContracting := by rw [hn']; exact List.mem_singleton.mpr rfl
  have hnb : c ∉ d.rhsBatch := by rw [hb']; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Dims

/-! ## Plain dimension numbers: rows × columns -/

section Plain
variable {m K n : Nat}

/-- Dimension numbers of a plain product `[m, K] × [K, n] → [m, n]`: contract the left operand's
    axis 1 with the right operand's axis 0, keep the other two, no batch axis. -/
structure IsPlain (D : DotDims ⟨2, ![m, K]⟩ ⟨2, ![K, n]⟩ ⟨2, ![m, n]⟩) : Prop where
  lhsC : D.lhsContracting = [1]
  rhsC : D.rhsContracting = [0]
  lhsN : D.lhsNonContracting = [0]
  rhsN : D.rhsNonContracting = [1]
  lhsB : D.lhsBatch = []
  rhsB : D.rhsBatch = []

variable {D : DotDims ⟨2, ![m, K]⟩ ⟨2, ![K, n]⟩ ⟨2, ![m, n]⟩}

/-- For plain dimension numbers a sum over the contraction index at result index `(p, q)` is the sum
    over `k` of the left operand's `(p, k)` and the right operand's `(k, q)`. -/
theorem sum_contr_plain {M : Type*} [AddCommMonoid M] (hD : IsPlain D) (hr : D.contr.rank = 1)
    (hs : D.contr.size ⟨0, by omega⟩ = K)
    (g : (⟨2, ![m, K]⟩ : Shape).Idx → (⟨2, ![K, n]⟩ : Shape).Idx → M) (p : Fin m) (q : Fin n) :
    ∑ kk : D.contr.Idx, g (D.lhsIdx (ix2 p q) kk) (D.rhsIdx (ix2 p q) kk) = ∑ k : Fin K, g (ix2 p k) (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_of_free_single D hD.lhsB hD.lhsN _ _
    | ⟨1, _⟩ => exact (D.lhsIdx_val_of_single hD.lhsC _ _).trans hk)
  have er : D.rhsIdx (ix2 p q) ((contrEquiv1 D K hr hs).symm k) = ix2 k q := funext fun a => Fin.ext (by
    match a with
    | ⟨0, _⟩ => exact (D.rhsIdx_val_of_single hD.rhsC _ _).trans hk
    | ⟨1, _⟩ => exact rhsIdx_val_of_free_single D hD.lhsB hD.rhsB hD.lhsN hD.rhsN _ _)
  rw [el, er]

/-- A matrix product into the zero accumulator, read at `(p, q)`: the sum over `k` of the products. -/
theorem matmul_plain_apply {φ₁ φ₂ : FTy} (hD : IsPlain D) (hr : D.contr.rank = 1) (hs : D.contr.size ⟨0, by omega⟩ = K)
    (prec : Option ContractPrecision) (lhs : FVec Ideal ⟨2, ![m, K]⟩ φ₁) (rhs : FVec Ideal ⟨2, ![K, n]⟩ φ₂)
    (p : Fin m) (q : Fin n) :
    matmul D prec lhs rhs (constant ⟨2, ![m, n]⟩ .f32 0x00000000#32) (ix2 p q) = ∑ k : Fin K, lhs (ix2 p k) * rhs (ix2 k q) :=
  (Ideal.matmul_constant_zero_apply D prec lhs rhs (ix2 p q)).trans
    (sum_contr_plain hD hr hs (fun i j => lhs i * rhs j) p q)

/-- The whole-array product read at `(p, q)`: the same sum. -/
theorem dotGeneral_plain_apply {φ₁ φ₂ : FTy} (hD : IsPlain D) (hr : D.contr.rank = 1) (hs : D.contr.size ⟨0, by omega⟩ = K)
    (prec : Option ContractPrecision) (lhs : FVec Ideal ⟨2, ![m, K]⟩ φ₁) (rhs : FVec Ideal ⟨2, ![K, n]⟩ φ₂)
    (p : Fin m) (q : Fin n) :
    Host.dotGeneral D prec lhs rhs (ix2 p q) = ∑ k : Fin K, lhs (ix2 p k) * rhs (ix2 k q) :=
  (Ideal.dotGeneral_apply D prec .single lhs rhs (ix2 p q)).trans
    (sum_contr_plain hD hr hs (fun i j => lhs i * rhs j) p q)

end Plain

/-! ## The bias at an index -/

section Bias
variable {α : Type} {m n : Nat}

/-- A one-row bias `[1, n]`, cast to its own shape and broadcast down `m` rows, reads at `(p, q)` the
    row's entry `q`. -/
theorem biasRow_apply (b : (⟨2, ![1, n]⟩ : Shape).Idx → α) (hc : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix2 (0 : Fin 1) q) := by
  rw [shapeCast_self]
  exact broadcastTo_1b_ab_apply b hb p q

/-- A bias vector `[n]` broadcast to one row `[1, n]` and then down `m` rows reads at `(r, q)` the
    vector's entry `q`. -/
theorem biasVec_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split
    · have := q.isLt; omega
    · rfl

end Bias

/-! ## The activations -/

/-- Leaky rectification on the extended reals with slope the f32 word `s`: `v` where `v ≥ 0`, else
    `v` times the slope. Spelt with the ideal instance's comparison and select, as programs spell it. -/
def leaky (s : BitVec 32) (v : EReal) : EReal :=
  Scalar.select (FloatOps.cmpf (F := Ideal) (φ := .f32) .oge v (Ideal.ofBits .f32 0x00000000#32)) v
    (v * Ideal.ofBits .f32 s)

/-- Rectification on the extended reals: the maximum with (the f32 word) zero. -/
def relu (v : EReal) : EReal := max v (Ideal.ofBits .f32 0x00000000#32)

section Act
variable {T : Shape}

/-- The vector spelling of `leaky`: compare with a zero splat, multiply by a slope splat, select. -/
theorem leaky_vec_apply (s : BitVec 32) (v : FVec Ideal T .f32) (i : T.Idx) :
    select (cmpf .oge v (broadcast T (Scalar.ofBits (F := Ideal) .f32 0x00000000#32))) v
        (mulf v (broadcast T (Scalar.ofBits (F := Ideal) .f32 s))) i = leaky s (v i) := rfl

/-- The whole-array spelling of `leaky`: compare with a broadcast scalar zero, multiply the broadcast scalar
    slope (converted to its own format) by the array, select. -/
theorem leaky_host_apply (s : BitVec 32) (h : (⟨0, ![]⟩ : Shape).BroadcastsInDim T ![]) (x : FVec Ideal T .f32) (i : T.Idx) :
    select (cmpf .oge x (broadcastInDim T ![] h (constant (F := Ideal) ⟨0, ![]⟩ .f32 0x00000000#32))) x
        (mulf (broadcastInDim T ![] h (id (constant (F := Ideal) ⟨0, ![]⟩ .f32 s))) x) i = leaky s (x i) := by
  rw [select_apply, cmpf_apply, mulf_apply, broadcastInDim_scalar_apply, broadcastInDim_scalar_apply]
  show Scalar.select (FloatOps.cmpf .oge (x i) (Ideal.ofBits .f32 0x00000000#32)) (x i) (Ideal.ofBits .f32 s * x i) = _
  rw [mul_comm]
  rfl

/-- The vector spelling of `relu`: the maximum with a zero splat. -/
theorem relu_vec_apply (v : FVec Ideal T .f32) (i : T.Idx) :
    maximumf v (broadcast T (Scalar.ofBits (F := Ideal) .f32 0x00000000#32)) i = relu (v i) := rfl

/-- The whole-array spelling of `relu`: the maximum with a broadcast scalar zero. -/
theorem relu_host_apply (h : (⟨0, ![]⟩ : Shape).BroadcastsInDim T ![]) (x : FVec Ideal T .f32) (i : T.Idx) :
    maximumf x (broadcastInDim T ![] h (constant (F := Ideal) ⟨0, ![]⟩ .f32 0x00000000#32)) i = relu (x i) := by
  rw [maximumf_apply, broadcastInDim_scalar_apply]
  rfl

end Act

/-! ## The affine part of a layer at an index -/

section Affine
variable {m K n : Nat} {D : DotDims ⟨2, ![m, K]⟩ ⟨2, ![K, n]⟩ ⟨2, ![m, n]⟩}

/-- The vector spelling: both operands cast to their own shapes and narrowed (the identity on extended
    reals), multiplied into a zero accumulator, plus the one-row bias broadcast down the rows. At `(p, q)`
    it is `(∑ k, x p k * w k q) + b 0 q`. -/
theorem affine_vec_apply {ψ : FTy} (hD : IsPlain D) (hr : D.contr.rank = 1) (hs : D.contr.size ⟨0, by omega⟩ = K)
    (prec : Option ContractPrecision)
    (x : FVec Ideal ⟨2, ![m, K]⟩ .f32) (w : FVec Ideal ⟨2, ![K, n]⟩ .f32) (b : FVec Ideal ⟨2, ![1, n]⟩ .f32)
    (hx : (⟨2, ![m, K]⟩ : Shape).ShapeCasts ⟨2, ![m, K]⟩) (hw : (⟨2, ![K, n]⟩ : Shape).ShapeCasts ⟨2, ![K, n]⟩)
    (hc : (⟨2, ![1, n]⟩ : Shape).ShapeCasts ⟨2, ![1, n]⟩) (hb : (⟨2, ![1, n]⟩ : Shape).Broadcasts ⟨2, ![m, n]⟩)
    (hlt : ψ.bits < FTy.f32.bits) (p : Fin m) (q : Fin n) :
    addf (matmul D prec (truncf ψ (shapeCast ⟨2, ![m, K]⟩ x hx) hlt) (truncf ψ (shapeCast ⟨2, ![K, n]⟩ w hw) hlt)
        (constant ⟨2, ![m, n]⟩ .f32 0x00000000#32)) (broadcastTo ⟨2, ![m, n]⟩ (shapeCast ⟨2, ![1, n]⟩ b hc) hb) (ix2 p q)
      = (∑ k : Fin K, x (ix2 p k) * w (ix2 k q)) + b (ix2 (0 : Fin 1) q) := by
  refine (addf_apply _ _ (ix2 p q)).trans (congrArg₂ (· + ·) ?_ (biasRow_apply b hc hb p q))
  refine (matmul_plain_apply hD hr hs prec _ _ p q).trans ?_
  simp only [truncf_apply, shapeCast_self]

/-- The whole-array spelling: the product plus the bias vector broadcast to one row and down the rows. At
    `(r, q)` it is `(∑ k, X r k * W k q) + bias q`. -/
theorem affine_host_apply (hD : IsPlain D) (hr : D.contr.rank = 1) (hs : D.contr.size ⟨0, by omega⟩ = K)
    (prec : Option ContractPrecision)
    (X : FVec Ideal ⟨2, ![m, K]⟩ .f32) (W : FVec Ideal ⟨2, ![K, n]⟩ .f32) (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    addf (Host.dotGeneral D prec X W) (broadcastInDim ⟨2, ![m, n]⟩ ![0, 1] h2 (broadcastInDim ⟨2, ![1, n]⟩ ![1] h1 bias)) (ix2 r q)
      = (∑ k : Fin K, X (ix2 r k) * W (ix2 k q)) + bias (ix1 q) :=
  (addf_apply _ _ (ix2 r q)).trans
    (congrArg₂ (· + ·) (dotGeneral_plain_apply hD hr hs prec X W r q) (biasVec_apply bias h1 h2 r q))

end Affine

/-! ## A bias row made from a vector -/

section Row
variable {α : Type} {n : Nat}

/-- A vector `[n]` reshaped to one row `[1, n]` reads at `(0, q)` the vector's entry `q`. -/
theorem reshapeRow_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]; show q.val = 0 * n + q.val; omega)

/-- The zero scalar broadcast to a vector `[n]` and reshaped to one row `[1, n]` is zero at every entry. -/
theorem zeroRow_apply (h0 : (⟨0, ![]⟩ : Shape).BroadcastsInDim ⟨1, ![n]⟩ ![])
    (h : (⟨1, ![n]⟩ : Shape).ShapeCasts ⟨2, ![1, n]⟩) (q : Fin n) :
    shapeCast ⟨2, ![1, n]⟩ (broadcastInDim ⟨1, ![n]⟩ ![] h0 (constant (F := Ideal) ⟨0, ![]⟩ .f32 0x00000000#32)) h
        (ix2 (0 : Fin 1) q) = (0 : EReal) := by
  rw [reshapeRow_apply, broadcastInDim_scalar_apply]
  exact Ideal.ofBits_zero_f32

end Row

end Cert.LinearRow

end
-- ==== Proof.LayerIdx.lean ====
/-
  The ten linear layers of the two programs, read at one entry.

  Every layer stores, at row `p` of its block and column `q`,  act ((∑ k, x p k * w k q) + b q):
  the vector program through a matrix product into a zero accumulator, a one-row bias and splats,
  the whole-array program through a `dot_general`, a broadcast bias vector and broadcast scalars.
  For each distinct shape this file states the vector payload at an index, the whole-array term at
  an index, and that the two agree once the block's row is the array's row.
-/
import proofs.«101052_j75445395522274_1_alg».proof.Proof.Gen.KernelIdeal.Skeleton
import proofs.«101052_j75445395522274_1_alg».proof.Proof.Gen.ReferenceIdeal
import proofs.«101052_j75445395522274_1_alg».proof.Proof.LibLinearRow

noncomputable section

open scoped BigOperators

namespace Cert.Layer

open Idealize.ShloMosaic Idealize.ShloMosaic.ValueIdx Cert.LinearRow

/-- The slope of the leaky rectification both programs use, as its f32 word. -/
abbrev slope : BitVec 32 := 0x3C23D70A#32

/-! ## The dimension numbers are plain -/

theorem plain_k67 : IsPlain Cert.KernelIdeal.dot_S10000x67_S67x128_S10000x128_1_0_0_1_n_n := ⟨rfl, rfl, rfl, rfl, rfl, rfl⟩
theorem plain_r67 : IsPlain Cert.ReferenceIdeal.dot_S400000x67_S67x128_S400000x128_1_0_0_1_n_n := ⟨rfl, rfl, rfl, rfl, rfl, rfl⟩

/-! ## Message layer 1: 67 inputs, 128 outputs, leaky -/

/-- The vector payload of message layer 1 at `(p, q)`. -/
theorem k0_pay1_apply (x0 : Vec Ideal Cert.KernelIdeal.S10000x67 .f32) (w : Vec Ideal Cert.KernelIdeal.S67x128 .f32)
    (b : Vec Ideal Cert.KernelIdeal.S1x128 .f32) (p : Fin 10000) (q : Fin 128) :
    Cert.KernelIdeal.Gen.k0_pay1 (F := Ideal) x0 w b (ix2 p q)
      = leaky slope ((∑ k : Fin 67, x0 (ix2 p k) * w (ix2 k q)) + b (ix2 (0 : Fin 1) q)) := by
  unfold Cert.KernelIdeal.Gen.k0_pay1
  exact (leaky_vec_apply slope _ (ix2 p q)).trans
    (congrArg (leaky slope) (affine_vec_apply plain_k67 rfl rfl none x0 w b _ _ _ _ _ p q))

/-- The whole-array product of message layer 1 at `(r, q)`. -/
theorem ref_dot67_apply (X : Vec Ideal Cert.ReferenceIdeal.S400000x67 .f32) (WT : Vec Ideal Cert.ReferenceIdeal.S67x128 .f32)
    (r : Fin 400000) (q : Fin 128) :
    Host.dotGeneral (F := Ideal) (φ₁ := .f32) (φ₂ := .f32) Cert.ReferenceIdeal.dot_S400000x67_S67x128_S400000x128_1_0_0_1_n_n none X WT (ix2 r q)
      = ∑ k : Fin 67, X (ix2 r k) * WT (ix2 k q) :=
  dotGeneral_plain_apply plain_r67 rfl rfl none X WT r q

/-- The whole-array term of message layer 1 — the product, then the leaky rectification as the outlined
    functions spell it — at `(r, q)`. -/
theorem ref_msg67_apply (X : Vec Ideal Cert.ReferenceIdeal.S400000x67 .f32) (WT : Vec Ideal Cert.ReferenceIdeal.S67x128 .f32)
    (r : Fin 400000) (q : Fin 128) :
    select
        (cmpf .oge (Host.dotGeneral (F := Ideal) (φ₁ := .f32) (φ₂ := .f32) Cert.ReferenceIdeal.dot_S400000x67_S67x128_S400000x128_1_0_0_1_n_n none X WT)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x67_S67x128_S400000x128_1_0_0_1_n_n none X WT)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x67_S67x128_S400000x128_1_0_0_1_n_n none X WT))
        (ix2 r q)
      = leaky slope (∑ k : Fin 67, X (ix2 r k) * WT (ix2 k q)) :=
  (leaky_host_apply slope _ _ (ix2 r q)).trans (congrArg (leaky slope) (ref_dot67_apply X WT r q))

/-- Message layer 1, the two programs at one entry: if row `p` of the block is row `r` of the array, the
    weights agree on column `q` and the block's bias row is zero there, the payload at `(p, q)` is the
    whole-array term at `(r, q)`. -/
theorem layer_msg67_eq (x0 : Vec Ideal Cert.KernelIdeal.S10000x67 .f32) (w : Vec Ideal Cert.KernelIdeal.S67x128 .f32)
    (b : Vec Ideal Cert.KernelIdeal.S1x128 .f32) (X : Vec Ideal Cert.ReferenceIdeal.S400000x67 .f32)
    (WT : Vec Ideal Cert.ReferenceIdeal.S67x128 .f32) (p : Fin 10000) (r : Fin 400000) (q : Fin 128)
    (hx : ∀ k : Fin 67, x0 (ix2 p k) = X (ix2 r k)) (hw : ∀ k : Fin 67, w (ix2 k q) = WT (ix2 k q))
    (hb : b (ix2 (0 : Fin 1) q) = 0) :
    Cert.KernelIdeal.Gen.k0_pay1 (F := Ideal) x0 w b (ix2 p q)
      = leaky slope (∑ k : Fin 67, X (ix2 r k) * WT (ix2 k q)) := by
  rw [k0_pay1_apply, hb, add_zero]
  exact congrArg (leaky slope) (Finset.sum_congr rfl fun k _ => by rw [hx k, hw k])

/-! ## Update layer 1: 192 inputs, 128 outputs, bias, rectification -/

theorem plain_k192 : IsPlain Cert.KernelIdeal.dot_S10000x192_S192x128_S10000x128_1_0_0_1_n_n := ⟨rfl, rfl, rfl, rfl, rfl, rfl⟩
theorem plain_r192 : IsPlain Cert.ReferenceIdeal.dot_S100000x192_S192x128_S100000x128_1_0_0_1_n_n := ⟨rfl, rfl, rfl, rfl, rfl, rfl⟩

/-- The vector payload of update layer 1 at `(p, q)`. -/
theorem k1_pay1_apply (x0 : Vec Ideal Cert.KernelIdeal.S10000x192 .f32) (w : Vec Ideal Cert.KernelIdeal.S192x128 .f32)
    (b : Vec Ideal Cert.KernelIdeal.S1x128 .f32) (p : Fin 10000) (q : Fin 128) :
    Cert.KernelIdeal.Gen.k1_pay1 (F := Ideal) x0 w b (ix2 p q)
      = relu ((∑ k : Fin 192, x0 (ix2 p k) * w (ix2 k q)) + b (ix2 (0 : Fin 1) q)) := by
  unfold Cert.KernelIdeal.Gen.k1_pay1
  exact (relu_vec_apply _ (ix2 p q)).trans
    (congrArg relu (affine_vec_apply plain_k192 rfl rfl none x0 w b _ _ _ _ _ p q))

/-- The whole-array product of update layer 1 at `(r, q)`. -/
theorem ref_dot192_apply (X : Vec Ideal Cert.ReferenceIdeal.S100000x192 .f32) (WT : Vec Ideal Cert.ReferenceIdeal.S192x128 .f32)
    (r : Fin 100000) (q : Fin 128) :
    Host.dotGeneral (F := Ideal) (φ₁ := .f32) (φ₂ := .f32) Cert.ReferenceIdeal.dot_S100000x192_S192x128_S100000x128_1_0_0_1_n_n none X WT (ix2 r q)
      = ∑ k : Fin 192, X (ix2 r k) * WT (ix2 k q) :=
  dotGeneral_plain_apply plain_r192 rfl rfl none X WT r q

/-- The whole-array term of update layer 1 — the product, the bias vector broadcast to a row and down the
    rows, the sum, then the rectification as the outlined function spells it — at `(r, q)`. -/
theorem ref_upd192_apply (X : Vec Ideal Cert.ReferenceIdeal.S100000x192 .f32) (WT : Vec Ideal Cert.ReferenceIdeal.S192x128 .f32)
    (bias : Vec Ideal Cert.ReferenceIdeal.S128 .f32) (r : Fin 100000) (q : Fin 128) :
    maximumf
        (addf (Host.dotGeneral (F := Ideal) (φ₁ := .f32) (φ₂ := .f32) Cert.ReferenceIdeal.dot_S100000x192_S192x128_S100000x128_1_0_0_1_n_n none X WT)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias)))
        (broadcastInDim Cert.ReferenceIdeal.S100000x128 ![] Cert.ReferenceIdeal.Facts₀.bcast_S_S100000x128
          (constant (F := Ideal) Cert.ReferenceIdeal.S_ .f32 0x00000000#32))
        (ix2 r q)
      = relu ((∑ k : Fin 192, X (ix2 r k) * WT (ix2 k q)) + bias (ix1 q)) :=
  (relu_host_apply _ _ (ix2 r q)).trans
    (congrArg relu (affine_host_apply plain_r192 rfl rfl none X WT bias _ _ r q))

/-- Update layer 1, the two programs at one entry. -/
theorem layer_upd192_eq (x0 : Vec Ideal Cert.KernelIdeal.S10000x192 .f32) (w : Vec Ideal Cert.KernelIdeal.S192x128 .f32)
    (b : Vec Ideal Cert.KernelIdeal.S1x128 .f32) (X : Vec Ideal Cert.ReferenceIdeal.S100000x192 .f32)
    (WT : Vec Ideal Cert.ReferenceIdeal.S192x128 .f32) (bias : Vec Ideal Cert.ReferenceIdeal.S128 .f32)
    (p : Fin 10000) (r : Fin 100000) (q : Fin 128)
    (hx : ∀ k : Fin 192, x0 (ix2 p k) = X (ix2 r k)) (hw : ∀ k : Fin 192, w (ix2 k q) = WT (ix2 k q))
    (hb : b (ix2 (0 : Fin 1) q) = bias (ix1 q)) :
    Cert.KernelIdeal.Gen.k1_pay1 (F := Ideal) x0 w b (ix2 p q)
      = relu ((∑ k : Fin 192, X (ix2 r k) * WT (ix2 k q)) + bias (ix1 q)) := by
  rw [k1_pay1_apply, hb]
  exact congrArg (fun s => relu (s + bias (ix1 q))) (Finset.sum_congr rfl fun k _ => by rw [hx k, hw k])

/-! ## Message layers 2 to 5: 131 inputs, 128 outputs, leaky -/

theorem plain_k131 : IsPlain Cert.KernelIdeal.dot_S10000x131_S131x128_S10000x128_1_0_0_1_n_n := ⟨rfl, rfl, rfl, rfl, rfl, rfl⟩
theorem plain_r131 : IsPlain Cert.ReferenceIdeal.dot_S400000x131_S131x128_S400000x128_1_0_0_1_n_n := ⟨rfl, rfl, rfl, rfl, rfl, rfl⟩

/-- The vector payload of message layer 2 at `(p, q)`. -/
theorem k2_pay1_apply (x0 : Vec Ideal Cert.KernelIdeal.S10000x131 .f32) (w : Vec Ideal Cert.KernelIdeal.S131x128 .f32)
    (b : Vec Ideal Cert.KernelIdeal.S1x128 .f32) (p : Fin 10000) (q : Fin 128) :
    Cert.KernelIdeal.Gen.k2_pay1 (F := Ideal) x0 w b (ix2 p q)
      = leaky slope ((∑ k : Fin 131, x0 (ix2 p k) * w (ix2 k q)) + b (ix2 (0 : Fin 1) q)) := by
  unfold Cert.KernelIdeal.Gen.k2_pay1
  exact (leaky_vec_apply slope _ (ix2 p q)).trans
    (congrArg (leaky slope) (affine_vec_apply plain_k131 rfl rfl none x0 w b _ _ _ _ _ p q))

/-- The payloads of message layers 3, 4 and 5 are the same function as layer 2's. -/
theorem k4_pay1_eq : @Cert.KernelIdeal.Gen.k4_pay1 = @Cert.KernelIdeal.Gen.k2_pay1 := rfl
theorem k6_pay1_eq : @Cert.KernelIdeal.Gen.k6_pay1 = @Cert.KernelIdeal.Gen.k2_pay1 := rfl
theorem k8_pay1_eq : @Cert.KernelIdeal.Gen.k8_pay1 = @Cert.KernelIdeal.Gen.k2_pay1 := rfl

theorem k4_pay1_apply (x0 : Vec Ideal Cert.KernelIdeal.S10000x131 .f32) (w : Vec Ideal Cert.KernelIdeal.S131x128 .f32)
    (b : Vec Ideal Cert.KernelIdeal.S1x128 .f32) (p : Fin 10000) (q : Fin 128) :
    Cert.KernelIdeal.Gen.k4_pay1 (F := Ideal) x0 w b (ix2 p q)
      = leaky slope ((∑ k : Fin 131, x0 (ix2 p k) * w (ix2 k q)) + b (ix2 (0 : Fin 1) q)) := by
  rw [k4_pay1_eq]; exact k2_pay1_apply x0 w b p q
theorem k6_pay1_apply (x0 : Vec Ideal Cert.KernelIdeal.S10000x131 .f32) (w : Vec Ideal Cert.KernelIdeal.S131x128 .f32)
    (b : Vec Ideal Cert.KernelIdeal.S1x128 .f32) (p : Fin 10000) (q : Fin 128) :
    Cert.KernelIdeal.Gen.k6_pay1 (F := Ideal) x0 w b (ix2 p q)
      = leaky slope ((∑ k : Fin 131, x0 (ix2 p k) * w (ix2 k q)) + b (ix2 (0 : Fin 1) q)) := by
  rw [k6_pay1_eq]; exact k2_pay1_apply x0 w b p q
theorem k8_pay1_apply (x0 : Vec Ideal Cert.KernelIdeal.S10000x131 .f32) (w : Vec Ideal Cert.KernelIdeal.S131x128 .f32)
    (b : Vec Ideal Cert.KernelIdeal.S1x128 .f32) (p : Fin 10000) (q : Fin 128) :
    Cert.KernelIdeal.Gen.k8_pay1 (F := Ideal) x0 w b (ix2 p q)
      = leaky slope ((∑ k : Fin 131, x0 (ix2 p k) * w (ix2 k q)) + b (ix2 (0 : Fin 1) q)) := by
  rw [k8_pay1_eq]; exact k2_pay1_apply x0 w b p q

/-- The whole-array product of message layers 2 to 5 at `(r, q)`. -/
theorem ref_dot131_apply (X : Vec Ideal Cert.ReferenceIdeal.S400000x131 .f32) (WT : Vec Ideal Cert.ReferenceIdeal.S131x128 .f32)
    (r : Fin 400000) (q : Fin 128) :
    Host.dotGeneral (F := Ideal) (φ₁ := .f32) (φ₂ := .f32) Cert.ReferenceIdeal.dot_S400000x131_S131x128_S400000x128_1_0_0_1_n_n none X WT (ix2 r q)
      = ∑ k : Fin 131, X (ix2 r k) * WT (ix2 k q) :=
  dotGeneral_plain_apply plain_r131 rfl rfl none X WT r q

/-- The whole-array term of message layers 2 to 5 at `(r, q)`. -/
theorem ref_msg131_apply (X : Vec Ideal Cert.ReferenceIdeal.S400000x131 .f32) (WT : Vec Ideal Cert.ReferenceIdeal.S131x128 .f32)
    (r : Fin 400000) (q : Fin 128) :
    select
        (cmpf .oge (Host.dotGeneral (F := Ideal) (φ₁ := .f32) (φ₂ := .f32) Cert.ReferenceIdeal.dot_S400000x131_S131x128_S400000x128_1_0_0_1_n_n none X WT)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x131_S131x128_S400000x128_1_0_0_1_n_n none X WT)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x131_S131x128_S400000x128_1_0_0_1_n_n none X WT))
        (ix2 r q)
      = leaky slope (∑ k : Fin 131, X (ix2 r k) * WT (ix2 k q)) :=
  (leaky_host_apply slope _ _ (ix2 r q)).trans (congrArg (leaky slope) (ref_dot131_apply X WT r q))

/-- Message layer 2, the two programs at one entry (layers 3, 4, 5: rewrite with `k4_pay1_eq`, `k6_pay1_eq`,
    `k8_pay1_eq` first). -/
theorem layer_msg131_eq (x0 : Vec Ideal Cert.KernelIdeal.S10000x131 .f32) (w : Vec Ideal Cert.KernelIdeal.S131x128 .f32)
    (b : Vec Ideal Cert.KernelIdeal.S1x128 .f32) (X : Vec Ideal Cert.ReferenceIdeal.S400000x131 .f32)
    (WT : Vec Ideal Cert.ReferenceIdeal.S131x128 .f32) (p : Fin 10000) (r : Fin 400000) (q : Fin 128)
    (hx : ∀ k : Fin 131, x0 (ix2 p k) = X (ix2 r k)) (hw : ∀ k : Fin 131, w (ix2 k q) = WT (ix2 k q))
    (hb : b (ix2 (0 : Fin 1) q) = 0) :
    Cert.KernelIdeal.Gen.k2_pay1 (F := Ideal) x0 w b (ix2 p q)
      = leaky slope (∑ k : Fin 131, X (ix2 r k) * WT (ix2 k q)) := by
  rw [k2_pay1_apply, hb, add_zero]
  exact congrArg (leaky slope) (Finset.sum_congr rfl fun k _ => by rw [hx k, hw k])

/-! ## Update layers 2 to 4: 256 inputs, 128 outputs, bias, rectification -/

theorem plain_k256 : IsPlain Cert.KernelIdeal.dot_S10000x256_S256x128_S10000x128_1_0_0_1_n_n := ⟨rfl, rfl, rfl, rfl, rfl, rfl⟩
theorem plain_r256 : IsPlain Cert.ReferenceIdeal.dot_S100000x256_S256x128_S100000x128_1_0_0_1_n_n := ⟨rfl, rfl, rfl, rfl, rfl, rfl⟩

/-- The vector payload of update layer 2 at `(p, q)`. -/
theorem k3_pay1_apply (x0 : Vec Ideal Cert.KernelIdeal.S10000x256 .f32) (w : Vec Ideal Cert.KernelIdeal.S256x128 .f32)
    (b : Vec Ideal Cert.KernelIdeal.S1x128 .f32) (p : Fin 10000) (q : Fin 128) :
    Cert.KernelIdeal.Gen.k3_pay1 (F := Ideal) x0 w b (ix2 p q)
      = relu ((∑ k : Fin 256, x0 (ix2 p k) * w (ix2 k q)) + b (ix2 (0 : Fin 1) q)) := by
  unfold Cert.KernelIdeal.Gen.k3_pay1
  exact (relu_vec_apply _ (ix2 p q)).trans
    (congrArg relu (affine_vec_apply plain_k256 rfl rfl none x0 w b _ _ _ _ _ p q))

/-- The payloads of update layers 3 and 4 are the same function as layer 2's. -/
theorem k5_pay1_eq : @Cert.KernelIdeal.Gen.k5_pay1 = @Cert.KernelIdeal.Gen.k3_pay1 := rfl
theorem k7_pay1_eq : @Cert.KernelIdeal.Gen.k7_pay1 = @Cert.KernelIdeal.Gen.k3_pay1 := rfl

theorem k5_pay1_apply (x0 : Vec Ideal Cert.KernelIdeal.S10000x256 .f32) (w : Vec Ideal Cert.KernelIdeal.S256x128 .f32)
    (b : Vec Ideal Cert.KernelIdeal.S1x128 .f32) (p : Fin 10000) (q : Fin 128) :
    Cert.KernelIdeal.Gen.k5_pay1 (F := Ideal) x0 w b (ix2 p q)
      = relu ((∑ k : Fin 256, x0 (ix2 p k) * w (ix2 k q)) + b (ix2 (0 : Fin 1) q)) := by
  rw [k5_pay1_eq]; exact k3_pay1_apply x0 w b p q
theorem k7_pay1_apply (x0 : Vec Ideal Cert.KernelIdeal.S10000x256 .f32) (w : Vec Ideal Cert.KernelIdeal.S256x128 .f32)
    (b : Vec Ideal Cert.KernelIdeal.S1x128 .f32) (p : Fin 10000) (q : Fin 128) :
    Cert.KernelIdeal.Gen.k7_pay1 (F := Ideal) x0 w b (ix2 p q)
      = relu ((∑ k : Fin 256, x0 (ix2 p k) * w (ix2 k q)) + b (ix2 (0 : Fin 1) q)) := by
  rw [k7_pay1_eq]; exact k3_pay1_apply x0 w b p q

/-- The whole-array product of update layers 2 to 4 at `(r, q)`. -/
theorem ref_dot256_apply (X : Vec Ideal Cert.ReferenceIdeal.S100000x256 .f32) (WT : Vec Ideal Cert.ReferenceIdeal.S256x128 .f32)
    (r : Fin 100000) (q : Fin 128) :
    Host.dotGeneral (F := Ideal) (φ₁ := .f32) (φ₂ := .f32) Cert.ReferenceIdeal.dot_S100000x256_S256x128_S100000x128_1_0_0_1_n_n none X WT (ix2 r q)
      = ∑ k : Fin 256, X (ix2 r k) * WT (ix2 k q) :=
  dotGeneral_plain_apply plain_r256 rfl rfl none X WT r q

/-- The whole-array term of update layers 2 to 4 at `(r, q)`. -/
theorem ref_upd256_apply (X : Vec Ideal Cert.ReferenceIdeal.S100000x256 .f32) (WT : Vec Ideal Cert.ReferenceIdeal.S256x128 .f32)
    (bias : Vec Ideal Cert.ReferenceIdeal.S128 .f32) (r : Fin 100000) (q : Fin 128) :
    maximumf
        (addf (Host.dotGeneral (F := Ideal) (φ₁ := .f32) (φ₂ := .f32) Cert.ReferenceIdeal.dot_S100000x256_S256x128_S100000x128_1_0_0_1_n_n none X WT)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias)))
        (broadcastInDim Cert.ReferenceIdeal.S100000x128 ![] Cert.ReferenceIdeal.Facts₀.bcast_S_S100000x128
          (constant (F := Ideal) Cert.ReferenceIdeal.S_ .f32 0x00000000#32))
        (ix2 r q)
      = relu ((∑ k : Fin 256, X (ix2 r k) * WT (ix2 k q)) + bias (ix1 q)) :=
  (relu_host_apply _ _ (ix2 r q)).trans
    (congrArg relu (affine_host_apply plain_r256 rfl rfl none X WT bias _ _ r q))

/-- Update layer 2, the two programs at one entry (layers 3, 4: rewrite with `k5_pay1_eq`, `k7_pay1_eq` first). -/
theorem layer_upd256_eq (x0 : Vec Ideal Cert.KernelIdeal.S10000x256 .f32) (w : Vec Ideal Cert.KernelIdeal.S256x128 .f32)
    (b : Vec Ideal Cert.KernelIdeal.S1x128 .f32) (X : Vec Ideal Cert.ReferenceIdeal.S100000x256 .f32)
    (WT : Vec Ideal Cert.ReferenceIdeal.S256x128 .f32) (bias : Vec Ideal Cert.ReferenceIdeal.S128 .f32)
    (p : Fin 10000) (r : Fin 100000) (q : Fin 128)
    (hx : ∀ k : Fin 256, x0 (ix2 p k) = X (ix2 r k)) (hw : ∀ k : Fin 256, w (ix2 k q) = WT (ix2 k q))
    (hb : b (ix2 (0 : Fin 1) q) = bias (ix1 q)) :
    Cert.KernelIdeal.Gen.k3_pay1 (F := Ideal) x0 w b (ix2 p q)
      = relu ((∑ k : Fin 256, X (ix2 r k) * WT (ix2 k q)) + bias (ix1 q)) := by
  rw [k3_pay1_apply, hb]
  exact congrArg (fun s => relu (s + bias (ix1 q))) (Finset.sum_congr rfl fun k _ => by rw [hx k, hw k])

/-! ## The last layer: 256 inputs, 64 outputs, bias, no activation -/

theorem plain_k256o64 : IsPlain Cert.KernelIdeal.dot_S10000x256_S256x64_S10000x64_1_0_0_1_n_n := ⟨rfl, rfl, rfl, rfl, rfl, rfl⟩
theorem plain_r256o64 : IsPlain Cert.ReferenceIdeal.dot_S100000x256_S256x64_S100000x64_1_0_0_1_n_n := ⟨rfl, rfl, rfl, rfl, rfl, rfl⟩

/-- The vector payload of the last layer at `(p, q)`. -/
theorem k9_pay1_apply (x0 : Vec Ideal Cert.KernelIdeal.S10000x256 .f32) (w : Vec Ideal Cert.KernelIdeal.S256x64 .f32)
    (b : Vec Ideal Cert.KernelIdeal.S1x64 .f32) (p : Fin 10000) (q : Fin 64) :
    Cert.KernelIdeal.Gen.k9_pay1 (F := Ideal) x0 w b (ix2 p q)
      = (∑ k : Fin 256, x0 (ix2 p k) * w (ix2 k q)) + b (ix2 (0 : Fin 1) q) := by
  unfold Cert.KernelIdeal.Gen.k9_pay1
  exact affine_vec_apply plain_k256o64 rfl rfl none x0 w b _ _ _ _ _ p q

/-- The whole-array product of the last layer at `(r, q)`. -/
theorem ref_dot256o64_apply (X : Vec Ideal Cert.ReferenceIdeal.S100000x256 .f32) (WT : Vec Ideal Cert.ReferenceIdeal.S256x64 .f32)
    (r : Fin 100000) (q : Fin 64) :
    Host.dotGeneral (F := Ideal) (φ₁ := .f32) (φ₂ := .f32) Cert.ReferenceIdeal.dot_S100000x256_S256x64_S100000x64_1_0_0_1_n_n none X WT (ix2 r q)
      = ∑ k : Fin 256, X (ix2 r k) * WT (ix2 k q) :=
  dotGeneral_plain_apply plain_r256o64 rfl rfl none X WT r q

/-- The whole-array term of the last layer at `(r, q)`. -/
theorem ref_last_apply (X : Vec Ideal Cert.ReferenceIdeal.S100000x256 .f32) (WT : Vec Ideal Cert.ReferenceIdeal.S256x64 .f32)
    (bias : Vec Ideal Cert.ReferenceIdeal.S64 .f32) (r : Fin 100000) (q : Fin 64) :
    addf (Host.dotGeneral (F := Ideal) (φ₁ := .f32) (φ₂ := .f32) Cert.ReferenceIdeal.dot_S100000x256_S256x64_S100000x64_1_0_0_1_n_n none X WT)
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 bias))
        (ix2 r q)
      = (∑ k : Fin 256, X (ix2 r k) * WT (ix2 k q)) + bias (ix1 q) :=
  affine_host_apply plain_r256o64 rfl rfl none X WT bias _ _ r q

/-- The last layer, the two programs at one entry. -/
theorem layer_last_eq (x0 : Vec Ideal Cert.KernelIdeal.S10000x256 .f32) (w : Vec Ideal Cert.KernelIdeal.S256x64 .f32)
    (b : Vec Ideal Cert.KernelIdeal.S1x64 .f32) (X : Vec Ideal Cert.ReferenceIdeal.S100000x256 .f32)
    (WT : Vec Ideal Cert.ReferenceIdeal.S256x64 .f32) (bias : Vec Ideal Cert.ReferenceIdeal.S64 .f32)
    (p : Fin 10000) (r : Fin 100000) (q : Fin 64)
    (hx : ∀ k : Fin 256, x0 (ix2 p k) = X (ix2 r k)) (hw : ∀ k : Fin 256, w (ix2 k q) = WT (ix2 k q))
    (hb : b (ix2 (0 : Fin 1) q) = bias (ix1 q)) :
    Cert.KernelIdeal.Gen.k9_pay1 (F := Ideal) x0 w b (ix2 p q)
      = (∑ k : Fin 256, X (ix2 r k) * WT (ix2 k q)) + bias (ix1 q) := by
  rw [k9_pay1_apply, hb]
  exact congrArg (fun s => s + bias (ix1 q)) (Finset.sum_congr rfl fun k _ => by rw [hx k, hw k])

end Cert.Layer

end
-- ==== Proof.LayerEq.lean ====
/-
  Each layer's whole result array in the vector program is the whole-array program's layer term.

  The vector program's result at row `r` is the layer's arithmetic on the tile of 10000 rows that holds
  `r`, read at row `r % 10000`; since `r = (r / 10000) * 10000 + r % 10000`, that tile's row is row `r` of
  the input, and the entry is the whole-array program's entry (LayerIdx). So the two arrays are equal as
  functions, for every input matrix, the same weights, and a bias row that is zero (message layers) or
  the bias vector laid as one row (update layers and the last layer).
-/
import proofs.«101052_j75445395522274_1_alg».proof.Proof.KI.Value0
import proofs.«101052_j75445395522274_1_alg».proof.Proof.KI.Value1
import proofs.«101052_j75445395522274_1_alg».proof.Proof.KI.Value2
import proofs.«101052_j75445395522274_1_alg».proof.Proof.KI.Value3
import proofs.«101052_j75445395522274_1_alg».proof.Proof.KI.Value4
import proofs.«101052_j75445395522274_1_alg».proof.Proof.KI.Value5
import proofs.«101052_j75445395522274_1_alg».proof.Proof.KI.Value6
import proofs.«101052_j75445395522274_1_alg».proof.Proof.KI.Value7
import proofs.«101052_j75445395522274_1_alg».proof.Proof.KI.Value8
import proofs.«101052_j75445395522274_1_alg».proof.Proof.KI.Value9
import proofs.«101052_j75445395522274_1_alg».proof.Proof.LayerIdx

noncomputable section

open scoped BigOperators

namespace Cert.Layer

open Idealize.ShloMosaic Idealize.ShloMosaic.ValueIdx Cert.LinearRow

/-- A row number is its tile's first row plus its row within the tile. -/
theorem row_split (r : ℕ) : r = r / 10000 * 10000 + r % 10000 := by omega

/-! ## Message layer 1 -/

/-- Row `r % 10000` of tile `r / 10000` of the input is row `r` of the input. -/
theorem rowsOf0_row (x : Vec Ideal Cert.KernelIdeal.S400000x67 .f32) (r : Fin 400000) (ht : r.val / 10000 < 40) (k : Fin 67) :
    Cert.KernelIdeal.Hand.rowsOf0 (F := Ideal) x (r.val / 10000) ht
        (ix2 (⟨r.val % 10000, Nat.mod_lt _ (by norm_num)⟩ : Fin 10000) k) = x (ix2 r k) := by
  unfold Cert.KernelIdeal.Hand.rowsOf0
  refine congrArg x (funext fun a => ?_)
  match a with
  | ⟨0, _⟩ => exact Fin.ext (by show r.val / 10000 * 10000 + r.val % 10000 = r.val; omega)
  | ⟨1, _⟩ => rfl

/-- The vector program's whole result of message layer 1 is the whole-array program's term. -/
theorem result0_eq_ref (x : Vec Ideal Cert.KernelIdeal.S400000x67 .f32) (wt : Vec Ideal Cert.KernelIdeal.S67x128 .f32)
    (z : Vec Ideal Cert.KernelIdeal.S1x128 .f32) (hz : ∀ q : Fin 128, z (ix2 (0 : Fin 1) q) = 0) :
    Cert.KernelIdeal.Hand.result0 (F := Ideal) x wt z
      = select
        (cmpf .oge (Host.dotGeneral (F := Ideal) (φ₁ := .f32) (φ₂ := .f32) Cert.ReferenceIdeal.dot_S400000x67_S67x128_S400000x128_1_0_0_1_n_n none x wt)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x67_S67x128_S400000x128_1_0_0_1_n_n none x wt)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x67_S67x128_S400000x128_1_0_0_1_n_n none x wt)) := by
  funext i
  obtain ⟨r, q, rfl⟩ : ∃ (r : Fin 400000) (q : Fin 128), i = ix2 r q := ⟨i 0, i 1, eq_ix2 i⟩
  have ht : r.val / 10000 < 40 := by have := r.isLt; omega
  rw [Cert.KernelIdeal.Hand.result0_at x wt z (r.val / 10000) ht ⟨r.val % 10000, Nat.mod_lt _ (by norm_num)⟩ q (ix2 r q)
    (row_split r.val) rfl]
  exact (layer_msg67_eq _ wt z x wt _ r q (fun k => rowsOf0_row x r ht k) (fun _ => rfl) (hz q)).trans
    (ref_msg67_apply x wt r q).symm

/-- The same at the vector program's own zero bias row: the zero scalar broadcast to a vector and reshaped to a row. -/
theorem result0_eq_ref_zeroRow (x : Vec Ideal Cert.KernelIdeal.S400000x67 .f32) (wt : Vec Ideal Cert.KernelIdeal.S67x128 .f32) :
    Cert.KernelIdeal.Hand.result0 (F := Ideal) x wt
        (shapeCast Cert.KernelIdeal.S1x128
          (broadcastInDim Cert.KernelIdeal.S128 ![] Cert.KernelIdeal.Facts₀.bcast_S_S128
            (constant (F := Ideal) Cert.KernelIdeal.S_ .f32 0x00000000#32))
          Cert.KernelIdeal.Facts₀.shapeCasts_S128_S1x128)
      = select
        (cmpf .oge (Host.dotGeneral (F := Ideal) (φ₁ := .f32) (φ₂ := .f32) Cert.ReferenceIdeal.dot_S400000x67_S67x128_S400000x128_1_0_0_1_n_n none x wt)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x67_S67x128_S400000x128_1_0_0_1_n_n none x wt)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x67_S67x128_S400000x128_1_0_0_1_n_n none x wt)) :=
  result0_eq_ref x wt _ (fun q => zeroRow_apply _ _ q)

/-! ## Update layer 1 -/

theorem rowsOf1_row (y : Vec Ideal Cert.KernelIdeal.S100000x192 .f32) (r : Fin 100000) (ht : r.val / 10000 < 10) (k : Fin 192) :
    Cert.KernelIdeal.Hand.rowsOf1 (F := Ideal) y (r.val / 10000) ht
        (ix2 (⟨r.val % 10000, Nat.mod_lt _ (by norm_num)⟩ : Fin 10000) k) = y (ix2 r k) := by
  unfold Cert.KernelIdeal.Hand.rowsOf1
  refine congrArg y (funext fun a => ?_)
  match a with
  | ⟨0, _⟩ => exact Fin.ext (by show r.val / 10000 * 10000 + r.val % 10000 = r.val; omega)
  | ⟨1, _⟩ => rfl

/-- The vector program's whole result of update layer 1 is the whole-array program's term. -/
theorem result1_eq_ref (y : Vec Ideal Cert.KernelIdeal.S100000x192 .f32) (wt : Vec Ideal Cert.KernelIdeal.S192x128 .f32)
    (b : Vec Ideal Cert.KernelIdeal.S1x128 .f32) (bias : Vec Ideal Cert.ReferenceIdeal.S128 .f32)
    (hb : ∀ q : Fin 128, b (ix2 (0 : Fin 1) q) = bias (ix1 q)) :
    Cert.KernelIdeal.Hand.result1 (F := Ideal) y wt b
      = maximumf
        (addf (Host.dotGeneral (F := Ideal) (φ₁ := .f32) (φ₂ := .f32) Cert.ReferenceIdeal.dot_S100000x192_S192x128_S100000x128_1_0_0_1_n_n none y wt)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias)))
        (broadcastInDim Cert.ReferenceIdeal.S100000x128 ![] Cert.ReferenceIdeal.Facts₀.bcast_S_S100000x128
          (constant (F := Ideal) Cert.ReferenceIdeal.S_ .f32 0x00000000#32)) := by
  funext i
  obtain ⟨r, q, rfl⟩ : ∃ (r : Fin 100000) (q : Fin 128), i = ix2 r q := ⟨i 0, i 1, eq_ix2 i⟩
  have ht : r.val / 10000 < 10 := by have := r.isLt; omega
  rw [Cert.KernelIdeal.Hand.result1_at y wt b (r.val / 10000) ht ⟨r.val % 10000, Nat.mod_lt _ (by norm_num)⟩ q (ix2 r q)
    (row_split r.val) rfl]
  exact (layer_upd192_eq _ wt b y wt bias _ r q (fun k => rowsOf1_row y r ht k) (fun _ => rfl) (hb q)).trans
    (ref_upd192_apply y wt bias r q).symm

/-- The same at the vector program's own bias row: the bias vector reshaped to one row. -/
theorem result1_eq_ref_reshape (y : Vec Ideal Cert.KernelIdeal.S100000x192 .f32) (wt : Vec Ideal Cert.KernelIdeal.S192x128 .f32)
    (bias : Vec Ideal Cert.KernelIdeal.S128 .f32) :
    Cert.KernelIdeal.Hand.result1 (F := Ideal) y wt
        (shapeCast Cert.KernelIdeal.S1x128 bias Cert.KernelIdeal.Facts₀.shapeCasts_S128_S1x128)
      = maximumf
        (addf (Host.dotGeneral (F := Ideal) (φ₁ := .f32) (φ₂ := .f32) Cert.ReferenceIdeal.dot_S100000x192_S192x128_S100000x128_1_0_0_1_n_n none y wt)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias)))
        (broadcastInDim Cert.ReferenceIdeal.S100000x128 ![] Cert.ReferenceIdeal.Facts₀.bcast_S_S100000x128
          (constant (F := Ideal) Cert.ReferenceIdeal.S_ .f32 0x00000000#32)) :=
  result1_eq_ref y wt _ bias (fun q => reshapeRow_apply bias _ q)

/-! ## Message layers 2 to 5 -/

theorem rowsOf2_row (x : Vec Ideal Cert.KernelIdeal.S400000x131 .f32) (r : Fin 400000) (ht : r.val / 10000 < 40) (k : Fin 131) :
    Cert.KernelIdeal.Hand.rowsOf2 (F := Ideal) x (r.val / 10000) ht
        (ix2 (⟨r.val % 10000, Nat.mod_lt _ (by norm_num)⟩ : Fin 10000) k) = x (ix2 r k) := by
  unfold Cert.KernelIdeal.Hand.rowsOf2
  refine congrArg x (funext fun a => ?_)
  match a with
  | ⟨0, _⟩ => exact Fin.ext (by show r.val / 10000 * 10000 + r.val % 10000 = r.val; omega)
  | ⟨1, _⟩ => rfl

/-- The vector program's whole result of message layer 2 is the whole-array program's term. -/
theorem result2_eq_ref (x : Vec Ideal Cert.KernelIdeal.S400000x131 .f32) (wt : Vec Ideal Cert.KernelIdeal.S131x128 .f32)
    (z : Vec Ideal Cert.KernelIdeal.S1x128 .f32) (hz : ∀ q : Fin 128, z (ix2 (0 : Fin 1) q) = 0) :
    Cert.KernelIdeal.Hand.result2 (F := Ideal) x wt z
      = select
        (cmpf .oge (Host.dotGeneral (F := Ideal) (φ₁ := .f32) (φ₂ := .f32) Cert.ReferenceIdeal.dot_S400000x131_S131x128_S400000x128_1_0_0_1_n_n none x wt)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x131_S131x128_S400000x128_1_0_0_1_n_n none x wt)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x131_S131x128_S400000x128_1_0_0_1_n_n none x wt)) := by
  funext i
  obtain ⟨r, q, rfl⟩ : ∃ (r : Fin 400000) (q : Fin 128), i = ix2 r q := ⟨i 0, i 1, eq_ix2 i⟩
  have ht : r.val / 10000 < 40 := by have := r.isLt; omega
  rw [Cert.KernelIdeal.Hand.result2_at x wt z (r.val / 10000) ht ⟨r.val % 10000, Nat.mod_lt _ (by norm_num)⟩ q (ix2 r q)
    (row_split r.val) rfl]
  exact (layer_msg131_eq _ wt z x wt _ r q (fun k => rowsOf2_row x r ht k) (fun _ => rfl) (hz q)).trans
    (ref_msg131_apply x wt r q).symm

/-- Message layers 3, 4 and 5 compute the same function of their three arrays as layer 2. -/
theorem result4_eq : @Cert.KernelIdeal.Hand.result4 = @Cert.KernelIdeal.Hand.result2 := rfl
theorem result6_eq : @Cert.KernelIdeal.Hand.result6 = @Cert.KernelIdeal.Hand.result2 := rfl
theorem result8_eq : @Cert.KernelIdeal.Hand.result8 = @Cert.KernelIdeal.Hand.result2 := rfl

theorem result4_eq_ref (x : Vec Ideal Cert.KernelIdeal.S400000x131 .f32) (wt : Vec Ideal Cert.KernelIdeal.S131x128 .f32)
    (z : Vec Ideal Cert.KernelIdeal.S1x128 .f32) (hz : ∀ q : Fin 128, z (ix2 (0 : Fin 1) q) = 0) :
    Cert.KernelIdeal.Hand.result4 (F := Ideal) x wt z
      = select
        (cmpf .oge (Host.dotGeneral (F := Ideal) (φ₁ := .f32) (φ₂ := .f32) Cert.ReferenceIdeal.dot_S400000x131_S131x128_S400000x128_1_0_0_1_n_n none x wt)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x131_S131x128_S400000x128_1_0_0_1_n_n none x wt)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x131_S131x128_S400000x128_1_0_0_1_n_n none x wt)) := by
  rw [result4_eq]; exact result2_eq_ref x wt z hz
theorem result6_eq_ref (x : Vec Ideal Cert.KernelIdeal.S400000x131 .f32) (wt : Vec Ideal Cert.KernelIdeal.S131x128 .f32)
    (z : Vec Ideal Cert.KernelIdeal.S1x128 .f32) (hz : ∀ q : Fin 128, z (ix2 (0 : Fin 1) q) = 0) :
    Cert.KernelIdeal.Hand.result6 (F := Ideal) x wt z
      = select
        (cmpf .oge (Host.dotGeneral (F := Ideal) (φ₁ := .f32) (φ₂ := .f32) Cert.ReferenceIdeal.dot_S400000x131_S131x128_S400000x128_1_0_0_1_n_n none x wt)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x131_S131x128_S400000x128_1_0_0_1_n_n none x wt)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x131_S131x128_S400000x128_1_0_0_1_n_n none x wt)) := by
  rw [result6_eq]; exact result2_eq_ref x wt z hz
theorem result8_eq_ref (x : Vec Ideal Cert.KernelIdeal.S400000x131 .f32) (wt : Vec Ideal Cert.KernelIdeal.S131x128 .f32)
    (z : Vec Ideal Cert.KernelIdeal.S1x128 .f32) (hz : ∀ q : Fin 128, z (ix2 (0 : Fin 1) q) = 0) :
    Cert.KernelIdeal.Hand.result8 (F := Ideal) x wt z
      = select
        (cmpf .oge (Host.dotGeneral (F := Ideal) (φ₁ := .f32) (φ₂ := .f32) Cert.ReferenceIdeal.dot_S400000x131_S131x128_S400000x128_1_0_0_1_n_n none x wt)
          (broadcastInDim Cert.ReferenceIdeal.S400000x128 ![] Cert.ReferenceIdeal.Facts₀.bcast_S_S400000x128
            (constant (F := Ideal) Cert.ReferenceIdeal.S_ .f32 0x00000000#32)))
        (Host.dotGeneral (F := Ideal) (φ₁ := .f32) (φ₂ := .f32) Cert.ReferenceIdeal.dot_S400000x131_S131x128_S400000x128_1_0_0_1_n_n none x wt)
        (mulf
          (broadcastInDim Cert.ReferenceIdeal.S400000x128 ![] Cert.ReferenceIdeal.Facts₀.bcast_S_S400000x128
            (id (constant (F := Ideal) Cert.ReferenceIdeal.S_ .f32 0x3C23D70A#32)))
          (Host.dotGeneral (F := Ideal) (φ₁ := .f32) (φ₂ := .f32) Cert.ReferenceIdeal.dot_S400000x131_S131x128_S400000x128_1_0_0_1_n_n none x wt)) := by
  rw [result8_eq]; exact result2_eq_ref x wt z hz

/-- The zero bias row of the vector program: the zero scalar broadcast to a vector and reshaped to a row. -/
abbrev zeroRow128 : Vec Ideal Cert.KernelIdeal.S1x128 .f32 :=
  shapeCast Cert.KernelIdeal.S1x128
    (broadcastInDim Cert.KernelIdeal.S128 ![] Cert.KernelIdeal.Facts₀.bcast_S_S128
      (constant (F := Ideal) Cert.KernelIdeal.S_ .f32 0x00000000#32))
    Cert.KernelIdeal.Facts₀.shapeCasts_S128_S1x128

/-- It is zero at every entry: the hypothesis `hz` of the message layers at the program's own term. -/
theorem zeroRow128_apply (q : Fin 128) : zeroRow128 (ix2 (0 : Fin 1) q) = 0 := zeroRow_apply _ _ q

/-- A bias vector reshaped to one row reads the vector: the hypothesis `hb` of the update layers at the
    program's own term. -/
theorem biasRow128_apply (bias : Vec Ideal Cert.KernelIdeal.S128 .f32) (q : Fin 128) :
    shapeCast Cert.KernelIdeal.S1x128 bias Cert.KernelIdeal.Facts₀.shapeCasts_S128_S1x128 (ix2 (0 : Fin 1) q) = bias (ix1 q) :=
  reshapeRow_apply bias _ q
theorem biasRow64_apply (bias : Vec Ideal Cert.KernelIdeal.S64 .f32) (q : Fin 64) :
    shapeCast Cert.KernelIdeal.S1x64 bias Cert.KernelIdeal.Facts₀.shapeCasts_S64_S1x64 (ix2 (0 : Fin 1) q) = bias (ix1 q) :=
  reshapeRow_apply bias _ q

/-! ## Update layers 2 to 4 -/

theorem rowsOf3_row (y : Vec Ideal Cert.KernelIdeal.S100000x256 .f32) (r : Fin 100000) (ht : r.val / 10000 < 10) (k : Fin 256) :
    Cert.KernelIdeal.Hand.rowsOf3 (F := Ideal) y (r.val / 10000) ht
        (ix2 (⟨r.val % 10000, Nat.mod_lt _ (by norm_num)⟩ : Fin 10000) k) = y (ix2 r k) := by
  unfold Cert.KernelIdeal.Hand.rowsOf3
  refine congrArg y (funext fun a => ?_)
  match a with
  | ⟨0, _⟩ => exact Fin.ext (by show r.val / 10000 * 10000 + r.val % 10000 = r.val; omega)
  | ⟨1, _⟩ => rfl

/-- The vector program's whole result of update layer 2 is the whole-array program's term. -/
theorem result3_eq_ref (y : Vec Ideal Cert.KernelIdeal.S100000x256 .f32) (wt : Vec Ideal Cert.KernelIdeal.S256x128 .f32)
    (b : Vec Ideal Cert.KernelIdeal.S1x128 .f32) (bias : Vec Ideal Cert.ReferenceIdeal.S128 .f32)
    (hb : ∀ q : Fin 128, b (ix2 (0 : Fin 1) q) = bias (ix1 q)) :
    Cert.KernelIdeal.Hand.result3 (F := Ideal) y wt b
      = maximumf
        (addf (Host.dotGeneral (F := Ideal) (φ₁ := .f32) (φ₂ := .f32) Cert.ReferenceIdeal.dot_S100000x256_S256x128_S100000x128_1_0_0_1_n_n none y wt)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias)))
        (broadcastInDim Cert.ReferenceIdeal.S100000x128 ![] Cert.ReferenceIdeal.Facts₀.bcast_S_S100000x128
          (constant (F := Ideal) Cert.ReferenceIdeal.S_ .f32 0x00000000#32)) := by
  funext i
  obtain ⟨r, q, rfl⟩ : ∃ (r : Fin 100000) (q : Fin 128), i = ix2 r q := ⟨i 0, i 1, eq_ix2 i⟩
  have ht : r.val / 10000 < 10 := by have := r.isLt; omega
  rw [Cert.KernelIdeal.Hand.result3_at y wt b (r.val / 10000) ht ⟨r.val % 10000, Nat.mod_lt _ (by norm_num)⟩ q (ix2 r q)
    (row_split r.val) rfl]
  exact (layer_upd256_eq _ wt b y wt bias _ r q (fun k => rowsOf3_row y r ht k) (fun _ => rfl) (hb q)).trans
    (ref_upd256_apply y wt bias r q).symm

/-- Update layers 3 and 4 compute the same function of their three arrays as layer 2. -/
theorem result5_eq : @Cert.KernelIdeal.Hand.result5 = @Cert.KernelIdeal.Hand.result3 := rfl
theorem result7_eq : @Cert.KernelIdeal.Hand.result7 = @Cert.KernelIdeal.Hand.result3 := rfl

theorem result5_eq_ref (y : Vec Ideal Cert.KernelIdeal.S100000x256 .f32) (wt : Vec Ideal Cert.KernelIdeal.S256x128 .f32)
    (b : Vec Ideal Cert.KernelIdeal.S1x128 .f32) (bias : Vec Ideal Cert.ReferenceIdeal.S128 .f32)
    (hb : ∀ q : Fin 128, b (ix2 (0 : Fin 1) q) = bias (ix1 q)) :
    Cert.KernelIdeal.Hand.result5 (F := Ideal) y wt b
      = maximumf
        (addf (Host.dotGeneral (F := Ideal) (φ₁ := .f32) (φ₂ := .f32) Cert.ReferenceIdeal.dot_S100000x256_S256x128_S100000x128_1_0_0_1_n_n none y wt)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias)))
        (broadcastInDim Cert.ReferenceIdeal.S100000x128 ![] Cert.ReferenceIdeal.Facts₀.bcast_S_S100000x128
          (constant (F := Ideal) Cert.ReferenceIdeal.S_ .f32 0x00000000#32)) := by
  rw [result5_eq]; exact result3_eq_ref y wt b bias hb
theorem result7_eq_ref (y : Vec Ideal Cert.KernelIdeal.S100000x256 .f32) (wt : Vec Ideal Cert.KernelIdeal.S256x128 .f32)
    (b : Vec Ideal Cert.KernelIdeal.S1x128 .f32) (bias : Vec Ideal Cert.ReferenceIdeal.S128 .f32)
    (hb : ∀ q : Fin 128, b (ix2 (0 : Fin 1) q) = bias (ix1 q)) :
    Cert.KernelIdeal.Hand.result7 (F := Ideal) y wt b
      = maximumf
        (addf (Host.dotGeneral (F := Ideal) (φ₁ := .f32) (φ₂ := .f32) Cert.ReferenceIdeal.dot_S100000x256_S256x128_S100000x128_1_0_0_1_n_n none y wt)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 bias)))
        (broadcastInDim Cert.ReferenceIdeal.S100000x128 ![] Cert.ReferenceIdeal.Facts₀.bcast_S_S100000x128
          (constant (F := Ideal) Cert.ReferenceIdeal.S_ .f32 0x00000000#32)) := by
  rw [result7_eq]; exact result3_eq_ref y wt b bias hb

/-! ## The last layer -/

theorem rowsOf9_row (y : Vec Ideal Cert.KernelIdeal.S100000x256 .f32) (r : Fin 100000) (ht : r.val / 10000 < 10) (k : Fin 256) :
    Cert.KernelIdeal.Hand.rowsOf9 (F := Ideal) y (r.val / 10000) ht
        (ix2 (⟨r.val % 10000, Nat.mod_lt _ (by norm_num)⟩ : Fin 10000) k) = y (ix2 r k) := by
  unfold Cert.KernelIdeal.Hand.rowsOf9
  refine congrArg y (funext fun a => ?_)
  match a with
  | ⟨0, _⟩ => exact Fin.ext (by show r.val / 10000 * 10000 + r.val % 10000 = r.val; omega)
  | ⟨1, _⟩ => rfl

/-- The vector program's whole result of the last layer is the whole-array program's term. -/
theorem result9_eq_ref (y : Vec Ideal Cert.KernelIdeal.S100000x256 .f32) (wt : Vec Ideal Cert.KernelIdeal.S256x64 .f32)
    (b : Vec Ideal Cert.KernelIdeal.S1x64 .f32) (bias : Vec Ideal Cert.ReferenceIdeal.S64 .f32)
    (hb : ∀ q : Fin 64, b (ix2 (0 : Fin 1) q) = bias (ix1 q)) :
    Cert.KernelIdeal.Hand.result9 (F := Ideal) y wt b
      = addf (Host.dotGeneral (F := Ideal) (φ₁ := .f32) (φ₂ := .f32) Cert.ReferenceIdeal.dot_S100000x256_S256x64_S100000x64_1_0_0_1_n_n none y wt)
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 bias)) := by
  funext i
  obtain ⟨r, q, rfl⟩ : ∃ (r : Fin 100000) (q : Fin 64), i = ix2 r q := ⟨i 0, i 1, eq_ix2 i⟩
  have ht : r.val / 10000 < 10 := by have := r.isLt; omega
  rw [Cert.KernelIdeal.Hand.result9_at y wt b (r.val / 10000) ht ⟨r.val % 10000, Nat.mod_lt _ (by norm_num)⟩ q (ix2 r q)
    (row_split r.val) rfl]
  exact (layer_last_eq _ wt b y wt bias _ r q (fun k => rowsOf9_row y r ht k) (fun _ => rfl) (hb q)).trans
    (ref_last_apply y wt bias r q).symm

end Cert.Layer

end
-- ==== Proof.NetEq.lean ====
/-
  The two programs compute the same network, array by array.

  Both programs build the edge features and the node embedding from the same arguments with the same
  whole-array operations, and then five times: a message layer on (source node features beside edge
  features), and an update layer on (node features beside the mean of incoming messages). The
  operations between the layers are the same text in both programs, so they are the same functions; each
  layer of the vector program is the whole-array program's layer (LayerEq). By induction along the ten
  layers the last arrays agree whenever the two programs start from the same twenty-two arguments.
-/
import proofs.«101052_j75445395522274_1_alg».proof.Proof.KI.Net
import proofs.«101052_j75445395522274_1_alg».proof.Proof.RefValue
import proofs.«101052_j75445395522274_1_alg».proof.Proof.LayerEq

noncomputable section

namespace Cert.Layer

open Idealize.ShloMosaic Idealize.ShloMosaic.ValueIdx Idealize.SL.Sem Cert.LinearRow

/-! ## The operations between the layers are the same functions in both programs -/

theorem edge_fn (a3 a4 a5 : (⟨Cert.KernelIdeal.S400000, .f32⟩ : BufTy).Contents (Elt Ideal)) :
    Cert.KernelIdeal.Hand.edgeFeat (F := Ideal) a3 a4 a5 = Cert.ReferenceIdeal.Hand.rEdge (F := Ideal) a3 a4 a5 := rfl

theorem embed_fn (a0 : (⟨Cert.KernelIdeal.S100000, .i32⟩ : BufTy).Contents (Elt Ideal)) (a6 : (⟨Cert.KernelIdeal.S64x64, .f32⟩ : BufTy).Contents (Elt Ideal)) :
    Cert.KernelIdeal.Hand.embed (F := Ideal) a0 a6 = Cert.ReferenceIdeal.Hand.rH0 (F := Ideal) a0 a6 := rfl

theorem msgIn0_fn (h : (⟨Cert.KernelIdeal.S100000x64, .f32⟩ : BufTy).Contents (Elt Ideal)) (a1 : (⟨Cert.KernelIdeal.S400000, .i32⟩ : BufTy).Contents (Elt Ideal))
    (e : (⟨Cert.KernelIdeal.S400000x3, .f32⟩ : BufTy).Contents (Elt Ideal)) :
    Cert.KernelIdeal.Hand.msgIn0 (F := Ideal) h a1 e = Cert.ReferenceIdeal.Hand.rX1 (F := Ideal) h a1 e := rfl
theorem msgIn2_fn (h : (⟨Cert.KernelIdeal.S100000x128, .f32⟩ : BufTy).Contents (Elt Ideal)) (a1 : (⟨Cert.KernelIdeal.S400000, .i32⟩ : BufTy).Contents (Elt Ideal))
    (e : (⟨Cert.KernelIdeal.S400000x3, .f32⟩ : BufTy).Contents (Elt Ideal)) :
    Cert.KernelIdeal.Hand.msgIn2 (F := Ideal) h a1 e = Cert.ReferenceIdeal.Hand.rX (F := Ideal) h a1 e := rfl
theorem msgIn4_fn (h : (⟨Cert.KernelIdeal.S100000x128, .f32⟩ : BufTy).Contents (Elt Ideal)) (a1 : (⟨Cert.KernelIdeal.S400000, .i32⟩ : BufTy).Contents (Elt Ideal))
    (e : (⟨Cert.KernelIdeal.S400000x3, .f32⟩ : BufTy).Contents (Elt Ideal)) :
    Cert.KernelIdeal.Hand.msgIn4 (F := Ideal) h a1 e = Cert.ReferenceIdeal.Hand.rX (F := Ideal) h a1 e := rfl
theorem msgIn6_fn (h : (⟨Cert.KernelIdeal.S100000x128, .f32⟩ : BufTy).Contents (Elt Ideal)) (a1 : (⟨Cert.KernelIdeal.S400000, .i32⟩ : BufTy).Contents (Elt Ideal))
    (e : (⟨Cert.KernelIdeal.S400000x3, .f32⟩ : BufTy).Contents (Elt Ideal)) :
    Cert.KernelIdeal.Hand.msgIn6 (F := Ideal) h a1 e = Cert.ReferenceIdeal.Hand.rX (F := Ideal) h a1 e := rfl
theorem msgIn8_fn (h : (⟨Cert.KernelIdeal.S100000x128, .f32⟩ : BufTy).Contents (Elt Ideal)) (a1 : (⟨Cert.KernelIdeal.S400000, .i32⟩ : BufTy).Contents (Elt Ideal))
    (e : (⟨Cert.KernelIdeal.S400000x3, .f32⟩ : BufTy).Contents (Elt Ideal)) :
    Cert.KernelIdeal.Hand.msgIn8 (F := Ideal) h a1 e = Cert.ReferenceIdeal.Hand.rX (F := Ideal) h a1 e := rfl

theorem updIn1_fn (h : (⟨Cert.KernelIdeal.S100000x64, .f32⟩ : BufTy).Contents (Elt Ideal)) (mm : (⟨Cert.KernelIdeal.S400000x128, .f32⟩ : BufTy).Contents (Elt Ideal))
    (a2 : (⟨Cert.KernelIdeal.S400000, .i32⟩ : BufTy).Contents (Elt Ideal)) :
    Cert.KernelIdeal.Hand.updIn1 (F := Ideal) h mm a2 = Cert.ReferenceIdeal.Hand.rY1 (F := Ideal) h mm a2 := rfl
theorem updIn3_fn (h : (⟨Cert.KernelIdeal.S100000x128, .f32⟩ : BufTy).Contents (Elt Ideal)) (mm : (⟨Cert.KernelIdeal.S400000x128, .f32⟩ : BufTy).Contents (Elt Ideal))
    (a2 : (⟨Cert.KernelIdeal.S400000, .i32⟩ : BufTy).Contents (Elt Ideal)) :
    Cert.KernelIdeal.Hand.updIn3 (F := Ideal) h mm a2 = Cert.ReferenceIdeal.Hand.rY (F := Ideal) h mm a2 := rfl
theorem updIn5_fn (h : (⟨Cert.KernelIdeal.S100000x128, .f32⟩ : BufTy).Contents (Elt Ideal)) (mm : (⟨Cert.KernelIdeal.S400000x128, .f32⟩ : BufTy).Contents (Elt Ideal))
    (a2 : (⟨Cert.KernelIdeal.S400000, .i32⟩ : BufTy).Contents (Elt Ideal)) :
    Cert.KernelIdeal.Hand.updIn5 (F := Ideal) h mm a2 = Cert.ReferenceIdeal.Hand.rY (F := Ideal) h mm a2 := rfl
theorem updIn7_fn (h : (⟨Cert.KernelIdeal.S100000x128, .f32⟩ : BufTy).Contents (Elt Ideal)) (mm : (⟨Cert.KernelIdeal.S400000x128, .f32⟩ : BufTy).Contents (Elt Ideal))
    (a2 : (⟨Cert.KernelIdeal.S400000, .i32⟩ : BufTy).Contents (Elt Ideal)) :
    Cert.KernelIdeal.Hand.updIn7 (F := Ideal) h mm a2 = Cert.ReferenceIdeal.Hand.rY (F := Ideal) h mm a2 := rfl
theorem updIn9_fn (h : (⟨Cert.KernelIdeal.S100000x128, .f32⟩ : BufTy).Contents (Elt Ideal)) (mm : (⟨Cert.KernelIdeal.S400000x128, .f32⟩ : BufTy).Contents (Elt Ideal))
    (a2 : (⟨Cert.KernelIdeal.S400000, .i32⟩ : BufTy).Contents (Elt Ideal)) :
    Cert.KernelIdeal.Hand.updIn9 (F := Ideal) h mm a2 = Cert.ReferenceIdeal.Hand.rY (F := Ideal) h mm a2 := rfl

/-! ## Each layer of the vector program, on transposed weights and its bias row, is the whole-array layer -/

theorem msgL0_fn (x : (⟨Cert.KernelIdeal.S400000x67, .f32⟩ : BufTy).Contents (Elt Ideal)) (w : (⟨Cert.KernelIdeal.S128x67, .f32⟩ : BufTy).Contents (Elt Ideal)) :
    Cert.KernelIdeal.Hand.result0 (F := Ideal) x (Cert.KernelIdeal.Hand.wT0 w) (Cert.KernelIdeal.Hand.bRow0 (F := Ideal)) = Cert.ReferenceIdeal.Hand.rM1 (F := Ideal) x w :=
  (result0_eq_ref x _ _ (fun q => zeroRow_apply _ _ q)).trans rfl
theorem msgL2_fn (x : (⟨Cert.KernelIdeal.S400000x131, .f32⟩ : BufTy).Contents (Elt Ideal)) (w : (⟨Cert.KernelIdeal.S128x131, .f32⟩ : BufTy).Contents (Elt Ideal)) :
    Cert.KernelIdeal.Hand.result2 (F := Ideal) x (Cert.KernelIdeal.Hand.wT2 w) (Cert.KernelIdeal.Hand.bRow2 (F := Ideal)) = Cert.ReferenceIdeal.Hand.rM (F := Ideal) x w :=
  (result2_eq_ref x _ _ (fun q => zeroRow_apply _ _ q)).trans rfl
theorem msgL4_fn (x : (⟨Cert.KernelIdeal.S400000x131, .f32⟩ : BufTy).Contents (Elt Ideal)) (w : (⟨Cert.KernelIdeal.S128x131, .f32⟩ : BufTy).Contents (Elt Ideal)) :
    Cert.KernelIdeal.Hand.result4 (F := Ideal) x (Cert.KernelIdeal.Hand.wT4 w) (Cert.KernelIdeal.Hand.bRow4 (F := Ideal)) = Cert.ReferenceIdeal.Hand.rM (F := Ideal) x w :=
  (result4_eq_ref x _ _ (fun q => zeroRow_apply _ _ q)).trans rfl
theorem msgL6_fn (x : (⟨Cert.KernelIdeal.S400000x131, .f32⟩ : BufTy).Contents (Elt Ideal)) (w : (⟨Cert.KernelIdeal.S128x131, .f32⟩ : BufTy).Contents (Elt Ideal)) :
    Cert.KernelIdeal.Hand.result6 (F := Ideal) x (Cert.KernelIdeal.Hand.wT6 w) (Cert.KernelIdeal.Hand.bRow6 (F := Ideal)) = Cert.ReferenceIdeal.Hand.rM (F := Ideal) x w :=
  (result6_eq_ref x _ _ (fun q => zeroRow_apply _ _ q)).trans rfl
theorem msgL8_fn (x : (⟨Cert.KernelIdeal.S400000x131, .f32⟩ : BufTy).Contents (Elt Ideal)) (w : (⟨Cert.KernelIdeal.S128x131, .f32⟩ : BufTy).Contents (Elt Ideal)) :
    Cert.KernelIdeal.Hand.result8 (F := Ideal) x (Cert.KernelIdeal.Hand.wT8 w) (Cert.KernelIdeal.Hand.bRow8 (F := Ideal)) = Cert.ReferenceIdeal.Hand.rM (F := Ideal) x w :=
  (result8_eq_ref x _ _ (fun q => zeroRow_apply _ _ q)).trans rfl

theorem updL1_fn (y : (⟨Cert.KernelIdeal.S100000x192, .f32⟩ : BufTy).Contents (Elt Ideal)) (w : (⟨Cert.KernelIdeal.S128x192, .f32⟩ : BufTy).Contents (Elt Ideal))
    (b : (⟨Cert.KernelIdeal.S128, .f32⟩ : BufTy).Contents (Elt Ideal)) :
    Cert.KernelIdeal.Hand.result1 (F := Ideal) y (Cert.KernelIdeal.Hand.wT1 w) (Cert.KernelIdeal.Hand.bRow1 b) = Cert.ReferenceIdeal.Hand.rU1 (F := Ideal) y w b :=
  (result1_eq_ref y _ _ b (fun q => reshapeRow_apply b _ q)).trans rfl
theorem updL3_fn (y : (⟨Cert.KernelIdeal.S100000x256, .f32⟩ : BufTy).Contents (Elt Ideal)) (w : (⟨Cert.KernelIdeal.S128x256, .f32⟩ : BufTy).Contents (Elt Ideal))
    (b : (⟨Cert.KernelIdeal.S128, .f32⟩ : BufTy).Contents (Elt Ideal)) :
    Cert.KernelIdeal.Hand.result3 (F := Ideal) y (Cert.KernelIdeal.Hand.wT3 w) (Cert.KernelIdeal.Hand.bRow3 b) = Cert.ReferenceIdeal.Hand.rU (F := Ideal) y w b :=
  (result3_eq_ref y _ _ b (fun q => reshapeRow_apply b _ q)).trans rfl
theorem updL5_fn (y : (⟨Cert.KernelIdeal.S100000x256, .f32⟩ : BufTy).Contents (Elt Ideal)) (w : (⟨Cert.KernelIdeal.S128x256, .f32⟩ : BufTy).Contents (Elt Ideal))
    (b : (⟨Cert.KernelIdeal.S128, .f32⟩ : BufTy).Contents (Elt Ideal)) :
    Cert.KernelIdeal.Hand.result5 (F := Ideal) y (Cert.KernelIdeal.Hand.wT5 w) (Cert.KernelIdeal.Hand.bRow5 b) = Cert.ReferenceIdeal.Hand.rU (F := Ideal) y w b :=
  (result5_eq_ref y _ _ b (fun q => reshapeRow_apply b _ q)).trans rfl
theorem updL7_fn (y : (⟨Cert.KernelIdeal.S100000x256, .f32⟩ : BufTy).Contents (Elt Ideal)) (w : (⟨Cert.KernelIdeal.S128x256, .f32⟩ : BufTy).Contents (Elt Ideal))
    (b : (⟨Cert.KernelIdeal.S128, .f32⟩ : BufTy).Contents (Elt Ideal)) :
    Cert.KernelIdeal.Hand.result7 (F := Ideal) y (Cert.KernelIdeal.Hand.wT7 w) (Cert.KernelIdeal.Hand.bRow7 b) = Cert.ReferenceIdeal.Hand.rU (F := Ideal) y w b :=
  (result7_eq_ref y _ _ b (fun q => reshapeRow_apply b _ q)).trans rfl
theorem updL9_fn (y : (⟨Cert.KernelIdeal.S100000x256, .f32⟩ : BufTy).Contents (Elt Ideal)) (w : (⟨Cert.KernelIdeal.S64x256, .f32⟩ : BufTy).Contents (Elt Ideal))
    (b : (⟨Cert.KernelIdeal.S64, .f32⟩ : BufTy).Contents (Elt Ideal)) :
    Cert.KernelIdeal.Hand.result9 (F := Ideal) y (Cert.KernelIdeal.Hand.wT9 w) (Cert.KernelIdeal.Hand.bRow9 b) = Cert.ReferenceIdeal.Hand.rU5 (F := Ideal) y w b :=
  (result9_eq_ref y _ _ b (fun q => reshapeRow_apply b _ q)).trans rfl

/-! ## The networks agree -/

/-- From the same twenty-two arguments the vector program's last node features are the whole-array program's. -/
theorem nets_agree (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : V (Proc.devRef .tc Cert.ReferenceIdeal.main_arg0) = Cert.KernelIdeal.Hand.at0 m c (Proc.devRef .tc Cert.KernelIdeal.main_arg0))
    (h1 : V (Proc.devRef .tc Cert.ReferenceIdeal.main_arg1) = Cert.KernelIdeal.Hand.at0 m c (Proc.devRef .tc Cert.KernelIdeal.main_arg1))
    (h2 : V (Proc.devRef .tc Cert.ReferenceIdeal.main_arg2) = Cert.KernelIdeal.Hand.at0 m c (Proc.devRef .tc Cert.KernelIdeal.main_arg2))
    (h3 : V (Proc.devRef .tc Cert.ReferenceIdeal.main_arg3) = Cert.KernelIdeal.Hand.at0 m c (Proc.devRef .tc Cert.KernelIdeal.main_arg3))
    (h4 : V (Proc.devRef .tc Cert.ReferenceIdeal.main_arg4) = Cert.KernelIdeal.Hand.at0 m c (Proc.devRef .tc Cert.KernelIdeal.main_arg4))
    (h5 : V (Proc.devRef .tc Cert.ReferenceIdeal.main_arg5) = Cert.KernelIdeal.Hand.at0 m c (Proc.devRef .tc Cert.KernelIdeal.main_arg5))
    (h6 : V (Proc.devRef .tc Cert.ReferenceIdeal.main_arg6) = Cert.KernelIdeal.Hand.at0 m c (Proc.devRef .tc Cert.KernelIdeal.main_arg6))
    (h7 : V (Proc.devRef .tc Cert.ReferenceIdeal.main_arg7) = Cert.KernelIdeal.Hand.at0 m c (Proc.devRef .tc Cert.KernelIdeal.main_arg7))
    (h8 : V (Proc.devRef .tc Cert.ReferenceIdeal.main_arg8) = Cert.KernelIdeal.Hand.at0 m c (Proc.devRef .tc Cert.KernelIdeal.main_arg8))
    (h9 : V (Proc.devRef .tc Cert.ReferenceIdeal.main_arg9) = Cert.KernelIdeal.Hand.at0 m c (Proc.devRef .tc Cert.KernelIdeal.main_arg9))
    (h10 : V (Proc.devRef .tc Cert.ReferenceIdeal.main_arg10) = Cert.KernelIdeal.Hand.at0 m c (Proc.devRef .tc Cert.KernelIdeal.main_arg10))
    (h11 : V (Proc.devRef .tc Cert.ReferenceIdeal.main_arg11) = Cert.KernelIdeal.Hand.at0 m c (Proc.devRef .tc Cert.KernelIdeal.main_arg11))
    (h12 : V (Proc.devRef .tc Cert.ReferenceIdeal.main_arg12) = Cert.KernelIdeal.Hand.at0 m c (Proc.devRef .tc Cert.KernelIdeal.main_arg12))
    (h13 : V (Proc.devRef .tc Cert.ReferenceIdeal.main_arg13) = Cert.KernelIdeal.Hand.at0 m c (Proc.devRef .tc Cert.KernelIdeal.main_arg13))
    (h14 : V (Proc.devRef .tc Cert.ReferenceIdeal.main_arg14) = Cert.KernelIdeal.Hand.at0 m c (Proc.devRef .tc Cert.KernelIdeal.main_arg14))
    (h15 : V (Proc.devRef .tc Cert.ReferenceIdeal.main_arg15) = Cert.KernelIdeal.Hand.at0 m c (Proc.devRef .tc Cert.KernelIdeal.main_arg15))
    (h16 : V (Proc.devRef .tc Cert.ReferenceIdeal.main_arg16) = Cert.KernelIdeal.Hand.at0 m c (Proc.devRef .tc Cert.KernelIdeal.main_arg16))
    (h17 : V (Proc.devRef .tc Cert.ReferenceIdeal.main_arg17) = Cert.KernelIdeal.Hand.at0 m c (Proc.devRef .tc Cert.KernelIdeal.main_arg17))
    (h18 : V (Proc.devRef .tc Cert.ReferenceIdeal.main_arg18) = Cert.KernelIdeal.Hand.at0 m c (Proc.devRef .tc Cert.KernelIdeal.main_arg18))
    (h19 : V (Proc.devRef .tc Cert.ReferenceIdeal.main_arg19) = Cert.KernelIdeal.Hand.at0 m c (Proc.devRef .tc Cert.KernelIdeal.main_arg19))
    (h20 : V (Proc.devRef .tc Cert.ReferenceIdeal.main_arg20) = Cert.KernelIdeal.Hand.at0 m c (Proc.devRef .tc Cert.KernelIdeal.main_arg20))
    (h21 : V (Proc.devRef .tc Cert.ReferenceIdeal.main_arg21) = Cert.KernelIdeal.Hand.at0 m c (Proc.devRef .tc Cert.KernelIdeal.main_arg21)) :
    Cert.KernelIdeal.Hand.hid5 (F := Ideal) m c = Cert.ReferenceIdeal.Hand.rh5 V := by
  have e_edges : Cert.KernelIdeal.Hand.edges (F := Ideal) m c = Cert.ReferenceIdeal.Hand.re V := by
    unfold Cert.KernelIdeal.Hand.edges Cert.ReferenceIdeal.Hand.re; rw [h3, h4, h5]; exact edge_fn _ _ _
  have e_hid0 : Cert.KernelIdeal.Hand.hid0 (F := Ideal) m c = Cert.ReferenceIdeal.Hand.rh0 V := by
    unfold Cert.KernelIdeal.Hand.hid0 Cert.ReferenceIdeal.Hand.rh0; rw [h0, h6]; exact embed_fn _ _
  have e_msg1 : Cert.KernelIdeal.Hand.msg1 (F := Ideal) m c = Cert.ReferenceIdeal.Hand.rm1 V := by
    unfold Cert.KernelIdeal.Hand.msg1 Cert.ReferenceIdeal.Hand.rm1; rw [← e_edges, ← e_hid0, h1, h7, ← msgIn0_fn]; exact msgL0_fn _ _
  have e_hid1 : Cert.KernelIdeal.Hand.hid1 (F := Ideal) m c = Cert.ReferenceIdeal.Hand.rh1 V := by
    unfold Cert.KernelIdeal.Hand.hid1 Cert.ReferenceIdeal.Hand.rh1; rw [← e_msg1, ← e_hid0, h2, h8, h9, ← updIn1_fn]; exact updL1_fn _ _ _
  have e_msg2 : Cert.KernelIdeal.Hand.msg2 (F := Ideal) m c = Cert.ReferenceIdeal.Hand.rm2 V := by
    unfold Cert.KernelIdeal.Hand.msg2 Cert.ReferenceIdeal.Hand.rm2; rw [← e_edges, ← e_hid1, h1, h10, ← msgIn2_fn]; exact msgL2_fn _ _
  have e_hid2 : Cert.KernelIdeal.Hand.hid2 (F := Ideal) m c = Cert.ReferenceIdeal.Hand.rh2 V := by
    unfold Cert.KernelIdeal.Hand.hid2 Cert.ReferenceIdeal.Hand.rh2; rw [← e_msg2, ← e_hid1, h2, h11, h12, ← updIn3_fn]; exact updL3_fn _ _ _
  have e_msg3 : Cert.KernelIdeal.Hand.msg3 (F := Ideal) m c = Cert.ReferenceIdeal.Hand.rm3 V := by
    unfold Cert.KernelIdeal.Hand.msg3 Cert.ReferenceIdeal.Hand.rm3; rw [← e_edges, ← e_hid2, h1, h13, ← msgIn4_fn]; exact msgL4_fn _ _
  have e_hid3 : Cert.KernelIdeal.Hand.hid3 (F := Ideal) m c = Cert.ReferenceIdeal.Hand.rh3 V := by
    unfold Cert.KernelIdeal.Hand.hid3 Cert.ReferenceIdeal.Hand.rh3; rw [← e_msg3, ← e_hid2, h2, h14, h15, ← updIn5_fn]; exact updL5_fn _ _ _
  have e_msg4 : Cert.KernelIdeal.Hand.msg4 (F := Ideal) m c = Cert.ReferenceIdeal.Hand.rm4 V := by
    unfold Cert.KernelIdeal.Hand.msg4 Cert.ReferenceIdeal.Hand.rm4; rw [← e_edges, ← e_hid3, h1, h16, ← msgIn6_fn]; exact msgL6_fn _ _
  have e_hid4 : Cert.KernelIdeal.Hand.hid4 (F := Ideal) m c = Cert.ReferenceIdeal.Hand.rh4 V := by
    unfold Cert.KernelIdeal.Hand.hid4 Cert.ReferenceIdeal.Hand.rh4; rw [← e_msg4, ← e_hid3, h2, h17, h18, ← updIn7_fn]; exact updL7_fn _ _ _
  have e_msg5 : Cert.KernelIdeal.Hand.msg5 (F := Ideal) m c = Cert.ReferenceIdeal.Hand.rm5 V := by
    unfold Cert.KernelIdeal.Hand.msg5 Cert.ReferenceIdeal.Hand.rm5; rw [← e_edges, ← e_hid4, h1, h19, ← msgIn8_fn]; exact msgL8_fn _ _
  unfold Cert.KernelIdeal.Hand.hid5 Cert.ReferenceIdeal.Hand.rh5; rw [← e_msg5, ← e_hid4, h2, h20, h21, ← updIn9_fn]; exact updL9_fn _ _ _

end Cert.Layer

end
-- ==== Proof.lean ====
/-
  The certificate of a five-layer message-passing network (QGNN): every layer is "gather the source nodes' features, a
  linear map with leaky ReLU per edge, the mean over each node's incoming edges, a linear map with bias (and ReLU) per
  node". The kernel program computes the ten linear maps on the matrix unit, 10000 rows at a time; the reference
  computes them as whole matrix products. On the extended reals both are the same sums of products: a row tile of a
  product is the product of the row tile, adding a zero bias changes nothing, and x·s = s·x for the leaky slope.

  The three frames: each program runs to its end without a fault and leaves its arguments as launched (the two kernel
  programs as ten layers among host operations, the reference as one line of host operations). The kernel's
  idealization rewrote nothing, so there is nothing to preserve. The value claim: layer by layer the two programs hold
  the same arrays.
-/
import proofs.«101052_j75445395522274_1_alg».proof.Defs
import proofs.«101052_j75445395522274_1_alg».proof.Proof.Gen.Kernel
import proofs.«101052_j75445395522274_1_alg».proof.Proof.Gen.KernelIdeal
import proofs.«101052_j75445395522274_1_alg».proof.Proof.Gen.ReferenceIdeal
import proofs.«101052_j75445395522274_1_alg».proof.Proof.Gen.Pre_finite_inputs
import proofs.«101052_j75445395522274_1_alg».proof.Proof.K.Frame
import proofs.«101052_j75445395522274_1_alg».proof.Proof.KI.Frame
import proofs.«101052_j75445395522274_1_alg».proof.Proof.RefRun
import proofs.«101052_j75445395522274_1_alg».proof.Proof.KI.Result
import proofs.«101052_j75445395522274_1_alg».proof.Proof.RefValue
import proofs.«101052_j75445395522274_1_alg».proof.Proof.NetEq

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernel_ideal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.Hand.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  by
  intro m ρ m' ρ' _ hagree
  refine ⟨fun c => Cert.KernelIdeal.Hand.hid5 (F := Ideal) m c, Cert.KernelIdeal.Hand.run_named (F := Ideal) m ρ, ?_⟩
  refine (θ_run _ _ _).mono (fun r h c => ⟨(h c).1.trans ?_, (h c).2⟩) (Cert.ReferenceIdeal.Hand.run (F := Ideal) m' ρ')
  obtain ⟨e0, e1, e2, e3, e4, e5, e6, e7, e8, e9, e10, e11, e12, e13, e14, e15, e16, e17, e18, e19, e20, e21⟩ := hagree c
  rw [Cert.ReferenceIdeal.Hand.ref_value]
  exact (Cert.Layer.nets_agree m c _ e0 e1 e2 e3 e4 e5 e6 e7 e8 e9 e10 e11 e12 e13 e14 e15 e16 e17 e18 e19 e20 e21).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
